-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x640000 : Shape := ⟨2, ![2, 640000]⟩
abbrev S640000 : Shape := ⟨1, ![640000]⟩
abbrev S128x3 : Shape := ⟨2, ![128, 3]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_arg12 : FVec F S64 .f32) (main_arg13 : FVec F S1x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x64 .f32 := Host.absf main_arg13
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  main_v63

def fn_part2 {F : FTy → Type} [FloatOps F] (main_arg8 : FVec F S384 .f32) (main_arg9 : FVec F S384 .f32) (main_arg10 : FVec F S64x128 .f32) (main_arg11 : FVec F S64 .f32) (main_arg12 : FVec F S64 .f32) (main_arg13 : FVec F S1x64 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S384x128 .f32) (main_arg7 : FVec F S384x128 .f32) (main_arg8 : FVec F S384 .f32) (main_arg9 : FVec F S384 .f32) (main_arg10 : FVec F S64x128 .f32) (main_arg11 : FVec F S64 .f32) (main_arg12 : FVec F S64 .f32) (main_arg13 : FVec F S1x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x3 .f32) (main_arg1 : IVec S2x640000 32) (main_arg2 : FVec F S640000 .f32) (main_arg3 : FVec F S128x3 .f32) (main_arg4 : FVec F S128 .f32) (main_arg5 : FVec F S128 .f32) (main_arg6 : FVec F S384x128 .f32) (main_arg7 : FVec F S384x128 .f32) (main_arg8 : FVec F S384 .f32) (main_arg9 : FVec F S384 .f32) (main_arg10 : FVec F S64x128 .f32) (main_arg11 : FVec F S64 .f32) (main_arg12 : FVec F S64 .f32) (main_arg13 : FVec F S1x64 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x3 .f32 := Host.absf main_arg3
  let main_cst_2 : FVec F S_ .f32 := constant S_ .f32 0x7F800000#32
  let main_v10 : FVec F S128x3 .f32 := broadcastInDim S128x3 ![] bcast_S_S128x3 main_cst_2
  let main_v11 : IVec S128x3 1 := cmpf .olt main_v9 main_v10
  let main_c_3 : IVec S_ 1 := constantI S_ 1 1#1
  let main_v12 : IVec S_ 1 := (fun x v => Host.reduce IntOp.andi x v reducesTo_S128x3_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x3 : Shape := ⟨2, ![50000, 3]⟩
abbrev S2x640000 : Shape := ⟨2, ![2, 640000]⟩
abbrev S640000 : Shape := ⟨1, ![640000]⟩
abbrev S128x3 : Shape := ⟨2, ![128, 3]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1x640000 : Shape := ⟨2, ![1, 640000]⟩
abbrev S3x128 : Shape := ⟨2, ![3, 128]⟩
abbrev S50000x128 : Shape := ⟨2, ![50000, 128]⟩
abbrev S_ : Shape := ⟨0, ![]⟩
abbrev S1x128 : Shape := ⟨2, ![1, 128]⟩
abbrev S128x384 : Shape := ⟨2, ![128, 384]⟩
abbrev S1x384 : Shape := ⟨2, ![1, 384]⟩
abbrev S640000x1 : Shape := ⟨2, ![640000, 1]⟩
abbrev S640000x128 : Shape := ⟨2, ![640000, 128]⟩
abbrev S2000x128 : Shape := ⟨2, ![2000, 128]⟩
abbrev S2000x384 : Shape := ⟨2, ![2000, 384]⟩
abbrev S128x64 : Shape := ⟨2, ![128, 64]⟩
abbrev S50000x64 : Shape := ⟨2, ![50000, 64]⟩
abbrev S64x1 : Shape := ⟨2, ![64, 1]⟩
abbrev S50000x1 : Shape := ⟨2, ![50000, 1]⟩
abbrev S50000 : Shape := ⟨1, ![50000]⟩

abbrev nBuf : Space → Nat
  | .hbm => 212
  | .vmem => 50
  | .smem => 0
  | _ => 0

abbrev hbmTy0_0 (i : Nat) : BufTy := match i % 128 with
  | 0 => ⟨S50000x3, .f32⟩
  | 1 => ⟨S2x640000, .i32⟩
  | 2 => ⟨S640000, .f32⟩
  | 3 => ⟨S128x3, .f32⟩
  | 4 => ⟨S128, .f32⟩
  | 5 => ⟨S128, .f32⟩
  | 6 => ⟨S384x128, .f32⟩
  | 7 => ⟨S384x128, .f32⟩
  | 8 => ⟨S384, .f32⟩
  | 9 => ⟨S384, .f32⟩
  | 10 => ⟨S64x128, .f32⟩
  | 11 => ⟨S64, .f32⟩
  | 12 => ⟨S64, .f32⟩
  | 13 => ⟨S1x64, .f32⟩
  | 14 => ⟨S1x640000, .i32⟩
  | 15 => ⟨S640000, .i32⟩
  | 16 => ⟨S1x640000, .i32⟩
  | 17 => ⟨S640000, .i32⟩
  | 18 => ⟨S3x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S50000x128, .f32⟩
  | 33 => ⟨S50000x128, .f32⟩
  | 34 => ⟨S50000x128, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S128x384, .f32⟩
  | 65 => ⟨S128x384, .bf16⟩
  | 66 => ⟨S128x384, .f32⟩
  | 67 => ⟨S128x384, .bf16⟩
  | 68 => ⟨S1x384, .f32⟩
  | 69 => ⟨S1x384, .f32⟩
  | 70 => ⟨S640000x1, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S640000x128, .f32⟩
  | 81 => ⟨S640000x128, .f32⟩
  | 82 => ⟨S_, .f32⟩
  | 83 => ⟨S50000x128, .f32⟩
  | 84 => ⟨S640000x1, .i32⟩
  | 85 => ⟨S50000x128, .f32⟩
  | 86 => ⟨S50000x128, .f32⟩
  | 87 => ⟨S50000x128, .f32⟩
  | 88 => ⟨S640000x1, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x128, .f32⟩
  | 98 => ⟨S640000x128, .f32⟩
  | 99 => ⟨S640000x128, .f32⟩
  | 100 => ⟨S_, .f32⟩
  | 101 => ⟨S50000x128, .f32⟩
  | 102 => ⟨S640000x1, .i32⟩
  | 103 => ⟨S50000x128, .f32⟩
  | 104 => ⟨S50000x128, .f32⟩
  | 105 => ⟨S50000x128, .f32⟩
  | 106 => ⟨S640000x1, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S640000x128, .f32⟩
  | 117 => ⟨S640000x128, .f32⟩
  | 118 => ⟨S_, .f32⟩
  | 119 => ⟨S50000x128, .f32⟩
  | 120 => ⟨S640000x1, .i32⟩
  | 121 => ⟨S50000x128, .f32⟩
  | 122 => ⟨S50000x128, .f32⟩
  | 123 => ⟨S50000x128, .f32⟩
  | 124 => ⟨S640000x1, .f32⟩
  | 125 => ⟨S_, .i32⟩
  | 126 => ⟨S640000, .i32⟩
  | 127 => ⟨S640000, .i1⟩
  | _ => ⟨S50000x3, .f32⟩

abbrev hbmTy0_1 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S640000x128, .f32⟩
  | 6 => ⟨S640000x128, .f32⟩
  | 7 => ⟨S640000x128, .f32⟩
  | 8 => ⟨S_, .f32⟩
  | 9 => ⟨S50000x128, .f32⟩
  | 10 => ⟨S640000x1, .i32⟩
  | 11 => ⟨S50000x128, .f32⟩
  | 12 => ⟨S50000x128, .f32⟩
  | 13 => ⟨S50000x128, .f32⟩
  | 14 => ⟨S640000x1, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S640000x128, .f32⟩
  | 25 => ⟨S640000x128, .f32⟩
  | 26 => ⟨S_, .f32⟩
  | 27 => ⟨S50000x128, .f32⟩
  | 28 => ⟨S640000x1, .i32⟩
  | 29 => ⟨S50000x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S128x64, .f32⟩
  | 36 => ⟨S50000x64, .f32⟩
  | 37 => ⟨S_, .f32⟩
  | 38 => ⟨S64, .f32⟩
  | 39 => ⟨S_, .f32⟩
  | 40 => ⟨S64, .f32⟩
  | 41 => ⟨S64, .f32⟩
  | 42 => ⟨S_, .i32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S50000x64, .f32⟩
  | 50 => ⟨S50000x64, .f32⟩
  | 51 => ⟨S50000x64, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S64, .f32⟩
  | 59 => ⟨S_, .f32⟩
  | 60 => ⟨S_, .i1⟩
  | 61 => ⟨S_, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S64, .f32⟩
  | 69 => ⟨S64, .f32⟩
  | 70 => ⟨S64, .f32⟩
  | 71 => ⟨S64, .f32⟩
  | 72 => ⟨S1x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S64x1, .f32⟩
  | 82 => ⟨S50000x1, .f32⟩
  | 83 => ⟨S50000, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x384, .bf16⟩
  | .local _ .vmem, ⟨5, _⟩ => ⟨S128x384, .bf16⟩
  | .local _ .vmem, ⟨6, _⟩ => ⟨S1x384, .f32⟩
  | .local _ .vmem, ⟨7, _⟩ => ⟨S1x384, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x384, .bf16⟩
  | .local _ .vmem, ⟨15, _⟩ => ⟨S128x384, .bf16⟩
  | .local _ .vmem, ⟨16, _⟩ => ⟨S1x384, .f32⟩
  | .local _ .vmem, ⟨17, _⟩ => ⟨S1x384, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x384, .bf16⟩
  | .local _ .vmem, ⟨25, _⟩ => ⟨S128x384, .bf16⟩
  | .local _ .vmem, ⟨26, _⟩ => ⟨S1x384, .f32⟩
  | .local _ .vmem, ⟨27, _⟩ => ⟨S1x384, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x384, .bf16⟩
  | .local _ .vmem, ⟨35, _⟩ => ⟨S128x384, .bf16⟩
  | .local _ .vmem, ⟨36, _⟩ => ⟨S1x384, .f32⟩
  | .local _ .vmem, ⟨37, _⟩ => ⟨S1x384, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x384, .bf16⟩
  | .local _ .vmem, ⟨45, _⟩ => ⟨S128x384, .bf16⟩
  | .local _ .vmem, ⟨46, _⟩ => ⟨S1x384, .f32⟩
  | .local _ .vmem, ⟨47, _⟩ => ⟨S1x384, .f32⟩
  | .local _ .vmem, ⟨48, _⟩ => ⟨S2000x128, .f32⟩
  | .local _ .vmem, ⟨49, _⟩ => ⟨S2000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v9 : Ref sig .tc := ⟨.hbm, 47, rfl⟩
abbrev main_cst_1 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_call1_cst : Ref sig .tc := ⟨.hbm, 61, rfl⟩
abbrev main_call1_v0 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_2 : Ref sig .tc := ⟨.hbm, 71, rfl⟩
abbrev main_v30 : Ref sig .tc := ⟨.hbm, 72, rfl⟩
abbrev main_v31 : Ref sig .tc := ⟨.hbm, 73, rfl⟩
abbrev main_c_3 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_4 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_5 : Ref sig .tc := ⟨.hbm, 89, rfl⟩
abbrev main_v45 : Ref sig .tc := ⟨.hbm, 90, rfl⟩
abbrev main_v46 : Ref sig .tc := ⟨.hbm, 91, rfl⟩
abbrev main_c_6 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_7 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_8 : Ref sig .tc := ⟨.hbm, 107, rfl⟩
abbrev main_v60 : Ref sig .tc := ⟨.hbm, 108, rfl⟩
abbrev main_v61 : Ref sig .tc := ⟨.hbm, 109, rfl⟩
abbrev main_c_9 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_10 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_11 : Ref sig .tc := ⟨.hbm, 125, rfl⟩
abbrev main_v75 : Ref sig .tc := ⟨.hbm, 126, rfl⟩
abbrev main_v76 : Ref sig .tc := ⟨.hbm, 127, rfl⟩
abbrev main_c_12 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_13 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_14 : Ref sig .tc := ⟨.hbm, 143, rfl⟩
abbrev main_v90 : Ref sig .tc := ⟨.hbm, 144, rfl⟩
abbrev main_v91 : Ref sig .tc := ⟨.hbm, 145, rfl⟩
abbrev main_c_15 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_16 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_17 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_18 : Ref sig .tc := ⟨.hbm, 165, rfl⟩
abbrev main_v108 : Ref sig .tc := ⟨.hbm, 166, rfl⟩
abbrev main_cst_19 : Ref sig .tc := ⟨.hbm, 167, rfl⟩
abbrev main_v109 : Ref sig .tc := ⟨.hbm, 168, rfl⟩
abbrev main_v110 : Ref sig .tc := ⟨.hbm, 169, rfl⟩
abbrev main_c_20 : Ref sig .tc := ⟨.hbm, 170, rfl⟩
abbrev main_call2_cst : Ref sig .tc := ⟨.hbm, 171, rfl⟩
abbrev main_call2_v0 : Ref sig .tc := ⟨.hbm, 172, rfl⟩
abbrev main_call2_v1 : Ref sig .tc := ⟨.hbm, 173, rfl⟩
abbrev main_call2_cst_0 : Ref sig .tc := ⟨.hbm, 174, rfl⟩
abbrev main_call2_v2 : Ref sig .tc := ⟨.hbm, 175, rfl⟩
abbrev main_call2_v3 : Ref sig .tc := ⟨.hbm, 176, rfl⟩
abbrev main_call2_v4 : Ref sig .tc := ⟨.hbm, 177, rfl⟩
abbrev main_call2_v5 : Ref sig .tc := ⟨.hbm, 178, rfl⟩
abbrev main_call2_v6 : Ref sig .tc := ⟨.hbm, 179, rfl⟩
abbrev main_call2_v7 : Ref sig .tc := ⟨.hbm, 180, rfl⟩
abbrev main_call2_cst_1 : Ref sig .tc := ⟨.hbm, 181, rfl⟩
abbrev main_call2_v8 : Ref sig .tc := ⟨.hbm, 182, rfl⟩
abbrev main_call2_cst_2 : Ref sig .tc := ⟨.hbm, 183, rfl⟩
abbrev main_call2_v9 : Ref sig .tc := ⟨.hbm, 184, rfl⟩
abbrev main_call2_v10 : Ref sig .tc := ⟨.hbm, 185, rfl⟩
abbrev main_call2_v11 : Ref sig .tc := ⟨.hbm, 186, rfl⟩
abbrev main_call2_cst_3 : Ref sig .tc := ⟨.hbm, 187, rfl⟩
abbrev main_call2_v12 : Ref sig .tc := ⟨.hbm, 188, rfl⟩
abbrev main_call2_cst_4 : Ref sig .tc := ⟨.hbm, 189, rfl⟩
abbrev main_call2_call0_v0 : Ref sig .tc := ⟨.hbm, 190, rfl⟩
abbrev main_call2_call0_v1 : Ref sig .tc := ⟨.hbm, 191, rfl⟩
abbrev main_v111 : Ref sig .tc := ⟨.hbm, 192, rfl⟩
abbrev main_cst_21 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_call3_cst : Ref sig .tc := ⟨.hbm, 206, rfl⟩
abbrev main_call3_v0 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x384 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x384 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x3_S3x128_1_0 : S128x3.Transposes [1, 0] S3x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S384x128_S128x384_1_0 : S384x128.Transposes [1, 0] S128x384
  bitsLt_bf16_f32 : FTy.bits .bf16 < FTy.bits .f32
  shapeCasts_S384_S1x384 : S384.ShapeCasts S1x384
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  transposes_S64x128_S128x64_1_0 : S64x128.Transposes [1, 0] S128x64
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S1x64_S64x1_1_0 : S1x64.Transposes [1, 0] S64x1
  shapeCasts_S50000x1_S50000 : S50000x1.ShapeCasts S50000
  dot_S50000x3_S3x128_S50000x128_1_0_0_1_n_n_wf : DotDims.WF S50000x3 S3x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x384_S2000x384_1_0_0_1_n_n_wf : DotDims.WF S2000x128 S128x384 S2000x384 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .bf16 = 32 ∨ (Rect.block (s := S128x384) S128x384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .bf16 = 32 ∨ (Rect.block (s := S128x384) S128x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .bf16 = 32 ∨ (Rect.block (s := S128x384) S128x384.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .bf16 = 32 ∨ (Rect.block (s := S128x384) S128x384.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .bf16 = 32 ∨ (Rect.block (s := S128x384) S128x384.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .bf16 = 32 ∨ (Rect.block (s := S128x384) S128x384.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x384.size a ≤ S128x384.size a
  hwx4_2 : ∀ i : grid4.Coords, EltTy.bits .bf16 = 32 ∨ (Rect.block (s := S128x384) S128x384.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .bf16 = 32 ∨ (Rect.block (s := S128x384) S128x384.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)

variable [Facts₀]

def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

abbrev win0_0 : Pipeline.Window sig grid0 :=
  Pipeline.Window.ofSpec (Memref.whole main_v41) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v56) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v71) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v86) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v88) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v101) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S128x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v27) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v28) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x3 : Shape := ⟨2, ![50000, 3]⟩
abbrev S2x640000 : Shape := ⟨2, ![2, 640000]⟩
abbrev S640000 : Shape := ⟨1, ![640000]⟩
abbrev S128x3 : Shape := ⟨2, ![128, 3]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1x640000 : Shape := ⟨2, ![1, 640000]⟩
abbrev S3x128 : Shape := ⟨2, ![3, 128]⟩
abbrev S50000x128 : Shape := ⟨2, ![50000, 128]⟩
abbrev S_ : Shape := ⟨0, ![]⟩
abbrev S1x128 : Shape := ⟨2, ![1, 128]⟩
abbrev S640000x1 : Shape := ⟨2, ![640000, 1]⟩
abbrev S640000x128 : Shape := ⟨2, ![640000, 128]⟩
abbrev S128x384 : Shape := ⟨2, ![128, 384]⟩
abbrev S50000x384 : Shape := ⟨2, ![50000, 384]⟩
abbrev S1x384 : Shape := ⟨2, ![1, 384]⟩
abbrev S128x64 : Shape := ⟨2, ![128, 64]⟩
abbrev S50000x64 : Shape := ⟨2, ![50000, 64]⟩
abbrev S64x1 : Shape := ⟨2, ![64, 1]⟩
abbrev S50000x1 : Shape := ⟨2, ![50000, 1]⟩
abbrev S50000 : Shape := ⟨1, ![50000]⟩

abbrev nBuf : Space → Nat
  | .hbm => 422
  | .vmem => 0
  | .smem => 0
  | _ => 0

abbrev hbmTy0_0 (i : Nat) : BufTy := match i % 128 with
  | 0 => ⟨S50000x3, .f32⟩
  | 1 => ⟨S2x640000, .i32⟩
  | 2 => ⟨S640000, .f32⟩
  | 3 => ⟨S128x3, .f32⟩
  | 4 => ⟨S128, .f32⟩
  | 5 => ⟨S128, .f32⟩
  | 6 => ⟨S384x128, .f32⟩
  | 7 => ⟨S384x128, .f32⟩
  | 8 => ⟨S384, .f32⟩
  | 9 => ⟨S384, .f32⟩
  | 10 => ⟨S64x128, .f32⟩
  | 11 => ⟨S64, .f32⟩
  | 12 => ⟨S64, .f32⟩
  | 13 => ⟨S1x64, .f32⟩
  | 14 => ⟨S1x640000, .i32⟩
  | 15 => ⟨S640000, .i32⟩
  | 16 => ⟨S1x640000, .i32⟩
  | 17 => ⟨S640000, .i32⟩
  | 18 => ⟨S3x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S50000x128, .f32⟩
  | 33 => ⟨S50000x128, .f32⟩
  | 34 => ⟨S50000x128, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S640000x1, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x128, .f32⟩
  | 77 => ⟨S640000x128, .f32⟩
  | 78 => ⟨S640000x128, .f32⟩
  | 79 => ⟨S_, .f32⟩
  | 80 => ⟨S50000x128, .f32⟩
  | 81 => ⟨S640000x1, .i32⟩
  | 82 => ⟨S50000x128, .f32⟩
  | 83 => ⟨S50000x128, .f32⟩
  | 84 => ⟨S128x384, .f32⟩
  | 85 => ⟨S50000x384, .f32⟩
  | 86 => ⟨S1x384, .f32⟩
  | 87 => ⟨S50000x384, .f32⟩
  | 88 => ⟨S50000x384, .f32⟩
  | 89 => ⟨S128x384, .f32⟩
  | 90 => ⟨S50000x384, .f32⟩
  | 91 => ⟨S1x384, .f32⟩
  | 92 => ⟨S50000x384, .f32⟩
  | 93 => ⟨S50000x384, .f32⟩
  | 94 => ⟨S50000x128, .f32⟩
  | 95 => ⟨S50000x128, .f32⟩
  | 96 => ⟨S50000x128, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S640000x1, .f32⟩
  | _ => ⟨S50000x3, .f32⟩

abbrev hbmTy0_1 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S640000x128, .f32⟩
  | 9 => ⟨S640000x128, .f32⟩
  | 10 => ⟨S640000x128, .f32⟩
  | 11 => ⟨S_, .f32⟩
  | 12 => ⟨S50000x128, .f32⟩
  | 13 => ⟨S640000x1, .i32⟩
  | 14 => ⟨S50000x128, .f32⟩
  | 15 => ⟨S50000x128, .f32⟩
  | 16 => ⟨S128x384, .f32⟩
  | 17 => ⟨S50000x384, .f32⟩
  | 18 => ⟨S1x384, .f32⟩
  | 19 => ⟨S50000x384, .f32⟩
  | 20 => ⟨S50000x384, .f32⟩
  | 21 => ⟨S128x384, .f32⟩
  | 22 => ⟨S50000x384, .f32⟩
  | 23 => ⟨S1x384, .f32⟩
  | 24 => ⟨S50000x384, .f32⟩
  | 25 => ⟨S50000x384, .f32⟩
  | 26 => ⟨S50000x128, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S640000x1, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S640000x128, .f32⟩
  | 70 => ⟨S640000x128, .f32⟩
  | 71 => ⟨S_, .f32⟩
  | 72 => ⟨S50000x128, .f32⟩
  | 73 => ⟨S640000x1, .i32⟩
  | 74 => ⟨S50000x128, .f32⟩
  | 75 => ⟨S50000x128, .f32⟩
  | 76 => ⟨S128x384, .f32⟩
  | 77 => ⟨S50000x384, .f32⟩
  | 78 => ⟨S1x384, .f32⟩
  | 79 => ⟨S50000x384, .f32⟩
  | 80 => ⟨S50000x384, .f32⟩
  | 81 => ⟨S128x384, .f32⟩
  | 82 => ⟨S50000x384, .f32⟩
  | 83 => ⟨S1x384, .f32⟩
  | 84 => ⟨S50000x384, .f32⟩
  | 85 => ⟨S50000x384, .f32⟩
  | 86 => ⟨S50000x128, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S640000x1, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S50000x3, .f32⟩

abbrev hbmTy0_2 (i : Nat) : BufTy := match i % 128 with
  | 0 => ⟨S640000x128, .f32⟩
  | 1 => ⟨S640000x128, .f32⟩
  | 2 => ⟨S640000x128, .f32⟩
  | 3 => ⟨S_, .f32⟩
  | 4 => ⟨S50000x128, .f32⟩
  | 5 => ⟨S640000x1, .i32⟩
  | 6 => ⟨S50000x128, .f32⟩
  | 7 => ⟨S50000x128, .f32⟩
  | 8 => ⟨S128x384, .f32⟩
  | 9 => ⟨S50000x384, .f32⟩
  | 10 => ⟨S1x384, .f32⟩
  | 11 => ⟨S50000x384, .f32⟩
  | 12 => ⟨S50000x384, .f32⟩
  | 13 => ⟨S128x384, .f32⟩
  | 14 => ⟨S50000x384, .f32⟩
  | 15 => ⟨S1x384, .f32⟩
  | 16 => ⟨S50000x384, .f32⟩
  | 17 => ⟨S50000x384, .f32⟩
  | 18 => ⟨S50000x128, .f32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S640000x1, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S640000x128, .f32⟩
  | 62 => ⟨S640000x128, .f32⟩
  | 63 => ⟨S_, .f32⟩
  | 64 => ⟨S50000x128, .f32⟩
  | 65 => ⟨S640000x1, .i32⟩
  | 66 => ⟨S50000x128, .f32⟩
  | 67 => ⟨S50000x128, .f32⟩
  | 68 => ⟨S128x384, .f32⟩
  | 69 => ⟨S50000x384, .f32⟩
  | 70 => ⟨S1x384, .f32⟩
  | 71 => ⟨S50000x384, .f32⟩
  | 72 => ⟨S50000x384, .f32⟩
  | 73 => ⟨S128x384, .f32⟩
  | 74 => ⟨S50000x384, .f32⟩
  | 75 => ⟨S1x384, .f32⟩
  | 76 => ⟨S50000x384, .f32⟩
  | 77 => ⟨S50000x384, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S128x64, .f32⟩
  | 115 => ⟨S50000x64, .f32⟩
  | 116 => ⟨S_, .f32⟩
  | 117 => ⟨S64, .f32⟩
  | 118 => ⟨S_, .f32⟩
  | 119 => ⟨S64, .f32⟩
  | 120 => ⟨S64, .f32⟩
  | 121 => ⟨S_, .i32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S50000x3, .f32⟩

abbrev hbmTy0_3 (i : Nat) : BufTy := match i % 128 with
  | 0 => ⟨S50000x64, .f32⟩
  | 1 => ⟨S50000x64, .f32⟩
  | 2 => ⟨S50000x64, .f32⟩
  | 3 => ⟨S_, .f32⟩
  | 4 => ⟨S_, .f32⟩
  | 5 => ⟨S_, .f32⟩
  | 6 => ⟨S_, .f32⟩
  | 7 => ⟨S64, .f32⟩
  | 8 => ⟨S64, .f32⟩
  | 9 => ⟨S64, .f32⟩
  | 10 => ⟨S_, .f32⟩
  | 11 => ⟨S_, .i1⟩
  | 12 => ⟨S_, .f32⟩
  | 13 => ⟨S_, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S_, .f32⟩
  | 20 => ⟨S64, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S64x1, .f32⟩
  | 36 => ⟨S50000x1, .f32⟩
  | 37 => ⟨S50000, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_1 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_c_2 : Ref sig .tc := ⟨.hbm, 68, rfl⟩
abbrev main_v27 : Ref sig .tc := ⟨.hbm, 69, rfl⟩
abbrev main_v28 : Ref sig .tc := ⟨.hbm, 70, rfl⟩
abbrev main_c_3 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_4 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_5 : Ref sig .tc := ⟨.hbm, 103, rfl⟩
abbrev main_v59 : Ref sig .tc := ⟨.hbm, 104, rfl⟩
abbrev main_v60 : Ref sig .tc := ⟨.hbm, 105, rfl⟩
abbrev main_cst_6 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_7 : Ref sig .tc := ⟨.hbm, 112, rfl⟩
abbrev main_v66 : Ref sig .tc := ⟨.hbm, 113, rfl⟩
abbrev main_v67 : Ref sig .tc := ⟨.hbm, 114, rfl⟩
abbrev main_cst_8 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_9 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_c_10 : Ref sig .tc := ⟨.hbm, 128, rfl⟩
abbrev main_v79 : Ref sig .tc := ⟨.hbm, 129, rfl⟩
abbrev main_v80 : Ref sig .tc := ⟨.hbm, 130, rfl⟩
abbrev main_c_11 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_12 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_13 : Ref sig .tc := ⟨.hbm, 163, rfl⟩
abbrev main_v111 : Ref sig .tc := ⟨.hbm, 164, rfl⟩
abbrev main_v112 : Ref sig .tc := ⟨.hbm, 165, rfl⟩
abbrev main_cst_14 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_15 : Ref sig .tc := ⟨.hbm, 172, rfl⟩
abbrev main_v118 : Ref sig .tc := ⟨.hbm, 173, rfl⟩
abbrev main_v119 : Ref sig .tc := ⟨.hbm, 174, rfl⟩
abbrev main_cst_16 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_17 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_c_18 : Ref sig .tc := ⟨.hbm, 188, rfl⟩
abbrev main_v131 : Ref sig .tc := ⟨.hbm, 189, rfl⟩
abbrev main_v132 : Ref sig .tc := ⟨.hbm, 190, rfl⟩
abbrev main_c_19 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_20 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_21 : Ref sig .tc := ⟨.hbm, 223, rfl⟩
abbrev main_v163 : Ref sig .tc := ⟨.hbm, 224, rfl⟩
abbrev main_v164 : Ref sig .tc := ⟨.hbm, 225, rfl⟩
abbrev main_cst_22 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_23 : Ref sig .tc := ⟨.hbm, 232, rfl⟩
abbrev main_v170 : Ref sig .tc := ⟨.hbm, 233, rfl⟩
abbrev main_v171 : Ref sig .tc := ⟨.hbm, 234, rfl⟩
abbrev main_cst_24 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_25 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_26 : Ref sig .tc := ⟨.hbm, 248, rfl⟩
abbrev main_v183 : Ref sig .tc := ⟨.hbm, 249, rfl⟩
abbrev main_v184 : Ref sig .tc := ⟨.hbm, 250, rfl⟩
abbrev main_c_27 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_28 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_29 : Ref sig .tc := ⟨.hbm, 283, rfl⟩
abbrev main_v215 : Ref sig .tc := ⟨.hbm, 284, rfl⟩
abbrev main_v216 : Ref sig .tc := ⟨.hbm, 285, rfl⟩
abbrev main_cst_30 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_cst_31 : Ref sig .tc := ⟨.hbm, 292, rfl⟩
abbrev main_v222 : Ref sig .tc := ⟨.hbm, 293, rfl⟩
abbrev main_v223 : Ref sig .tc := ⟨.hbm, 294, rfl⟩
abbrev main_cst_32 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_cst_33 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_c_34 : Ref sig .tc := ⟨.hbm, 308, rfl⟩
abbrev main_v235 : Ref sig .tc := ⟨.hbm, 309, rfl⟩
abbrev main_v236 : Ref sig .tc := ⟨.hbm, 310, rfl⟩
abbrev main_c_35 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_cst_36 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_cst_37 : Ref sig .tc := ⟨.hbm, 343, rfl⟩
abbrev main_v267 : Ref sig .tc := ⟨.hbm, 344, rfl⟩
abbrev main_v268 : Ref sig .tc := ⟨.hbm, 345, rfl⟩
abbrev main_cst_38 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_cst_39 : Ref sig .tc := ⟨.hbm, 352, rfl⟩
abbrev main_v274 : Ref sig .tc := ⟨.hbm, 353, rfl⟩
abbrev main_v275 : Ref sig .tc := ⟨.hbm, 354, rfl⟩
abbrev main_cst_40 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_cst_41 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_cst_42 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_cst_43 : Ref sig .tc := ⟨.hbm, 372, rfl⟩
abbrev main_v290 : Ref sig .tc := ⟨.hbm, 373, rfl⟩
abbrev main_cst_44 : Ref sig .tc := ⟨.hbm, 374, rfl⟩
abbrev main_v291 : Ref sig .tc := ⟨.hbm, 375, rfl⟩
abbrev main_v292 : Ref sig .tc := ⟨.hbm, 376, rfl⟩
abbrev main_c_45 : Ref sig .tc := ⟨.hbm, 377, rfl⟩
abbrev main_call2_cst : Ref sig .tc := ⟨.hbm, 378, rfl⟩
abbrev main_call2_v0 : Ref sig .tc := ⟨.hbm, 379, rfl⟩
abbrev main_call2_v1 : Ref sig .tc := ⟨.hbm, 380, rfl⟩
abbrev main_call2_cst_0 : Ref sig .tc := ⟨.hbm, 381, rfl⟩
abbrev main_call2_v2 : Ref sig .tc := ⟨.hbm, 382, rfl⟩
abbrev main_call2_v3 : Ref sig .tc := ⟨.hbm, 383, rfl⟩
abbrev main_call2_v4 : Ref sig .tc := ⟨.hbm, 384, rfl⟩
abbrev main_call2_v5 : Ref sig .tc := ⟨.hbm, 385, rfl⟩
abbrev main_call2_v6 : Ref sig .tc := ⟨.hbm, 386, rfl⟩
abbrev main_call2_v7 : Ref sig .tc := ⟨.hbm, 387, rfl⟩
abbrev main_call2_cst_1 : Ref sig .tc := ⟨.hbm, 388, rfl⟩
abbrev main_call2_v8 : Ref sig .tc := ⟨.hbm, 389, rfl⟩
abbrev main_call2_cst_2 : Ref sig .tc := ⟨.hbm, 390, rfl⟩
abbrev main_call2_v9 : Ref sig .tc := ⟨.hbm, 391, rfl⟩
abbrev main_call2_v10 : Ref sig .tc := ⟨.hbm, 392, rfl⟩
abbrev main_call2_v11 : Ref sig .tc := ⟨.hbm, 393, rfl⟩
abbrev main_call2_cst_3 : Ref sig .tc := ⟨.hbm, 394, rfl⟩
abbrev main_call2_v12 : Ref sig .tc := ⟨.hbm, 395, rfl⟩
abbrev main_call2_cst_4 : Ref sig .tc := ⟨.hbm, 396, rfl⟩
abbrev main_call2_call0_v0 : Ref sig .tc := ⟨.hbm, 397, rfl⟩
abbrev main_call2_call0_v1 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_cst_46 : Ref sig .tc := ⟨.hbm, 403, rfl⟩
abbrev main_v297 : Ref sig .tc := ⟨.hbm, 404, rfl⟩
abbrev main_v298 : Ref sig .tc := ⟨.hbm, 405, rfl⟩
abbrev main_v299 : Ref sig .tc := ⟨.hbm, 406, rfl⟩
abbrev main_v300 : Ref sig .tc := ⟨.hbm, 407, rfl⟩
abbrev main_v301 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩
abbrev main_call3_cst : Ref sig .tc := ⟨.hbm, 416, rfl⟩
abbrev main_call3_v0 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x3_S3x128_1_0 : S128x3.Transposes [1, 0] S3x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  transposes_S64x128_S128x64_1_0 : S64x128.Transposes [1, 0] S128x64
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S1x64_S64x1_1_0 : S1x64.Transposes [1, 0] S64x1
  shapeCasts_S50000x1_S50000 : S50000x1.ShapeCasts S50000
  dot_S50000x3_S3x128_S50000x128_1_0_0_1_n_n_wf : DotDims.WF S50000x3 S3x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x384_S50000x384_1_0_0_1_n_n_wf : DotDims.WF S50000x128 S128x384 S50000x384 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel program's run with every buffer named: at the compiled mesh, from any memory with zero
  counters, every weakly fair execution of @main terminates without a fault, and in every final state each
  unscoped TensorCore buffer holds the contents the last segment boundary assigns to it, `W19 m ρ c` - the fold of
  the host stretches and of the five regions' write-backs over the launch memory. The result buffer and the
  fourteen argument buffers are among them; what that fold IS, as a function of the arguments, is read off it
  stretch by stretch elsewhere.
-/
import proofs.«141514_j89154931130446_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- The result buffer and any argument buffer are unscoped. -/
theorem mem_uc' (b : Ref sig .tc) (h : ¬ (Proc.devRef .tc b : DevRef τ sig).isScoped) : Proc.devRef .tc b ∈ Pipeline.ucRefs τ sig :=
  mem_uc b h

end Cert.KernelIdeal.Run

end
-- ==== Proof.Spec.lean ====
/-
  The stages of the network as functions of arrays, over the extended reals: the pieces the two programs' host
  operations compute between the points where they differ. Each definition is the composition, in program order, of
  the host operations that produce one value from the values named as its arguments.
  The reference and the kernel program agree on every stage but two: batch normalisation, spelt
  ((h − μ)·r)·γ + β by the reference (`bnR`, `bnR64`) and h·s + (β − μ·s), s = γ·r, by the kernel program (`bnK`,
  `bnK64`), with r = rsqrt(v + ε); and the GRU cell, host operations in the reference and a launched kernel in the
  kernel program. The kernel program also hands its launched kernels the weight matrices transposed (`wT`) and the
  bias vectors as rows (`bRow`).
-/
import proofs.«141514_j89154931130446_1_alg».proof.Proof.Gen.ReferenceIdeal
import proofs.«141514_j89154931130446_1_alg».proof.Proof.Gen.KernelIdeal
import Idealize.ShloMosaic.PureOps.Ideal

noncomputable section

open Idealize.ShloMosaic

namespace Cert.Spec

variable {F : FTy → Type} [FloatOps F]

section Ref
open Cert.ReferenceIdeal Cert.ReferenceIdeal.Facts₀

/-- The source node of every edge: row 0 of the edge list, as a vector. -/
def idxS (ei : (⟨S2x640000, .i32⟩ : BufTy).Contents (Elt F)) : (⟨S640000, .i32⟩ : BufTy).Contents (Elt F) :=
  (shapeCast _ (((extractStridedSlice S1x640000 ![0, 0] · slices_S2x640000_S1x640000_0_0) : (⟨S2x640000, .i32⟩ : BufTy).Contents (Elt F) → (⟨S1x640000, .i32⟩ : BufTy).Contents (Elt F)) ei) shapeCasts_S1x640000_S640000)

/-- The destination node of every edge: row 1 of the edge list, as a vector. -/
def idxD (ei : (⟨S2x640000, .i32⟩ : BufTy).Contents (Elt F)) : (⟨S640000, .i32⟩ : BufTy).Contents (Elt F) :=
  (shapeCast _ (((extractStridedSlice S1x640000 ![1, 0] · slices_S2x640000_S1x640000_1_0) : (⟨S2x640000, .i32⟩ : BufTy).Contents (Elt F) → (⟨S1x640000, .i32⟩ : BufTy).Contents (Elt F)) ei) shapeCasts_S1x640000_S640000)

/-- The encoder's linear map: x · Wᵀ. -/
def encPre (x : (⟨S50000x3, .f32⟩ : BufTy).Contents (Elt F)) (W : (⟨S128x3, .f32⟩ : BufTy).Contents (Elt F)) : (⟨S50000x128, .f32⟩ : BufTy).Contents (Elt F) :=
  (((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)) x (((transpose S3x128 [1, 0] · transposes_S128x3_S3x128_1_0) : (⟨S128x3, .f32⟩ : BufTy).Contents (Elt F) → (⟨S3x128, .f32⟩ : BufTy).Contents (Elt F)) W))

/-- The mean of every column over the 50000 nodes. -/
def mean128 (h : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) h (constant (F := F) S_ .f32 0x00000000#32)) ((broadcastInDim S128 ![] bcast_S_S128 : (⟨S_, .f32⟩ : BufTy).Contents (Elt F) → (⟨S128, .f32⟩ : BufTy).Contents (Elt F)) (constant (F := F) S_ .f32 0x47435000#32)))

/-- The (biased) variance of every column over the 50000 nodes: the mean of the squared deviations from the column mean. -/
def var128 (h : (⟨S50000x128, .f32⟩ : BufTy).Contents (Elt F)) : (⟨S128, .f32⟩ : BufTy).Contents (Elt F) :=
  ((fun p a b => select (broadcastInDim S128 ![] bcast_S_S128 p) a b) ((cmpf (F := F) .ogt) (subf (constant (F := F) S_ .f32 0x47435000#32) ((sitofp (F := F) .f32) (constantI S_ 32 0#32))) (constant (F := F) S_ .f32 0x00000000#32)) (Host.divf ((fun x v => Host.reduceAdd x v reducesTo_S50000x128_S128_d0 h_S_) (mulf (subf h ((broadcastInDim S50000x128 ![0, 1] bcast_S1x128_S50000x128_0_1) (Host.divf ((broadcastInDim S1x128 ![1] bcast_S128_S1x128_1) ((fun x v => Host.reduceAdd x v reducesTo_S50000x128_S128_d0 h_S_) h (constant (F := F) S_ .f32 0x00000000#32))) ((broadcastInDim S1x128 ![] bcast_S_S1x128) (constant (F := F) S_ .f32 0x47435000#32))))) (subf h ((broadcastInDim S50000x128 ![0, 1] bcast_S1x128_S50000x128_0_1) (Host.divf ((broadcastInDim S1x128 ![1] bcast_S128_S1x128_1) ((fun x v => Host.reduceAdd x v reducesTo_S50000x128_S128_d0 h_S_) h (constant (F := F) S_ .f32 0x00000000#32))) ((broadcastInDim S1x128 ![] bcast_S_S1x128) (constant (F := F) S_ .f32 0x47435000#32)))))) (constant (F := F) S_ .f32 0x00000000#32)) ((broadcastInDim S128 ![] bcast_S_S128) (subf (constant (F := F) S_ .f32 0x47435000#32) ((sitofp (F := F) .f32) (constantI S_ 32 0#32))))) ((broadcastInDim S128 ![] bcast_S_S128) (id (constant (F := F) S_ .f32 0x7FC00000#32))))

/-- Batch normalisation then relu, the reference's spelling: max(((h − μ) · rsqrt(v + ε)) · γ + β, 0). -/
def bnR (h : (⟨S50000x128, .f32⟩ : BufTy).Contents (Elt F)) (mu : (⟨S128, .f32⟩ : BufTy).Contents (Elt F)) (v : (⟨S128, .f32⟩ : BufTy).Contents (Elt F)) (g : (⟨S128, .f32⟩ : BufTy).Contents (Elt F)) (b : (⟨S128, .f32⟩ : BufTy).Contents (Elt F)) : (⟨S50000x128, .f32⟩ : BufTy).Contents (Elt F) :=
  (maximumf ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) v ((broadcastInDim S128 ![] bcast_S_S128 : (⟨S_, .f32⟩ : BufTy).Contents (Elt F) → (⟨S128, .f32⟩ : BufTy).Contents (Elt F)) (constant (F := F) S_ .f32 0x3727C5AC#32))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b))) ((broadcastInDim S50000x128 ![] bcast_S_S50000x128) (constant (F := F) S_ .f32 0x00000000#32)))

/-- Neighbourhood aggregation: every edge carries norm · (its source node's row), and the rows are summed into their destination nodes, from zero. -/
def agg (nrm : (⟨S640000, .f32⟩ : BufTy).Contents (Elt F)) (s : (⟨S640000, .i32⟩ : BufTy).Contents (Elt F)) (d : (⟨S640000, .i32⟩ : BufTy).Contents (Elt F)) (prev : (⟨S50000x128, .f32⟩ : BufTy).Contents (Elt F)) : (⟨S50000x128, .f32⟩ : BufTy).Contents (Elt F) :=
  (((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x00000000#32)) ((broadcastInDim S640000x1 ![0] bcast_S640000_S640000x1_0 : (⟨S640000, .i32⟩ : BufTy).Contents (Elt F) → (⟨S640000x1, .i32⟩ : BufTy).Contents (Elt F)) d) ((mulf : (⟨S640000x128, .f32⟩ : BufTy).Contents (Elt F) → (⟨S640000x128, .f32⟩ : BufTy).Contents (Elt F) → (⟨S640000x128, .f32⟩ : BufTy).Contents (Elt F)) ((broadcastInDim S640000x128 ![0, 1] bcast_S640000x1_S640000x128_0_1 : (⟨S640000x1, .f32⟩ : BufTy).Contents (Elt F) → (⟨S640000x128, .f32⟩ : BufTy).Contents (Elt F)) ((broadcastInDim S640000x1 ![0] bcast_S640000_S640000x1_0 : (⟨S640000, .f32⟩ : BufTy).Contents (Elt F) → (⟨S640000x1, .f32⟩ : BufTy).Contents (Elt F)) nrm)) (((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) prev ((broadcastInDim S640000x1 ![0] bcast_S640000_S640000x1_0 : (⟨S640000, .i32⟩ : BufTy).Contents (Elt F) → (⟨S640000x1, .i32⟩ : BufTy).Contents (Elt F)) ((select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ((cmpi .slt : (⟨S640000, .i32⟩ : BufTy).Contents (Elt F) → (⟨S640000, .i32⟩ : BufTy).Contents (Elt F) → (⟨S640000, .i1⟩ : BufTy).Contents (Elt F)) s ((broadcastInDim S640000 ![] bcast_S_S640000 : (⟨S_, .i32⟩ : BufTy).Contents (Elt F) → (⟨S640000, .i32⟩ : BufTy).Contents (Elt F)) (constantI S_ 32 0#32))) ((addi : (⟨S640000, .i32⟩ : BufTy).Contents (Elt F) → (⟨S640000, .i32⟩ : BufTy).Contents (Elt F) → (⟨S640000, .i32⟩ : BufTy).Contents (Elt F)) s ((broadcastInDim S640000 ![] bcast_S_S640000 : (⟨S_, .i32⟩ : BufTy).Contents (Elt F) → (⟨S640000, .i32⟩ : BufTy).Contents (Elt F)) (constantI S_ 32 50000#32))) s)))))

/-- The running sum of the hidden states: one more aggregate added. -/
def hsAdd (hs : (⟨S50000x128, .f32⟩ : BufTy).Contents (Elt F)) (a : (⟨S50000x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) hs a)

/-- The GRU cell on whole arrays, as the reference's host operations compute it: the two affine maps a·Wihᵀ + bih and p·Whhᵀ + bhh, their three column thirds, the reset and update gates as 1/(1 + e^{−x}), the candidate tanh(i_n + r·h_n), and (1 − z)·n + z·p. -/
def gruR (a : (⟨S50000x128, .f32⟩ : BufTy).Contents (Elt F)) (p : (⟨S50000x128, .f32⟩ : BufTy).Contents (Elt F)) (Wih : (⟨S384x128, .f32⟩ : BufTy).Contents (Elt F)) (Whh : (⟨S384x128, .f32⟩ : BufTy).Contents (Elt F)) (bih : (⟨S384, .f32⟩ : BufTy).Contents (Elt F)) (bhh : (⟨S384, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((Host.divf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((addf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((Host.exp : (⟨S50000x128, .f32⟩ : BufTy).Contents (Elt F) → (⟨S50000x128, .f32⟩ : BufTy).Contents (Elt F)) ((Host.negf : (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((extractStridedSlice S50000x128 ![0, 128] · slices_S50000x384_S50000x128_0_128) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) a (((transpose S128x384 [1, 0] · transposes_S384x128_S128x384_1_0) : (⟨S384x128, .f32⟩ : BufTy).Contents (Elt F) → (⟨S128x384, .f32⟩ : BufTy).Contents (Elt F)) Wih)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bih)))) (((extractStridedSlice S50000x128 ![0, 128] · slices_S50000x384_S50000x128_0_128) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) p (((transpose S128x384 [1, 0] · transposes_S384x128_S128x384_1_0) : (⟨S384x128, .f32⟩ : BufTy).Contents (Elt F) → (⟨S128x384, .f32⟩ : BufTy).Contents (Elt F)) Whh)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bhh)))))))))) ((Host.tanh : (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((extractStridedSlice S50000x128 ![0, 256] · slices_S50000x384_S50000x128_0_256) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) a (((transpose S128x384 [1, 0] · transposes_S384x128_S128x384_1_0) : (⟨S384x128, .f32⟩ : BufTy).Contents (Elt F) → (⟨S128x384, .f32⟩ : BufTy).Contents (Elt F)) Wih)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bih)))) ((mulf : (⟨S50000x128, .f32⟩ : BufTy).Contents (Elt F) → (⟨S50000x128, .f32⟩ : BufTy).Contents (Elt F) → (⟨S50000x128, .f32⟩ : BufTy).Contents (Elt F)) ((Host.divf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((addf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((Host.exp : (⟨S50000x128, .f32⟩ : BufTy).Contents (Elt F) → (⟨S50000x128, .f32⟩ : BufTy).Contents (Elt F)) ((Host.negf : (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((extractStridedSlice S50000x128 ![0, 0] · slices_S50000x384_S50000x128_0_0) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) a (((transpose S128x384 [1, 0] · transposes_S384x128_S128x384_1_0) : (⟨S384x128, .f32⟩ : BufTy).Contents (Elt F) → (⟨S128x384, .f32⟩ : BufTy).Contents (Elt F)) Wih)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bih)))) (((extractStridedSlice S50000x128 ![0, 0] · slices_S50000x384_S50000x128_0_0) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) p (((transpose S128x384 [1, 0] · transposes_S384x128_S128x384_1_0) : (⟨S384x128, .f32⟩ : BufTy).Contents (Elt F) → (⟨S128x384, .f32⟩ : BufTy).Contents (Elt F)) Whh)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bhh))))))))) (((extractStridedSlice S50000x128 ![0, 256] · slices_S50000x384_S50000x128_0_256) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) p (((transpose S128x384 [1, 0] · transposes_S384x128_S128x384_1_0) : (⟨S384x128, .f32⟩ : BufTy).Contents (Elt F) → (⟨S128x384, .f32⟩ : BufTy).Contents (Elt F)) Whh)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bhh)))))))) ((mulf : (⟨S50000x128, .f32⟩ : BufTy).Contents (Elt F) → (⟨S50000x128, .f32⟩ : BufTy).Contents (Elt F) → (⟨S50000x128, .f32⟩ : BufTy).Contents (Elt F)) ((Host.divf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((addf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x3F800000#32)) ((Host.exp : (⟨S50000x128, .f32⟩ : BufTy).Contents (Elt F) → (⟨S50000x128, .f32⟩ : BufTy).Contents (Elt F)) ((Host.negf : (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((extractStridedSlice S50000x128 ![0, 128] · slices_S50000x384_S50000x128_0_128) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) a (((transpose S128x384 [1, 0] · transposes_S384x128_S128x384_1_0) : (⟨S384x128, .f32⟩ : BufTy).Contents (Elt F) → (⟨S128x384, .f32⟩ : BufTy).Contents (Elt F)) Wih)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bih)))) (((extractStridedSlice S50000x128 ![0, 128] · slices_S50000x384_S50000x128_0_128) : (⟨S50000x384, .f32⟩ : BufTy).Contents (Elt F) → (⟨S50000x128, .f32⟩ : BufTy).Contents (Elt F)) ((addf : (⟨S50000x384, .f32⟩ : BufTy).Contents (Elt F) → (⟨S50000x384, .f32⟩ : BufTy).Contents (Elt F) → (⟨S50000x384, .f32⟩ : BufTy).Contents (Elt F)) (((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)) p (((transpose S128x384 [1, 0] · transposes_S384x128_S128x384_1_0) : (⟨S384x128, .f32⟩ : BufTy).Contents (Elt F) → (⟨S128x384, .f32⟩ : BufTy).Contents (Elt F)) Whh)) ((broadcastInDim S50000x384 ![0, 1] bcast_S1x384_S50000x384_0_1 : (⟨S1x384, .f32⟩ : BufTy).Contents (Elt F) → (⟨S50000x384, .f32⟩ : BufTy).Contents (Elt F)) ((broadcastInDim S1x384 ![1] bcast_S384_S1x384_1 : (⟨S384, .f32⟩ : BufTy).Contents (Elt F) → (⟨S1x384, .f32⟩ : BufTy).Contents (Elt F)) bhh))))))))) p))

/-- The mean of the six stacked hidden states: their sum divided by 6. -/
def zdiv (hs : (⟨S50000x128, .f32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) hs ((broadcastInDim S50000x128 ![] bcast_S_S50000x128 : (⟨S_, .f32⟩ : BufTy).Contents (Elt F) → (⟨S50000x128, .f32⟩ : BufTy).Contents (Elt F)) (constant (F := F) S_ .f32 0x40C00000#32)))

/-- The decoder's first linear map: z · Wᵀ. -/
def decPre (z : (⟨S50000x128, .f32⟩ : BufTy).Contents (Elt F)) (W : (⟨S64x128, .f32⟩ : BufTy).Contents (Elt F)) : (⟨S50000x64, .f32⟩ : BufTy).Contents (Elt F) :=
  (((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) z (((transpose S128x64 [1, 0] · transposes_S64x128_S128x64_1_0) : (⟨S64x128, .f32⟩ : BufTy).Contents (Elt F) → (⟨S128x64, .f32⟩ : BufTy).Contents (Elt F)) W))

/-- The mean of every column of a 50000 × 64 array. -/
def mean64 (y : (⟨S50000x64, .f32⟩ : BufTy).Contents (Elt F)) : (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) y (constant (F := F) S_ .f32 0x00000000#32)) ((broadcastInDim S64 ![] bcast_S_S64 : (⟨S_, .f32⟩ : BufTy).Contents (Elt F) → (⟨S64, .f32⟩ : BufTy).Contents (Elt F)) (constant (F := F) S_ .f32 0x47435000#32)))

/-- The variance of every column of a 50000 × 64 array. -/
def var64 (y : (⟨S50000x64, .f32⟩ : BufTy).Contents (Elt F)) : (⟨S64, .f32⟩ : BufTy).Contents (Elt F) :=
  ((fun p a b => select (broadcastInDim S64 ![] bcast_S_S64 p) a b) ((cmpf (F := F) .ogt) (subf (constant (F := F) S_ .f32 0x47435000#32) ((sitofp (F := F) .f32) (constantI S_ 32 0#32))) (constant (F := F) S_ .f32 0x00000000#32)) (Host.divf ((fun x v => Host.reduceAdd x v reducesTo_S50000x64_S64_d0 h_S_) (mulf (subf y ((broadcastInDim S50000x64 ![0, 1] bcast_S1x64_S50000x64_0_1) (Host.divf ((broadcastInDim S1x64 ![1] bcast_S64_S1x64_1) ((fun x v => Host.reduceAdd x v reducesTo_S50000x64_S64_d0 h_S_) y (constant (F := F) S_ .f32 0x00000000#32))) ((broadcastInDim S1x64 ![] bcast_S_S1x64) (constant (F := F) S_ .f32 0x47435000#32))))) (subf y ((broadcastInDim S50000x64 ![0, 1] bcast_S1x64_S50000x64_0_1) (Host.divf ((broadcastInDim S1x64 ![1] bcast_S64_S1x64_1) ((fun x v => Host.reduceAdd x v reducesTo_S50000x64_S64_d0 h_S_) y (constant (F := F) S_ .f32 0x00000000#32))) ((broadcastInDim S1x64 ![] bcast_S_S1x64) (constant (F := F) S_ .f32 0x47435000#32)))))) (constant (F := F) S_ .f32 0x00000000#32)) ((broadcastInDim S64 ![] bcast_S_S64) (subf (constant (F := F) S_ .f32 0x47435000#32) ((sitofp (F := F) .f32) (constantI S_ 32 0#32))))) ((broadcastInDim S64 ![] bcast_S_S64) (id (constant (F := F) S_ .f32 0x7FC00000#32))))

/-- Batch normalisation then relu on 64 columns, the reference's spelling. -/
def bnR64 (y : (⟨S50000x64, .f32⟩ : BufTy).Contents (Elt F)) (mu : (⟨S64, .f32⟩ : BufTy).Contents (Elt F)) (v : (⟨S64, .f32⟩ : BufTy).Contents (Elt F)) (g : (⟨S64, .f32⟩ : BufTy).Contents (Elt F)) (b : (⟨S64, .f32⟩ : BufTy).Contents (Elt F)) : (⟨S50000x64, .f32⟩ : BufTy).Contents (Elt F) :=
  (maximumf ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) y ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) mu))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) v ((broadcastInDim S64 ![] bcast_S_S64 : (⟨S_, .f32⟩ : BufTy).Contents (Elt F) → (⟨S64, .f32⟩ : BufTy).Contents (Elt F)) (constant (F := F) S_ .f32 0x3727C5AC#32))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) g))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S50000x64 ![] bcast_S_S50000x64) (constant (F := F) S_ .f32 0x00000000#32)))

/-- The last linear map onto one column, flattened to a vector. -/
def outp (y : (⟨S50000x64, .f32⟩ : BufTy).Contents (Elt F)) (W : (⟨S1x64, .f32⟩ : BufTy).Contents (Elt F)) : (⟨S50000, .f32⟩ : BufTy).Contents (Elt F) :=
  (shapeCast _ (((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)) y (((transpose S64x1 [1, 0] · transposes_S1x64_S64x1_1_0) : (⟨S1x64, .f32⟩ : BufTy).Contents (Elt F) → (⟨S64x1, .f32⟩ : BufTy).Contents (Elt F)) W)) shapeCasts_S50000x1_S50000)

end Ref

section Ker
open Cert.KernelIdeal Cert.KernelIdeal.Facts₀

/-- Batch normalisation then relu, the kernel program's spelling: max(h · s + (β − μ · s), 0) with s = γ · rsqrt(v + ε). -/
def bnK (h : (⟨S50000x128, .f32⟩ : BufTy).Contents (Elt F)) (mu : (⟨S128, .f32⟩ : BufTy).Contents (Elt F)) (v : (⟨S128, .f32⟩ : BufTy).Contents (Elt F)) (g : (⟨S128, .f32⟩ : BufTy).Contents (Elt F)) (b : (⟨S128, .f32⟩ : BufTy).Contents (Elt F)) : (⟨S50000x128, .f32⟩ : BufTy).Contents (Elt F) :=
  (maximumf ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((mulf : (⟨S128, .f32⟩ : BufTy).Contents (Elt F) → (⟨S128, .f32⟩ : BufTy).Contents (Elt F) → (⟨S128, .f32⟩ : BufTy).Contents (Elt F)) g ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) v ((broadcastInDim S128 ![] bcast_S_S128 : (⟨S_, .f32⟩ : BufTy).Contents (Elt F) → (⟨S128, .f32⟩ : BufTy).Contents (Elt F)) (constant (F := F) S_ .f32 0x3727C5AC#32)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((subf : (⟨S128, .f32⟩ : BufTy).Contents (Elt F) → (⟨S128, .f32⟩ : BufTy).Contents (Elt F) → (⟨S128, .f32⟩ : BufTy).Contents (Elt F)) b ((mulf : (⟨S128, .f32⟩ : BufTy).Contents (Elt F) → (⟨S128, .f32⟩ : BufTy).Contents (Elt F) → (⟨S128, .f32⟩ : BufTy).Contents (Elt F)) mu ((mulf : (⟨S128, .f32⟩ : BufTy).Contents (Elt F) → (⟨S128, .f32⟩ : BufTy).Contents (Elt F) → (⟨S128, .f32⟩ : BufTy).Contents (Elt F)) g ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) v ((broadcastInDim S128 ![] bcast_S_S128 : (⟨S_, .f32⟩ : BufTy).Contents (Elt F) → (⟨S128, .f32⟩ : BufTy).Contents (Elt F)) (constant (F := F) S_ .f32 0x3727C5AC#32)))))))))) ((broadcastInDim S50000x128 ![] bcast_S_S50000x128) (constant (F := F) S_ .f32 0x00000000#32)))

/-- The same on 64 columns. -/
def bnK64 (y : (⟨S50000x64, .f32⟩ : BufTy).Contents (Elt F)) (mu : (⟨S64, .f32⟩ : BufTy).Contents (Elt F)) (v : (⟨S64, .f32⟩ : BufTy).Contents (Elt F)) (g : (⟨S64, .f32⟩ : BufTy).Contents (Elt F)) (b : (⟨S64, .f32⟩ : BufTy).Contents (Elt F)) : (⟨S50000x64, .f32⟩ : BufTy).Contents (Elt F) :=
  (maximumf ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) y ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((mulf : (⟨S64, .f32⟩ : BufTy).Contents (Elt F) → (⟨S64, .f32⟩ : BufTy).Contents (Elt F) → (⟨S64, .f32⟩ : BufTy).Contents (Elt F)) g ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) v ((broadcastInDim S64 ![] bcast_S_S64 : (⟨S_, .f32⟩ : BufTy).Contents (Elt F) → (⟨S64, .f32⟩ : BufTy).Contents (Elt F)) (constant (F := F) S_ .f32 0x3727C5AC#32)))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((subf : (⟨S64, .f32⟩ : BufTy).Contents (Elt F) → (⟨S64, .f32⟩ : BufTy).Contents (Elt F) → (⟨S64, .f32⟩ : BufTy).Contents (Elt F)) b ((mulf : (⟨S64, .f32⟩ : BufTy).Contents (Elt F) → (⟨S64, .f32⟩ : BufTy).Contents (Elt F) → (⟨S64, .f32⟩ : BufTy).Contents (Elt F)) mu ((mulf : (⟨S64, .f32⟩ : BufTy).Contents (Elt F) → (⟨S64, .f32⟩ : BufTy).Contents (Elt F) → (⟨S64, .f32⟩ : BufTy).Contents (Elt F)) g ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) v ((broadcastInDim S64 ![] bcast_S_S64 : (⟨S_, .f32⟩ : BufTy).Contents (Elt F) → (⟨S64, .f32⟩ : BufTy).Contents (Elt F)) (constant (F := F) S_ .f32 0x3727C5AC#32)))))))))) ((broadcastInDim S50000x64 ![] bcast_S_S50000x64) (constant (F := F) S_ .f32 0x00000000#32)))

/-- A weight matrix transposed (and narrowed to bf16, which changes nothing over the extended reals). -/
def wT (W : (⟨S384x128, .f32⟩ : BufTy).Contents (Elt F)) : (⟨S128x384, .bf16⟩ : BufTy).Contents (Elt F) :=
  (((truncf .bf16 · bitsLt_bf16_f32) : (⟨S128x384, .f32⟩ : BufTy).Contents (Elt F) → (⟨S128x384, .bf16⟩ : BufTy).Contents (Elt F)) (((transpose S128x384 [1, 0] · transposes_S384x128_S128x384_1_0) : (⟨S384x128, .f32⟩ : BufTy).Contents (Elt F) → (⟨S128x384, .f32⟩ : BufTy).Contents (Elt F)) W))

/-- A bias vector recast as one row. -/
def bRow (b : (⟨S384, .f32⟩ : BufTy).Contents (Elt F)) : (⟨S1x384, .f32⟩ : BufTy).Contents (Elt F) :=
  (shapeCast _ b shapeCasts_S384_S1x384)

end Ker

end Cert.Spec

end
-- ==== Proof.Net.lean ====
/-
  The network as a recursion over its five layers, over the extended reals, with the three places where the two
  programs differ left as parameters: the encoder's output `h0` (the hidden state before the first layer), the GRU
  cell `G` on whole arrays, and the decoder's batch normalisation `bn`.
  With p₀ = hs₀ = h0:  aₖ = agg(pₖ),  pₖ₊₁ = G(aₖ, pₖ),  hsₖ₊₁ = hsₖ + aₖ;  the result is the decoder applied to hs₅.
-/
import proofs.«141514_j89154931130446_1_alg».proof.Proof.Spec

noncomputable section

open Idealize.ShloMosaic

namespace Cert.Net

open Cert.ReferenceIdeal

/-- A 50000 × 128 array of extended reals. -/
abbrev Arr := (⟨S50000x128, .f32⟩ : BufTy).Contents (Elt Ideal)
/-- A 50000 × 64 array of extended reals. -/
abbrev Arr64 := (⟨S50000x64, .f32⟩ : BufTy).Contents (Elt Ideal)
/-- A vector of 64 extended reals. -/
abbrev Vec64 := (⟨S64, .f32⟩ : BufTy).Contents (Elt Ideal)

/-- The hidden state before layer k. -/
def pSeq (G : Arr → Arr → Arr) (ag : Arr → Arr) (h0 : Arr) : ℕ → Arr
  | 0 => h0
  | k + 1 => G (ag (pSeq G ag h0 k)) (pSeq G ag h0 k)

/-- The running sum of the hidden state and the first k aggregates. -/
def hsSeq (G : Arr → Arr → Arr) (ag : Arr → Arr) (h0 : Arr) : ℕ → Arr
  | 0 => h0
  | k + 1 => Spec.hsAdd (F := Ideal) (hsSeq G ag h0 k) (ag (pSeq G ag h0 k))

@[simp] theorem pSeq_zero (G : Arr → Arr → Arr) (ag : Arr → Arr) (h0 : Arr) : pSeq G ag h0 0 = h0 := rfl
@[simp] theorem pSeq_succ (G : Arr → Arr → Arr) (ag : Arr → Arr) (h0 : Arr) (k : ℕ) :
    pSeq G ag h0 (k + 1) = G (ag (pSeq G ag h0 k)) (pSeq G ag h0 k) := rfl
@[simp] theorem hsSeq_zero (G : Arr → Arr → Arr) (ag : Arr → Arr) (h0 : Arr) : hsSeq G ag h0 0 = h0 := rfl
@[simp] theorem hsSeq_succ (G : Arr → Arr → Arr) (ag : Arr → Arr) (h0 : Arr) (k : ℕ) :
    hsSeq G ag h0 (k + 1) = Spec.hsAdd (F := Ideal) (hsSeq G ag h0 k) (ag (pSeq G ag h0 k)) := rfl

/-- The decoder: the mean of the six states, the linear map, batch normalisation with relu (the parameter `bn`), the
    last linear map. -/
def dec (bn : Arr64 → Vec64 → Vec64 → Vec64 → Vec64 → Arr64) (hs : Arr)
    (W10 : (⟨S64x128, .f32⟩ : BufTy).Contents (Elt Ideal)) (g b : Vec64)
    (W13 : (⟨S1x64, .f32⟩ : BufTy).Contents (Elt Ideal)) : (⟨S50000, .f32⟩ : BufTy).Contents (Elt Ideal) :=
  Spec.outp (F := Ideal)
    (bn (Spec.decPre (F := Ideal) (Spec.zdiv (F := Ideal) hs) W10)
      (Spec.mean64 (F := Ideal) (Spec.decPre (F := Ideal) (Spec.zdiv (F := Ideal) hs) W10))
      (Spec.var64 (F := Ideal) (Spec.decPre (F := Ideal) (Spec.zdiv (F := Ideal) hs) W10)) g b) W13

/-- Two runs of the recursion from equal starts, through cells that agree on real arrays, agree, as long as the cell
    and the aggregation keep arrays real: by induction on the layer. `P` is the property carried (every entry real). -/
theorem seq_eq (P : Arr → Prop) (G G' : Arr → Arr → Arr) (ag : Arr → Arr) (h0 h0' : Arr) (hh : h0 = h0') (hP0 : P h0)
    (hag : ∀ p, P p → P (ag p)) (hG : ∀ a p, P a → P p → G a p = G' a p) (hPG : ∀ a p, P a → P p → P (G' a p))
    (hadd : ∀ x y, P x → P y → P (Spec.hsAdd (F := Ideal) x y)) :
    ∀ k, pSeq G ag h0 k = pSeq G' ag h0' k ∧ hsSeq G ag h0 k = hsSeq G' ag h0' k
      ∧ P (pSeq G' ag h0' k) ∧ P (hsSeq G' ag h0' k) := by
  subst hh
  intro k
  induction k with
  | zero => exact ⟨rfl, rfl, hP0, hP0⟩
  | succ k ih =>
    obtain ⟨e1, e2, q1, q2⟩ := ih
    refine ⟨?_, ?_, ?_, ?_⟩
    · rw [pSeq_succ, pSeq_succ, e1]; exact hG _ _ (hag _ q1) q1
    · rw [hsSeq_succ, hsSeq_succ, e1, e2]
    · rw [pSeq_succ]; exact hPG _ _ (hag _ q1) q1
    · rw [hsSeq_succ]; exact hadd _ _ q2 (hag _ q1)

end Cert.Net

end
-- ==== Proof.KStretch.lean ====
/-
  The host stretches of the kernel program read as functions of arrays, over the extended reals.

  The kernel program's @main is fourteen straight lines of host operations around five launched regions: five lines
  before region 0 (the encoder: the edge list's two rows, x · Wᵀ, its column means and variances, batch normalisation
  with relu in the kernel program's spelling, then the transposed weights, the bias rows, the first aggregation and the
  first running sum), one line before each of regions 1 … 4 (an aggregation and one more term of the running sum) and
  five lines after region 4 (the decoder). For each line: the references its operations write and that every other
  reference keeps its contents through it; and, for an arbitrary valuation X before the line, what the references the
  rest of the program reads hold after it, as the stage functions of the network applied to what X holds.
-/
import proofs.«141514_j89154931130446_1_alg».proof.Proof.Gen.KernelIdeal.Launch
import proofs.«141514_j89154931130446_1_alg».proof.Proof.Spec
import proofs.«141514_j89154931130446_1_alg».proof.Proof.Net
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo

/-! ## What each line writes, and what it keeps -/

/-- The references the operations of `hostOps0` (before region 0, first stretch) write, in order. -/
abbrev hostOps0_W : List (Ref sig .tc) := [main_v0, main_v1, main_v2, main_v3, main_v4, main_v5, main_cst, main_v6, main_cst_0, main_v7, main_v8, main_c]
theorem hostOps0_writes : (hostOps0 (F := Ideal)).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps0` does not write keeps its contents through it. -/
theorem hostOps0_keep (X : Valuation τ sig (Elt Ideal)) (r : Ref sig .tc) (h : r ∉ hostOps0_W) :
    after (hostOps0 (F := Ideal)) X (Proc.devRef .tc r) = X (Proc.devRef .tc r) :=
  after_of_writes_sub (hostOps0 (F := Ideal)) _ hostOps0_writes h

/-- The references the operations of `hostOps0_1` (before region 0, second stretch (the variance of the encoder's output)) write, in order. -/
abbrev hostOps0_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v9]
theorem hostOps0_1_writes : (hostOps0_1 (F := Ideal)).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps0_1` does not write keeps its contents through it. -/
theorem hostOps0_1_keep (X : Valuation τ sig (Elt Ideal)) (r : Ref sig .tc) (h : r ∉ hostOps0_1_W) :
    after (hostOps0_1 (F := Ideal)) X (Proc.devRef .tc r) = X (Proc.devRef .tc r) :=
  after_of_writes_sub (hostOps0_1 (F := Ideal)) _ hostOps0_1_writes h

/-- The references the operations of `hostOps0_2` (before region 0, third stretch) write, in order. -/
abbrev hostOps0_2_W : List (Ref sig .tc) := [main_cst_1, main_v10, main_v11, main_v12, main_v13, main_v14, main_v15, main_v16, main_v17, main_v18, main_v19, main_v20, main_v21]
theorem hostOps0_2_writes : (hostOps0_2 (F := Ideal)).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps0_2` does not write keeps its contents through it. -/
theorem hostOps0_2_keep (X : Valuation τ sig (Elt Ideal)) (r : Ref sig .tc) (h : r ∉ hostOps0_2_W) :
    after (hostOps0_2 (F := Ideal)) X (Proc.devRef .tc r) = X (Proc.devRef .tc r) :=
  after_of_writes_sub (hostOps0_2 (F := Ideal)) _ hostOps0_2_writes h

/-- The references the operations of `hostOps0_3` (before region 0, fourth stretch (the relu)) write, in order. -/
abbrev hostOps0_3_W : List (Ref sig .tc) := [main_call1_cst, main_call1_v0, main_v22]
theorem hostOps0_3_writes : (hostOps0_3 (F := Ideal)).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps0_3` does not write keeps its contents through it. -/
theorem hostOps0_3_keep (X : Valuation τ sig (Elt Ideal)) (r : Ref sig .tc) (h : r ∉ hostOps0_3_W) :
    after (hostOps0_3 (F := Ideal)) X (Proc.devRef .tc r) = X (Proc.devRef .tc r) :=
  after_of_writes_sub (hostOps0_3 (F := Ideal)) _ hostOps0_3_writes h

/-- The references the operations of `hostOps0_4` (before region 0, fifth stretch) write, in order. -/
abbrev hostOps0_4_W : List (Ref sig .tc) := [main_v23, main_v24, main_v25, main_v26, main_v27, main_v28, main_v29, main_c_2, main_v30, main_v31, main_c_3, main_v32, main_v33, main_v34, main_v35, main_v36, main_v37, main_v38, main_cst_4, main_v39, main_v40, main_v41, main_v42]
theorem hostOps0_4_writes : (hostOps0_4 (F := Ideal)).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps0_4` does not write keeps its contents through it. -/
theorem hostOps0_4_keep (X : Valuation τ sig (Elt Ideal)) (r : Ref sig .tc) (h : r ∉ hostOps0_4_W) :
    after (hostOps0_4 (F := Ideal)) X (Proc.devRef .tc r) = X (Proc.devRef .tc r) :=
  after_of_writes_sub (hostOps0_4 (F := Ideal)) _ hostOps0_4_writes h

/-- The references the operations of `hostOps1` (before region 1) write, in order. -/
abbrev hostOps1_W : List (Ref sig .tc) := [main_v44, main_c_5, main_v45, main_v46, main_c_6, main_v47, main_v48, main_v49, main_v50, main_v51, main_v52, main_v53, main_cst_7, main_v54, main_v55, main_v56, main_v57]
theorem hostOps1_writes : (hostOps1 (F := Ideal)).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps1` does not write keeps its contents through it. -/
theorem hostOps1_keep (X : Valuation τ sig (Elt Ideal)) (r : Ref sig .tc) (h : r ∉ hostOps1_W) :
    after (hostOps1 (F := Ideal)) X (Proc.devRef .tc r) = X (Proc.devRef .tc r) :=
  after_of_writes_sub (hostOps1 (F := Ideal)) _ hostOps1_writes h

/-- The references the operations of `hostOps2` (before region 2) write, in order. -/
abbrev hostOps2_W : List (Ref sig .tc) := [main_v59, main_c_8, main_v60, main_v61, main_c_9, main_v62, main_v63, main_v64, main_v65, main_v66, main_v67, main_v68, main_cst_10, main_v69, main_v70, main_v71, main_v72]
theorem hostOps2_writes : (hostOps2 (F := Ideal)).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps2` does not write keeps its contents through it. -/
theorem hostOps2_keep (X : Valuation τ sig (Elt Ideal)) (r : Ref sig .tc) (h : r ∉ hostOps2_W) :
    after (hostOps2 (F := Ideal)) X (Proc.devRef .tc r) = X (Proc.devRef .tc r) :=
  after_of_writes_sub (hostOps2 (F := Ideal)) _ hostOps2_writes h

/-- The references the operations of `hostOps3` (before region 3) write, in order. -/
abbrev hostOps3_W : List (Ref sig .tc) := [main_v74, main_c_11, main_v75, main_v76, main_c_12, main_v77, main_v78, main_v79, main_v80, main_v81, main_v82, main_v83, main_cst_13, main_v84, main_v85, main_v86, main_v87]
theorem hostOps3_writes : (hostOps3 (F := Ideal)).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps3` does not write keeps its contents through it. -/
theorem hostOps3_keep (X : Valuation τ sig (Elt Ideal)) (r : Ref sig .tc) (h : r ∉ hostOps3_W) :
    after (hostOps3 (F := Ideal)) X (Proc.devRef .tc r) = X (Proc.devRef .tc r) :=
  after_of_writes_sub (hostOps3 (F := Ideal)) _ hostOps3_writes h

/-- The references the operations of `hostOps4` (before region 4) write, in order. -/
abbrev hostOps4_W : List (Ref sig .tc) := [main_v89, main_c_14, main_v90, main_v91, main_c_15, main_v92, main_v93, main_v94, main_v95, main_v96, main_v97, main_v98, main_cst_16, main_v99, main_v100, main_v101, main_v102]
theorem hostOps4_writes : (hostOps4 (F := Ideal)).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps4` does not write keeps its contents through it. -/
theorem hostOps4_keep (X : Valuation τ sig (Elt Ideal)) (r : Ref sig .tc) (h : r ∉ hostOps4_W) :
    after (hostOps4 (F := Ideal)) X (Proc.devRef .tc r) = X (Proc.devRef .tc r) :=
  after_of_writes_sub (hostOps4 (F := Ideal)) _ hostOps4_writes h

/-- The references the operations of `hostOps5` (after region 4, first stretch) write, in order. -/
abbrev hostOps5_W : List (Ref sig .tc) := [main_cst_17, main_v104, main_v105, main_v106, main_v107, main_cst_18, main_v108, main_cst_19, main_v109, main_v110, main_c_20]
theorem hostOps5_writes : (hostOps5 (F := Ideal)).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps5` does not write keeps its contents through it. -/
theorem hostOps5_keep (X : Valuation τ sig (Elt Ideal)) (r : Ref sig .tc) (h : r ∉ hostOps5_W) :
    after (hostOps5 (F := Ideal)) X (Proc.devRef .tc r) = X (Proc.devRef .tc r) :=
  after_of_writes_sub (hostOps5 (F := Ideal)) _ hostOps5_writes h

/-- The references the operations of `hostOps5_1` (after region 4, second stretch (the variance of the decoder's hidden layer)) write, in order. -/
abbrev hostOps5_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v111]
theorem hostOps5_1_writes : (hostOps5_1 (F := Ideal)).Forall fun op => op.writes ⊆ (hostOps5_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps5_1` does not write keeps its contents through it. -/
theorem hostOps5_1_keep (X : Valuation τ sig (Elt Ideal)) (r : Ref sig .tc) (h : r ∉ hostOps5_1_W) :
    after (hostOps5_1 (F := Ideal)) X (Proc.devRef .tc r) = X (Proc.devRef .tc r) :=
  after_of_writes_sub (hostOps5_1 (F := Ideal)) _ hostOps5_1_writes h

/-- The references the operations of `hostOps5_2` (after region 4, third stretch) write, in order. -/
abbrev hostOps5_2_W : List (Ref sig .tc) := [main_cst_21, main_v112, main_v113, main_v114, main_v115, main_v116, main_v117, main_v118, main_v119, main_v120, main_v121, main_v122, main_v123]
theorem hostOps5_2_writes : (hostOps5_2 (F := Ideal)).Forall fun op => op.writes ⊆ (hostOps5_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps5_2` does not write keeps its contents through it. -/
theorem hostOps5_2_keep (X : Valuation τ sig (Elt Ideal)) (r : Ref sig .tc) (h : r ∉ hostOps5_2_W) :
    after (hostOps5_2 (F := Ideal)) X (Proc.devRef .tc r) = X (Proc.devRef .tc r) :=
  after_of_writes_sub (hostOps5_2 (F := Ideal)) _ hostOps5_2_writes h

/-- The references the operations of `hostOps5_3` (after region 4, fourth stretch (the relu)) write, in order. -/
abbrev hostOps5_3_W : List (Ref sig .tc) := [main_call3_cst, main_call3_v0, main_v124]
theorem hostOps5_3_writes : (hostOps5_3 (F := Ideal)).Forall fun op => op.writes ⊆ (hostOps5_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps5_3` does not write keeps its contents through it. -/
theorem hostOps5_3_keep (X : Valuation τ sig (Elt Ideal)) (r : Ref sig .tc) (h : r ∉ hostOps5_3_W) :
    after (hostOps5_3 (F := Ideal)) X (Proc.devRef .tc r) = X (Proc.devRef .tc r) :=
  after_of_writes_sub (hostOps5_3 (F := Ideal)) _ hostOps5_3_writes h

/-- The references the operations of `hostOps5_4` (after region 4, fifth stretch) write, in order. -/
abbrev hostOps5_4_W : List (Ref sig .tc) := [main_v125, main_v126, main_v127]
theorem hostOps5_4_writes : (hostOps5_4 (F := Ideal)).Forall fun op => op.writes ⊆ (hostOps5_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A reference `hostOps5_4` does not write keeps its contents through it. -/
theorem hostOps5_4_keep (X : Valuation τ sig (Elt Ideal)) (r : Ref sig .tc) (h : r ∉ hostOps5_4_W) :
    after (hostOps5_4 (F := Ideal)) X (Proc.devRef .tc r) = X (Proc.devRef .tc r) :=
  after_of_writes_sub (hostOps5_4 (F := Ideal)) _ hostOps5_4_writes h

/-! ## The encoder: the four lines before region 0's own line -/

/-- The valuation after the first four lines (the encoder up to batch normalisation and relu). -/
def XE (X : Valuation τ sig (Elt Ideal)) : Valuation τ sig (Elt Ideal) :=
  after (hostOps0_3 (F := Ideal)) (after (hostOps0_2 (F := Ideal)) (after (hostOps0_1 (F := Ideal)) (after (hostOps0 (F := Ideal)) X)))

/-- The source node of every edge. -/
theorem e_v1 (X : Valuation τ sig (Elt Ideal)) :
    XE X (Proc.devRef .tc main_v1) = Spec.idxS (F := Ideal) (X (Proc.devRef .tc main_arg1)) := by
  unfold XE
  simp only [hostOps0, hostOps0_1, hostOps0_2, hostOps0_3]
  after_results_simp
  rfl

/-- The destination node of every edge. -/
theorem e_v3 (X : Valuation τ sig (Elt Ideal)) :
    XE X (Proc.devRef .tc main_v3) = Spec.idxD (F := Ideal) (X (Proc.devRef .tc main_arg1)) := by
  unfold XE
  simp only [hostOps0, hostOps0_1, hostOps0_2, hostOps0_3]
  after_results_simp
  rfl

/-- The encoder's output: batch normalisation with relu, in the kernel program's spelling, of x · Wᵀ with its own column means and variances. -/
theorem e_v22 (X : Valuation τ sig (Elt Ideal)) :
    XE X (Proc.devRef .tc main_v22) = Spec.bnK (F := Ideal) (Spec.encPre (F := Ideal) (X (Proc.devRef .tc main_arg0)) (X (Proc.devRef .tc main_arg3))) (Spec.mean128 (F := Ideal) (Spec.encPre (F := Ideal) (X (Proc.devRef .tc main_arg0)) (X (Proc.devRef .tc main_arg3)))) (Spec.var128 (F := Ideal) (Spec.encPre (F := Ideal) (X (Proc.devRef .tc main_arg0)) (X (Proc.devRef .tc main_arg3)))) (X (Proc.devRef .tc main_arg4)) (X (Proc.devRef .tc main_arg5)) := by
  unfold XE
  simp only [hostOps0, hostOps0_1, hostOps0_2, hostOps0_3]
  after_results_simp
  rfl

/-- A reference none of the first four lines writes keeps its contents through them. -/
theorem e_keep (X : Valuation τ sig (Elt Ideal)) (r : Ref sig .tc) (h0 : r ∉ hostOps0_W) (h1 : r ∉ hostOps0_1_W) (h2 : r ∉ hostOps0_2_W)
    (h3 : r ∉ hostOps0_3_W) : XE X (Proc.devRef .tc r) = X (Proc.devRef .tc r) := by
  unfold XE
  rw [hostOps0_3_keep _ r h3, hostOps0_2_keep _ r h2, hostOps0_1_keep _ r h1, hostOps0_keep _ r h0]

/-! ## The line before region 0 -/

/-- The input weights, transposed. -/
theorem a_v24 (X : Valuation τ sig (Elt Ideal)) :
    after (hostOps0_4 (F := Ideal)) X (Proc.devRef .tc main_v24) = Spec.wT (F := Ideal) (X (Proc.devRef .tc main_arg6)) := by
  simp only [hostOps0_4]
  after_results_simp
  rfl

/-- The hidden weights, transposed. -/
theorem a_v26 (X : Valuation τ sig (Elt Ideal)) :
    after (hostOps0_4 (F := Ideal)) X (Proc.devRef .tc main_v26) = Spec.wT (F := Ideal) (X (Proc.devRef .tc main_arg7)) := by
  simp only [hostOps0_4]
  after_results_simp
  rfl

/-- The input bias as a row. -/
theorem a_v27 (X : Valuation τ sig (Elt Ideal)) :
    after (hostOps0_4 (F := Ideal)) X (Proc.devRef .tc main_v27) = Spec.bRow (F := Ideal) (X (Proc.devRef .tc main_arg8)) := by
  simp only [hostOps0_4]
  after_results_simp
  rfl

/-- The hidden bias as a row. -/
theorem a_v28 (X : Valuation τ sig (Elt Ideal)) :
    after (hostOps0_4 (F := Ideal)) X (Proc.devRef .tc main_v28) = Spec.bRow (F := Ideal) (X (Proc.devRef .tc main_arg9)) := by
  simp only [hostOps0_4]
  after_results_simp
  rfl

/-- The first aggregate. -/
theorem a_v41 (X : Valuation τ sig (Elt Ideal)) :
    after (hostOps0_4 (F := Ideal)) X (Proc.devRef .tc main_v41) = Spec.agg (F := Ideal) (X (Proc.devRef .tc main_arg2)) (X (Proc.devRef .tc main_v1)) (X (Proc.devRef .tc main_v3)) (X (Proc.devRef .tc main_v22)) := by
  simp only [hostOps0_4]
  after_results_simp
  rfl

/-- The running sum after the first aggregate. -/
theorem a_v42 (X : Valuation τ sig (Elt Ideal)) :
    after (hostOps0_4 (F := Ideal)) X (Proc.devRef .tc main_v42) = Spec.hsAdd (F := Ideal) (X (Proc.devRef .tc main_v22)) (Spec.agg (F := Ideal) (X (Proc.devRef .tc main_arg2)) (X (Proc.devRef .tc main_v1)) (X (Proc.devRef .tc main_v3)) (X (Proc.devRef .tc main_v22))) := by
  simp only [hostOps0_4]
  after_results_simp
  rfl

/-! ## The lines before regions 1 … 4 -/

/-- The aggregate of the state region 0 left. -/
theorem l1_agg (X : Valuation τ sig (Elt Ideal)) :
    after (hostOps1 (F := Ideal)) X (Proc.devRef .tc main_v56) = Spec.agg (F := Ideal) (X (Proc.devRef .tc main_arg2)) (X (Proc.devRef .tc main_v1)) (X (Proc.devRef .tc main_v3)) (X (Proc.devRef .tc main_v43)) := by
  simp only [hostOps1]
  after_results_simp
  rfl

/-- The running sum with that aggregate added. -/
theorem l1_hs (X : Valuation τ sig (Elt Ideal)) :
    after (hostOps1 (F := Ideal)) X (Proc.devRef .tc main_v57) = Spec.hsAdd (F := Ideal) (X (Proc.devRef .tc main_v42)) (Spec.agg (F := Ideal) (X (Proc.devRef .tc main_arg2)) (X (Proc.devRef .tc main_v1)) (X (Proc.devRef .tc main_v3)) (X (Proc.devRef .tc main_v43))) := by
  simp only [hostOps1]
  after_results_simp
  rfl

/-- The aggregate of the state region 1 left. -/
theorem l2_agg (X : Valuation τ sig (Elt Ideal)) :
    after (hostOps2 (F := Ideal)) X (Proc.devRef .tc main_v71) = Spec.agg (F := Ideal) (X (Proc.devRef .tc main_arg2)) (X (Proc.devRef .tc main_v1)) (X (Proc.devRef .tc main_v3)) (X (Proc.devRef .tc main_v58)) := by
  simp only [hostOps2]
  after_results_simp
  rfl

/-- The running sum with that aggregate added. -/
theorem l2_hs (X : Valuation τ sig (Elt Ideal)) :
    after (hostOps2 (F := Ideal)) X (Proc.devRef .tc main_v72) = Spec.hsAdd (F := Ideal) (X (Proc.devRef .tc main_v57)) (Spec.agg (F := Ideal) (X (Proc.devRef .tc main_arg2)) (X (Proc.devRef .tc main_v1)) (X (Proc.devRef .tc main_v3)) (X (Proc.devRef .tc main_v58))) := by
  simp only [hostOps2]
  after_results_simp
  rfl

/-- The aggregate of the state region 2 left. -/
theorem l3_agg (X : Valuation τ sig (Elt Ideal)) :
    after (hostOps3 (F := Ideal)) X (Proc.devRef .tc main_v86) = Spec.agg (F := Ideal) (X (Proc.devRef .tc main_arg2)) (X (Proc.devRef .tc main_v1)) (X (Proc.devRef .tc main_v3)) (X (Proc.devRef .tc main_v73)) := by
  simp only [hostOps3]
  after_results_simp
  rfl

/-- The running sum with that aggregate added. -/
theorem l3_hs (X : Valuation τ sig (Elt Ideal)) :
    after (hostOps3 (F := Ideal)) X (Proc.devRef .tc main_v87) = Spec.hsAdd (F := Ideal) (X (Proc.devRef .tc main_v72)) (Spec.agg (F := Ideal) (X (Proc.devRef .tc main_arg2)) (X (Proc.devRef .tc main_v1)) (X (Proc.devRef .tc main_v3)) (X (Proc.devRef .tc main_v73))) := by
  simp only [hostOps3]
  after_results_simp
  rfl

/-- The aggregate of the state region 3 left. -/
theorem l4_agg (X : Valuation τ sig (Elt Ideal)) :
    after (hostOps4 (F := Ideal)) X (Proc.devRef .tc main_v101) = Spec.agg (F := Ideal) (X (Proc.devRef .tc main_arg2)) (X (Proc.devRef .tc main_v1)) (X (Proc.devRef .tc main_v3)) (X (Proc.devRef .tc main_v88)) := by
  simp only [hostOps4]
  after_results_simp
  rfl

/-- The running sum with that aggregate added. -/
theorem l4_hs (X : Valuation τ sig (Elt Ideal)) :
    after (hostOps4 (F := Ideal)) X (Proc.devRef .tc main_v102) = Spec.hsAdd (F := Ideal) (X (Proc.devRef .tc main_v87)) (Spec.agg (F := Ideal) (X (Proc.devRef .tc main_arg2)) (X (Proc.devRef .tc main_v1)) (X (Proc.devRef .tc main_v3)) (X (Proc.devRef .tc main_v88))) := by
  simp only [hostOps4]
  after_results_simp
  rfl

/-! ## The decoder: the five lines after region 4 -/

/-- The valuation after the last five lines. -/
def XD (X : Valuation τ sig (Elt Ideal)) : Valuation τ sig (Elt Ideal) :=
  after (hostOps5_4 (F := Ideal)) (after (hostOps5_3 (F := Ideal)) (after (hostOps5_2 (F := Ideal)) (after (hostOps5_1 (F := Ideal)) (after (hostOps5 (F := Ideal)) X))))

/-- The program's result: the decoder, with batch normalisation in the kernel program's spelling, of the running sum. -/
theorem d_out (X : Valuation τ sig (Elt Ideal)) :
    XD X (Proc.devRef .tc main_v127) = Net.dec (Spec.bnK64 (F := Ideal)) (X (Proc.devRef .tc main_v102)) (X (Proc.devRef .tc main_arg10)) (X (Proc.devRef .tc main_arg11)) (X (Proc.devRef .tc main_arg12)) (X (Proc.devRef .tc main_arg13)) := by
  unfold XD
  simp only [hostOps5, hostOps5_1, hostOps5_2, hostOps5_3, hostOps5_4]
  after_results_simp
  rfl

/-- A reference none of the last five lines writes keeps its contents through them. -/
theorem d_keep (X : Valuation τ sig (Elt Ideal)) (r : Ref sig .tc) (h0 : r ∉ hostOps5_W) (h1 : r ∉ hostOps5_1_W) (h2 : r ∉ hostOps5_2_W)
    (h3 : r ∉ hostOps5_3_W) (h4 : r ∉ hostOps5_4_W) : XD X (Proc.devRef .tc r) = X (Proc.devRef .tc r) := by
  unfold XD
  rw [hostOps5_4_keep _ r h4, hostOps5_3_keep _ r h3, hostOps5_2_keep _ r h2, hostOps5_1_keep _ r h1, hostOps5_keep _ r h0]

end Cert.KernelIdeal.Stretch

end
-- ==== Proof.CellWhole.lean ====
/-
  The GRU-cell launch as a whole-array function. One output entry is a scalar formula (`Cell`) of one row of the
  aggregate, one row of the hidden state, the two weight matrices and the two bias rows; the whole 50000 × 128 output
  applies it row by row (`whole`).
-/
import proofs.«141514_j89154931130446_1_alg».proof.KernelIdeal
import Idealize.ShloMosaic.Lib.ValueIdx
import Idealize.ShloMosaic.PureOps.Ideal

noncomputable section

namespace Cert.KernelIdeal.Reg

open Cert.KernelIdeal Idealize.ShloMosaic Idealize.ShloMosaic.ValueIdx

/-- The scalar formula of one output entry: row `a` of the aggregate, row `p` of the hidden state, the two weight
    matrices, the two bias rows, the lane. -/
abbrev Cell := (Fin 128 → EReal) → (Fin 128 → EReal) → (Fin 128 → Fin 384 → EReal) → (Fin 128 → Fin 384 → EReal)
    → (Fin 384 → EReal) → (Fin 384 → EReal) → Fin 128 → EReal

/-- The whole output array as a function of the whole input arrays: entry (i, j) is the cell formula of row i. -/
def whole (cell : Cell) (a p : S50000x128.Idx → EReal) (w1 w2 : S128x384.Idx → EReal) (b1 b2 : S1x384.Idx → EReal) :
    S50000x128.Idx → EReal := fun i =>
  let r : Fin 50000 := i 0
  let q : Fin 128 := i 1
  cell (fun k => a (ix2 r k)) (fun k => p (ix2 r k)) (fun k c => w1 (ix2 k c)) (fun k c => w2 (ix2 k c))
    (fun c => b1 (ix2 (0 : Fin 1) c)) (fun c => b2 (ix2 (0 : Fin 1) c)) q

/-- At an index given by its coordinates. -/
theorem whole_apply (cell : Cell) (a p : S50000x128.Idx → EReal) (w1 w2 : S128x384.Idx → EReal) (b1 b2 : S1x384.Idx → EReal)
    (r : Fin 50000) (q : Fin 128) : whole cell a p w1 w2 b1 b2 (ix2 r q)
      = cell (fun k => a (ix2 r k)) (fun k => p (ix2 r k)) (fun k c => w1 (ix2 k c)) (fun k c => w2 (ix2 k c))
          (fun c => b1 (ix2 (0 : Fin 1) c)) (fun c => b2 (ix2 (0 : Fin 1) c)) q := rfl

end Cert.KernelIdeal.Reg

end
-- ==== Proof.Region0.lean ====
/-
  Region 0 of the idealized kernel program (one GRU-cell launch over 25 row blocks of 2000 rows): what its output
  array holds when the region ends, as ONE function of the arrays the region finds.
  Point t of the grid reads rows 2000·t … 2000·t + 1999 of the aggregate and of the hidden state, the two weight
  matrices and the two bias rows whole, and writes rows 2000·t … 2000·t + 1999 of the output. If the body's payload
  at row p and lane j is a formula `cell` of row p of the two row blocks and of the weights and biases (`hpay`), then
  entry (i, j) of the output array is `cell` of row i of the aggregate and of the hidden state: the blocks are
  restrictions of one whole-array function, and the 25 blocks cover the 50000 rows (row i lies in block i / 2000).
-/
import proofs.«141514_j89154931130446_1_alg».proof.Proof.Gen.KernelIdeal.Frame
import proofs.«141514_j89154931130446_1_alg».proof.Proof.CellWhole
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.Reg (Cell whole)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-block windows and the output window sit at block row t, the
    four whole-array windows at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 25 :=
  (by decide +kernel : ∀ t : Fin grid0.N, _)

/-- WHAT POINT t WRITES BACK is block t of the whole-array function of the arrays as the region finds them. -/
theorem flushed_eq (cell : Cell)
    (hpay : ∀ (x0 x1 : Vec Ideal S2000x128 .f32) (x2 x3 : Vec Ideal S128x384 .bf16) (x4 x5 : Vec Ideal S1x384 .f32)
      (p : Fin 2000) (j : Fin 128), k0_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) (t : Fin cfg0.N) :
    (dat0 (F := Ideal) V c).flushed 6 t = ((cfg0.win 6).blk t).view.read (Elt Ideal)
      (whole cell (V c main_v41) (V c main_v22) (V c main_v24) (V c main_v26) (V c main_v27) (V c main_v28)) := by
  show (cfg0.win 6).cut (grid0.coords t) ((dat0 (F := Ideal) V c).after 6 t) = _
  rw [after0_6]
  unfold out0_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61, ht⟩ := idx_facts t
  funext j
  obtain ⟨p, q, rfl⟩ : ∃ (p : Fin 2000) (q : Fin 128), j = ix2 p q := ⟨j 0, j 1, eq_ix2 j⟩
  refine (hpay (iblk0 V c 0 t) (iblk0 V c 1 t) (iblk0 V c 2 t) (iblk0 V c 3 t) (iblk0 V c 4 t) (iblk0 V c 5 t) p q).trans ?_
  have hp : p.val < 2000 := p.isLt
  have hq : q.val < 128 := q.isLt
  obtain ⟨r, hr⟩ : ∃ r : Fin 50000, r.val = t.val * 2000 + p.val := ⟨⟨t.val * 2000 + p.val, by omega⟩, rfl⟩
  have h6 : ((cfg0.win 6).blk t).view.emb (ix2 p q) = ix2 r q := by
    funext a; apply Fin.ext
    match a with
    | ⟨0, _⟩ => show win0_6.index t (0 : Fin 2) * 2000 + 1 * p.val = r.val; omega
    | ⟨1, _⟩ => show win0_6.index t (1 : Fin 2) * 128 + 1 * q.val = q.val; omega
  have h0 : ∀ k : Fin 128, ((cfg0.win 0).blk t).view.emb (ix2 p k) = ix2 r k := by
    intro k; funext a; apply Fin.ext
    match a with
    | ⟨0, _⟩ => show win0_0.index t (0 : Fin 2) * 2000 + 1 * p.val = r.val; omega
    | ⟨1, _⟩ => show win0_0.index t (1 : Fin 2) * 128 + 1 * k.val = k.val; omega
  have h1 : ∀ k : Fin 128, ((cfg0.win 1).blk t).view.emb (ix2 p k) = ix2 r k := by
    intro k; funext a; apply Fin.ext
    match a with
    | ⟨0, _⟩ => show win0_1.index t (0 : Fin 2) * 2000 + 1 * p.val = r.val; omega
    | ⟨1, _⟩ => show win0_1.index t (1 : Fin 2) * 128 + 1 * k.val = k.val; omega
  have h2 : ∀ (k : Fin 128) (c' : Fin 384), ((cfg0.win 2).blk t).view.emb (ix2 k c') = ix2 k c' := by
    intro k c'; funext a; apply Fin.ext
    match a with
    | ⟨0, _⟩ => show win0_2.index t (0 : Fin 2) * 128 + 1 * k.val = k.val; omega
    | ⟨1, _⟩ => show win0_2.index t (1 : Fin 2) * 384 + 1 * c'.val = c'.val; omega
  have h3 : ∀ (k : Fin 128) (c' : Fin 384), ((cfg0.win 3).blk t).view.emb (ix2 k c') = ix2 k c' := by
    intro k c'; funext a; apply Fin.ext
    match a with
    | ⟨0, _⟩ => show win0_3.index t (0 : Fin 2) * 128 + 1 * k.val = k.val; omega
    | ⟨1, _⟩ => show win0_3.index t (1 : Fin 2) * 384 + 1 * c'.val = c'.val; omega
  have h4 : ∀ (c' : Fin 384), ((cfg0.win 4).blk t).view.emb (ix2 (0 : Fin 1) c') = ix2 (0 : Fin 1) c' := by
    intro c'; funext a; apply Fin.ext
    match a with
    | ⟨0, _⟩ => show win0_4.index t (0 : Fin 2) * 1 + 1 * 0 = 0; omega
    | ⟨1, _⟩ => show win0_4.index t (1 : Fin 2) * 384 + 1 * c'.val = c'.val; omega
  have h5 : ∀ (c' : Fin 384), ((cfg0.win 5).blk t).view.emb (ix2 (0 : Fin 1) c') = ix2 (0 : Fin 1) c' := by
    intro c'; funext a; apply Fin.ext
    match a with
    | ⟨0, _⟩ => show win0_5.index t (0 : Fin 2) * 1 + 1 * 0 = 0; omega
    | ⟨1, _⟩ => show win0_5.index t (1 : Fin 2) * 384 + 1 * c'.val = c'.val; omega
  have e0 : (fun k : Fin 128 => iblk0 V c 0 t (ix2 p k)) = (fun k : Fin 128 => V c main_v41 (ix2 r k)) :=
    funext fun k => (show iblk0 V c 0 t (ix2 p k) = V c main_v41 (((cfg0.win 0).blk t).view.emb (ix2 p k)) from rfl).trans (congrArg (V c main_v41) (h0 k))
  have e1 : (fun k : Fin 128 => iblk0 V c 1 t (ix2 p k)) = (fun k : Fin 128 => V c main_v22 (ix2 r k)) :=
    funext fun k => (show iblk0 V c 1 t (ix2 p k) = V c main_v22 (((cfg0.win 1).blk t).view.emb (ix2 p k)) from rfl).trans (congrArg (V c main_v22) (h1 k))
  have e2 : (fun (k : Fin 128) (c' : Fin 384) => iblk0 V c 2 t (ix2 k c')) = (fun (k : Fin 128) (c' : Fin 384) => V c main_v24 (ix2 k c')) :=
    funext fun k => funext fun c' => (show iblk0 V c 2 t (ix2 k c') = V c main_v24 (((cfg0.win 2).blk t).view.emb (ix2 k c')) from rfl).trans (congrArg (V c main_v24) (h2 k c'))
  have e3 : (fun (k : Fin 128) (c' : Fin 384) => iblk0 V c 3 t (ix2 k c')) = (fun (k : Fin 128) (c' : Fin 384) => V c main_v26 (ix2 k c')) :=
    funext fun k => funext fun c' => (show iblk0 V c 3 t (ix2 k c') = V c main_v26 (((cfg0.win 3).blk t).view.emb (ix2 k c')) from rfl).trans (congrArg (V c main_v26) (h3 k c'))
  have e4 : (fun (c' : Fin 384) => iblk0 V c 4 t (ix2 (0 : Fin 1) c')) = (fun (c' : Fin 384) => V c main_v27 (ix2 (0 : Fin 1) c')) :=
    funext fun c' => (show iblk0 V c 4 t (ix2 (0 : Fin 1) c') = V c main_v27 (((cfg0.win 4).blk t).view.emb (ix2 (0 : Fin 1) c')) from rfl).trans (congrArg (V c main_v27) (h4 c'))
  have e5 : (fun (c' : Fin 384) => iblk0 V c 5 t (ix2 (0 : Fin 1) c')) = (fun (c' : Fin 384) => V c main_v28 (ix2 (0 : Fin 1) c')) :=
    funext fun c' => (show iblk0 V c 5 t (ix2 (0 : Fin 1) c') = V c main_v28 (((cfg0.win 5).blk t).view.emb (ix2 (0 : Fin 1) c')) from rfl).trans (congrArg (V c main_v28) (h5 c'))
  refine (congrFun (congr (congr (congr (congr (congr (congrArg cell e0) e1) e2) e3) e4) e5) q).trans ?_
  refine (show cell (fun k : Fin 128 => V c main_v41 (ix2 r k)) (fun k : Fin 128 => V c main_v22 (ix2 r k))
      (fun (k : Fin 128) (c' : Fin 384) => V c main_v24 (ix2 k c')) (fun (k : Fin 128) (c' : Fin 384) => V c main_v26 (ix2 k c'))
      (fun (c' : Fin 384) => V c main_v27 (ix2 (0 : Fin 1) c')) (fun (c' : Fin 384) => V c main_v28 (ix2 (0 : Fin 1) c')) q
        = whole cell (V c main_v41) (V c main_v22) (V c main_v24) (V c main_v26) (V c main_v27) (V c main_v28) (ix2 r q) from rfl).trans ?_
  refine (congrArg (whole cell (V c main_v41) (V c main_v22) (V c main_v24) (V c main_v26) (V c main_v27) (V c main_v28)) h6.symm).trans ?_
  rfl

/-- An index of the array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v43).slice (win0_6.rect t)).set ↔ _
  rw [View.set_slice_whole, Rect.mem_set_unit]
  exact Iff.rfl

/-- Every row is in some block: row i lies in block i / 2000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e00, e01, e10, e11, e20, e21, e30, e31, e40, e41, e50, e51, e60, e61, ht⟩ := idx_facts t
  have htv : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE OUTPUT ARRAY when the region ends: the whole-array function of the arrays the region found. -/
theorem final (cell : Cell)
    (hpay : ∀ (x0 x1 : Vec Ideal S2000x128 .f32) (x2 x3 : Vec Ideal S128x384 .bf16) (x4 x5 : Vec Ideal S1x384 .f32)
      (p : Fin 2000) (j : Fin 128), k0_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) :
    (dat0 (F := Ideal) V c).arrAt 6 cfg0.N
      = whole cell (V c main_v41) (V c main_v22) (V c main_v24) (V c main_v26) (V c main_v27) (V c main_v28) :=
  (dat0 (F := Ideal) V c).arrAt_eq_of_cover 6 _ (fun t _ => flushed_eq V cell hpay c t) cover

end Cert.KernelIdeal.Reg0

end
-- ==== Proof.Region1.lean ====
/-
  Region 1 of the idealized kernel program (one GRU-cell launch over 25 row blocks of 2000 rows): what its output
  array holds when the region ends, as ONE function of the arrays the region finds.
  Point t of the grid reads rows 2000·t … 2000·t + 1999 of the aggregate and of the hidden state, the two weight
  matrices and the two bias rows whole, and writes rows 2000·t … 2000·t + 1999 of the output. If the body's payload
  at row p and lane j is a formula `cell` of row p of the two row blocks and of the weights and biases (`hpay`), then
  entry (i, j) of the output array is `cell` of row i of the aggregate and of the hidden state: the blocks are
  restrictions of one whole-array function, and the 25 blocks cover the 50000 rows (row i lies in block i / 2000).
-/
import proofs.«141514_j89154931130446_1_alg».proof.Proof.Gen.KernelIdeal.Frame
import proofs.«141514_j89154931130446_1_alg».proof.Proof.CellWhole
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.Reg (Cell whole)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-block windows and the output window sit at block row t, the
    four whole-array windows at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 25 :=
  (by decide +kernel : ∀ t : Fin grid1.N, _)

/-- WHAT POINT t WRITES BACK is block t of the whole-array function of the arrays as the region finds them. -/
theorem flushed_eq (cell : Cell)
    (hpay : ∀ (x0 x1 : Vec Ideal S2000x128 .f32) (x2 x3 : Vec Ideal S128x384 .bf16) (x4 x5 : Vec Ideal S1x384 .f32)
      (p : Fin 2000) (j : Fin 128), k1_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) (t : Fin cfg1.N) :
    (dat1 (F := Ideal) V c).flushed 6 t = ((cfg1.win 6).blk t).view.read (Elt Ideal)
      (whole cell (V c main_v56) (V c main_v43) (V c main_v24) (V c main_v26) (V c main_v27) (V c main_v28)) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61, ht⟩ := idx_facts t
  funext j
  obtain ⟨p, q, rfl⟩ : ∃ (p : Fin 2000) (q : Fin 128), j = ix2 p q := ⟨j 0, j 1, eq_ix2 j⟩
  refine (hpay (iblk1 V c 0 t) (iblk1 V c 1 t) (iblk1 V c 2 t) (iblk1 V c 3 t) (iblk1 V c 4 t) (iblk1 V c 5 t) p q).trans ?_
  have hp : p.val < 2000 := p.isLt
  have hq : q.val < 128 := q.isLt
  obtain ⟨r, hr⟩ : ∃ r : Fin 50000, r.val = t.val * 2000 + p.val := ⟨⟨t.val * 2000 + p.val, by omega⟩, rfl⟩
  have h6 : ((cfg1.win 6).blk t).view.emb (ix2 p q) = ix2 r q := by
    funext a; apply Fin.ext
    match a with
    | ⟨0, _⟩ => show win1_6.index t (0 : Fin 2) * 2000 + 1 * p.val = r.val; omega
    | ⟨1, _⟩ => show win1_6.index t (1 : Fin 2) * 128 + 1 * q.val = q.val; omega
  have h0 : ∀ k : Fin 128, ((cfg1.win 0).blk t).view.emb (ix2 p k) = ix2 r k := by
    intro k; funext a; apply Fin.ext
    match a with
    | ⟨0, _⟩ => show win1_0.index t (0 : Fin 2) * 2000 + 1 * p.val = r.val; omega
    | ⟨1, _⟩ => show win1_0.index t (1 : Fin 2) * 128 + 1 * k.val = k.val; omega
  have h1 : ∀ k : Fin 128, ((cfg1.win 1).blk t).view.emb (ix2 p k) = ix2 r k := by
    intro k; funext a; apply Fin.ext
    match a with
    | ⟨0, _⟩ => show win1_1.index t (0 : Fin 2) * 2000 + 1 * p.val = r.val; omega
    | ⟨1, _⟩ => show win1_1.index t (1 : Fin 2) * 128 + 1 * k.val = k.val; omega
  have h2 : ∀ (k : Fin 128) (c' : Fin 384), ((cfg1.win 2).blk t).view.emb (ix2 k c') = ix2 k c' := by
    intro k c'; funext a; apply Fin.ext
    match a with
    | ⟨0, _⟩ => show win1_2.index t (0 : Fin 2) * 128 + 1 * k.val = k.val; omega
    | ⟨1, _⟩ => show win1_2.index t (1 : Fin 2) * 384 + 1 * c'.val = c'.val; omega
  have h3 : ∀ (k : Fin 128) (c' : Fin 384), ((cfg1.win 3).blk t).view.emb (ix2 k c') = ix2 k c' := by
    intro k c'; funext a; apply Fin.ext
    match a with
    | ⟨0, _⟩ => show win1_3.index t (0 : Fin 2) * 128 + 1 * k.val = k.val; omega
    | ⟨1, _⟩ => show win1_3.index t (1 : Fin 2) * 384 + 1 * c'.val = c'.val; omega
  have h4 : ∀ (c' : Fin 384), ((cfg1.win 4).blk t).view.emb (ix2 (0 : Fin 1) c') = ix2 (0 : Fin 1) c' := by
    intro c'; funext a; apply Fin.ext
    match a with
    | ⟨0, _⟩ => show win1_4.index t (0 : Fin 2) * 1 + 1 * 0 = 0; omega
    | ⟨1, _⟩ => show win1_4.index t (1 : Fin 2) * 384 + 1 * c'.val = c'.val; omega
  have h5 : ∀ (c' : Fin 384), ((cfg1.win 5).blk t).view.emb (ix2 (0 : Fin 1) c') = ix2 (0 : Fin 1) c' := by
    intro c'; funext a; apply Fin.ext
    match a with
    | ⟨0, _⟩ => show win1_5.index t (0 : Fin 2) * 1 + 1 * 0 = 0; omega
    | ⟨1, _⟩ => show win1_5.index t (1 : Fin 2) * 384 + 1 * c'.val = c'.val; omega
  have e0 : (fun k : Fin 128 => iblk1 V c 0 t (ix2 p k)) = (fun k : Fin 128 => V c main_v56 (ix2 r k)) :=
    funext fun k => (show iblk1 V c 0 t (ix2 p k) = V c main_v56 (((cfg1.win 0).blk t).view.emb (ix2 p k)) from rfl).trans (congrArg (V c main_v56) (h0 k))
  have e1 : (fun k : Fin 128 => iblk1 V c 1 t (ix2 p k)) = (fun k : Fin 128 => V c main_v43 (ix2 r k)) :=
    funext fun k => (show iblk1 V c 1 t (ix2 p k) = V c main_v43 (((cfg1.win 1).blk t).view.emb (ix2 p k)) from rfl).trans (congrArg (V c main_v43) (h1 k))
  have e2 : (fun (k : Fin 128) (c' : Fin 384) => iblk1 V c 2 t (ix2 k c')) = (fun (k : Fin 128) (c' : Fin 384) => V c main_v24 (ix2 k c')) :=
    funext fun k => funext fun c' => (show iblk1 V c 2 t (ix2 k c') = V c main_v24 (((cfg1.win 2).blk t).view.emb (ix2 k c')) from rfl).trans (congrArg (V c main_v24) (h2 k c'))
  have e3 : (fun (k : Fin 128) (c' : Fin 384) => iblk1 V c 3 t (ix2 k c')) = (fun (k : Fin 128) (c' : Fin 384) => V c main_v26 (ix2 k c')) :=
    funext fun k => funext fun c' => (show iblk1 V c 3 t (ix2 k c') = V c main_v26 (((cfg1.win 3).blk t).view.emb (ix2 k c')) from rfl).trans (congrArg (V c main_v26) (h3 k c'))
  have e4 : (fun (c' : Fin 384) => iblk1 V c 4 t (ix2 (0 : Fin 1) c')) = (fun (c' : Fin 384) => V c main_v27 (ix2 (0 : Fin 1) c')) :=
    funext fun c' => (show iblk1 V c 4 t (ix2 (0 : Fin 1) c') = V c main_v27 (((cfg1.win 4).blk t).view.emb (ix2 (0 : Fin 1) c')) from rfl).trans (congrArg (V c main_v27) (h4 c'))
  have e5 : (fun (c' : Fin 384) => iblk1 V c 5 t (ix2 (0 : Fin 1) c')) = (fun (c' : Fin 384) => V c main_v28 (ix2 (0 : Fin 1) c')) :=
    funext fun c' => (show iblk1 V c 5 t (ix2 (0 : Fin 1) c') = V c main_v28 (((cfg1.win 5).blk t).view.emb (ix2 (0 : Fin 1) c')) from rfl).trans (congrArg (V c main_v28) (h5 c'))
  refine (congrFun (congr (congr (congr (congr (congr (congrArg cell e0) e1) e2) e3) e4) e5) q).trans ?_
  refine (show cell (fun k : Fin 128 => V c main_v56 (ix2 r k)) (fun k : Fin 128 => V c main_v43 (ix2 r k))
      (fun (k : Fin 128) (c' : Fin 384) => V c main_v24 (ix2 k c')) (fun (k : Fin 128) (c' : Fin 384) => V c main_v26 (ix2 k c'))
      (fun (c' : Fin 384) => V c main_v27 (ix2 (0 : Fin 1) c')) (fun (c' : Fin 384) => V c main_v28 (ix2 (0 : Fin 1) c')) q
        = whole cell (V c main_v56) (V c main_v43) (V c main_v24) (V c main_v26) (V c main_v27) (V c main_v28) (ix2 r q) from rfl).trans ?_
  refine (congrArg (whole cell (V c main_v56) (V c main_v43) (V c main_v24) (V c main_v26) (V c main_v27) (V c main_v28)) h6.symm).trans ?_
  rfl

/-- An index of the array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v58).slice (win1_6.rect t)).set ↔ _
  rw [View.set_slice_whole, Rect.mem_set_unit]
  exact Iff.rfl

/-- Every row is in some block: row i lies in block i / 2000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e00, e01, e10, e11, e20, e21, e30, e31, e40, e41, e50, e51, e60, e61, ht⟩ := idx_facts t
  have htv : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- THE OUTPUT ARRAY when the region ends: the whole-array function of the arrays the region found. -/
theorem final (cell : Cell)
    (hpay : ∀ (x0 x1 : Vec Ideal S2000x128 .f32) (x2 x3 : Vec Ideal S128x384 .bf16) (x4 x5 : Vec Ideal S1x384 .f32)
      (p : Fin 2000) (j : Fin 128), k1_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) :
    (dat1 (F := Ideal) V c).arrAt 6 cfg1.N
      = whole cell (V c main_v56) (V c main_v43) (V c main_v24) (V c main_v26) (V c main_v27) (V c main_v28) :=
  (dat1 (F := Ideal) V c).arrAt_eq_of_cover 6 _ (fun t _ => flushed_eq V cell hpay c t) cover

end Cert.KernelIdeal.Reg1

end
-- ==== Proof.Region2.lean ====
/-
  Region 2 of the idealized kernel program (one GRU-cell launch over 25 row blocks of 2000 rows): what its output
  array holds when the region ends, as ONE function of the arrays the region finds.
  Point t of the grid reads rows 2000·t … 2000·t + 1999 of the aggregate and of the hidden state, the two weight
  matrices and the two bias rows whole, and writes rows 2000·t … 2000·t + 1999 of the output. If the body's payload
  at row p and lane j is a formula `cell` of row p of the two row blocks and of the weights and biases (`hpay`), then
  entry (i, j) of the output array is `cell` of row i of the aggregate and of the hidden state: the blocks are
  restrictions of one whole-array function, and the 25 blocks cover the 50000 rows (row i lies in block i / 2000).
-/
import proofs.«141514_j89154931130446_1_alg».proof.Proof.Gen.KernelIdeal.Frame
import proofs.«141514_j89154931130446_1_alg».proof.Proof.CellWhole
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.Reg (Cell whole)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-block windows and the output window sit at block row t, the
    four whole-array windows at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 25 :=
  (by decide +kernel : ∀ t : Fin grid2.N, _)

/-- WHAT POINT t WRITES BACK is block t of the whole-array function of the arrays as the region finds them. -/
theorem flushed_eq (cell : Cell)
    (hpay : ∀ (x0 x1 : Vec Ideal S2000x128 .f32) (x2 x3 : Vec Ideal S128x384 .bf16) (x4 x5 : Vec Ideal S1x384 .f32)
      (p : Fin 2000) (j : Fin 128), k2_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) (t : Fin cfg2.N) :
    (dat2 (F := Ideal) V c).flushed 6 t = ((cfg2.win 6).blk t).view.read (Elt Ideal)
      (whole cell (V c main_v71) (V c main_v58) (V c main_v24) (V c main_v26) (V c main_v27) (V c main_v28)) := by
  show (cfg2.win 6).cut (grid2.coords t) ((dat2 (F := Ideal) V c).after 6 t) = _
  rw [after2_6]
  unfold out2_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61, ht⟩ := idx_facts t
  funext j
  obtain ⟨p, q, rfl⟩ : ∃ (p : Fin 2000) (q : Fin 128), j = ix2 p q := ⟨j 0, j 1, eq_ix2 j⟩
  refine (hpay (iblk2 V c 0 t) (iblk2 V c 1 t) (iblk2 V c 2 t) (iblk2 V c 3 t) (iblk2 V c 4 t) (iblk2 V c 5 t) p q).trans ?_
  have hp : p.val < 2000 := p.isLt
  have hq : q.val < 128 := q.isLt
  obtain ⟨r, hr⟩ : ∃ r : Fin 50000, r.val = t.val * 2000 + p.val := ⟨⟨t.val * 2000 + p.val, by omega⟩, rfl⟩
  have h6 : ((cfg2.win 6).blk t).view.emb (ix2 p q) = ix2 r q := by
    funext a; apply Fin.ext
    match a with
    | ⟨0, _⟩ => show win2_6.index t (0 : Fin 2) * 2000 + 1 * p.val = r.val; omega
    | ⟨1, _⟩ => show win2_6.index t (1 : Fin 2) * 128 + 1 * q.val = q.val; omega
  have h0 : ∀ k : Fin 128, ((cfg2.win 0).blk t).view.emb (ix2 p k) = ix2 r k := by
    intro k; funext a; apply Fin.ext
    match a with
    | ⟨0, _⟩ => show win2_0.index t (0 : Fin 2) * 2000 + 1 * p.val = r.val; omega
    | ⟨1, _⟩ => show win2_0.index t (1 : Fin 2) * 128 + 1 * k.val = k.val; omega
  have h1 : ∀ k : Fin 128, ((cfg2.win 1).blk t).view.emb (ix2 p k) = ix2 r k := by
    intro k; funext a; apply Fin.ext
    match a with
    | ⟨0, _⟩ => show win2_1.index t (0 : Fin 2) * 2000 + 1 * p.val = r.val; omega
    | ⟨1, _⟩ => show win2_1.index t (1 : Fin 2) * 128 + 1 * k.val = k.val; omega
  have h2 : ∀ (k : Fin 128) (c' : Fin 384), ((cfg2.win 2).blk t).view.emb (ix2 k c') = ix2 k c' := by
    intro k c'; funext a; apply Fin.ext
    match a with
    | ⟨0, _⟩ => show win2_2.index t (0 : Fin 2) * 128 + 1 * k.val = k.val; omega
    | ⟨1, _⟩ => show win2_2.index t (1 : Fin 2) * 384 + 1 * c'.val = c'.val; omega
  have h3 : ∀ (k : Fin 128) (c' : Fin 384), ((cfg2.win 3).blk t).view.emb (ix2 k c') = ix2 k c' := by
    intro k c'; funext a; apply Fin.ext
    match a with
    | ⟨0, _⟩ => show win2_3.index t (0 : Fin 2) * 128 + 1 * k.val = k.val; omega
    | ⟨1, _⟩ => show win2_3.index t (1 : Fin 2) * 384 + 1 * c'.val = c'.val; omega
  have h4 : ∀ (c' : Fin 384), ((cfg2.win 4).blk t).view.emb (ix2 (0 : Fin 1) c') = ix2 (0 : Fin 1) c' := by
    intro c'; funext a; apply Fin.ext
    match a with
    | ⟨0, _⟩ => show win2_4.index t (0 : Fin 2) * 1 + 1 * 0 = 0; omega
    | ⟨1, _⟩ => show win2_4.index t (1 : Fin 2) * 384 + 1 * c'.val = c'.val; omega
  have h5 : ∀ (c' : Fin 384), ((cfg2.win 5).blk t).view.emb (ix2 (0 : Fin 1) c') = ix2 (0 : Fin 1) c' := by
    intro c'; funext a; apply Fin.ext
    match a with
    | ⟨0, _⟩ => show win2_5.index t (0 : Fin 2) * 1 + 1 * 0 = 0; omega
    | ⟨1, _⟩ => show win2_5.index t (1 : Fin 2) * 384 + 1 * c'.val = c'.val; omega
  have e0 : (fun k : Fin 128 => iblk2 V c 0 t (ix2 p k)) = (fun k : Fin 128 => V c main_v71 (ix2 r k)) :=
    funext fun k => (show iblk2 V c 0 t (ix2 p k) = V c main_v71 (((cfg2.win 0).blk t).view.emb (ix2 p k)) from rfl).trans (congrArg (V c main_v71) (h0 k))
  have e1 : (fun k : Fin 128 => iblk2 V c 1 t (ix2 p k)) = (fun k : Fin 128 => V c main_v58 (ix2 r k)) :=
    funext fun k => (show iblk2 V c 1 t (ix2 p k) = V c main_v58 (((cfg2.win 1).blk t).view.emb (ix2 p k)) from rfl).trans (congrArg (V c main_v58) (h1 k))
  have e2 : (fun (k : Fin 128) (c' : Fin 384) => iblk2 V c 2 t (ix2 k c')) = (fun (k : Fin 128) (c' : Fin 384) => V c main_v24 (ix2 k c')) :=
    funext fun k => funext fun c' => (show iblk2 V c 2 t (ix2 k c') = V c main_v24 (((cfg2.win 2).blk t).view.emb (ix2 k c')) from rfl).trans (congrArg (V c main_v24) (h2 k c'))
  have e3 : (fun (k : Fin 128) (c' : Fin 384) => iblk2 V c 3 t (ix2 k c')) = (fun (k : Fin 128) (c' : Fin 384) => V c main_v26 (ix2 k c')) :=
    funext fun k => funext fun c' => (show iblk2 V c 3 t (ix2 k c') = V c main_v26 (((cfg2.win 3).blk t).view.emb (ix2 k c')) from rfl).trans (congrArg (V c main_v26) (h3 k c'))
  have e4 : (fun (c' : Fin 384) => iblk2 V c 4 t (ix2 (0 : Fin 1) c')) = (fun (c' : Fin 384) => V c main_v27 (ix2 (0 : Fin 1) c')) :=
    funext fun c' => (show iblk2 V c 4 t (ix2 (0 : Fin 1) c') = V c main_v27 (((cfg2.win 4).blk t).view.emb (ix2 (0 : Fin 1) c')) from rfl).trans (congrArg (V c main_v27) (h4 c'))
  have e5 : (fun (c' : Fin 384) => iblk2 V c 5 t (ix2 (0 : Fin 1) c')) = (fun (c' : Fin 384) => V c main_v28 (ix2 (0 : Fin 1) c')) :=
    funext fun c' => (show iblk2 V c 5 t (ix2 (0 : Fin 1) c') = V c main_v28 (((cfg2.win 5).blk t).view.emb (ix2 (0 : Fin 1) c')) from rfl).trans (congrArg (V c main_v28) (h5 c'))
  refine (congrFun (congr (congr (congr (congr (congr (congrArg cell e0) e1) e2) e3) e4) e5) q).trans ?_
  refine (show cell (fun k : Fin 128 => V c main_v71 (ix2 r k)) (fun k : Fin 128 => V c main_v58 (ix2 r k))
      (fun (k : Fin 128) (c' : Fin 384) => V c main_v24 (ix2 k c')) (fun (k : Fin 128) (c' : Fin 384) => V c main_v26 (ix2 k c'))
      (fun (c' : Fin 384) => V c main_v27 (ix2 (0 : Fin 1) c')) (fun (c' : Fin 384) => V c main_v28 (ix2 (0 : Fin 1) c')) q
        = whole cell (V c main_v71) (V c main_v58) (V c main_v24) (V c main_v26) (V c main_v27) (V c main_v28) (ix2 r q) from rfl).trans ?_
  refine (congrArg (whole cell (V c main_v71) (V c main_v58) (V c main_v24) (V c main_v26) (V c main_v27) (V c main_v28)) h6.symm).trans ?_
  rfl

/-- An index of the array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v73).slice (win2_6.rect t)).set ↔ _
  rw [View.set_slice_whole, Rect.mem_set_unit]
  exact Iff.rfl

/-- Every row is in some block: row i lies in block i / 2000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e00, e01, e10, e11, e20, e21, e30, e31, e40, e41, e50, e51, e60, e61, ht⟩ := idx_facts t
  have htv : t.val = (i 0).val / 2000 := rfl
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE OUTPUT ARRAY when the region ends: the whole-array function of the arrays the region found. -/
theorem final (cell : Cell)
    (hpay : ∀ (x0 x1 : Vec Ideal S2000x128 .f32) (x2 x3 : Vec Ideal S128x384 .bf16) (x4 x5 : Vec Ideal S1x384 .f32)
      (p : Fin 2000) (j : Fin 128), k2_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) :
    (dat2 (F := Ideal) V c).arrAt 6 cfg2.N
      = whole cell (V c main_v71) (V c main_v58) (V c main_v24) (V c main_v26) (V c main_v27) (V c main_v28) :=
  (dat2 (F := Ideal) V c).arrAt_eq_of_cover 6 _ (fun t _ => flushed_eq V cell hpay c t) cover

end Cert.KernelIdeal.Reg2

end
-- ==== Proof.Region3.lean ====
/-
  Region 3 of the idealized kernel program (one GRU-cell launch over 25 row blocks of 2000 rows): what its output
  array holds when the region ends, as ONE function of the arrays the region finds.
  Point t of the grid reads rows 2000·t … 2000·t + 1999 of the aggregate and of the hidden state, the two weight
  matrices and the two bias rows whole, and writes rows 2000·t … 2000·t + 1999 of the output. If the body's payload
  at row p and lane j is a formula `cell` of row p of the two row blocks and of the weights and biases (`hpay`), then
  entry (i, j) of the output array is `cell` of row i of the aggregate and of the hidden state: the blocks are
  restrictions of one whole-array function, and the 25 blocks cover the 50000 rows (row i lies in block i / 2000).
-/
import proofs.«141514_j89154931130446_1_alg».proof.Proof.Gen.KernelIdeal.Frame
import proofs.«141514_j89154931130446_1_alg».proof.Proof.CellWhole
import Idealize.ShloMosaic.Lib.Pipeline.Value
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.Reg (Cell whole)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-block windows and the output window sit at block row t, the
    four whole-array windows at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 25 :=
  (by decide +kernel : ∀ t : Fin grid3.N, _)

/-- WHAT POINT t WRITES BACK is block t of the whole-array function of the arrays as the region finds them. -/
theorem flushed_eq (cell : Cell)
    (hpay : ∀ (x0 x1 : Vec Ideal S2000x128 .f32) (x2 x3 : Vec Ideal S128x384 .bf16) (x4 x5 : Vec Ideal S1x384 .f32)
      (p : Fin 2000) (j : Fin 128), k3_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) (t : Fin cfg3.N) :
    (dat3 (F := Ideal) V c).flushed 6 t = ((cfg3.win 6).blk t).view.read (Elt Ideal)
      (whole cell (V c main_v86) (V c main_v73) (V c main_v24) (V c main_v26) (V c main_v27) (V c main_v28)) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61, ht⟩ := idx_facts t
  funext j
  obtain ⟨p, q, rfl⟩ : ∃ (p : Fin 2000) (q : Fin 128), j = ix2 p q := ⟨j 0, j 1, eq_ix2 j⟩
  refine (hpay (iblk3 V c 0 t) (iblk3 V c 1 t) (iblk3 V c 2 t) (iblk3 V c 3 t) (iblk3 V c 4 t) (iblk3 V c 5 t) p q).trans ?_
  have hp : p.val < 2000 := p.isLt
  have hq : q.val < 128 := q.isLt
  obtain ⟨r, hr⟩ : ∃ r : Fin 50000, r.val = t.val * 2000 + p.val := ⟨⟨t.val * 2000 + p.val, by omega⟩, rfl⟩
  have h6 : ((cfg3.win 6).blk t).view.emb (ix2 p q) = ix2 r q := by
    funext a; apply Fin.ext
    match a with
    | ⟨0, _⟩ => show win3_6.index t (0 : Fin 2) * 2000 + 1 * p.val = r.val; omega
    | ⟨1, _⟩ => show win3_6.index t (1 : Fin 2) * 128 + 1 * q.val = q.val; omega
  have h0 : ∀ k : Fin 128, ((cfg3.win 0).blk t).view.emb (ix2 p k) = ix2 r k := by
    intro k; funext a; apply Fin.ext
    match a with
    | ⟨0, _⟩ => show win3_0.index t (0 : Fin 2) * 2000 + 1 * p.val = r.val; omega
    | ⟨1, _⟩ => show win3_0.index t (1 : Fin 2) * 128 + 1 * k.val = k.val; omega
  have h1 : ∀ k : Fin 128, ((cfg3.win 1).blk t).view.emb (ix2 p k) = ix2 r k := by
    intro k; funext a; apply Fin.ext
    match a with
    | ⟨0, _⟩ => show win3_1.index t (0 : Fin 2) * 2000 + 1 * p.val = r.val; omega
    | ⟨1, _⟩ => show win3_1.index t (1 : Fin 2) * 128 + 1 * k.val = k.val; omega
  have h2 : ∀ (k : Fin 128) (c' : Fin 384), ((cfg3.win 2).blk t).view.emb (ix2 k c') = ix2 k c' := by
    intro k c'; funext a; apply Fin.ext
    match a with
    | ⟨0, _⟩ => show win3_2.index t (0 : Fin 2) * 128 + 1 * k.val = k.val; omega
    | ⟨1, _⟩ => show win3_2.index t (1 : Fin 2) * 384 + 1 * c'.val = c'.val; omega
  have h3 : ∀ (k : Fin 128) (c' : Fin 384), ((cfg3.win 3).blk t).view.emb (ix2 k c') = ix2 k c' := by
    intro k c'; funext a; apply Fin.ext
    match a with
    | ⟨0, _⟩ => show win3_3.index t (0 : Fin 2) * 128 + 1 * k.val = k.val; omega
    | ⟨1, _⟩ => show win3_3.index t (1 : Fin 2) * 384 + 1 * c'.val = c'.val; omega
  have h4 : ∀ (c' : Fin 384), ((cfg3.win 4).blk t).view.emb (ix2 (0 : Fin 1) c') = ix2 (0 : Fin 1) c' := by
    intro c'; funext a; apply Fin.ext
    match a with
    | ⟨0, _⟩ => show win3_4.index t (0 : Fin 2) * 1 + 1 * 0 = 0; omega
    | ⟨1, _⟩ => show win3_4.index t (1 : Fin 2) * 384 + 1 * c'.val = c'.val; omega
  have h5 : ∀ (c' : Fin 384), ((cfg3.win 5).blk t).view.emb (ix2 (0 : Fin 1) c') = ix2 (0 : Fin 1) c' := by
    intro c'; funext a; apply Fin.ext
    match a with
    | ⟨0, _⟩ => show win3_5.index t (0 : Fin 2) * 1 + 1 * 0 = 0; omega
    | ⟨1, _⟩ => show win3_5.index t (1 : Fin 2) * 384 + 1 * c'.val = c'.val; omega
  have e0 : (fun k : Fin 128 => iblk3 V c 0 t (ix2 p k)) = (fun k : Fin 128 => V c main_v86 (ix2 r k)) :=
    funext fun k => (show iblk3 V c 0 t (ix2 p k) = V c main_v86 (((cfg3.win 0).blk t).view.emb (ix2 p k)) from rfl).trans (congrArg (V c main_v86) (h0 k))
  have e1 : (fun k : Fin 128 => iblk3 V c 1 t (ix2 p k)) = (fun k : Fin 128 => V c main_v73 (ix2 r k)) :=
    funext fun k => (show iblk3 V c 1 t (ix2 p k) = V c main_v73 (((cfg3.win 1).blk t).view.emb (ix2 p k)) from rfl).trans (congrArg (V c main_v73) (h1 k))
  have e2 : (fun (k : Fin 128) (c' : Fin 384) => iblk3 V c 2 t (ix2 k c')) = (fun (k : Fin 128) (c' : Fin 384) => V c main_v24 (ix2 k c')) :=
    funext fun k => funext fun c' => (show iblk3 V c 2 t (ix2 k c') = V c main_v24 (((cfg3.win 2).blk t).view.emb (ix2 k c')) from rfl).trans (congrArg (V c main_v24) (h2 k c'))
  have e3 : (fun (k : Fin 128) (c' : Fin 384) => iblk3 V c 3 t (ix2 k c')) = (fun (k : Fin 128) (c' : Fin 384) => V c main_v26 (ix2 k c')) :=
    funext fun k => funext fun c' => (show iblk3 V c 3 t (ix2 k c') = V c main_v26 (((cfg3.win 3).blk t).view.emb (ix2 k c')) from rfl).trans (congrArg (V c main_v26) (h3 k c'))
  have e4 : (fun (c' : Fin 384) => iblk3 V c 4 t (ix2 (0 : Fin 1) c')) = (fun (c' : Fin 384) => V c main_v27 (ix2 (0 : Fin 1) c')) :=
    funext fun c' => (show iblk3 V c 4 t (ix2 (0 : Fin 1) c') = V c main_v27 (((cfg3.win 4).blk t).view.emb (ix2 (0 : Fin 1) c')) from rfl).trans (congrArg (V c main_v27) (h4 c'))
  have e5 : (fun (c' : Fin 384) => iblk3 V c 5 t (ix2 (0 : Fin 1) c')) = (fun (c' : Fin 384) => V c main_v28 (ix2 (0 : Fin 1) c')) :=
    funext fun c' => (show iblk3 V c 5 t (ix2 (0 : Fin 1) c') = V c main_v28 (((cfg3.win 5).blk t).view.emb (ix2 (0 : Fin 1) c')) from rfl).trans (congrArg (V c main_v28) (h5 c'))
  refine (congrFun (congr (congr (congr (congr (congr (congrArg cell e0) e1) e2) e3) e4) e5) q).trans ?_
  refine (show cell (fun k : Fin 128 => V c main_v86 (ix2 r k)) (fun k : Fin 128 => V c main_v73 (ix2 r k))
      (fun (k : Fin 128) (c' : Fin 384) => V c main_v24 (ix2 k c')) (fun (k : Fin 128) (c' : Fin 384) => V c main_v26 (ix2 k c'))
      (fun (c' : Fin 384) => V c main_v27 (ix2 (0 : Fin 1) c')) (fun (c' : Fin 384) => V c main_v28 (ix2 (0 : Fin 1) c')) q
        = whole cell (V c main_v86) (V c main_v73) (V c main_v24) (V c main_v26) (V c main_v27) (V c main_v28) (ix2 r q) from rfl).trans ?_
  refine (congrArg (whole cell (V c main_v86) (V c main_v73) (V c main_v24) (V c main_v26) (V c main_v27) (V c main_v28)) h6.symm).trans ?_
  rfl

/-- An index of the array is in point t's block iff each coordinate is in the block's range on its axis. -/
theorem mem_blk (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v88).slice (win3_6.rect t)).set ↔ _
  rw [View.set_slice_whole, Rect.mem_set_unit]
  exact Iff.rfl

/-- Every row is in some block: row i lies in block i / 2000. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e00, e01, e10, e11, e20, e21, e30, e31, e40, e41, e50, e51, e60, e61, ht⟩ := idx_facts t
  have htv : t.val = (i 0).val / 2000 := rfl
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- THE OUTPUT ARRAY when the region ends: the whole-array function of the arrays the region found. -/
theorem final (cell : Cell)
    (hpay : ∀ (x0 x1 : Vec Ideal S2000x128 .f32) (x2 x3 : Vec Ideal S128x384 .bf16) (x4 x5 : Vec Ideal S1x384 .f32)
      (p : Fin 2000) (j : Fin 128), k3_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
    (c : Dev nD) :
    (dat3 (F := Ideal) V c).arrAt 6 cfg3.N
      = whole cell (V c main_v86) (V c main_v73) (V c main_v24) (V c main_v26) (V c main_v27) (V c main_v28) :=
  (dat3 (F := Ideal) V c).arrAt_eq_of_cover 6 _ (fun t _ => flushed_eq V cell hpay c t) cover

end Cert.KernelIdeal.Reg3

end
-- ==== Proof.KChain.lean ====
/-
  The idealized kernel program's result as a function of its arguments. The run leaves every buffer at the fold of
  the host stretches and of the five launched regions over the launch memory; here that fold is read at the result
  buffer, boundary by boundary. With p₀ = hs₀ = the encoder's output (`h0K`), aₖ = the aggregate of pₖ (`aggF`),
  pₖ₊₁ = the launched GRU cell of (aₖ, pₖ) on whole arrays (`GK`: region k's output array) and hsₖ₊₁ = hsₖ + aₖ, the
  buffers at region k's entry hold aₖ, pₖ and hsₖ₊₁, and the result is the decoder of hs₅ (the fifth region's output
  is never read). The cell formula `cell` and the facts `hpayK` that each region's payload computes it are parameters.
-/
import proofs.«141514_j89154931130446_1_alg».proof.Proof.Gen.KernelIdeal.Frame
import proofs.«141514_j89154931130446_1_alg».proof.Proof.KStretch
import proofs.«141514_j89154931130446_1_alg».proof.Proof.Region0
import proofs.«141514_j89154931130446_1_alg».proof.Proof.Region1
import proofs.«141514_j89154931130446_1_alg».proof.Proof.Region2
import proofs.«141514_j89154931130446_1_alg».proof.Proof.Region3
import proofs.«141514_j89154931130446_1_alg».proof.Proof.Spec
import proofs.«141514_j89154931130446_1_alg».proof.Proof.Net

set_option maxRecDepth 16384

noncomputable section

namespace Cert.KernelIdeal.Chain

open Cert.KernelIdeal Cert.KernelIdeal.Gen Cert.KernelIdeal.Stretch
open Idealize.ShloMosaic Idealize.ShloMosaic.TcCoe Idealize.ShloMosaic.StableHlo Idealize.ShloMosaic.ValueIdx Idealize.SL.Sem
open Idealize.ShloMosaic.Pipeline (Dat)
open Cert.KernelIdeal.Reg (Cell whole)

/-! ## Equal arguments give equal stages -/

theorem agg_congr {n n' : (⟨S640000, .f32⟩ : BufTy).Contents (Elt Ideal)} {s s' d d' : (⟨S640000, .i32⟩ : BufTy).Contents (Elt Ideal)}
    {p p' : Net.Arr} (h1 : n = n') (h2 : s = s') (h3 : d = d') (h4 : p = p') :
    Spec.agg (F := Ideal) n s d p = Spec.agg (F := Ideal) n' s' d' p' := by subst h1 h2 h3 h4; rfl
theorem hsAdd_congr {x x' y y' : Net.Arr} (h1 : x = x') (h2 : y = y') :
    Spec.hsAdd (F := Ideal) x y = Spec.hsAdd (F := Ideal) x' y' := by subst h1 h2; rfl
theorem whole_congr (cell : Cell) {a a' p p' : S50000x128.Idx → EReal} {w1 w1' w2 w2' : S128x384.Idx → EReal}
    {b1 b1' b2 b2' : S1x384.Idx → EReal} (h1 : a = a') (h2 : p = p') (h3 : w1 = w1') (h4 : w2 = w2') (h5 : b1 = b1') (h6 : b2 = b2') :
    whole cell a p w1 w2 b1 b2 = whole cell a' p' w1' w2' b1' b2' := by subst h1 h2 h3 h4 h5 h6; rfl
theorem dec_congr (bn : Net.Arr64 → Net.Vec64 → Net.Vec64 → Net.Vec64 → Net.Vec64 → Net.Arr64) {hs hs' : Net.Arr}
    {W W' : (⟨S64x128, .f32⟩ : BufTy).Contents (Elt Ideal)} {g g' b b' : Net.Vec64} {U U' : (⟨S1x64, .f32⟩ : BufTy).Contents (Elt Ideal)}
    (h1 : hs = hs') (h2 : W = W') (h3 : g = g') (h4 : b = b') (h5 : U = U') :
    Net.dec bn hs W g b U = Net.dec bn hs' W' g' b' U' := by subst h1 h2 h3 h4 h5; rfl

variable (m : (ℓ : Loc nD τ sig) → Buf (Elt Ideal) ℓ) (ρ : Dev nD → PrngReg) (c : Dev nD)

/-! ## The closed forms -/

/-- The encoder's output: the hidden state before the first layer. -/
def h0K : Net.Arr :=
  Spec.bnK (F := Ideal) (Spec.encPre (F := Ideal) (m ((c : Thread nD τ).loc main_arg0)) (m ((c : Thread nD τ).loc main_arg3))) (Spec.mean128 (F := Ideal) (Spec.encPre (F := Ideal) (m ((c : Thread nD τ).loc main_arg0)) (m ((c : Thread nD τ).loc main_arg3))))
    (Spec.var128 (F := Ideal) (Spec.encPre (F := Ideal) (m ((c : Thread nD τ).loc main_arg0)) (m ((c : Thread nD τ).loc main_arg3)))) (m ((c : Thread nD τ).loc main_arg4)) (m ((c : Thread nD τ).loc main_arg5))
/-- The aggregate of a hidden state over the graph's edges. -/
def aggF (p : Net.Arr) : Net.Arr :=
  Spec.agg (F := Ideal) (m ((c : Thread nD τ).loc main_arg2)) (Spec.idxS (F := Ideal) (m ((c : Thread nD τ).loc main_arg1))) (Spec.idxD (F := Ideal) (m ((c : Thread nD τ).loc main_arg1))) p
/-- The launched GRU cell on whole arrays. -/
def GK (cell : Cell) (x p : Net.Arr) : Net.Arr :=
  whole cell x p (Spec.wT (F := Ideal) (m ((c : Thread nD τ).loc main_arg6))) (Spec.wT (F := Ideal) (m ((c : Thread nD τ).loc main_arg7))) (Spec.bRow (F := Ideal) (m ((c : Thread nD τ).loc main_arg8))) (Spec.bRow (F := Ideal) (m ((c : Thread nD τ).loc main_arg9)))

variable (cell : Cell)
variable (hpay0 : ∀ (x0 x1 : Vec Ideal S2000x128 .f32) (x2 x3 : Vec Ideal S128x384 .bf16) (x4 x5 : Vec Ideal S1x384 .f32)
      (p : Fin 2000) (j : Fin 128), k0_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
  (hpay1 : ∀ (x0 x1 : Vec Ideal S2000x128 .f32) (x2 x3 : Vec Ideal S128x384 .bf16) (x4 x5 : Vec Ideal S1x384 .f32)
      (p : Fin 2000) (j : Fin 128), k1_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
  (hpay2 : ∀ (x0 x1 : Vec Ideal S2000x128 .f32) (x2 x3 : Vec Ideal S128x384 .bf16) (x4 x5 : Vec Ideal S1x384 .f32)
      (p : Fin 2000) (j : Fin 128), k2_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)
  (hpay3 : ∀ (x0 x1 : Vec Ideal S2000x128 .f32) (x2 x3 : Vec Ideal S128x384 .bf16) (x4 x5 : Vec Ideal S1x384 .f32)
      (p : Fin 2000) (j : Fin 128), k3_pay1 (F := Ideal) x0 x1 x2 x3 x4 x5 (ix2 p j)
        = cell (fun k => x0 (ix2 p k)) (fun k => x1 (ix2 p k)) (fun k c => x2 (ix2 k c)) (fun k c => x3 (ix2 k c))
            (fun c => x4 (ix2 (0 : Fin 1) c)) (fun c => x5 (ix2 (0 : Fin 1) c)) j)

include hpay0 hpay1 hpay2 hpay3

local notation "pK" => Net.pSeq (GK m c cell) (aggF m c) (h0K m c)
local notation "hsK" => Net.hsSeq (GK m c cell) (aggF m c) (h0K m c)

/-! ## After the encoder's stretches -/

theorem L4_v1 : W4 m ρ c (Proc.devRef .tc main_v1) = Spec.idxS (F := Ideal) (m ((c : Thread nD τ).loc main_arg1)) :=
  e_v1 (W0 m ρ c)
theorem L4_v3 : W4 m ρ c (Proc.devRef .tc main_v3) = Spec.idxD (F := Ideal) (m ((c : Thread nD τ).loc main_arg1)) :=
  e_v3 (W0 m ρ c)
theorem L4_v22 : W4 m ρ c (Proc.devRef .tc main_v22) = pK 0 :=
  e_v22 (W0 m ρ c)
theorem L4_arg2 : W4 m ρ c (Proc.devRef .tc main_arg2) = (m ((c : Thread nD τ).loc main_arg2)) :=
  e_keep (W0 m ρ c) main_arg2 (by decide) (by decide) (by decide) (by decide)
theorem L4_arg6 : W4 m ρ c (Proc.devRef .tc main_arg6) = (m ((c : Thread nD τ).loc main_arg6)) :=
  e_keep (W0 m ρ c) main_arg6 (by decide) (by decide) (by decide) (by decide)
theorem L4_arg7 : W4 m ρ c (Proc.devRef .tc main_arg7) = (m ((c : Thread nD τ).loc main_arg7)) :=
  e_keep (W0 m ρ c) main_arg7 (by decide) (by decide) (by decide) (by decide)
theorem L4_arg8 : W4 m ρ c (Proc.devRef .tc main_arg8) = (m ((c : Thread nD τ).loc main_arg8)) :=
  e_keep (W0 m ρ c) main_arg8 (by decide) (by decide) (by decide) (by decide)
theorem L4_arg9 : W4 m ρ c (Proc.devRef .tc main_arg9) = (m ((c : Thread nD τ).loc main_arg9)) :=
  e_keep (W0 m ρ c) main_arg9 (by decide) (by decide) (by decide) (by decide)
theorem L4_arg10 : W4 m ρ c (Proc.devRef .tc main_arg10) = (m ((c : Thread nD τ).loc main_arg10)) :=
  e_keep (W0 m ρ c) main_arg10 (by decide) (by decide) (by decide) (by decide)
theorem L4_arg11 : W4 m ρ c (Proc.devRef .tc main_arg11) = (m ((c : Thread nD τ).loc main_arg11)) :=
  e_keep (W0 m ρ c) main_arg11 (by decide) (by decide) (by decide) (by decide)
theorem L4_arg12 : W4 m ρ c (Proc.devRef .tc main_arg12) = (m ((c : Thread nD τ).loc main_arg12)) :=
  e_keep (W0 m ρ c) main_arg12 (by decide) (by decide) (by decide) (by decide)
theorem L4_arg13 : W4 m ρ c (Proc.devRef .tc main_arg13) = (m ((c : Thread nD τ).loc main_arg13)) :=
  e_keep (W0 m ρ c) main_arg13 (by decide) (by decide) (by decide) (by decide)

/-! ## At region 0's entry -/

theorem L5_v24 : W5 m ρ c (Proc.devRef .tc main_v24) = Spec.wT (F := Ideal) (m ((c : Thread nD τ).loc main_arg6)) :=
  (a_v24 (W4 m ρ c)).trans (congrArg (Spec.wT (F := Ideal)) (L4_arg6 m ρ c cell hpay0 hpay1 hpay2 hpay3))
theorem L5_v26 : W5 m ρ c (Proc.devRef .tc main_v26) = Spec.wT (F := Ideal) (m ((c : Thread nD τ).loc main_arg7)) :=
  (a_v26 (W4 m ρ c)).trans (congrArg (Spec.wT (F := Ideal)) (L4_arg7 m ρ c cell hpay0 hpay1 hpay2 hpay3))
theorem L5_v27 : W5 m ρ c (Proc.devRef .tc main_v27) = Spec.bRow (F := Ideal) (m ((c : Thread nD τ).loc main_arg8)) :=
  (a_v27 (W4 m ρ c)).trans (congrArg (Spec.bRow (F := Ideal)) (L4_arg8 m ρ c cell hpay0 hpay1 hpay2 hpay3))
theorem L5_v28 : W5 m ρ c (Proc.devRef .tc main_v28) = Spec.bRow (F := Ideal) (m ((c : Thread nD τ).loc main_arg9)) :=
  (a_v28 (W4 m ρ c)).trans (congrArg (Spec.bRow (F := Ideal)) (L4_arg9 m ρ c cell hpay0 hpay1 hpay2 hpay3))
theorem L5_v41 : W5 m ρ c (Proc.devRef .tc main_v41) = aggF m c (pK 0) :=
  (a_v41 (W4 m ρ c)).trans (agg_congr (L4_arg2 m ρ c cell hpay0 hpay1 hpay2 hpay3) (L4_v1 m ρ c cell hpay0 hpay1 hpay2 hpay3) (L4_v3 m ρ c cell hpay0 hpay1 hpay2 hpay3) (L4_v22 m ρ c cell hpay0 hpay1 hpay2 hpay3))
theorem L5_v42 : W5 m ρ c (Proc.devRef .tc main_v42) = hsK 1 :=
  (a_v42 (W4 m ρ c)).trans (hsAdd_congr (L4_v22 m ρ c cell hpay0 hpay1 hpay2 hpay3) (agg_congr (L4_arg2 m ρ c cell hpay0 hpay1 hpay2 hpay3) (L4_v1 m ρ c cell hpay0 hpay1 hpay2 hpay3) (L4_v3 m ρ c cell hpay0 hpay1 hpay2 hpay3) (L4_v22 m ρ c cell hpay0 hpay1 hpay2 hpay3)))
theorem L5_v22 : W5 m ρ c (Proc.devRef .tc main_v22) = pK 0 :=
  (hostOps0_4_keep (W4 m ρ c) main_v22 (by decide)).trans (L4_v22 m ρ c cell hpay0 hpay1 hpay2 hpay3)
theorem L5_v1 : W5 m ρ c (Proc.devRef .tc main_v1) = Spec.idxS (F := Ideal) (m ((c : Thread nD τ).loc main_arg1)) :=
  (hostOps0_4_keep (W4 m ρ c) main_v1 (by decide)).trans (L4_v1 m ρ c cell hpay0 hpay1 hpay2 hpay3)
theorem L5_v3 : W5 m ρ c (Proc.devRef .tc main_v3) = Spec.idxD (F := Ideal) (m ((c : Thread nD τ).loc main_arg1)) :=
  (hostOps0_4_keep (W4 m ρ c) main_v3 (by decide)).trans (L4_v3 m ρ c cell hpay0 hpay1 hpay2 hpay3)
theorem L5_arg2 : W5 m ρ c (Proc.devRef .tc main_arg2) = (m ((c : Thread nD τ).loc main_arg2)) :=
  (hostOps0_4_keep (W4 m ρ c) main_arg2 (by decide)).trans (L4_arg2 m ρ c cell hpay0 hpay1 hpay2 hpay3)
theorem L5_arg10 : W5 m ρ c (Proc.devRef .tc main_arg10) = (m ((c : Thread nD τ).loc main_arg10)) :=
  (hostOps0_4_keep (W4 m ρ c) main_arg10 (by decide)).trans (L4_arg10 m ρ c cell hpay0 hpay1 hpay2 hpay3)
theorem L5_arg11 : W5 m ρ c (Proc.devRef .tc main_arg11) = (m ((c : Thread nD τ).loc main_arg11)) :=
  (hostOps0_4_keep (W4 m ρ c) main_arg11 (by decide)).trans (L4_arg11 m ρ c cell hpay0 hpay1 hpay2 hpay3)
theorem L5_arg12 : W5 m ρ c (Proc.devRef .tc main_arg12) = (m ((c : Thread nD τ).loc main_arg12)) :=
  (hostOps0_4_keep (W4 m ρ c) main_arg12 (by decide)).trans (L4_arg12 m ρ c cell hpay0 hpay1 hpay2 hpay3)
theorem L5_arg13 : W5 m ρ c (Proc.devRef .tc main_arg13) = (m ((c : Thread nD τ).loc main_arg13)) :=
  (hostOps0_4_keep (W4 m ρ c) main_arg13 (by decide)).trans (L4_arg13 m ρ c cell hpay0 hpay1 hpay2 hpay3)

/-! ## Region 0, and the stretch after it -/

theorem L6_v43 : W6 m ρ c (Proc.devRef .tc main_v43) = pK 1 :=
  (W6_arr m ρ c 6).trans (((Reg0.final (V5 m ρ) cell hpay0 c).trans (whole_congr cell (L5_v41 m ρ c cell hpay0 hpay1 hpay2 hpay3) (L5_v22 m ρ c cell hpay0 hpay1 hpay2 hpay3) (L5_v24 m ρ c cell hpay0 hpay1 hpay2 hpay3) (L5_v26 m ρ c cell hpay0 hpay1 hpay2 hpay3) (L5_v27 m ρ c cell hpay0 hpay1 hpay2 hpay3) (L5_v28 m ρ c cell hpay0 hpay1 hpay2 hpay3))).trans (Net.pSeq_succ (GK m c cell) (aggF m c) (h0K m c) 0).symm)
theorem L6_v24 : W6 m ρ c (Proc.devRef .tc main_v24) = Spec.wT (F := Ideal) (m ((c : Thread nD τ).loc main_arg6)) :=
  ((W6_arr m ρ c 2).trans (((dat0 (V5 m ρ) c).arrAt_in 2 rfl cfg0.N).trans (A_eq0 (V5 m ρ) c 2))).trans (L5_v24 m ρ c cell hpay0 hpay1 hpay2 hpay3)
theorem L6_v26 : W6 m ρ c (Proc.devRef .tc main_v26) = Spec.wT (F := Ideal) (m ((c : Thread nD τ).loc main_arg7)) :=
  ((W6_arr m ρ c 3).trans (((dat0 (V5 m ρ) c).arrAt_in 3 rfl cfg0.N).trans (A_eq0 (V5 m ρ) c 3))).trans (L5_v26 m ρ c cell hpay0 hpay1 hpay2 hpay3)
theorem L6_v27 : W6 m ρ c (Proc.devRef .tc main_v27) = Spec.bRow (F := Ideal) (m ((c : Thread nD τ).loc main_arg8)) :=
  ((W6_arr m ρ c 4).trans (((dat0 (V5 m ρ) c).arrAt_in 4 rfl cfg0.N).trans (A_eq0 (V5 m ρ) c 4))).trans (L5_v27 m ρ c cell hpay0 hpay1 hpay2 hpay3)
theorem L6_v28 : W6 m ρ c (Proc.devRef .tc main_v28) = Spec.bRow (F := Ideal) (m ((c : Thread nD τ).loc main_arg9)) :=
  ((W6_arr m ρ c 5).trans (((dat0 (V5 m ρ) c).arrAt_in 5 rfl cfg0.N).trans (A_eq0 (V5 m ρ) c 5))).trans (L5_v28 m ρ c cell hpay0 hpay1 hpay2 hpay3)
theorem L6_v42 : W6 m ρ c (Proc.devRef .tc main_v42) = hsK 1 :=
  (W6_of_ne m ρ c main_v42 (by decide)).trans (L5_v42 m ρ c cell hpay0 hpay1 hpay2 hpay3)
theorem L6_v1 : W6 m ρ c (Proc.devRef .tc main_v1) = Spec.idxS (F := Ideal) (m ((c : Thread nD τ).loc main_arg1)) :=
  (W6_of_ne m ρ c main_v1 (by decide)).trans (L5_v1 m ρ c cell hpay0 hpay1 hpay2 hpay3)
theorem L6_v3 : W6 m ρ c (Proc.devRef .tc main_v3) = Spec.idxD (F := Ideal) (m ((c : Thread nD τ).loc main_arg1)) :=
  (W6_of_ne m ρ c main_v3 (by decide)).trans (L5_v3 m ρ c cell hpay0 hpay1 hpay2 hpay3)
theorem L6_arg2 : W6 m ρ c (Proc.devRef .tc main_arg2) = (m ((c : Thread nD τ).loc main_arg2)) :=
  (W6_of_ne m ρ c main_arg2 (by decide)).trans (L5_arg2 m ρ c cell hpay0 hpay1 hpay2 hpay3)
theorem L6_arg10 : W6 m ρ c (Proc.devRef .tc main_arg10) = (m ((c : Thread nD τ).loc main_arg10)) :=
  (W6_of_ne m ρ c main_arg10 (by decide)).trans (L5_arg10 m ρ c cell hpay0 hpay1 hpay2 hpay3)
theorem L6_arg11 : W6 m ρ c (Proc.devRef .tc main_arg11) = (m ((c : Thread nD τ).loc main_arg11)) :=
  (W6_of_ne m ρ c main_arg11 (by decide)).trans (L5_arg11 m ρ c cell hpay0 hpay1 hpay2 hpay3)
theorem L6_arg12 : W6 m ρ c (Proc.devRef .tc main_arg12) = (m ((c : Thread nD τ).loc main_arg12)) :=
  (W6_of_ne m ρ c main_arg12 (by decide)).trans (L5_arg12 m ρ c cell hpay0 hpay1 hpay2 hpay3)
theorem L6_arg13 : W6 m ρ c (Proc.devRef .tc main_arg13) = (m ((c : Thread nD τ).loc main_arg13)) :=
  (W6_of_ne m ρ c main_arg13 (by decide)).trans (L5_arg13 m ρ c cell hpay0 hpay1 hpay2 hpay3)
theorem L7_v56 : W7 m ρ c (Proc.devRef .tc main_v56) = aggF m c (pK 1) :=
  (l1_agg (W6 m ρ c)).trans (agg_congr (L6_arg2 m ρ c cell hpay0 hpay1 hpay2 hpay3) (L6_v1 m ρ c cell hpay0 hpay1 hpay2 hpay3) (L6_v3 m ρ c cell hpay0 hpay1 hpay2 hpay3) (L6_v43 m ρ c cell hpay0 hpay1 hpay2 hpay3))
theorem L7_v57 : W7 m ρ c (Proc.devRef .tc main_v57) = hsK 2 :=
  ((l1_hs (W6 m ρ c)).trans (hsAdd_congr (L6_v42 m ρ c cell hpay0 hpay1 hpay2 hpay3) (agg_congr (L6_arg2 m ρ c cell hpay0 hpay1 hpay2 hpay3) (L6_v1 m ρ c cell hpay0 hpay1 hpay2 hpay3) (L6_v3 m ρ c cell hpay0 hpay1 hpay2 hpay3) (L6_v43 m ρ c cell hpay0 hpay1 hpay2 hpay3)))).trans (Net.hsSeq_succ (GK m c cell) (aggF m c) (h0K m c) 1).symm
theorem L7_v43 : W7 m ρ c (Proc.devRef .tc main_v43) = pK 1 :=
  (hostOps1_keep (W6 m ρ c) main_v43 (by decide)).trans (L6_v43 m ρ c cell hpay0 hpay1 hpay2 hpay3)
theorem L7_v24 : W7 m ρ c (Proc.devRef .tc main_v24) = Spec.wT (F := Ideal) (m ((c : Thread nD τ).loc main_arg6)) :=
  (hostOps1_keep (W6 m ρ c) main_v24 (by decide)).trans (L6_v24 m ρ c cell hpay0 hpay1 hpay2 hpay3)
theorem L7_v26 : W7 m ρ c (Proc.devRef .tc main_v26) = Spec.wT (F := Ideal) (m ((c : Thread nD τ).loc main_arg7)) :=
  (hostOps1_keep (W6 m ρ c) main_v26 (by decide)).trans (L6_v26 m ρ c cell hpay0 hpay1 hpay2 hpay3)
theorem L7_v27 : W7 m ρ c (Proc.devRef .tc main_v27) = Spec.bRow (F := Ideal) (m ((c : Thread nD τ).loc main_arg8)) :=
  (hostOps1_keep (W6 m ρ c) main_v27 (by decide)).trans (L6_v27 m ρ c cell hpay0 hpay1 hpay2 hpay3)
theorem L7_v28 : W7 m ρ c (Proc.devRef .tc main_v28) = Spec.bRow (F := Ideal) (m ((c : Thread nD τ).loc main_arg9)) :=
  (hostOps1_keep (W6 m ρ c) main_v28 (by decide)).trans (L6_v28 m ρ c cell hpay0 hpay1 hpay2 hpay3)
theorem L7_v1 : W7 m ρ c (Proc.devRef .tc main_v1) = Spec.idxS (F := Ideal) (m ((c : Thread nD τ).loc main_arg1)) :=
  (hostOps1_keep (W6 m ρ c) main_v1 (by decide)).trans (L6_v1 m ρ c cell hpay0 hpay1 hpay2 hpay3)
theorem L7_v3 : W7 m ρ c (Proc.devRef .tc main_v3) = Spec.idxD (F := Ideal) (m ((c : Thread nD τ).loc main_arg1)) :=
  (hostOps1_keep (W6 m ρ c) main_v3 (by decide)).trans (L6_v3 m ρ c cell hpay0 hpay1 hpay2 hpay3)
theorem L7_arg2 : W7 m ρ c (Proc.devRef .tc main_arg2) = (m ((c : Thread nD τ).loc main_arg2)) :=
  (hostOps1_keep (W6 m ρ c) main_arg2 (by decide)).trans (L6_arg2 m ρ c cell hpay0 hpay1 hpay2 hpay3)
theorem L7_arg10 : W7 m ρ c (Proc.devRef .tc main_arg10) = (m ((c : Thread nD τ).loc main_arg10)) :=
  (hostOps1_keep (W6 m ρ c) main_arg10 (by decide)).trans (L6_arg10 m ρ c cell hpay0 hpay1 hpay2 hpay3)
theorem L7_arg11 : W7 m ρ c (Proc.devRef .tc main_arg11) = (m ((c : Thread nD τ).loc main_arg11)) :=
  (hostOps1_keep (W6 m ρ c) main_arg11 (by decide)).trans (L6_arg11 m ρ c cell hpay0 hpay1 hpay2 hpay3)
theorem L7_arg12 : W7 m ρ c (Proc.devRef .tc main_arg12) = (m ((c : Thread nD τ).loc main_arg12)) :=
  (hostOps1_keep (W6 m ρ c) main_arg12 (by decide)).trans (L6_arg12 m ρ c cell hpay0 hpay1 hpay2 hpay3)
theorem L7_arg13 : W7 m ρ c (Proc.devRef .tc main_arg13) = (m ((c : Thread nD τ).loc main_arg13)) :=
  (hostOps1_keep (W6 m ρ c) main_arg13 (by decide)).trans (L6_arg13 m ρ c cell hpay0 hpay1 hpay2 hpay3)

/-! ## Region 1, and the stretch after it -/

theorem L8_v58 : W8 m ρ c (Proc.devRef .tc main_v58) = pK 2 :=
  (W8_arr m ρ c 6).trans (((Reg1.final (V7 m ρ) cell hpay1 c).trans (whole_congr cell (L7_v56 m ρ c cell hpay0 hpay1 hpay2 hpay3) (L7_v43 m ρ c cell hpay0 hpay1 hpay2 hpay3) (L7_v24 m ρ c cell hpay0 hpay1 hpay2 hpay3) (L7_v26 m ρ c cell hpay0 hpay1 hpay2 hpay3) (L7_v27 m ρ c cell hpay0 hpay1 hpay2 hpay3) (L7_v28 m ρ c cell hpay0 hpay1 hpay2 hpay3))).trans (Net.pSeq_succ (GK m c cell) (aggF m c) (h0K m c) 1).symm)
theorem L8_v24 : W8 m ρ c (Proc.devRef .tc main_v24) = Spec.wT (F := Ideal) (m ((c : Thread nD τ).loc main_arg6)) :=
  ((W8_arr m ρ c 2).trans (((dat1 (V7 m ρ) c).arrAt_in 2 rfl cfg1.N).trans (A_eq1 (V7 m ρ) c 2))).trans (L7_v24 m ρ c cell hpay0 hpay1 hpay2 hpay3)
theorem L8_v26 : W8 m ρ c (Proc.devRef .tc main_v26) = Spec.wT (F := Ideal) (m ((c : Thread nD τ).loc main_arg7)) :=
  ((W8_arr m ρ c 3).trans (((dat1 (V7 m ρ) c).arrAt_in 3 rfl cfg1.N).trans (A_eq1 (V7 m ρ) c 3))).trans (L7_v26 m ρ c cell hpay0 hpay1 hpay2 hpay3)
theorem L8_v27 : W8 m ρ c (Proc.devRef .tc main_v27) = Spec.bRow (F := Ideal) (m ((c : Thread nD τ).loc main_arg8)) :=
  ((W8_arr m ρ c 4).trans (((dat1 (V7 m ρ) c).arrAt_in 4 rfl cfg1.N).trans (A_eq1 (V7 m ρ) c 4))).trans (L7_v27 m ρ c cell hpay0 hpay1 hpay2 hpay3)
theorem L8_v28 : W8 m ρ c (Proc.devRef .tc main_v28) = Spec.bRow (F := Ideal) (m ((c : Thread nD τ).loc main_arg9)) :=
  ((W8_arr m ρ c 5).trans (((dat1 (V7 m ρ) c).arrAt_in 5 rfl cfg1.N).trans (A_eq1 (V7 m ρ) c 5))).trans (L7_v28 m ρ c cell hpay0 hpay1 hpay2 hpay3)
theorem L8_v57 : W8 m ρ c (Proc.devRef .tc main_v57) = hsK 2 :=
  (W8_of_ne m ρ c main_v57 (by decide)).trans (L7_v57 m ρ c cell hpay0 hpay1 hpay2 hpay3)
theorem L8_v1 : W8 m ρ c (Proc.devRef .tc main_v1) = Spec.idxS (F := Ideal) (m ((c : Thread nD τ).loc main_arg1)) :=
  (W8_of_ne m ρ c main_v1 (by decide)).trans (L7_v1 m ρ c cell hpay0 hpay1 hpay2 hpay3)
theorem L8_v3 : W8 m ρ c (Proc.devRef .tc main_v3) = Spec.idxD (F := Ideal) (m ((c : Thread nD τ).loc main_arg1)) :=
  (W8_of_ne m ρ c main_v3 (by decide)).trans (L7_v3 m ρ c cell hpay0 hpay1 hpay2 hpay3)
theorem L8_arg2 : W8 m ρ c (Proc.devRef .tc main_arg2) = (m ((c : Thread nD τ).loc main_arg2)) :=
  (W8_of_ne m ρ c main_arg2 (by decide)).trans (L7_arg2 m ρ c cell hpay0 hpay1 hpay2 hpay3)
theorem L8_arg10 : W8 m ρ c (Proc.devRef .tc main_arg10) = (m ((c : Thread nD τ).loc main_arg10)) :=
  (W8_of_ne m ρ c main_arg10 (by decide)).trans (L7_arg10 m ρ c cell hpay0 hpay1 hpay2 hpay3)
theorem L8_arg11 : W8 m ρ c (Proc.devRef .tc main_arg11) = (m ((c : Thread nD τ).loc main_arg11)) :=
  (W8_of_ne m ρ c main_arg11 (by decide)).trans (L7_arg11 m ρ c cell hpay0 hpay1 hpay2 hpay3)
theorem L8_arg12 : W8 m ρ c (Proc.devRef .tc main_arg12) = (m ((c : Thread nD τ).loc main_arg12)) :=
  (W8_of_ne m ρ c main_arg12 (by decide)).trans (L7_arg12 m ρ c cell hpay0 hpay1 hpay2 hpay3)
theorem L8_arg13 : W8 m ρ c (Proc.devRef .tc main_arg13) = (m ((c : Thread nD τ).loc main_arg13)) :=
  (W8_of_ne m ρ c main_arg13 (by decide)).trans (L7_arg13 m ρ c cell hpay0 hpay1 hpay2 hpay3)
theorem L9_v71 : W9 m ρ c (Proc.devRef .tc main_v71) = aggF m c (pK 2) :=
  (l2_agg (W8 m ρ c)).trans (agg_congr (L8_arg2 m ρ c cell hpay0 hpay1 hpay2 hpay3) (L8_v1 m ρ c cell hpay0 hpay1 hpay2 hpay3) (L8_v3 m ρ c cell hpay0 hpay1 hpay2 hpay3) (L8_v58 m ρ c cell hpay0 hpay1 hpay2 hpay3))
theorem L9_v72 : W9 m ρ c (Proc.devRef .tc main_v72) = hsK 3 :=
  ((l2_hs (W8 m ρ c)).trans (hsAdd_congr (L8_v57 m ρ c cell hpay0 hpay1 hpay2 hpay3) (agg_congr (L8_arg2 m ρ c cell hpay0 hpay1 hpay2 hpay3) (L8_v1 m ρ c cell hpay0 hpay1 hpay2 hpay3) (L8_v3 m ρ c cell hpay0 hpay1 hpay2 hpay3) (L8_v58 m ρ c cell hpay0 hpay1 hpay2 hpay3)))).trans (Net.hsSeq_succ (GK m c cell) (aggF m c) (h0K m c) 2).symm
theorem L9_v58 : W9 m ρ c (Proc.devRef .tc main_v58) = pK 2 :=
  (hostOps2_keep (W8 m ρ c) main_v58 (by decide)).trans (L8_v58 m ρ c cell hpay0 hpay1 hpay2 hpay3)
theorem L9_v24 : W9 m ρ c (Proc.devRef .tc main_v24) = Spec.wT (F := Ideal) (m ((c : Thread nD τ).loc main_arg6)) :=
  (hostOps2_keep (W8 m ρ c) main_v24 (by decide)).trans (L8_v24 m ρ c cell hpay0 hpay1 hpay2 hpay3)
theorem L9_v26 : W9 m ρ c (Proc.devRef .tc main_v26) = Spec.wT (F := Ideal) (m ((c : Thread nD τ).loc main_arg7)) :=
  (hostOps2_keep (W8 m ρ c) main_v26 (by decide)).trans (L8_v26 m ρ c cell hpay0 hpay1 hpay2 hpay3)
theorem L9_v27 : W9 m ρ c (Proc.devRef .tc main_v27) = Spec.bRow (F := Ideal) (m ((c : Thread nD τ).loc main_arg8)) :=
  (hostOps2_keep (W8 m ρ c) main_v27 (by decide)).trans (L8_v27 m ρ c cell hpay0 hpay1 hpay2 hpay3)
theorem L9_v28 : W9 m ρ c (Proc.devRef .tc main_v28) = Spec.bRow (F := Ideal) (m ((c : Thread nD τ).loc main_arg9)) :=
  (hostOps2_keep (W8 m ρ c) main_v28 (by decide)).trans (L8_v28 m ρ c cell hpay0 hpay1 hpay2 hpay3)
theorem L9_v1 : W9 m ρ c (Proc.devRef .tc main_v1) = Spec.idxS (F := Ideal) (m ((c : Thread nD τ).loc main_arg1)) :=
  (hostOps2_keep (W8 m ρ c) main_v1 (by decide)).trans (L8_v1 m ρ c cell hpay0 hpay1 hpay2 hpay3)
theorem L9_v3 : W9 m ρ c (Proc.devRef .tc main_v3) = Spec.idxD (F := Ideal) (m ((c : Thread nD τ).loc main_arg1)) :=
  (hostOps2_keep (W8 m ρ c) main_v3 (by decide)).trans (L8_v3 m ρ c cell hpay0 hpay1 hpay2 hpay3)
theorem L9_arg2 : W9 m ρ c (Proc.devRef .tc main_arg2) = (m ((c : Thread nD τ).loc main_arg2)) :=
  (hostOps2_keep (W8 m ρ c) main_arg2 (by decide)).trans (L8_arg2 m ρ c cell hpay0 hpay1 hpay2 hpay3)
theorem L9_arg10 : W9 m ρ c (Proc.devRef .tc main_arg10) = (m ((c : Thread nD τ).loc main_arg10)) :=
  (hostOps2_keep (W8 m ρ c) main_arg10 (by decide)).trans (L8_arg10 m ρ c cell hpay0 hpay1 hpay2 hpay3)
theorem L9_arg11 : W9 m ρ c (Proc.devRef .tc main_arg11) = (m ((c : Thread nD τ).loc main_arg11)) :=
  (hostOps2_keep (W8 m ρ c) main_arg11 (by decide)).trans (L8_arg11 m ρ c cell hpay0 hpay1 hpay2 hpay3)
theorem L9_arg12 : W9 m ρ c (Proc.devRef .tc main_arg12) = (m ((c : Thread nD τ).loc main_arg12)) :=
  (hostOps2_keep (W8 m ρ c) main_arg12 (by decide)).trans (L8_arg12 m ρ c cell hpay0 hpay1 hpay2 hpay3)
theorem L9_arg13 : W9 m ρ c (Proc.devRef .tc main_arg13) = (m ((c : Thread nD τ).loc main_arg13)) :=
  (hostOps2_keep (W8 m ρ c) main_arg13 (by decide)).trans (L8_arg13 m ρ c cell hpay0 hpay1 hpay2 hpay3)

/-! ## Region 2, and the stretch after it -/

theorem L10_v73 : W10 m ρ c (Proc.devRef .tc main_v73) = pK 3 :=
  (W10_arr m ρ c 6).trans (((Reg2.final (V9 m ρ) cell hpay2 c).trans (whole_congr cell (L9_v71 m ρ c cell hpay0 hpay1 hpay2 hpay3) (L9_v58 m ρ c cell hpay0 hpay1 hpay2 hpay3) (L9_v24 m ρ c cell hpay0 hpay1 hpay2 hpay3) (L9_v26 m ρ c cell hpay0 hpay1 hpay2 hpay3) (L9_v27 m ρ c cell hpay0 hpay1 hpay2 hpay3) (L9_v28 m ρ c cell hpay0 hpay1 hpay2 hpay3))).trans (Net.pSeq_succ (GK m c cell) (aggF m c) (h0K m c) 2).symm)
theorem L10_v24 : W10 m ρ c (Proc.devRef .tc main_v24) = Spec.wT (F := Ideal) (m ((c : Thread nD τ).loc main_arg6)) :=
  ((W10_arr m ρ c 2).trans (((dat2 (V9 m ρ) c).arrAt_in 2 rfl cfg2.N).trans (A_eq2 (V9 m ρ) c 2))).trans (L9_v24 m ρ c cell hpay0 hpay1 hpay2 hpay3)
theorem L10_v26 : W10 m ρ c (Proc.devRef .tc main_v26) = Spec.wT (F := Ideal) (m ((c : Thread nD τ).loc main_arg7)) :=
  ((W10_arr m ρ c 3).trans (((dat2 (V9 m ρ) c).arrAt_in 3 rfl cfg2.N).trans (A_eq2 (V9 m ρ) c 3))).trans (L9_v26 m ρ c cell hpay0 hpay1 hpay2 hpay3)
theorem L10_v27 : W10 m ρ c (Proc.devRef .tc main_v27) = Spec.bRow (F := Ideal) (m ((c : Thread nD τ).loc main_arg8)) :=
  ((W10_arr m ρ c 4).trans (((dat2 (V9 m ρ) c).arrAt_in 4 rfl cfg2.N).trans (A_eq2 (V9 m ρ) c 4))).trans (L9_v27 m ρ c cell hpay0 hpay1 hpay2 hpay3)
theorem L10_v28 : W10 m ρ c (Proc.devRef .tc main_v28) = Spec.bRow (F := Ideal) (m ((c : Thread nD τ).loc main_arg9)) :=
  ((W10_arr m ρ c 5).trans (((dat2 (V9 m ρ) c).arrAt_in 5 rfl cfg2.N).trans (A_eq2 (V9 m ρ) c 5))).trans (L9_v28 m ρ c cell hpay0 hpay1 hpay2 hpay3)
theorem L10_v72 : W10 m ρ c (Proc.devRef .tc main_v72) = hsK 3 :=
  (W10_of_ne m ρ c main_v72 (by decide)).trans (L9_v72 m ρ c cell hpay0 hpay1 hpay2 hpay3)
theorem L10_v1 : W10 m ρ c (Proc.devRef .tc main_v1) = Spec.idxS (F := Ideal) (m ((c : Thread nD τ).loc main_arg1)) :=
  (W10_of_ne m ρ c main_v1 (by decide)).trans (L9_v1 m ρ c cell hpay0 hpay1 hpay2 hpay3)
theorem L10_v3 : W10 m ρ c (Proc.devRef .tc main_v3) = Spec.idxD (F := Ideal) (m ((c : Thread nD τ).loc main_arg1)) :=
  (W10_of_ne m ρ c main_v3 (by decide)).trans (L9_v3 m ρ c cell hpay0 hpay1 hpay2 hpay3)
theorem L10_arg2 : W10 m ρ c (Proc.devRef .tc main_arg2) = (m ((c : Thread nD τ).loc main_arg2)) :=
  (W10_of_ne m ρ c main_arg2 (by decide)).trans (L9_arg2 m ρ c cell hpay0 hpay1 hpay2 hpay3)
theorem L10_arg10 : W10 m ρ c (Proc.devRef .tc main_arg10) = (m ((c : Thread nD τ).loc main_arg10)) :=
  (W10_of_ne m ρ c main_arg10 (by decide)).trans (L9_arg10 m ρ c cell hpay0 hpay1 hpay2 hpay3)
theorem L10_arg11 : W10 m ρ c (Proc.devRef .tc main_arg11) = (m ((c : Thread nD τ).loc main_arg11)) :=
  (W10_of_ne m ρ c main_arg11 (by decide)).trans (L9_arg11 m ρ c cell hpay0 hpay1 hpay2 hpay3)
theorem L10_arg12 : W10 m ρ c (Proc.devRef .tc main_arg12) = (m ((c : Thread nD τ).loc main_arg12)) :=
  (W10_of_ne m ρ c main_arg12 (by decide)).trans (L9_arg12 m ρ c cell hpay0 hpay1 hpay2 hpay3)
theorem L10_arg13 : W10 m ρ c (Proc.devRef .tc main_arg13) = (m ((c : Thread nD τ).loc main_arg13)) :=
  (W10_of_ne m ρ c main_arg13 (by decide)).trans (L9_arg13 m ρ c cell hpay0 hpay1 hpay2 hpay3)
theorem L11_v86 : W11 m ρ c (Proc.devRef .tc main_v86) = aggF m c (pK 3) :=
  (l3_agg (W10 m ρ c)).trans (agg_congr (L10_arg2 m ρ c cell hpay0 hpay1 hpay2 hpay3) (L10_v1 m ρ c cell hpay0 hpay1 hpay2 hpay3) (L10_v3 m ρ c cell hpay0 hpay1 hpay2 hpay3) (L10_v73 m ρ c cell hpay0 hpay1 hpay2 hpay3))
theorem L11_v87 : W11 m ρ c (Proc.devRef .tc main_v87) = hsK 4 :=
  ((l3_hs (W10 m ρ c)).trans (hsAdd_congr (L10_v72 m ρ c cell hpay0 hpay1 hpay2 hpay3) (agg_congr (L10_arg2 m ρ c cell hpay0 hpay1 hpay2 hpay3) (L10_v1 m ρ c cell hpay0 hpay1 hpay2 hpay3) (L10_v3 m ρ c cell hpay0 hpay1 hpay2 hpay3) (L10_v73 m ρ c cell hpay0 hpay1 hpay2 hpay3)))).trans (Net.hsSeq_succ (GK m c cell) (aggF m c) (h0K m c) 3).symm
theorem L11_v73 : W11 m ρ c (Proc.devRef .tc main_v73) = pK 3 :=
  (hostOps3_keep (W10 m ρ c) main_v73 (by decide)).trans (L10_v73 m ρ c cell hpay0 hpay1 hpay2 hpay3)
theorem L11_v24 : W11 m ρ c (Proc.devRef .tc main_v24) = Spec.wT (F := Ideal) (m ((c : Thread nD τ).loc main_arg6)) :=
  (hostOps3_keep (W10 m ρ c) main_v24 (by decide)).trans (L10_v24 m ρ c cell hpay0 hpay1 hpay2 hpay3)
theorem L11_v26 : W11 m ρ c (Proc.devRef .tc main_v26) = Spec.wT (F := Ideal) (m ((c : Thread nD τ).loc main_arg7)) :=
  (hostOps3_keep (W10 m ρ c) main_v26 (by decide)).trans (L10_v26 m ρ c cell hpay0 hpay1 hpay2 hpay3)
theorem L11_v27 : W11 m ρ c (Proc.devRef .tc main_v27) = Spec.bRow (F := Ideal) (m ((c : Thread nD τ).loc main_arg8)) :=
  (hostOps3_keep (W10 m ρ c) main_v27 (by decide)).trans (L10_v27 m ρ c cell hpay0 hpay1 hpay2 hpay3)
theorem L11_v28 : W11 m ρ c (Proc.devRef .tc main_v28) = Spec.bRow (F := Ideal) (m ((c : Thread nD τ).loc main_arg9)) :=
  (hostOps3_keep (W10 m ρ c) main_v28 (by decide)).trans (L10_v28 m ρ c cell hpay0 hpay1 hpay2 hpay3)
theorem L11_v1 : W11 m ρ c (Proc.devRef .tc main_v1) = Spec.idxS (F := Ideal) (m ((c : Thread nD τ).loc main_arg1)) :=
  (hostOps3_keep (W10 m ρ c) main_v1 (by decide)).trans (L10_v1 m ρ c cell hpay0 hpay1 hpay2 hpay3)
theorem L11_v3 : W11 m ρ c (Proc.devRef .tc main_v3) = Spec.idxD (F := Ideal) (m ((c : Thread nD τ).loc main_arg1)) :=
  (hostOps3_keep (W10 m ρ c) main_v3 (by decide)).trans (L10_v3 m ρ c cell hpay0 hpay1 hpay2 hpay3)
theorem L11_arg2 : W11 m ρ c (Proc.devRef .tc main_arg2) = (m ((c : Thread nD τ).loc main_arg2)) :=
  (hostOps3_keep (W10 m ρ c) main_arg2 (by decide)).trans (L10_arg2 m ρ c cell hpay0 hpay1 hpay2 hpay3)
theorem L11_arg10 : W11 m ρ c (Proc.devRef .tc main_arg10) = (m ((c : Thread nD τ).loc main_arg10)) :=
  (hostOps3_keep (W10 m ρ c) main_arg10 (by decide)).trans (L10_arg10 m ρ c cell hpay0 hpay1 hpay2 hpay3)
theorem L11_arg11 : W11 m ρ c (Proc.devRef .tc main_arg11) = (m ((c : Thread nD τ).loc main_arg11)) :=
  (hostOps3_keep (W10 m ρ c) main_arg11 (by decide)).trans (L10_arg11 m ρ c cell hpay0 hpay1 hpay2 hpay3)
theorem L11_arg12 : W11 m ρ c (Proc.devRef .tc main_arg12) = (m ((c : Thread nD τ).loc main_arg12)) :=
  (hostOps3_keep (W10 m ρ c) main_arg12 (by decide)).trans (L10_arg12 m ρ c cell hpay0 hpay1 hpay2 hpay3)
theorem L11_arg13 : W11 m ρ c (Proc.devRef .tc main_arg13) = (m ((c : Thread nD τ).loc main_arg13)) :=
  (hostOps3_keep (W10 m ρ c) main_arg13 (by decide)).trans (L10_arg13 m ρ c cell hpay0 hpay1 hpay2 hpay3)

/-! ## Region 3, and the stretch after it -/

theorem L12_v88 : W12 m ρ c (Proc.devRef .tc main_v88) = pK 4 :=
  (W12_arr m ρ c 6).trans (((Reg3.final (V11 m ρ) cell hpay3 c).trans (whole_congr cell (L11_v86 m ρ c cell hpay0 hpay1 hpay2 hpay3) (L11_v73 m ρ c cell hpay0 hpay1 hpay2 hpay3) (L11_v24 m ρ c cell hpay0 hpay1 hpay2 hpay3) (L11_v26 m ρ c cell hpay0 hpay1 hpay2 hpay3) (L11_v27 m ρ c cell hpay0 hpay1 hpay2 hpay3) (L11_v28 m ρ c cell hpay0 hpay1 hpay2 hpay3))).trans (Net.pSeq_succ (GK m c cell) (aggF m c) (h0K m c) 3).symm)
theorem L12_v24 : W12 m ρ c (Proc.devRef .tc main_v24) = Spec.wT (F := Ideal) (m ((c : Thread nD τ).loc main_arg6)) :=
  ((W12_arr m ρ c 2).trans (((dat3 (V11 m ρ) c).arrAt_in 2 rfl cfg3.N).trans (A_eq3 (V11 m ρ) c 2))).trans (L11_v24 m ρ c cell hpay0 hpay1 hpay2 hpay3)
theorem L12_v26 : W12 m ρ c (Proc.devRef .tc main_v26) = Spec.wT (F := Ideal) (m ((c : Thread nD τ).loc main_arg7)) :=
  ((W12_arr m ρ c 3).trans (((dat3 (V11 m ρ) c).arrAt_in 3 rfl cfg3.N).trans (A_eq3 (V11 m ρ) c 3))).trans (L11_v26 m ρ c cell hpay0 hpay1 hpay2 hpay3)
theorem L12_v27 : W12 m ρ c (Proc.devRef .tc main_v27) = Spec.bRow (F := Ideal) (m ((c : Thread nD τ).loc main_arg8)) :=
  ((W12_arr m ρ c 4).trans (((dat3 (V11 m ρ) c).arrAt_in 4 rfl cfg3.N).trans (A_eq3 (V11 m ρ) c 4))).trans (L11_v27 m ρ c cell hpay0 hpay1 hpay2 hpay3)
theorem L12_v28 : W12 m ρ c (Proc.devRef .tc main_v28) = Spec.bRow (F := Ideal) (m ((c : Thread nD τ).loc main_arg9)) :=
  ((W12_arr m ρ c 5).trans (((dat3 (V11 m ρ) c).arrAt_in 5 rfl cfg3.N).trans (A_eq3 (V11 m ρ) c 5))).trans (L11_v28 m ρ c cell hpay0 hpay1 hpay2 hpay3)
theorem L12_v87 : W12 m ρ c (Proc.devRef .tc main_v87) = hsK 4 :=
  (W12_of_ne m ρ c main_v87 (by decide)).trans (L11_v87 m ρ c cell hpay0 hpay1 hpay2 hpay3)
theorem L12_v1 : W12 m ρ c (Proc.devRef .tc main_v1) = Spec.idxS (F := Ideal) (m ((c : Thread nD τ).loc main_arg1)) :=
  (W12_of_ne m ρ c main_v1 (by decide)).trans (L11_v1 m ρ c cell hpay0 hpay1 hpay2 hpay3)
theorem L12_v3 : W12 m ρ c (Proc.devRef .tc main_v3) = Spec.idxD (F := Ideal) (m ((c : Thread nD τ).loc main_arg1)) :=
  (W12_of_ne m ρ c main_v3 (by decide)).trans (L11_v3 m ρ c cell hpay0 hpay1 hpay2 hpay3)
theorem L12_arg2 : W12 m ρ c (Proc.devRef .tc main_arg2) = (m ((c : Thread nD τ).loc main_arg2)) :=
  (W12_of_ne m ρ c main_arg2 (by decide)).trans (L11_arg2 m ρ c cell hpay0 hpay1 hpay2 hpay3)
theorem L12_arg10 : W12 m ρ c (Proc.devRef .tc main_arg10) = (m ((c : Thread nD τ).loc main_arg10)) :=
  (W12_of_ne m ρ c main_arg10 (by decide)).trans (L11_arg10 m ρ c cell hpay0 hpay1 hpay2 hpay3)
theorem L12_arg11 : W12 m ρ c (Proc.devRef .tc main_arg11) = (m ((c : Thread nD τ).loc main_arg11)) :=
  (W12_of_ne m ρ c main_arg11 (by decide)).trans (L11_arg11 m ρ c cell hpay0 hpay1 hpay2 hpay3)
theorem L12_arg12 : W12 m ρ c (Proc.devRef .tc main_arg12) = (m ((c : Thread nD τ).loc main_arg12)) :=
  (W12_of_ne m ρ c main_arg12 (by decide)).trans (L11_arg12 m ρ c cell hpay0 hpay1 hpay2 hpay3)
theorem L12_arg13 : W12 m ρ c (Proc.devRef .tc main_arg13) = (m ((c : Thread nD τ).loc main_arg13)) :=
  (W12_of_ne m ρ c main_arg13 (by decide)).trans (L11_arg13 m ρ c cell hpay0 hpay1 hpay2 hpay3)
theorem L13_v101 : W13 m ρ c (Proc.devRef .tc main_v101) = aggF m c (pK 4) :=
  (l4_agg (W12 m ρ c)).trans (agg_congr (L12_arg2 m ρ c cell hpay0 hpay1 hpay2 hpay3) (L12_v1 m ρ c cell hpay0 hpay1 hpay2 hpay3) (L12_v3 m ρ c cell hpay0 hpay1 hpay2 hpay3) (L12_v88 m ρ c cell hpay0 hpay1 hpay2 hpay3))
theorem L13_v102 : W13 m ρ c (Proc.devRef .tc main_v102) = hsK 5 :=
  ((l4_hs (W12 m ρ c)).trans (hsAdd_congr (L12_v87 m ρ c cell hpay0 hpay1 hpay2 hpay3) (agg_congr (L12_arg2 m ρ c cell hpay0 hpay1 hpay2 hpay3) (L12_v1 m ρ c cell hpay0 hpay1 hpay2 hpay3) (L12_v3 m ρ c cell hpay0 hpay1 hpay2 hpay3) (L12_v88 m ρ c cell hpay0 hpay1 hpay2 hpay3)))).trans (Net.hsSeq_succ (GK m c cell) (aggF m c) (h0K m c) 4).symm
theorem L13_arg10 : W13 m ρ c (Proc.devRef .tc main_arg10) = (m ((c : Thread nD τ).loc main_arg10)) :=
  (hostOps4_keep (W12 m ρ c) main_arg10 (by decide)).trans (L12_arg10 m ρ c cell hpay0 hpay1 hpay2 hpay3)
theorem L13_arg11 : W13 m ρ c (Proc.devRef .tc main_arg11) = (m ((c : Thread nD τ).loc main_arg11)) :=
  (hostOps4_keep (W12 m ρ c) main_arg11 (by decide)).trans (L12_arg11 m ρ c cell hpay0 hpay1 hpay2 hpay3)
theorem L13_arg12 : W13 m ρ c (Proc.devRef .tc main_arg12) = (m ((c : Thread nD τ).loc main_arg12)) :=
  (hostOps4_keep (W12 m ρ c) main_arg12 (by decide)).trans (L12_arg12 m ρ c cell hpay0 hpay1 hpay2 hpay3)
theorem L13_arg13 : W13 m ρ c (Proc.devRef .tc main_arg13) = (m ((c : Thread nD τ).loc main_arg13)) :=
  (hostOps4_keep (W12 m ρ c) main_arg13 (by decide)).trans (L12_arg13 m ρ c cell hpay0 hpay1 hpay2 hpay3)

/-! ## Region 4 (its output is never read), and the decoder -/

theorem L14_v102 : W14 m ρ c (Proc.devRef .tc main_v102) = hsK 5 :=
  (W14_of_ne m ρ c main_v102 (by decide)).trans (L13_v102 m ρ c cell hpay0 hpay1 hpay2 hpay3)
theorem L14_arg10 : W14 m ρ c (Proc.devRef .tc main_arg10) = (m ((c : Thread nD τ).loc main_arg10)) :=
  (W14_of_ne m ρ c main_arg10 (by decide)).trans (L13_arg10 m ρ c cell hpay0 hpay1 hpay2 hpay3)
theorem L14_arg11 : W14 m ρ c (Proc.devRef .tc main_arg11) = (m ((c : Thread nD τ).loc main_arg11)) :=
  (W14_of_ne m ρ c main_arg11 (by decide)).trans (L13_arg11 m ρ c cell hpay0 hpay1 hpay2 hpay3)
theorem L14_arg12 : W14 m ρ c (Proc.devRef .tc main_arg12) = (m ((c : Thread nD τ).loc main_arg12)) :=
  (W14_of_ne m ρ c main_arg12 (by decide)).trans (L13_arg12 m ρ c cell hpay0 hpay1 hpay2 hpay3)
theorem L14_arg13 : W14 m ρ c (Proc.devRef .tc main_arg13) = (m ((c : Thread nD τ).loc main_arg13)) :=
  (W14_of_ne m ρ c main_arg13 (by decide)).trans (L13_arg13 m ρ c cell hpay0 hpay1 hpay2 hpay3)

/-- THE RESULT: the decoder, with the kernel program's batch normalisation, of the sum of the six hidden states. -/
theorem kernel_value : W19 m ρ c (Proc.devRef .tc main_v127)
    = Net.dec (Spec.bnK64 (F := Ideal)) (hsK 5) (m ((c : Thread nD τ).loc main_arg10)) (m ((c : Thread nD τ).loc main_arg11)) (m ((c : Thread nD τ).loc main_arg12)) (m ((c : Thread nD τ).loc main_arg13)) :=
  (d_out (W14 m ρ c)).trans (dec_congr _ (L14_v102 m ρ c cell hpay0 hpay1 hpay2 hpay3) (L14_arg10 m ρ c cell hpay0 hpay1 hpay2 hpay3) (L14_arg11 m ρ c cell hpay0 hpay1 hpay2 hpay3) (L14_arg12 m ρ c cell hpay0 hpay1 hpay2 hpay3) (L14_arg13 m ρ c cell hpay0 hpay1 hpay2 hpay3))

end Cert.KernelIdeal.Chain

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.GruCell.lean ====
/-
  One entry of a GRU cell's result as a scalar formula, and the reference's host operations read at that entry.

  With gi = a · Wi + bi and gh = p · Wh + bh (rows of 384 entries, in three blocks of 128 columns: reset, update,
  candidate), the cell's entry j is

      (1 - z) * n + z * p j,   r = logistic (gi_r j + gh_r j),  z = logistic (gi_z j + gh_z j),
                               n = tanh (gi_n j + r * gh_n j).

  On the extended reals the logistic function is 1 / (1 + exp (-x)) and a product of matrices read at an entry is the
  finite sum over the contracted coordinate, so the reference's operations, read at (i, j), are this formula of row i
  of the two operands, the two transposed weight matrices and the two biases.
-/
import proofs.«141514_j89154931130446_1_alg».proof.ReferenceIdeal
import proofs.«141514_j89154931130446_1_alg».proof.Proof.LibPlainDot
import Idealize.ShloMosaic.PureOps.Ideal.Laws
import Idealize.ShloMosaic.Lib.ValueIdx
import Idealize.ShloMosaic.Lib.IdealHost
import Idealize.ShloMosaic.Lib.ValueLayout
import Idealize.ShloMosaic.Lib.KernelVsHost
import Idealize.ShloMosaic.Lib.Pipeline.Value

noncomputable section

open scoped BigOperators

namespace Cert.Gru

open Idealize.ShloMosaic Idealize.ShloMosaic.ValueIdx

/-! ## The scalar formula -/

/-- Column j of the reset block (columns 0 … 127) of a row of 384 entries. -/
def colR (j : Fin 128) : Fin 384 := ⟨j.val, by omega⟩
/-- Column j of the update block (columns 128 … 255). -/
def colZ (j : Fin 128) : Fin 384 := ⟨128 + j.val, by omega⟩
/-- Column j of the candidate block (columns 256 … 383). -/
def colN (j : Fin 128) : Fin 384 := ⟨256 + j.val, by omega⟩

/-- One gate pre-activation: a row times a weight column, plus the bias entry. -/
def gate (a : Fin 128 → EReal) (w : Fin 128 → Fin 384 → EReal) (b : Fin 384 → EReal) (c : Fin 384) : EReal :=
  (∑ k : Fin 128, a k * w k c) + b c

/-- Entry j of the GRU cell applied to the input row a and the state row p. -/
def cellAt (a p : Fin 128 → EReal) (wi wh : Fin 128 → Fin 384 → EReal) (bi bh : Fin 384 → EReal) (j : Fin 128) : EReal :=
  (1 - Ideal.logistic (gate a wi bi (colZ j) + gate p wh bh (colZ j)))
      * Ideal.tanh (gate a wi bi (colN j)
          + Ideal.logistic (gate a wi bi (colR j) + gate p wh bh (colR j)) * gate p wh bh (colN j))
    + Ideal.logistic (gate a wi bi (colZ j) + gate p wh bh (colZ j)) * p j

/-! ## Operations read at an entry -/

section Reads
variable {α : Type}

/-- The first 128 columns of a matrix of 384 columns, read at (i, j). -/
theorem slice_colR {m : Nat} (x : (⟨2, ![m, 384]⟩ : Shape).Idx → α)
    (h : (⟨2, ![m, 384]⟩ : Shape).Slices ![0, 0] ⟨2, ![m, 128]⟩) (i : Fin m) (j : Fin 128) :
    extractStridedSlice ⟨2, ![m, 128]⟩ ![0, 0] x h (ix2 i j) = x (ix2 i (colR j)) :=
  extractStridedSlice_apply _ x h _ _ fun a => match a with
    | ⟨0, _⟩ => by show i.val = 0 + i.val; omega
    | ⟨1, _⟩ => by show j.val = 0 + j.val; omega

/-- Columns 128 … 255 of a matrix of 384 columns, read at (i, j). -/
theorem slice_colZ {m : Nat} (x : (⟨2, ![m, 384]⟩ : Shape).Idx → α)
    (h : (⟨2, ![m, 384]⟩ : Shape).Slices ![0, 128] ⟨2, ![m, 128]⟩) (i : Fin m) (j : Fin 128) :
    extractStridedSlice ⟨2, ![m, 128]⟩ ![0, 128] x h (ix2 i j) = x (ix2 i (colZ j)) :=
  extractStridedSlice_apply _ x h _ _ fun a => match a with
    | ⟨0, _⟩ => by show i.val = 0 + i.val; omega
    | ⟨1, _⟩ => by show 128 + j.val = 128 + j.val; rfl

/-- Columns 256 … 383 of a matrix of 384 columns, read at (i, j). -/
theorem slice_colN {m : Nat} (x : (⟨2, ![m, 384]⟩ : Shape).Idx → α)
    (h : (⟨2, ![m, 384]⟩ : Shape).Slices ![0, 256] ⟨2, ![m, 128]⟩) (i : Fin m) (j : Fin 128) :
    extractStridedSlice ⟨2, ![m, 128]⟩ ![0, 256] x h (ix2 i j) = x (ix2 i (colN j)) :=
  extractStridedSlice_apply _ x h _ _ fun a => match a with
    | ⟨0, _⟩ => by show i.val = 0 + i.val; omega
    | ⟨1, _⟩ => by show 256 + j.val = 256 + j.val; rfl

/-- A vector of n entries laid as one row reads, at (0, c), its entry c. -/
theorem row_of_vector {n : Nat} (b : (⟨1, ![n]⟩ : Shape).Idx → α)
    (h : (⟨1, ![n]⟩ : Shape).BroadcastsInDim ⟨2, ![1, n]⟩ ![1]) (c : Fin n) :
    broadcastInDim ⟨2, ![1, n]⟩ ![1] h b (ix2 (0 : Fin 1) c) = b (ix1 c) :=
  broadcastInDim_apply ![1] h b _ _ fun a => match a with
    | ⟨0, _⟩ => by
      show c.val = if n = 1 then 0 else c.val
      split
      · have := c.isLt; omega
      · rfl

end Reads

/-- The host's exponential, negation and hyperbolic tangent read at an index: the extended reals' functions. -/
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl
theorem hostTanh_apply {s : Shape} {φ : FTy} (x : FVec Ideal s φ) (i : s.Idx) : Host.tanh x i = Ideal.tanh (x i) := rfl

/-- The logistic function is 1 / (1 + exp (-x)), by definition. -/
theorem div_one_add_exp_neg (x : EReal) : Ideal.div 1 (1 + Ideal.exp (-x)) = Ideal.logistic x := rfl

/-! ## The reference's operations -/

section Reference

open Cert.ReferenceIdeal Cert.ReferenceIdeal.Facts₀

variable [Cert.ReferenceIdeal.Facts₀]

/-- The reference's GRU cell: its operations from the transpose of the input weights to the final sum, composed in
    the program's order, as a function of the aggregated rows, the state rows, the two weight matrices and the two
    biases. -/
def gruR (agg prev : FVec Ideal Cert.ReferenceIdeal.S50000x128 .f32) (Wih Whh : FVec Ideal Cert.ReferenceIdeal.S384x128 .f32)
    (bih bhh : FVec Ideal Cert.ReferenceIdeal.S384 .f32) : FVec Ideal Cert.ReferenceIdeal.S50000x128 .f32 :=
  addf
    (mulf
      (subf (broadcastInDim S50000x128 ![] bcast_S_S50000x128 (constant (F := Ideal) S_ .f32 0x3F800000#32))
        (Host.divf (F := Ideal) (broadcastInDim S50000x128 ![] bcast_S_S50000x128 (constant (F := Ideal) S_ .f32 0x3F800000#32)) (addf (broadcastInDim S50000x128 ![] bcast_S_S50000x128 (constant (F := Ideal) S_ .f32 0x3F800000#32)) (Host.exp (F := Ideal) (Host.negf (F := Ideal) (addf (extractStridedSlice S50000x128 ![0, 128] (addf (Host.dotGeneral (F := Ideal) dot_S50000x128_S128x384_S50000x384_1_0_0_1_n_n none agg (transpose S128x384 [1, 0] Wih transposes_S384x128_S128x384_1_0)) (broadcastInDim S50000x384 ![0, 1] bcast_S1x384_S50000x384_0_1 (broadcastInDim S1x384 ![1] bcast_S384_S1x384_1 bih))) slices_S50000x384_S50000x128_0_128) (extractStridedSlice S50000x128 ![0, 128] (addf (Host.dotGeneral (F := Ideal) dot_S50000x128_S128x384_S50000x384_1_0_0_1_n_n none prev (transpose S128x384 [1, 0] Whh transposes_S384x128_S128x384_1_0)) (broadcastInDim S50000x384 ![0, 1] bcast_S1x384_S50000x384_0_1 (broadcastInDim S1x384 ![1] bcast_S384_S1x384_1 bhh))) slices_S50000x384_S50000x128_0_128)))))))
      (Host.tanh (F := Ideal) (addf (extractStridedSlice S50000x128 ![0, 256] (addf (Host.dotGeneral (F := Ideal) dot_S50000x128_S128x384_S50000x384_1_0_0_1_n_n none agg (transpose S128x384 [1, 0] Wih transposes_S384x128_S128x384_1_0)) (broadcastInDim S50000x384 ![0, 1] bcast_S1x384_S50000x384_0_1 (broadcastInDim S1x384 ![1] bcast_S384_S1x384_1 bih))) slices_S50000x384_S50000x128_0_256) (mulf (Host.divf (F := Ideal) (broadcastInDim S50000x128 ![] bcast_S_S50000x128 (constant (F := Ideal) S_ .f32 0x3F800000#32)) (addf (broadcastInDim S50000x128 ![] bcast_S_S50000x128 (constant (F := Ideal) S_ .f32 0x3F800000#32)) (Host.exp (F := Ideal) (Host.negf (F := Ideal) (addf (extractStridedSlice S50000x128 ![0, 0] (addf (Host.dotGeneral (F := Ideal) dot_S50000x128_S128x384_S50000x384_1_0_0_1_n_n none agg (transpose S128x384 [1, 0] Wih transposes_S384x128_S128x384_1_0)) (broadcastInDim S50000x384 ![0, 1] bcast_S1x384_S50000x384_0_1 (broadcastInDim S1x384 ![1] bcast_S384_S1x384_1 bih))) slices_S50000x384_S50000x128_0_0) (extractStridedSlice S50000x128 ![0, 0] (addf (Host.dotGeneral (F := Ideal) dot_S50000x128_S128x384_S50000x384_1_0_0_1_n_n none prev (transpose S128x384 [1, 0] Whh transposes_S384x128_S128x384_1_0)) (broadcastInDim S50000x384 ![0, 1] bcast_S1x384_S50000x384_0_1 (broadcastInDim S1x384 ![1] bcast_S384_S1x384_1 bhh))) slices_S50000x384_S50000x128_0_0)))))) (extractStridedSlice S50000x128 ![0, 256] (addf (Host.dotGeneral (F := Ideal) dot_S50000x128_S128x384_S50000x384_1_0_0_1_n_n none prev (transpose S128x384 [1, 0] Whh transposes_S384x128_S128x384_1_0)) (broadcastInDim S50000x384 ![0, 1] bcast_S1x384_S50000x384_0_1 (broadcastInDim S1x384 ![1] bcast_S384_S1x384_1 bhh))) slices_S50000x384_S50000x128_0_256)))))
    (mulf
      (Host.divf (F := Ideal) (broadcastInDim S50000x128 ![] bcast_S_S50000x128 (constant (F := Ideal) S_ .f32 0x3F800000#32)) (addf (broadcastInDim S50000x128 ![] bcast_S_S50000x128 (constant (F := Ideal) S_ .f32 0x3F800000#32)) (Host.exp (F := Ideal) (Host.negf (F := Ideal) (addf (extractStridedSlice S50000x128 ![0, 128] (addf (Host.dotGeneral (F := Ideal) dot_S50000x128_S128x384_S50000x384_1_0_0_1_n_n none agg (transpose S128x384 [1, 0] Wih transposes_S384x128_S128x384_1_0)) (broadcastInDim S50000x384 ![0, 1] bcast_S1x384_S50000x384_0_1 (broadcastInDim S1x384 ![1] bcast_S384_S1x384_1 bih))) slices_S50000x384_S50000x128_0_128) (extractStridedSlice S50000x128 ![0, 128] (addf (Host.dotGeneral (F := Ideal) dot_S50000x128_S128x384_S50000x384_1_0_0_1_n_n none prev (transpose S128x384 [1, 0] Whh transposes_S384x128_S128x384_1_0)) (broadcastInDim S50000x384 ![0, 1] bcast_S1x384_S50000x384_0_1 (broadcastInDim S1x384 ![1] bcast_S384_S1x384_1 bhh))) slices_S50000x384_S50000x128_0_128))))))
      prev)

/-- The reference's product with a transposed weight matrix, read at (i, c): the sum over the 128 shared coordinates. -/
theorem hostDot_apply (x : FVec Ideal Cert.ReferenceIdeal.S50000x128 .f32) (W : FVec Ideal Cert.ReferenceIdeal.S384x128 .f32)
    (i : Fin 50000) (c : Fin 384) :
    Host.dotGeneral (F := Ideal) dot_S50000x128_S128x384_S50000x384_1_0_0_1_n_n none x
        (transpose S128x384 [1, 0] W transposes_S384x128_S128x384_1_0) (ix2 i c)
      = ∑ k : Fin 128, x (ix2 i k) * W (ix2 c k) := by
  refine (Cert.LibPlainDot.dotGeneral_plain 50000 128 384 none .single x _ (ix2 i c)).trans ?_
  refine Finset.sum_congr rfl fun k _ => ?_
  exact congrArg (x (ix2 i k) * ·) (transpose_ix2_apply W _ k c)

/-- The reference's bias, laid as one row and repeated down the rows, read at (i, c). -/
theorem hostBias_apply (b : FVec Ideal Cert.ReferenceIdeal.S384 .f32) (i : Fin 50000) (c : Fin 384) :
    broadcastInDim S50000x384 ![0, 1] bcast_S1x384_S50000x384_0_1 (broadcastInDim S1x384 ![1] bcast_S384_S1x384_1 b) (ix2 i c)
      = b (ix1 c) :=
  (broadcastInDim_oneRow_apply _ _ i c).trans (row_of_vector b _ c)

/-- The reference's GRU cell read at (i, j) is the scalar formula of row i of the operands. -/
theorem gruR_apply (agg prev : FVec Ideal Cert.ReferenceIdeal.S50000x128 .f32) (Wih Whh : FVec Ideal Cert.ReferenceIdeal.S384x128 .f32)
    (bih bhh : FVec Ideal Cert.ReferenceIdeal.S384 .f32) (i : Fin 50000) (j : Fin 128) :
    gruR agg prev Wih Whh bih bhh (ix2 i j)
      = cellAt (fun k => agg (ix2 i k)) (fun k => prev (ix2 i k)) (fun k c => Wih (ix2 c k)) (fun k c => Whh (ix2 c k))
          (fun c => bih (ix1 c)) (fun c => bhh (ix1 c)) j := by
  unfold gruR cellAt gate
  simp only [addf_apply, mulf_apply, subf_apply, hostDivf_apply, hostExp_apply, hostNegf_apply, hostTanh_apply,
    slice_colR, slice_colZ, slice_colN]
  rw [hostDot_apply agg Wih i (colR j), hostDot_apply agg Wih i (colZ j), hostDot_apply agg Wih i (colN j),
    hostDot_apply prev Whh i (colR j), hostDot_apply prev Whh i (colZ j), hostDot_apply prev Whh i (colN j),
    hostBias_apply bih i (colR j), hostBias_apply bih i (colZ j), hostBias_apply bih i (colN j),
    hostBias_apply bhh i (colR j), hostBias_apply bhh i (colZ j), hostBias_apply bhh i (colN j),
    broadcastInDim_scalar_apply, constant_apply, Ideal.ofBits_one_f32]
  rfl

end Reference

end Cert.Gru

end
-- ==== Proof.GruPay.lean ====
/-
  The kernel's GRU cell body read at an entry.

  Each of the five layers' cell bodies computes, from a block of 2000 input rows, the matching block of state rows, the
  two weight matrices (already transposed, entries in the narrower float format) and the two bias rows: the two
  products into a zero accumulator plus the biases, the three column blocks of each, the two logistic gates, the
  candidate's hyperbolic tangent and the blend with the old state. On the extended reals a change of float format is
  the identity and a product into the zero accumulator is the finite sum over the contracted coordinate, so the value
  stored at (p, j) is the scalar formula of the cell at row p.
-/
import proofs.«141514_j89154931130446_1_alg».proof.Proof.GruCell
import proofs.«141514_j89154931130446_1_alg».proof.Proof.Gen.KernelIdeal.Skeleton

noncomputable section

open scoped BigOperators

namespace Cert.Gru

open Idealize.ShloMosaic Idealize.ShloMosaic.ValueIdx

/-- The logistic function and the hyperbolic tangent of a vector read at an index: the extended reals' functions. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- The scalar unit's word for 1.0 is the extended real one. -/
theorem scalar_one : Scalar.ofBits (F := Ideal) .f32 0x3F800000#32 = 1 := Ideal.ofBits_one_f32

section Kernel

open Cert.KernelIdeal

/-- A block of rows, its entries narrowed, times a weight block into the zero accumulator, read at (p, c): the sum
    over the 128 shared coordinates. -/
theorem kernDot_apply (x : FVec Ideal S2000x128 .f32) (w : FVec Ideal S128x384 .bf16) (h : FTy.bf16.bits < FTy.f32.bits)
    (p : Fin 2000) (c : Fin 384) :
    matmul dot_S2000x128_S128x384_S2000x384_1_0_0_1_n_n none (truncf .bf16 x h) w
        (constant (F := Ideal) S2000x384 .f32 0x00000000#32) (ix2 p c)
      = ∑ k : Fin 128, x (ix2 p k) * w (ix2 k c) :=
  Cert.LibPlainDot.matmul_zero_plain 2000 128 384 none (truncf .bf16 x h) w (ix2 p c)

/-- Entry (p, j) of what the first layer's cell body stores is the scalar formula of row p of its two row blocks,
    its two weight blocks and its two bias rows. -/
theorem pay0_apply (x0 x1 : Vec Ideal Cert.KernelIdeal.S2000x128 .f32) (x2 x3 : Vec Ideal Cert.KernelIdeal.S128x384 .bf16)
    (x4 x5 : Vec Ideal Cert.KernelIdeal.S1x384 .f32) (p : Fin 2000) (j : Fin 128) :
    Cert.KernelIdeal.Gen.k0_pay1 (F := Ideal) x0 x1 x2 x3 x4 x5 (ix2 p j)
      = Cert.Gru.cellAt (fun k => x0 (ix2 p k)) (fun k => x1 (ix2 p k)) (fun k c => x2 (ix2 k c)) (fun k c => x3 (ix2 k c))
          (fun c => x4 (ix2 (0 : Fin 1) c)) (fun c => x5 (ix2 (0 : Fin 1) c)) j := by
  unfold Cert.KernelIdeal.Gen.k0_pay1 cellAt gate
  simp only [shapeCast_self, addf_apply, mulf_apply, subf_apply, logistic_apply, tanh_apply, broadcast_apply, scalar_one,
    slice_colR, slice_colZ, slice_colN]
  rw [kernDot_apply x0 x2 _ p (colR j),
    kernDot_apply x0 x2 _ p (colZ j),
    kernDot_apply x0 x2 _ p (colN j),
    kernDot_apply x1 x3 _ p (colR j),
    kernDot_apply x1 x3 _ p (colZ j),
    kernDot_apply x1 x3 _ p (colN j),
    broadcastTo_1b_ab_apply x4 _ p (colR j),
    broadcastTo_1b_ab_apply x4 _ p (colZ j),
    broadcastTo_1b_ab_apply x4 _ p (colN j),
    broadcastTo_1b_ab_apply x5 _ p (colR j),
    broadcastTo_1b_ab_apply x5 _ p (colZ j),
    broadcastTo_1b_ab_apply x5 _ p (colN j)]

/-- The same for layer 2's cell body, which is the same term. -/
theorem pay1_apply (x0 x1 : Vec Ideal Cert.KernelIdeal.S2000x128 .f32) (x2 x3 : Vec Ideal Cert.KernelIdeal.S128x384 .bf16)
    (x4 x5 : Vec Ideal Cert.KernelIdeal.S1x384 .f32) (p : Fin 2000) (j : Fin 128) :
    Cert.KernelIdeal.Gen.k1_pay1 (F := Ideal) x0 x1 x2 x3 x4 x5 (ix2 p j)
      = Cert.Gru.cellAt (fun k => x0 (ix2 p k)) (fun k => x1 (ix2 p k)) (fun k c => x2 (ix2 k c)) (fun k c => x3 (ix2 k c))
          (fun c => x4 (ix2 (0 : Fin 1) c)) (fun c => x5 (ix2 (0 : Fin 1) c)) j :=
  pay0_apply x0 x1 x2 x3 x4 x5 p j

/-- The same for layer 3's cell body, which is the same term. -/
theorem pay2_apply (x0 x1 : Vec Ideal Cert.KernelIdeal.S2000x128 .f32) (x2 x3 : Vec Ideal Cert.KernelIdeal.S128x384 .bf16)
    (x4 x5 : Vec Ideal Cert.KernelIdeal.S1x384 .f32) (p : Fin 2000) (j : Fin 128) :
    Cert.KernelIdeal.Gen.k2_pay1 (F := Ideal) x0 x1 x2 x3 x4 x5 (ix2 p j)
      = Cert.Gru.cellAt (fun k => x0 (ix2 p k)) (fun k => x1 (ix2 p k)) (fun k c => x2 (ix2 k c)) (fun k c => x3 (ix2 k c))
          (fun c => x4 (ix2 (0 : Fin 1) c)) (fun c => x5 (ix2 (0 : Fin 1) c)) j :=
  pay0_apply x0 x1 x2 x3 x4 x5 p j

/-- The same for layer 4's cell body, which is the same term. -/
theorem pay3_apply (x0 x1 : Vec Ideal Cert.KernelIdeal.S2000x128 .f32) (x2 x3 : Vec Ideal Cert.KernelIdeal.S128x384 .bf16)
    (x4 x5 : Vec Ideal Cert.KernelIdeal.S1x384 .f32) (p : Fin 2000) (j : Fin 128) :
    Cert.KernelIdeal.Gen.k3_pay1 (F := Ideal) x0 x1 x2 x3 x4 x5 (ix2 p j)
      = Cert.Gru.cellAt (fun k => x0 (ix2 p k)) (fun k => x1 (ix2 p k)) (fun k c => x2 (ix2 k c)) (fun k c => x3 (ix2 k c))
          (fun c => x4 (ix2 (0 : Fin 1) c)) (fun c => x5 (ix2 (0 : Fin 1) c)) j :=
  pay0_apply x0 x1 x2 x3 x4 x5 p j

/-- The same for layer 5's cell body, which is the same term. -/
theorem pay4_apply (x0 x1 : Vec Ideal Cert.KernelIdeal.S2000x128 .f32) (x2 x3 : Vec Ideal Cert.KernelIdeal.S128x384 .bf16)
    (x4 x5 : Vec Ideal Cert.KernelIdeal.S1x384 .f32) (p : Fin 2000) (j : Fin 128) :
    Cert.KernelIdeal.Gen.k4_pay1 (F := Ideal) x0 x1 x2 x3 x4 x5 (ix2 p j)
      = Cert.Gru.cellAt (fun k => x0 (ix2 p k)) (fun k => x1 (ix2 p k)) (fun k c => x2 (ix2 k c)) (fun k c => x3 (ix2 k c))
          (fun c => x4 (ix2 (0 : Fin 1) c)) (fun c => x5 (ix2 (0 : Fin 1) c)) j :=
  pay0_apply x0 x1 x2 x3 x4 x5 p j

end Kernel

end Cert.Gru

end
-- ==== Proof.RefOps.lean ====
/-
  The reference program's operations in order, layer by layer: seven lists - the encoder, the five
  message-passing layers, the decoder - whose concatenation `ops` is @main's straight line, a called function's
  operations standing in its call's place over that call's buffers. With them: every operation touches TensorCore
  buffers only (`ops_sub`) and determines what it writes (`ops_fresh`) - what running the line asks of it.
-/
import proofs.«141514_j89154931130446_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The encoder: the edge index's two rows, the node features times the transposed encoder weight, its batch normalisation over the nodes (mean, variance, scale and shift) and the rectifier. 53 operations. -/
abbrev opsE : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.unary main_arg3 main_v4 ((transpose S3x128 [1, 0] · transposes_S128x3_S3x128_1_0) : (⟨S128x3, .f32⟩ : BufTy).Contents (Elt F) → (⟨S3x128, .f32⟩ : BufTy).Contents (Elt F)),
    StableHlo.binary main_arg0 main_v4 main_v5 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    StableHlo.nullary main_cst (constant S_ .f32 0x00000000#32),
    StableHlo.binary main_v5 main_cst main_v6 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v7 (broadcastInDim S128 ![] bcast_S_S128 : (⟨S_, .f32⟩ : BufTy).Contents (Elt F) → (⟨S128, .f32⟩ : BufTy).Contents (Elt F)),
    StableHlo.binary main_v6 main_v7 main_v8 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v5 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_v5 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v9 : StableHlo.TRef sig ⟨S128, .f32⟩) (fun p a b => select (broadcastInDim S128 ![] bcast_S_S128 p) a b),
    StableHlo.unary main_v8 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v11 main_v12 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v13 (broadcastInDim S128 ![] bcast_S_S128 : (⟨S_, .f32⟩ : BufTy).Contents (Elt F) → (⟨S128, .f32⟩ : BufTy).Contents (Elt F)),
    StableHlo.binary main_v9 main_v13 main_v14 (addf : (⟨S128, .f32⟩ : BufTy).Contents (Elt F) → (⟨S128, .f32⟩ : BufTy).Contents (Elt F) → (⟨S128, .f32⟩ : BufTy).Contents (Elt F)),
    StableHlo.unary main_v14 main_v15 (Host.rsqrt : (⟨S128, .f32⟩ : BufTy).Contents (Elt F) → (⟨S128, .f32⟩ : BufTy).Contents (Elt F)),
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v17 main_v18 (mulf : (⟨S50000x128, .f32⟩ : BufTy).Contents (Elt F) → (⟨S50000x128, .f32⟩ : BufTy).Contents (Elt F) → (⟨S50000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (mulf : (⟨S50000x128, .f32⟩ : BufTy).Contents (Elt F) → (⟨S50000x128, .f32⟩ : BufTy).Contents (Elt F) → (⟨S50000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v24 : StableHlo.TRef sig ⟨S50000x128, .f32⟩) (.of main_call1_v0 : StableHlo.TRef sig ⟨S50000x128, .f32⟩) (.of main_v25 : StableHlo.TRef sig ⟨S50000x128, .f32⟩) maximumf ]
/-- Each touches TensorCore buffers only. -/
theorem opsE_sub : (opsE : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- Each determines every buffer it writes. -/
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 0: the edge weights broadcast, the source rows gathered (a negative index wrapped), scaled and scatter-added at the targets, the running sum of aggregates, and the gated recurrent cell (two affine maps, reset and update gates, candidate, the new hidden state). 60 operations. -/
abbrev opsL0 : List (HloOp τ sig (Elt F)) :=
  [ StableHlo.unary main_arg2 main_v26 (broadcastInDim S640000x1 ![0] bcast_S640000_S640000x1_0 : (⟨S640000, .f32⟩ : BufTy).Contents (Elt F) → (⟨S640000x1, .f32⟩ : BufTy).Contents (Elt F)),
    StableHlo.nullary main_c_2 (constantI S_ 32 0#32),
    StableHlo.unary main_c_2 main_v27 (broadcastInDim S640000 ![] bcast_S_S640000 : (⟨S_, .i32⟩ : BufTy).Contents (Elt F) → (⟨S640000, .i32⟩ : BufTy).Contents (Elt F)),
    StableHlo.binary main_v1 main_v27 main_v28 (cmpi .slt : (⟨S640000, .i32⟩ : BufTy).Contents (Elt F) → (⟨S640000, .i32⟩ : BufTy).Contents (Elt F) → (⟨S640000, .i1⟩ : BufTy).Contents (Elt F)),
    StableHlo.nullary main_c_3 (constantI S_ 32 50000#32),
    StableHlo.unary main_c_3 main_v29 (broadcastInDim S640000 ![] bcast_S_S640000 : (⟨S_, .i32⟩ : BufTy).Contents (Elt F) → (⟨S640000, .i32⟩ : BufTy).Contents (Elt F)),
    StableHlo.binary main_v1 main_v29 main_v30 (addi : (⟨S640000, .i32⟩ : BufTy).Contents (Elt F) → (⟨S640000, .i32⟩ : BufTy).Contents (Elt F) → (⟨S640000, .i32⟩ : BufTy).Contents (Elt F)),
    StableHlo.ternary main_v28 main_v30 main_v1 main_v31 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v31 main_v32 (broadcastInDim S640000x1 ![0] bcast_S640000_S640000x1_0 : (⟨S640000, .i32⟩ : BufTy).Contents (Elt F) → (⟨S640000x1, .i32⟩ : BufTy).Contents (Elt F)),
    StableHlo.binary main_v25 main_v32 main_v33 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v26 main_v34 (broadcastInDim S640000x128 ![0, 1] bcast_S640000x1_S640000x128_0_1 : (⟨S640000x1, .f32⟩ : BufTy).Contents (Elt F) → (⟨S640000x128, .f32⟩ : BufTy).Contents (Elt F)),
    StableHlo.binary main_v34 main_v33 main_v35 (mulf : (⟨S640000x128, .f32⟩ : BufTy).Contents (Elt F) → (⟨S640000x128, .f32⟩ : BufTy).Contents (Elt F) → (⟨S640000x128, .f32⟩ : BufTy).Contents (Elt F)),
    StableHlo.nullary main_cst_4 (constant S_ .f32 0x00000000#32),
    StableHlo.unary main_cst_4 main_v36 (broadcastInDim S50000x128 ![] bcast_S_S50000x128 : (⟨S_, .f32⟩ : BufTy).Contents (Elt F) → (⟨S50000x128, .f32⟩ : BufTy).Contents (Elt F)),
    StableHlo.unary main_v3 main_v37 (broadcastInDim S640000x1 ![0] bcast_S640000_S640000x1_0 : (⟨S640000, .i32⟩ : BufTy).Contents (Elt F) → (⟨S640000x1, .i32⟩ : BufTy).Contents (Elt F)),
    StableHlo.ternary main_v36 main_v37 main_v35 main_v38 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v25 main_v38 main_v39 (addf : (⟨S50000x128, .f32⟩ : BufTy).Contents (Elt F) → (⟨S50000x128, .f32⟩ : BufTy).Contents (Elt F) → (⟨S50000x128, .f32⟩ : BufTy).Contents (Elt F)),
    StableHlo.unary main_arg6 main_v40 ((transpose S128x384 [1, 0] · transposes_S384x128_S128x384_1_0) : (⟨S384x128, .f32⟩ : BufTy).Contents (Elt F) → (⟨S128x384, .f32⟩ : BufTy).Contents (Elt F)),
    StableHlo.binary main_v38 main_v40 main_v41 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v42 (broadcastInDim S1x384 ![1] bcast_S384_S1x384_1 : (⟨S384, .f32⟩ : BufTy).Contents (Elt F) → (⟨S1x384, .f32⟩ : BufTy).Contents (Elt F)),
    StableHlo.unary main_v42 main_v43 (broadcastInDim S50000x384 ![0, 1] bcast_S1x384_S50000x384_0_1 : (⟨S1x384, .f32⟩ : BufTy).Contents (Elt F) → (⟨S50000x384, .f32⟩ : BufTy).Contents (Elt F)),
    StableHlo.binary main_v41 main_v43 main_v44 (addf : (⟨S50000x384, .f32⟩ : BufTy).Contents (Elt F) → (⟨S50000x384, .f32⟩ : BufTy).Contents (Elt F) → (⟨S50000x384, .f32⟩ : BufTy).Contents (Elt F)),
    StableHlo.unary main_arg7 main_v45 ((transpose S128x384 [1, 0] · transposes_S384x128_S128x384_1_0) : (⟨S384x128, .f32⟩ : BufTy).Contents (Elt F) → (⟨S128x384, .f32⟩ : BufTy).Contents (Elt F)),
    StableHlo.binary main_v25 main_v45 main_v46 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v47 (broadcastInDim S1x384 ![1] bcast_S384_S1x384_1 : (⟨S384, .f32⟩ : BufTy).Contents (Elt F) → (⟨S1x384, .f32⟩ : BufTy).Contents (Elt F)),
    StableHlo.unary main_v47 main_v48 (broadcastInDim S50000x384 ![0, 1] bcast_S1x384_S50000x384_0_1 : (⟨S1x384, .f32⟩ : BufTy).Contents (Elt F) → (⟨S50000x384, .f32⟩ : BufTy).Contents (Elt F)),
    StableHlo.binary main_v46 main_v48 main_v49 (addf : (⟨S50000x384, .f32⟩ : BufTy).Contents (Elt F) → (⟨S50000x384, .f32⟩ : BufTy).Contents (Elt F) → (⟨S50000x384, .f32⟩ : BufTy).Contents (Elt F)),
    StableHlo.unary main_v44 main_v50 ((extractStridedSlice S50000x128 ![0, 0] · slices_S50000x384_S50000x128_0_0) : (⟨S50000x384, .f32⟩ : BufTy).Contents (Elt F) → (⟨S50000x128, .f32⟩ : BufTy).Contents (Elt F)),
    StableHlo.unary main_v44 main_v51 ((extractStridedSlice S50000x128 ![0, 128] · slices_S50000x384_S50000x128_0_128) : (⟨S50000x384, .f32⟩ : BufTy).Contents (Elt F) → (⟨S50000x128, .f32⟩ : BufTy).Contents (Elt F)),
    StableHlo.unary main_v44 main_v52 ((extractStridedSlice S50000x128 ![0, 256] · slices_S50000x384_S50000x128_0_256) : (⟨S50000x384, .f32⟩ : BufTy).Contents (Elt F) → (⟨S50000x128, .f32⟩ : BufTy).Contents (Elt F)),
    StableHlo.unary main_v49 main_v53 ((extractStridedSlice S50000x128 ![0, 0] · slices_S50000x384_S50000x128_0_0) : (⟨S50000x384, .f32⟩ : BufTy).Contents (Elt F) → (⟨S50000x128, .f32⟩ : BufTy).Contents (Elt F)),
    StableHlo.unary main_v49 main_v54 ((extractStridedSlice S50000x128 ![0, 128] · slices_S50000x384_S50000x128_0_128) : (⟨S50000x384, .f32⟩ : BufTy).Contents (Elt F) → (⟨S50000x128, .f32⟩ : BufTy).Contents (Elt F)),
    StableHlo.unary main_v49 main_v55 ((extractStridedSlice S50000x128 ![0, 256] · slices_S50000x384_S50000x128_0_256) : (⟨S50000x384, .f32⟩ : BufTy).Contents (Elt F) → (⟨S50000x128, .f32⟩ : BufTy).Contents (Elt F)),
    StableHlo.binary main_v50 main_v53 main_v56 (addf : (⟨S50000x128, .f32⟩ : BufTy).Contents (Elt F) → (⟨S50000x128, .f32⟩ : BufTy).Contents (Elt F) → (⟨S50000x128, .f32⟩ : BufTy).Contents (Elt F)),
    StableHlo.unary main_v56 main_v57 (Host.negf : (⟨S50000x128, .f32⟩ : BufTy).Contents (Elt F) → (⟨S50000x128, .f32⟩ : BufTy).Contents (Elt F)),
    StableHlo.unary main_v57 main_v58 (Host.exp : (⟨S50000x128, .f32⟩ : BufTy).Contents (Elt F) → (⟨S50000x128, .f32⟩ : BufTy).Contents (Elt F)),
    StableHlo.nullary main_cst_5 (constant S_ .f32 0x3F800000#32),
    StableHlo.unary main_cst_5 main_v59 (broadcastInDim S50000x128 ![] bcast_S_S50000x128 : (⟨S_, .f32⟩ : BufTy).Contents (Elt F) → (⟨S50000x128, .f32⟩ : BufTy).Contents (Elt F)),
    StableHlo.binary main_v59 main_v58 main_v60 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3F800000#32),
    StableHlo.unary main_cst_6 main_v61 (broadcastInDim S50000x128 ![] bcast_S_S50000x128 : (⟨S_, .f32⟩ : BufTy).Contents (Elt F) → (⟨S50000x128, .f32⟩ : BufTy).Contents (Elt F)),
    StableHlo.binary main_v61 main_v60 main_v62 (Host.divf : (⟨S50000x128, .f32⟩ : BufTy).Contents (Elt F) → (⟨S50000x128, .f32⟩ : BufTy).Contents (Elt F) → (⟨S50000x128, .f32⟩ : BufTy).Contents (Elt F)),
    StableHlo.binary main_v51 main_v54 main_v63 (addf : (⟨S50000x128, .f32⟩ : BufTy).Contents (Elt F) → (⟨S50000x128, .f32⟩ : BufTy).Contents (Elt F) → (⟨S50000x128, .f32⟩ : BufTy).Contents (Elt F)),
    StableHlo.unary main_v63 main_v64 (Host.negf : (⟨S50000x128, .f32⟩ : BufTy).Contents (Elt F) → (⟨S50000x128, .f32⟩ : BufTy).Contents (Elt F)),
    StableHlo.unary main_v64 main_v65 (Host.exp : (⟨S50000x128, .f32⟩ : BufTy).Contents (Elt F) → (⟨S50000x128, .f32⟩ : BufTy).Contents (Elt F)),
    StableHlo.nullary main_cst_7 (constant S_ .f32 0x3F800000#32),
    StableHlo.unary main_cst_7 main_v66 (broadcastInDim S50000x128 ![] bcast_S_S50000x128 : (⟨S_, .f32⟩ : BufTy).Contents (Elt F) → (⟨S50000x128, .f32⟩ : BufTy).Contents (Elt F)),
    StableHlo.binary main_v66 main_v65 main_v67 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3F800000#32),
    StableHlo.unary main_cst_8 main_v68 (broadcastInDim S50000x128 ![] bcast_S_S50000x128 : (⟨S_, .f32⟩ : BufTy).Contents (Elt F) → (⟨S50000x128, .f32⟩ : BufTy).Contents (Elt F)),
    StableHlo.binary main_v68 main_v67 main_v69 (Host.divf : (⟨S50000x128, .f32⟩ : BufTy).Contents (Elt F) → (⟨S50000x128, .f32⟩ : BufTy).Contents (Elt F) → (⟨S50000x128, .f32⟩ : BufTy).Contents (Elt F)),
    StableHlo.binary main_v62 main_v55 main_v70 (mulf : (⟨S50000x128, .f32⟩ : BufTy).Contents (Elt F) → (⟨S50000x128, .f32⟩ : BufTy).Contents (Elt F) → (⟨S50000x128, .f32⟩ : BufTy).Contents (Elt F)),
    StableHlo.binary main_v52 main_v70 main_v71 (addf : (⟨S50000x128, .f32⟩ : BufTy).Contents (Elt F) → (⟨S50000x128, .f32⟩ : BufTy).Contents (Elt F) → (⟨S50000x128, .f32⟩ : BufTy).Contents (Elt F)),
    StableHlo.unary main_v71 main_v72 (Host.tanh : (⟨S50000x128, .f32⟩ : BufTy).Contents (Elt F) → (⟨S50000x128, .f32⟩ : BufTy).Contents (Elt F)),
    StableHlo.nullary main_cst_9 (constant S_ .f32 0x3F800000#32),
    StableHlo.unary main_cst_9 main_v73 (broadcastInDim S50000x128 ![] bcast_S_S50000x128 : (⟨S_, .f32⟩ : BufTy).Contents (Elt F) → (⟨S50000x128, .f32⟩ : BufTy).Contents (Elt F)),
    StableHlo.binary main_v73 main_v69 main_v74 (subf : (⟨S50000x128, .f32⟩ : BufTy).Contents (Elt F) → (⟨S50000x128, .f32⟩ : BufTy).Contents (Elt F) → (⟨S50000x128, .f32⟩ : BufTy).Contents (Elt F)),
    StableHlo.binary main_v74 main_v72 main_v75 (mulf : (⟨S50000x128, .f32⟩ : BufTy).Contents (Elt F) → (⟨S50000x128, .f32⟩ : BufTy).Contents (Elt F) → (⟨S50000x128, .f32⟩ : BufTy).Contents (Elt F)),
    StableHlo.binary main_v69 main_v25 main_v76 (mulf : (⟨S50000x128, .f32⟩ : BufTy).Contents (Elt F) → (⟨S50000x128, .f32⟩ : BufTy).Contents (Elt F) → (⟨S50000x128, .f32⟩ : BufTy).Contents (Elt F)),
    StableHlo.binary main_v75 main_v76 main_v77 (addf : (⟨S50000x128, .f32⟩ : BufTy).Contents (Elt F) → (⟨S50000x128, .f32⟩ : BufTy).Contents (Elt F) → (⟨S50000x128, .f32⟩ : BufTy).Contents (Elt F)) ]
/-- Each touches TensorCore buffers only. -/
theorem opsL0_sub : (opsL0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Each determines every buffer it writes. -/
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1: the edge weights broadcast, the source rows gathered (a negative index wrapped), scaled and scatter-added at the targets, the running sum of aggregates, and the gated recurrent cell (two affine maps, reset and update gates, candidate, the new hidden state). 60 operations. -/
abbrev opsL1 : List (HloOp τ sig (Elt F)) :=
  [ StableHlo.unary main_arg2 main_v78 (broadcastInDim S640000x1 ![0] bcast_S640000_S640000x1_0 : (⟨S640000, .f32⟩ : BufTy).Contents (Elt F) → (⟨S640000x1, .f32⟩ : BufTy).Contents (Elt F)),
    StableHlo.nullary main_c_10 (constantI S_ 32 0#32),
    StableHlo.unary main_c_10 main_v79 (broadcastInDim S640000 ![] bcast_S_S640000 : (⟨S_, .i32⟩ : BufTy).Contents (Elt F) → (⟨S640000, .i32⟩ : BufTy).Contents (Elt F)),
    StableHlo.binary main_v1 main_v79 main_v80 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 50000#32),
    StableHlo.unary main_c_11 main_v81 (broadcastInDim S640000 ![] bcast_S_S640000 : (⟨S_, .i32⟩ : BufTy).Contents (Elt F) → (⟨S640000, .i32⟩ : BufTy).Contents (Elt F)),
    StableHlo.binary main_v1 main_v81 main_v82 (addi : (⟨S640000, .i32⟩ : BufTy).Contents (Elt F) → (⟨S640000, .i32⟩ : BufTy).Contents (Elt F) → (⟨S640000, .i32⟩ : BufTy).Contents (Elt F)),
    StableHlo.ternary main_v80 main_v82 main_v1 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v83 main_v84 (broadcastInDim S640000x1 ![0] bcast_S640000_S640000x1_0 : (⟨S640000, .i32⟩ : BufTy).Contents (Elt F) → (⟨S640000x1, .i32⟩ : BufTy).Contents (Elt F)),
    StableHlo.binary main_v77 main_v84 main_v85 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v78 main_v86 (broadcastInDim S640000x128 ![0, 1] bcast_S640000x1_S640000x128_0_1 : (⟨S640000x1, .f32⟩ : BufTy).Contents (Elt F) → (⟨S640000x128, .f32⟩ : BufTy).Contents (Elt F)),
    StableHlo.binary main_v86 main_v85 main_v87 (mulf : (⟨S640000x128, .f32⟩ : BufTy).Contents (Elt F) → (⟨S640000x128, .f32⟩ : BufTy).Contents (Elt F) → (⟨S640000x128, .f32⟩ : BufTy).Contents (Elt F)),
    StableHlo.nullary main_cst_12 (constant S_ .f32 0x00000000#32),
    StableHlo.unary main_cst_12 main_v88 (broadcastInDim S50000x128 ![] bcast_S_S50000x128 : (⟨S_, .f32⟩ : BufTy).Contents (Elt F) → (⟨S50000x128, .f32⟩ : BufTy).Contents (Elt F)),
    StableHlo.unary main_v3 main_v89 (broadcastInDim S640000x1 ![0] bcast_S640000_S640000x1_0 : (⟨S640000, .i32⟩ : BufTy).Contents (Elt F) → (⟨S640000x1, .i32⟩ : BufTy).Contents (Elt F)),
    StableHlo.ternary main_v88 main_v89 main_v87 main_v90 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v39 main_v90 main_v91 (addf : (⟨S50000x128, .f32⟩ : BufTy).Contents (Elt F) → (⟨S50000x128, .f32⟩ : BufTy).Contents (Elt F) → (⟨S50000x128, .f32⟩ : BufTy).Contents (Elt F)),
    StableHlo.unary main_arg6 main_v92 ((transpose S128x384 [1, 0] · transposes_S384x128_S128x384_1_0) : (⟨S384x128, .f32⟩ : BufTy).Contents (Elt F) → (⟨S128x384, .f32⟩ : BufTy).Contents (Elt F)),
    StableHlo.binary main_v90 main_v92 main_v93 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v94 (broadcastInDim S1x384 ![1] bcast_S384_S1x384_1 : (⟨S384, .f32⟩ : BufTy).Contents (Elt F) → (⟨S1x384, .f32⟩ : BufTy).Contents (Elt F)),
    StableHlo.unary main_v94 main_v95 (broadcastInDim S50000x384 ![0, 1] bcast_S1x384_S50000x384_0_1 : (⟨S1x384, .f32⟩ : BufTy).Contents (Elt F) → (⟨S50000x384, .f32⟩ : BufTy).Contents (Elt F)),
    StableHlo.binary main_v93 main_v95 main_v96 (addf : (⟨S50000x384, .f32⟩ : BufTy).Contents (Elt F) → (⟨S50000x384, .f32⟩ : BufTy).Contents (Elt F) → (⟨S50000x384, .f32⟩ : BufTy).Contents (Elt F)),
    StableHlo.unary main_arg7 main_v97 ((transpose S128x384 [1, 0] · transposes_S384x128_S128x384_1_0) : (⟨S384x128, .f32⟩ : BufTy).Contents (Elt F) → (⟨S128x384, .f32⟩ : BufTy).Contents (Elt F)),
    StableHlo.binary main_v77 main_v97 main_v98 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v99 (broadcastInDim S1x384 ![1] bcast_S384_S1x384_1 : (⟨S384, .f32⟩ : BufTy).Contents (Elt F) → (⟨S1x384, .f32⟩ : BufTy).Contents (Elt F)),
    StableHlo.unary main_v99 main_v100 (broadcastInDim S50000x384 ![0, 1] bcast_S1x384_S50000x384_0_1 : (⟨S1x384, .f32⟩ : BufTy).Contents (Elt F) → (⟨S50000x384, .f32⟩ : BufTy).Contents (Elt F)),
    StableHlo.binary main_v98 main_v100 main_v101 (addf : (⟨S50000x384, .f32⟩ : BufTy).Contents (Elt F) → (⟨S50000x384, .f32⟩ : BufTy).Contents (Elt F) → (⟨S50000x384, .f32⟩ : BufTy).Contents (Elt F)),
    StableHlo.unary main_v96 main_v102 ((extractStridedSlice S50000x128 ![0, 0] · slices_S50000x384_S50000x128_0_0) : (⟨S50000x384, .f32⟩ : BufTy).Contents (Elt F) → (⟨S50000x128, .f32⟩ : BufTy).Contents (Elt F)),
    StableHlo.unary main_v96 main_v103 ((extractStridedSlice S50000x128 ![0, 128] · slices_S50000x384_S50000x128_0_128) : (⟨S50000x384, .f32⟩ : BufTy).Contents (Elt F) → (⟨S50000x128, .f32⟩ : BufTy).Contents (Elt F)),
    StableHlo.unary main_v96 main_v104 ((extractStridedSlice S50000x128 ![0, 256] · slices_S50000x384_S50000x128_0_256) : (⟨S50000x384, .f32⟩ : BufTy).Contents (Elt F) → (⟨S50000x128, .f32⟩ : BufTy).Contents (Elt F)),
    StableHlo.unary main_v101 main_v105 ((extractStridedSlice S50000x128 ![0, 0] · slices_S50000x384_S50000x128_0_0) : (⟨S50000x384, .f32⟩ : BufTy).Contents (Elt F) → (⟨S50000x128, .f32⟩ : BufTy).Contents (Elt F)),
    StableHlo.unary main_v101 main_v106 ((extractStridedSlice S50000x128 ![0, 128] · slices_S50000x384_S50000x128_0_128) : (⟨S50000x384, .f32⟩ : BufTy).Contents (Elt F) → (⟨S50000x128, .f32⟩ : BufTy).Contents (Elt F)),
    StableHlo.unary main_v101 main_v107 ((extractStridedSlice S50000x128 ![0, 256] · slices_S50000x384_S50000x128_0_256) : (⟨S50000x384, .f32⟩ : BufTy).Contents (Elt F) → (⟨S50000x128, .f32⟩ : BufTy).Contents (Elt F)),
    StableHlo.binary main_v102 main_v105 main_v108 (addf : (⟨S50000x128, .f32⟩ : BufTy).Contents (Elt F) → (⟨S50000x128, .f32⟩ : BufTy).Contents (Elt F) → (⟨S50000x128, .f32⟩ : BufTy).Contents (Elt F)),
    StableHlo.unary main_v108 main_v109 (Host.negf : (⟨S50000x128, .f32⟩ : BufTy).Contents (Elt F) → (⟨S50000x128, .f32⟩ : BufTy).Contents (Elt F)),
    StableHlo.unary main_v109 main_v110 (Host.exp : (⟨S50000x128, .f32⟩ : BufTy).Contents (Elt F) → (⟨S50000x128, .f32⟩ : BufTy).Contents (Elt F)),
    StableHlo.nullary main_cst_13 (constant S_ .f32 0x3F800000#32),
    StableHlo.unary main_cst_13 main_v111 (broadcastInDim S50000x128 ![] bcast_S_S50000x128 : (⟨S_, .f32⟩ : BufTy).Contents (Elt F) → (⟨S50000x128, .f32⟩ : BufTy).Contents (Elt F)),
    StableHlo.binary main_v111 main_v110 main_v112 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3F800000#32),
    StableHlo.unary main_cst_14 main_v113 (broadcastInDim S50000x128 ![] bcast_S_S50000x128 : (⟨S_, .f32⟩ : BufTy).Contents (Elt F) → (⟨S50000x128, .f32⟩ : BufTy).Contents (Elt F)),
    StableHlo.binary main_v113 main_v112 main_v114 (Host.divf : (⟨S50000x128, .f32⟩ : BufTy).Contents (Elt F) → (⟨S50000x128, .f32⟩ : BufTy).Contents (Elt F) → (⟨S50000x128, .f32⟩ : BufTy).Contents (Elt F)),
    StableHlo.binary main_v103 main_v106 main_v115 (addf : (⟨S50000x128, .f32⟩ : BufTy).Contents (Elt F) → (⟨S50000x128, .f32⟩ : BufTy).Contents (Elt F) → (⟨S50000x128, .f32⟩ : BufTy).Contents (Elt F)),
    StableHlo.unary main_v115 main_v116 (Host.negf : (⟨S50000x128, .f32⟩ : BufTy).Contents (Elt F) → (⟨S50000x128, .f32⟩ : BufTy).Contents (Elt F)),
    StableHlo.unary main_v116 main_v117 (Host.exp : (⟨S50000x128, .f32⟩ : BufTy).Contents (Elt F) → (⟨S50000x128, .f32⟩ : BufTy).Contents (Elt F)),
    StableHlo.nullary main_cst_15 (constant S_ .f32 0x3F800000#32),
    StableHlo.unary main_cst_15 main_v118 (broadcastInDim S50000x128 ![] bcast_S_S50000x128 : (⟨S_, .f32⟩ : BufTy).Contents (Elt F) → (⟨S50000x128, .f32⟩ : BufTy).Contents (Elt F)),
    StableHlo.binary main_v118 main_v117 main_v119 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3F800000#32),
    StableHlo.unary main_cst_16 main_v120 (broadcastInDim S50000x128 ![] bcast_S_S50000x128 : (⟨S_, .f32⟩ : BufTy).Contents (Elt F) → (⟨S50000x128, .f32⟩ : BufTy).Contents (Elt F)),
    StableHlo.binary main_v120 main_v119 main_v121 (Host.divf : (⟨S50000x128, .f32⟩ : BufTy).Contents (Elt F) → (⟨S50000x128, .f32⟩ : BufTy).Contents (Elt F) → (⟨S50000x128, .f32⟩ : BufTy).Contents (Elt F)),
    StableHlo.binary main_v114 main_v107 main_v122 (mulf : (⟨S50000x128, .f32⟩ : BufTy).Contents (Elt F) → (⟨S50000x128, .f32⟩ : BufTy).Contents (Elt F) → (⟨S50000x128, .f32⟩ : BufTy).Contents (Elt F)),
    StableHlo.binary main_v104 main_v122 main_v123 (addf : (⟨S50000x128, .f32⟩ : BufTy).Contents (Elt F) → (⟨S50000x128, .f32⟩ : BufTy).Contents (Elt F) → (⟨S50000x128, .f32⟩ : BufTy).Contents (Elt F)),
    StableHlo.unary main_v123 main_v124 (Host.tanh : (⟨S50000x128, .f32⟩ : BufTy).Contents (Elt F) → (⟨S50000x128, .f32⟩ : BufTy).Contents (Elt F)),
    StableHlo.nullary main_cst_17 (constant S_ .f32 0x3F800000#32),
    StableHlo.unary main_cst_17 main_v125 (broadcastInDim S50000x128 ![] bcast_S_S50000x128 : (⟨S_, .f32⟩ : BufTy).Contents (Elt F) → (⟨S50000x128, .f32⟩ : BufTy).Contents (Elt F)),
    StableHlo.binary main_v125 main_v121 main_v126 (subf : (⟨S50000x128, .f32⟩ : BufTy).Contents (Elt F) → (⟨S50000x128, .f32⟩ : BufTy).Contents (Elt F) → (⟨S50000x128, .f32⟩ : BufTy).Contents (Elt F)),
    StableHlo.binary main_v126 main_v124 main_v127 (mulf : (⟨S50000x128, .f32⟩ : BufTy).Contents (Elt F) → (⟨S50000x128, .f32⟩ : BufTy).Contents (Elt F) → (⟨S50000x128, .f32⟩ : BufTy).Contents (Elt F)),
    StableHlo.binary main_v121 main_v77 main_v128 (mulf : (⟨S50000x128, .f32⟩ : BufTy).Contents (Elt F) → (⟨S50000x128, .f32⟩ : BufTy).Contents (Elt F) → (⟨S50000x128, .f32⟩ : BufTy).Contents (Elt F)),
    StableHlo.binary main_v127 main_v128 main_v129 (addf : (⟨S50000x128, .f32⟩ : BufTy).Contents (Elt F) → (⟨S50000x128, .f32⟩ : BufTy).Contents (Elt F) → (⟨S50000x128, .f32⟩ : BufTy).Contents (Elt F)) ]
/-- Each touches TensorCore buffers only. -/
theorem opsL1_sub : (opsL1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Each determines every buffer it writes. -/
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 2: the edge weights broadcast, the source rows gathered (a negative index wrapped), scaled and scatter-added at the targets, the running sum of aggregates, and the gated recurrent cell (two affine maps, reset and update gates, candidate, the new hidden state). 60 operations. -/
abbrev opsL2 : List (HloOp τ sig (Elt F)) :=
  [ StableHlo.unary main_arg2 main_v130 (broadcastInDim S640000x1 ![0] bcast_S640000_S640000x1_0 : (⟨S640000, .f32⟩ : BufTy).Contents (Elt F) → (⟨S640000x1, .f32⟩ : BufTy).Contents (Elt F)),
    StableHlo.nullary main_c_18 (constantI S_ 32 0#32),
    StableHlo.unary main_c_18 main_v131 (broadcastInDim S640000 ![] bcast_S_S640000 : (⟨S_, .i32⟩ : BufTy).Contents (Elt F) → (⟨S640000, .i32⟩ : BufTy).Contents (Elt F)),
    StableHlo.binary main_v1 main_v131 main_v132 (cmpi .slt : (⟨S640000, .i32⟩ : BufTy).Contents (Elt F) → (⟨S640000, .i32⟩ : BufTy).Contents (Elt F) → (⟨S640000, .i1⟩ : BufTy).Contents (Elt F)),
    StableHlo.nullary main_c_19 (constantI S_ 32 50000#32),
    StableHlo.unary main_c_19 main_v133 (broadcastInDim S640000 ![] bcast_S_S640000 : (⟨S_, .i32⟩ : BufTy).Contents (Elt F) → (⟨S640000, .i32⟩ : BufTy).Contents (Elt F)),
    StableHlo.binary main_v1 main_v133 main_v134 (addi : (⟨S640000, .i32⟩ : BufTy).Contents (Elt F) → (⟨S640000, .i32⟩ : BufTy).Contents (Elt F) → (⟨S640000, .i32⟩ : BufTy).Contents (Elt F)),
    StableHlo.ternary main_v132 main_v134 main_v1 main_v135 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v135 main_v136 (broadcastInDim S640000x1 ![0] bcast_S640000_S640000x1_0 : (⟨S640000, .i32⟩ : BufTy).Contents (Elt F) → (⟨S640000x1, .i32⟩ : BufTy).Contents (Elt F)),
    StableHlo.binary main_v129 main_v136 main_v137 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v130 main_v138 (broadcastInDim S640000x128 ![0, 1] bcast_S640000x1_S640000x128_0_1 : (⟨S640000x1, .f32⟩ : BufTy).Contents (Elt F) → (⟨S640000x128, .f32⟩ : BufTy).Contents (Elt F)),
    StableHlo.binary main_v138 main_v137 main_v139 (mulf : (⟨S640000x128, .f32⟩ : BufTy).Contents (Elt F) → (⟨S640000x128, .f32⟩ : BufTy).Contents (Elt F) → (⟨S640000x128, .f32⟩ : BufTy).Contents (Elt F)),
    StableHlo.nullary main_cst_20 (constant S_ .f32 0x00000000#32),
    StableHlo.unary main_cst_20 main_v140 (broadcastInDim S50000x128 ![] bcast_S_S50000x128 : (⟨S_, .f32⟩ : BufTy).Contents (Elt F) → (⟨S50000x128, .f32⟩ : BufTy).Contents (Elt F)),
    StableHlo.unary main_v3 main_v141 (broadcastInDim S640000x1 ![0] bcast_S640000_S640000x1_0 : (⟨S640000, .i32⟩ : BufTy).Contents (Elt F) → (⟨S640000x1, .i32⟩ : BufTy).Contents (Elt F)),
    StableHlo.ternary main_v140 main_v141 main_v139 main_v142 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v91 main_v142 main_v143 (addf : (⟨S50000x128, .f32⟩ : BufTy).Contents (Elt F) → (⟨S50000x128, .f32⟩ : BufTy).Contents (Elt F) → (⟨S50000x128, .f32⟩ : BufTy).Contents (Elt F)),
    StableHlo.unary main_arg6 main_v144 ((transpose S128x384 [1, 0] · transposes_S384x128_S128x384_1_0) : (⟨S384x128, .f32⟩ : BufTy).Contents (Elt F) → (⟨S128x384, .f32⟩ : BufTy).Contents (Elt F)),
    StableHlo.binary main_v142 main_v144 main_v145 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v146 (broadcastInDim S1x384 ![1] bcast_S384_S1x384_1 : (⟨S384, .f32⟩ : BufTy).Contents (Elt F) → (⟨S1x384, .f32⟩ : BufTy).Contents (Elt F)),
    StableHlo.unary main_v146 main_v147 (broadcastInDim S50000x384 ![0, 1] bcast_S1x384_S50000x384_0_1 : (⟨S1x384, .f32⟩ : BufTy).Contents (Elt F) → (⟨S50000x384, .f32⟩ : BufTy).Contents (Elt F)),
    StableHlo.binary main_v145 main_v147 main_v148 (addf : (⟨S50000x384, .f32⟩ : BufTy).Contents (Elt F) → (⟨S50000x384, .f32⟩ : BufTy).Contents (Elt F) → (⟨S50000x384, .f32⟩ : BufTy).Contents (Elt F)),
    StableHlo.unary main_arg7 main_v149 ((transpose S128x384 [1, 0] · transposes_S384x128_S128x384_1_0) : (⟨S384x128, .f32⟩ : BufTy).Contents (Elt F) → (⟨S128x384, .f32⟩ : BufTy).Contents (Elt F)),
    StableHlo.binary main_v129 main_v149 main_v150 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v151 (broadcastInDim S1x384 ![1] bcast_S384_S1x384_1 : (⟨S384, .f32⟩ : BufTy).Contents (Elt F) → (⟨S1x384, .f32⟩ : BufTy).Contents (Elt F)),
    StableHlo.unary main_v151 main_v152 (broadcastInDim S50000x384 ![0, 1] bcast_S1x384_S50000x384_0_1 : (⟨S1x384, .f32⟩ : BufTy).Contents (Elt F) → (⟨S50000x384, .f32⟩ : BufTy).Contents (Elt F)),
    StableHlo.binary main_v150 main_v152 main_v153 (addf : (⟨S50000x384, .f32⟩ : BufTy).Contents (Elt F) → (⟨S50000x384, .f32⟩ : BufTy).Contents (Elt F) → (⟨S50000x384, .f32⟩ : BufTy).Contents (Elt F)),
    StableHlo.unary main_v148 main_v154 ((extractStridedSlice S50000x128 ![0, 0] · slices_S50000x384_S50000x128_0_0) : (⟨S50000x384, .f32⟩ : BufTy).Contents (Elt F) → (⟨S50000x128, .f32⟩ : BufTy).Contents (Elt F)),
    StableHlo.unary main_v148 main_v155 ((extractStridedSlice S50000x128 ![0, 128] · slices_S50000x384_S50000x128_0_128) : (⟨S50000x384, .f32⟩ : BufTy).Contents (Elt F) → (⟨S50000x128, .f32⟩ : BufTy).Contents (Elt F)),
    StableHlo.unary main_v148 main_v156 ((extractStridedSlice S50000x128 ![0, 256] · slices_S50000x384_S50000x128_0_256) : (⟨S50000x384, .f32⟩ : BufTy).Contents (Elt F) → (⟨S50000x128, .f32⟩ : BufTy).Contents (Elt F)),
    StableHlo.unary main_v153 main_v157 ((extractStridedSlice S50000x128 ![0, 0] · slices_S50000x384_S50000x128_0_0) : (⟨S50000x384, .f32⟩ : BufTy).Contents (Elt F) → (⟨S50000x128, .f32⟩ : BufTy).Contents (Elt F)),
    StableHlo.unary main_v153 main_v158 ((extractStridedSlice S50000x128 ![0, 128] · slices_S50000x384_S50000x128_0_128) : (⟨S50000x384, .f32⟩ : BufTy).Contents (Elt F) → (⟨S50000x128, .f32⟩ : BufTy).Contents (Elt F)),
    StableHlo.unary main_v153 main_v159 ((extractStridedSlice S50000x128 ![0, 256] · slices_S50000x384_S50000x128_0_256) : (⟨S50000x384, .f32⟩ : BufTy).Contents (Elt F) → (⟨S50000x128, .f32⟩ : BufTy).Contents (Elt F)),
    StableHlo.binary main_v154 main_v157 main_v160 (addf : (⟨S50000x128, .f32⟩ : BufTy).Contents (Elt F) → (⟨S50000x128, .f32⟩ : BufTy).Contents (Elt F) → (⟨S50000x128, .f32⟩ : BufTy).Contents (Elt F)),
    StableHlo.unary main_v160 main_v161 (Host.negf : (⟨S50000x128, .f32⟩ : BufTy).Contents (Elt F) → (⟨S50000x128, .f32⟩ : BufTy).Contents (Elt F)),
    StableHlo.unary main_v161 main_v162 (Host.exp : (⟨S50000x128, .f32⟩ : BufTy).Contents (Elt F) → (⟨S50000x128, .f32⟩ : BufTy).Contents (Elt F)),
    StableHlo.nullary main_cst_21 (constant S_ .f32 0x3F800000#32),
    StableHlo.unary main_cst_21 main_v163 (broadcastInDim S50000x128 ![] bcast_S_S50000x128 : (⟨S_, .f32⟩ : BufTy).Contents (Elt F) → (⟨S50000x128, .f32⟩ : BufTy).Contents (Elt F)),
    StableHlo.binary main_v163 main_v162 main_v164 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3F800000#32),
    StableHlo.unary main_cst_22 main_v165 (broadcastInDim S50000x128 ![] bcast_S_S50000x128 : (⟨S_, .f32⟩ : BufTy).Contents (Elt F) → (⟨S50000x128, .f32⟩ : BufTy).Contents (Elt F)),
    StableHlo.binary main_v165 main_v164 main_v166 (Host.divf : (⟨S50000x128, .f32⟩ : BufTy).Contents (Elt F) → (⟨S50000x128, .f32⟩ : BufTy).Contents (Elt F) → (⟨S50000x128, .f32⟩ : BufTy).Contents (Elt F)),
    StableHlo.binary main_v155 main_v158 main_v167 (addf : (⟨S50000x128, .f32⟩ : BufTy).Contents (Elt F) → (⟨S50000x128, .f32⟩ : BufTy).Contents (Elt F) → (⟨S50000x128, .f32⟩ : BufTy).Contents (Elt F)),
    StableHlo.unary main_v167 main_v168 (Host.negf : (⟨S50000x128, .f32⟩ : BufTy).Contents (Elt F) → (⟨S50000x128, .f32⟩ : BufTy).Contents (Elt F)),
    StableHlo.unary main_v168 main_v169 (Host.exp : (⟨S50000x128, .f32⟩ : BufTy).Contents (Elt F) → (⟨S50000x128, .f32⟩ : BufTy).Contents (Elt F)),
    StableHlo.nullary main_cst_23 (constant S_ .f32 0x3F800000#32),
    StableHlo.unary main_cst_23 main_v170 (broadcastInDim S50000x128 ![] bcast_S_S50000x128 : (⟨S_, .f32⟩ : BufTy).Contents (Elt F) → (⟨S50000x128, .f32⟩ : BufTy).Contents (Elt F)),
    StableHlo.binary main_v170 main_v169 main_v171 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3F800000#32),
    StableHlo.unary main_cst_24 main_v172 (broadcastInDim S50000x128 ![] bcast_S_S50000x128 : (⟨S_, .f32⟩ : BufTy).Contents (Elt F) → (⟨S50000x128, .f32⟩ : BufTy).Contents (Elt F)),
    StableHlo.binary main_v172 main_v171 main_v173 (Host.divf : (⟨S50000x128, .f32⟩ : BufTy).Contents (Elt F) → (⟨S50000x128, .f32⟩ : BufTy).Contents (Elt F) → (⟨S50000x128, .f32⟩ : BufTy).Contents (Elt F)),
    StableHlo.binary main_v166 main_v159 main_v174 (mulf : (⟨S50000x128, .f32⟩ : BufTy).Contents (Elt F) → (⟨S50000x128, .f32⟩ : BufTy).Contents (Elt F) → (⟨S50000x128, .f32⟩ : BufTy).Contents (Elt F)),
    StableHlo.binary main_v156 main_v174 main_v175 (addf : (⟨S50000x128, .f32⟩ : BufTy).Contents (Elt F) → (⟨S50000x128, .f32⟩ : BufTy).Contents (Elt F) → (⟨S50000x128, .f32⟩ : BufTy).Contents (Elt F)),
    StableHlo.unary main_v175 main_v176 (Host.tanh : (⟨S50000x128, .f32⟩ : BufTy).Contents (Elt F) → (⟨S50000x128, .f32⟩ : BufTy).Contents (Elt F)),
    StableHlo.nullary main_cst_25 (constant S_ .f32 0x3F800000#32),
    StableHlo.unary main_cst_25 main_v177 (broadcastInDim S50000x128 ![] bcast_S_S50000x128 : (⟨S_, .f32⟩ : BufTy).Contents (Elt F) → (⟨S50000x128, .f32⟩ : BufTy).Contents (Elt F)),
    StableHlo.binary main_v177 main_v173 main_v178 (subf : (⟨S50000x128, .f32⟩ : BufTy).Contents (Elt F) → (⟨S50000x128, .f32⟩ : BufTy).Contents (Elt F) → (⟨S50000x128, .f32⟩ : BufTy).Contents (Elt F)),
    StableHlo.binary main_v178 main_v176 main_v179 (mulf : (⟨S50000x128, .f32⟩ : BufTy).Contents (Elt F) → (⟨S50000x128, .f32⟩ : BufTy).Contents (Elt F) → (⟨S50000x128, .f32⟩ : BufTy).Contents (Elt F)),
    StableHlo.binary main_v173 main_v129 main_v180 (mulf : (⟨S50000x128, .f32⟩ : BufTy).Contents (Elt F) → (⟨S50000x128, .f32⟩ : BufTy).Contents (Elt F) → (⟨S50000x128, .f32⟩ : BufTy).Contents (Elt F)),
    StableHlo.binary main_v179 main_v180 main_v181 (addf : (⟨S50000x128, .f32⟩ : BufTy).Contents (Elt F) → (⟨S50000x128, .f32⟩ : BufTy).Contents (Elt F) → (⟨S50000x128, .f32⟩ : BufTy).Contents (Elt F)) ]
/-- Each touches TensorCore buffers only. -/
theorem opsL2_sub : (opsL2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Each determines every buffer it writes. -/
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 3: the edge weights broadcast, the source rows gathered (a negative index wrapped), scaled and scatter-added at the targets, the running sum of aggregates, and the gated recurrent cell (two affine maps, reset and update gates, candidate, the new hidden state). 60 operations. -/
abbrev opsL3 : List (HloOp τ sig (Elt F)) :=
  [ StableHlo.unary main_arg2 main_v182 (broadcastInDim S640000x1 ![0] bcast_S640000_S640000x1_0 : (⟨S640000, .f32⟩ : BufTy).Contents (Elt F) → (⟨S640000x1, .f32⟩ : BufTy).Contents (Elt F)),
    StableHlo.nullary main_c_26 (constantI S_ 32 0#32),
    StableHlo.unary main_c_26 main_v183 (broadcastInDim S640000 ![] bcast_S_S640000 : (⟨S_, .i32⟩ : BufTy).Contents (Elt F) → (⟨S640000, .i32⟩ : BufTy).Contents (Elt F)),
    StableHlo.binary main_v1 main_v183 main_v184 (cmpi .slt : (⟨S640000, .i32⟩ : BufTy).Contents (Elt F) → (⟨S640000, .i32⟩ : BufTy).Contents (Elt F) → (⟨S640000, .i1⟩ : BufTy).Contents (Elt F)),
    StableHlo.nullary main_c_27 (constantI S_ 32 50000#32),
    StableHlo.unary main_c_27 main_v185 (broadcastInDim S640000 ![] bcast_S_S640000 : (⟨S_, .i32⟩ : BufTy).Contents (Elt F) → (⟨S640000, .i32⟩ : BufTy).Contents (Elt F)),
    StableHlo.binary main_v1 main_v185 main_v186 (addi : (⟨S640000, .i32⟩ : BufTy).Contents (Elt F) → (⟨S640000, .i32⟩ : BufTy).Contents (Elt F) → (⟨S640000, .i32⟩ : BufTy).Contents (Elt F)),
    StableHlo.ternary main_v184 main_v186 main_v1 main_v187 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v187 main_v188 (broadcastInDim S640000x1 ![0] bcast_S640000_S640000x1_0 : (⟨S640000, .i32⟩ : BufTy).Contents (Elt F) → (⟨S640000x1, .i32⟩ : BufTy).Contents (Elt F)),
    StableHlo.binary main_v181 main_v188 main_v189 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v182 main_v190 (broadcastInDim S640000x128 ![0, 1] bcast_S640000x1_S640000x128_0_1 : (⟨S640000x1, .f32⟩ : BufTy).Contents (Elt F) → (⟨S640000x128, .f32⟩ : BufTy).Contents (Elt F)),
    StableHlo.binary main_v190 main_v189 main_v191 (mulf : (⟨S640000x128, .f32⟩ : BufTy).Contents (Elt F) → (⟨S640000x128, .f32⟩ : BufTy).Contents (Elt F) → (⟨S640000x128, .f32⟩ : BufTy).Contents (Elt F)),
    StableHlo.nullary main_cst_28 (constant S_ .f32 0x00000000#32),
    StableHlo.unary main_cst_28 main_v192 (broadcastInDim S50000x128 ![] bcast_S_S50000x128 : (⟨S_, .f32⟩ : BufTy).Contents (Elt F) → (⟨S50000x128, .f32⟩ : BufTy).Contents (Elt F)),
    StableHlo.unary main_v3 main_v193 (broadcastInDim S640000x1 ![0] bcast_S640000_S640000x1_0 : (⟨S640000, .i32⟩ : BufTy).Contents (Elt F) → (⟨S640000x1, .i32⟩ : BufTy).Contents (Elt F)),
    StableHlo.ternary main_v192 main_v193 main_v191 main_v194 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v143 main_v194 main_v195 (addf : (⟨S50000x128, .f32⟩ : BufTy).Contents (Elt F) → (⟨S50000x128, .f32⟩ : BufTy).Contents (Elt F) → (⟨S50000x128, .f32⟩ : BufTy).Contents (Elt F)),
    StableHlo.unary main_arg6 main_v196 ((transpose S128x384 [1, 0] · transposes_S384x128_S128x384_1_0) : (⟨S384x128, .f32⟩ : BufTy).Contents (Elt F) → (⟨S128x384, .f32⟩ : BufTy).Contents (Elt F)),
    StableHlo.binary main_v194 main_v196 main_v197 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v198 (broadcastInDim S1x384 ![1] bcast_S384_S1x384_1 : (⟨S384, .f32⟩ : BufTy).Contents (Elt F) → (⟨S1x384, .f32⟩ : BufTy).Contents (Elt F)),
    StableHlo.unary main_v198 main_v199 (broadcastInDim S50000x384 ![0, 1] bcast_S1x384_S50000x384_0_1 : (⟨S1x384, .f32⟩ : BufTy).Contents (Elt F) → (⟨S50000x384, .f32⟩ : BufTy).Contents (Elt F)),
    StableHlo.binary main_v197 main_v199 main_v200 (addf : (⟨S50000x384, .f32⟩ : BufTy).Contents (Elt F) → (⟨S50000x384, .f32⟩ : BufTy).Contents (Elt F) → (⟨S50000x384, .f32⟩ : BufTy).Contents (Elt F)),
    StableHlo.unary main_arg7 main_v201 ((transpose S128x384 [1, 0] · transposes_S384x128_S128x384_1_0) : (⟨S384x128, .f32⟩ : BufTy).Contents (Elt F) → (⟨S128x384, .f32⟩ : BufTy).Contents (Elt F)),
    StableHlo.binary main_v181 main_v201 main_v202 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v203 (broadcastInDim S1x384 ![1] bcast_S384_S1x384_1 : (⟨S384, .f32⟩ : BufTy).Contents (Elt F) → (⟨S1x384, .f32⟩ : BufTy).Contents (Elt F)),
    StableHlo.unary main_v203 main_v204 (broadcastInDim S50000x384 ![0, 1] bcast_S1x384_S50000x384_0_1 : (⟨S1x384, .f32⟩ : BufTy).Contents (Elt F) → (⟨S50000x384, .f32⟩ : BufTy).Contents (Elt F)),
    StableHlo.binary main_v202 main_v204 main_v205 (addf : (⟨S50000x384, .f32⟩ : BufTy).Contents (Elt F) → (⟨S50000x384, .f32⟩ : BufTy).Contents (Elt F) → (⟨S50000x384, .f32⟩ : BufTy).Contents (Elt F)),
    StableHlo.unary main_v200 main_v206 ((extractStridedSlice S50000x128 ![0, 0] · slices_S50000x384_S50000x128_0_0) : (⟨S50000x384, .f32⟩ : BufTy).Contents (Elt F) → (⟨S50000x128, .f32⟩ : BufTy).Contents (Elt F)),
    StableHlo.unary main_v200 main_v207 ((extractStridedSlice S50000x128 ![0, 128] · slices_S50000x384_S50000x128_0_128) : (⟨S50000x384, .f32⟩ : BufTy).Contents (Elt F) → (⟨S50000x128, .f32⟩ : BufTy).Contents (Elt F)),
    StableHlo.unary main_v200 main_v208 ((extractStridedSlice S50000x128 ![0, 256] · slices_S50000x384_S50000x128_0_256) : (⟨S50000x384, .f32⟩ : BufTy).Contents (Elt F) → (⟨S50000x128, .f32⟩ : BufTy).Contents (Elt F)),
    StableHlo.unary main_v205 main_v209 ((extractStridedSlice S50000x128 ![0, 0] · slices_S50000x384_S50000x128_0_0) : (⟨S50000x384, .f32⟩ : BufTy).Contents (Elt F) → (⟨S50000x128, .f32⟩ : BufTy).Contents (Elt F)),
    StableHlo.unary main_v205 main_v210 ((extractStridedSlice S50000x128 ![0, 128] · slices_S50000x384_S50000x128_0_128) : (⟨S50000x384, .f32⟩ : BufTy).Contents (Elt F) → (⟨S50000x128, .f32⟩ : BufTy).Contents (Elt F)),
    StableHlo.unary main_v205 main_v211 ((extractStridedSlice S50000x128 ![0, 256] · slices_S50000x384_S50000x128_0_256) : (⟨S50000x384, .f32⟩ : BufTy).Contents (Elt F) → (⟨S50000x128, .f32⟩ : BufTy).Contents (Elt F)),
    StableHlo.binary main_v206 main_v209 main_v212 (addf : (⟨S50000x128, .f32⟩ : BufTy).Contents (Elt F) → (⟨S50000x128, .f32⟩ : BufTy).Contents (Elt F) → (⟨S50000x128, .f32⟩ : BufTy).Contents (Elt F)),
    StableHlo.unary main_v212 main_v213 (Host.negf : (⟨S50000x128, .f32⟩ : BufTy).Contents (Elt F) → (⟨S50000x128, .f32⟩ : BufTy).Contents (Elt F)),
    StableHlo.unary main_v213 main_v214 (Host.exp : (⟨S50000x128, .f32⟩ : BufTy).Contents (Elt F) → (⟨S50000x128, .f32⟩ : BufTy).Contents (Elt F)),
    StableHlo.nullary main_cst_29 (constant S_ .f32 0x3F800000#32),
    StableHlo.unary main_cst_29 main_v215 (broadcastInDim S50000x128 ![] bcast_S_S50000x128 : (⟨S_, .f32⟩ : BufTy).Contents (Elt F) → (⟨S50000x128, .f32⟩ : BufTy).Contents (Elt F)),
    StableHlo.binary main_v215 main_v214 main_v216 (addf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3F800000#32),
    StableHlo.unary main_cst_30 main_v217 (broadcastInDim S50000x128 ![] bcast_S_S50000x128 : (⟨S_, .f32⟩ : BufTy).Contents (Elt F) → (⟨S50000x128, .f32⟩ : BufTy).Contents (Elt F)),
    StableHlo.binary main_v217 main_v216 main_v218 (Host.divf : (⟨S50000x128, .f32⟩ : BufTy).Contents (Elt F) → (⟨S50000x128, .f32⟩ : BufTy).Contents (Elt F) → (⟨S50000x128, .f32⟩ : BufTy).Contents (Elt F)),
    StableHlo.binary main_v207 main_v210 main_v219 (addf : (⟨S50000x128, .f32⟩ : BufTy).Contents (Elt F) → (⟨S50000x128, .f32⟩ : BufTy).Contents (Elt F) → (⟨S50000x128, .f32⟩ : BufTy).Contents (Elt F)),
    StableHlo.unary main_v219 main_v220 (Host.negf : (⟨S50000x128, .f32⟩ : BufTy).Contents (Elt F) → (⟨S50000x128, .f32⟩ : BufTy).Contents (Elt F)),
    StableHlo.unary main_v220 main_v221 (Host.exp : (⟨S50000x128, .f32⟩ : BufTy).Contents (Elt F) → (⟨S50000x128, .f32⟩ : BufTy).Contents (Elt F)),
    StableHlo.nullary main_cst_31 (constant S_ .f32 0x3F800000#32),
    StableHlo.unary main_cst_31 main_v222 (broadcastInDim S50000x128 ![] bcast_S_S50000x128 : (⟨S_, .f32⟩ : BufTy).Contents (Elt F) → (⟨S50000x128, .f32⟩ : BufTy).Contents (Elt F)),
    StableHlo.binary main_v222 main_v221 main_v223 (addf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3F800000#32),
    StableHlo.unary main_cst_32 main_v224 (broadcastInDim S50000x128 ![] bcast_S_S50000x128 : (⟨S_, .f32⟩ : BufTy).Contents (Elt F) → (⟨S50000x128, .f32⟩ : BufTy).Contents (Elt F)),
    StableHlo.binary main_v224 main_v223 main_v225 (Host.divf : (⟨S50000x128, .f32⟩ : BufTy).Contents (Elt F) → (⟨S50000x128, .f32⟩ : BufTy).Contents (Elt F) → (⟨S50000x128, .f32⟩ : BufTy).Contents (Elt F)),
    StableHlo.binary main_v218 main_v211 main_v226 (mulf : (⟨S50000x128, .f32⟩ : BufTy).Contents (Elt F) → (⟨S50000x128, .f32⟩ : BufTy).Contents (Elt F) → (⟨S50000x128, .f32⟩ : BufTy).Contents (Elt F)),
    StableHlo.binary main_v208 main_v226 main_v227 (addf : (⟨S50000x128, .f32⟩ : BufTy).Contents (Elt F) → (⟨S50000x128, .f32⟩ : BufTy).Contents (Elt F) → (⟨S50000x128, .f32⟩ : BufTy).Contents (Elt F)),
    StableHlo.unary main_v227 main_v228 (Host.tanh : (⟨S50000x128, .f32⟩ : BufTy).Contents (Elt F) → (⟨S50000x128, .f32⟩ : BufTy).Contents (Elt F)),
    StableHlo.nullary main_cst_33 (constant S_ .f32 0x3F800000#32),
    StableHlo.unary main_cst_33 main_v229 (broadcastInDim S50000x128 ![] bcast_S_S50000x128 : (⟨S_, .f32⟩ : BufTy).Contents (Elt F) → (⟨S50000x128, .f32⟩ : BufTy).Contents (Elt F)),
    StableHlo.binary main_v229 main_v225 main_v230 (subf : (⟨S50000x128, .f32⟩ : BufTy).Contents (Elt F) → (⟨S50000x128, .f32⟩ : BufTy).Contents (Elt F) → (⟨S50000x128, .f32⟩ : BufTy).Contents (Elt F)),
    StableHlo.binary main_v230 main_v228 main_v231 (mulf : (⟨S50000x128, .f32⟩ : BufTy).Contents (Elt F) → (⟨S50000x128, .f32⟩ : BufTy).Contents (Elt F) → (⟨S50000x128, .f32⟩ : BufTy).Contents (Elt F)),
    StableHlo.binary main_v225 main_v181 main_v232 (mulf : (⟨S50000x128, .f32⟩ : BufTy).Contents (Elt F) → (⟨S50000x128, .f32⟩ : BufTy).Contents (Elt F) → (⟨S50000x128, .f32⟩ : BufTy).Contents (Elt F)),
    StableHlo.binary main_v231 main_v232 main_v233 (addf : (⟨S50000x128, .f32⟩ : BufTy).Contents (Elt F) → (⟨S50000x128, .f32⟩ : BufTy).Contents (Elt F) → (⟨S50000x128, .f32⟩ : BufTy).Contents (Elt F)) ]
/-- Each touches TensorCore buffers only. -/
theorem opsL3_sub : (opsL3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Each determines every buffer it writes. -/
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 4: the edge weights broadcast, the source rows gathered (a negative index wrapped), scaled and scatter-added at the targets, the running sum of aggregates, and the gated recurrent cell (two affine maps, reset and update gates, candidate, the new hidden state). 60 operations. -/
abbrev opsL4 : List (HloOp τ sig (Elt F)) :=
  [ StableHlo.unary main_arg2 main_v234 (broadcastInDim S640000x1 ![0] bcast_S640000_S640000x1_0 : (⟨S640000, .f32⟩ : BufTy).Contents (Elt F) → (⟨S640000x1, .f32⟩ : BufTy).Contents (Elt F)),
    StableHlo.nullary main_c_34 (constantI S_ 32 0#32),
    StableHlo.unary main_c_34 main_v235 (broadcastInDim S640000 ![] bcast_S_S640000 : (⟨S_, .i32⟩ : BufTy).Contents (Elt F) → (⟨S640000, .i32⟩ : BufTy).Contents (Elt F)),
    StableHlo.binary main_v1 main_v235 main_v236 (cmpi .slt : (⟨S640000, .i32⟩ : BufTy).Contents (Elt F) → (⟨S640000, .i32⟩ : BufTy).Contents (Elt F) → (⟨S640000, .i1⟩ : BufTy).Contents (Elt F)),
    StableHlo.nullary main_c_35 (constantI S_ 32 50000#32),
    StableHlo.unary main_c_35 main_v237 (broadcastInDim S640000 ![] bcast_S_S640000 : (⟨S_, .i32⟩ : BufTy).Contents (Elt F) → (⟨S640000, .i32⟩ : BufTy).Contents (Elt F)),
    StableHlo.binary main_v1 main_v237 main_v238 (addi : (⟨S640000, .i32⟩ : BufTy).Contents (Elt F) → (⟨S640000, .i32⟩ : BufTy).Contents (Elt F) → (⟨S640000, .i32⟩ : BufTy).Contents (Elt F)),
    StableHlo.ternary main_v236 main_v238 main_v1 main_v239 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v239 main_v240 (broadcastInDim S640000x1 ![0] bcast_S640000_S640000x1_0 : (⟨S640000, .i32⟩ : BufTy).Contents (Elt F) → (⟨S640000x1, .i32⟩ : BufTy).Contents (Elt F)),
    StableHlo.binary main_v233 main_v240 main_v241 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v234 main_v242 (broadcastInDim S640000x128 ![0, 1] bcast_S640000x1_S640000x128_0_1 : (⟨S640000x1, .f32⟩ : BufTy).Contents (Elt F) → (⟨S640000x128, .f32⟩ : BufTy).Contents (Elt F)),
    StableHlo.binary main_v242 main_v241 main_v243 (mulf : (⟨S640000x128, .f32⟩ : BufTy).Contents (Elt F) → (⟨S640000x128, .f32⟩ : BufTy).Contents (Elt F) → (⟨S640000x128, .f32⟩ : BufTy).Contents (Elt F)),
    StableHlo.nullary main_cst_36 (constant S_ .f32 0x00000000#32),
    StableHlo.unary main_cst_36 main_v244 (broadcastInDim S50000x128 ![] bcast_S_S50000x128 : (⟨S_, .f32⟩ : BufTy).Contents (Elt F) → (⟨S50000x128, .f32⟩ : BufTy).Contents (Elt F)),
    StableHlo.unary main_v3 main_v245 (broadcastInDim S640000x1 ![0] bcast_S640000_S640000x1_0 : (⟨S640000, .i32⟩ : BufTy).Contents (Elt F) → (⟨S640000x1, .i32⟩ : BufTy).Contents (Elt F)),
    StableHlo.ternary main_v244 main_v245 main_v243 main_v246 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v195 main_v246 main_v247 (addf : (⟨S50000x128, .f32⟩ : BufTy).Contents (Elt F) → (⟨S50000x128, .f32⟩ : BufTy).Contents (Elt F) → (⟨S50000x128, .f32⟩ : BufTy).Contents (Elt F)),
    StableHlo.unary main_arg6 main_v248 ((transpose S128x384 [1, 0] · transposes_S384x128_S128x384_1_0) : (⟨S384x128, .f32⟩ : BufTy).Contents (Elt F) → (⟨S128x384, .f32⟩ : BufTy).Contents (Elt F)),
    StableHlo.binary main_v246 main_v248 main_v249 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v250 (broadcastInDim S1x384 ![1] bcast_S384_S1x384_1 : (⟨S384, .f32⟩ : BufTy).Contents (Elt F) → (⟨S1x384, .f32⟩ : BufTy).Contents (Elt F)),
    StableHlo.unary main_v250 main_v251 (broadcastInDim S50000x384 ![0, 1] bcast_S1x384_S50000x384_0_1 : (⟨S1x384, .f32⟩ : BufTy).Contents (Elt F) → (⟨S50000x384, .f32⟩ : BufTy).Contents (Elt F)),
    StableHlo.binary main_v249 main_v251 main_v252 (addf : (⟨S50000x384, .f32⟩ : BufTy).Contents (Elt F) → (⟨S50000x384, .f32⟩ : BufTy).Contents (Elt F) → (⟨S50000x384, .f32⟩ : BufTy).Contents (Elt F)),
    StableHlo.unary main_arg7 main_v253 ((transpose S128x384 [1, 0] · transposes_S384x128_S128x384_1_0) : (⟨S384x128, .f32⟩ : BufTy).Contents (Elt F) → (⟨S128x384, .f32⟩ : BufTy).Contents (Elt F)),
    StableHlo.binary main_v233 main_v253 main_v254 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v255 (broadcastInDim S1x384 ![1] bcast_S384_S1x384_1 : (⟨S384, .f32⟩ : BufTy).Contents (Elt F) → (⟨S1x384, .f32⟩ : BufTy).Contents (Elt F)),
    StableHlo.unary main_v255 main_v256 (broadcastInDim S50000x384 ![0, 1] bcast_S1x384_S50000x384_0_1 : (⟨S1x384, .f32⟩ : BufTy).Contents (Elt F) → (⟨S50000x384, .f32⟩ : BufTy).Contents (Elt F)),
    StableHlo.binary main_v254 main_v256 main_v257 (addf : (⟨S50000x384, .f32⟩ : BufTy).Contents (Elt F) → (⟨S50000x384, .f32⟩ : BufTy).Contents (Elt F) → (⟨S50000x384, .f32⟩ : BufTy).Contents (Elt F)),
    StableHlo.unary main_v252 main_v258 ((extractStridedSlice S50000x128 ![0, 0] · slices_S50000x384_S50000x128_0_0) : (⟨S50000x384, .f32⟩ : BufTy).Contents (Elt F) → (⟨S50000x128, .f32⟩ : BufTy).Contents (Elt F)),
    StableHlo.unary main_v252 main_v259 ((extractStridedSlice S50000x128 ![0, 128] · slices_S50000x384_S50000x128_0_128) : (⟨S50000x384, .f32⟩ : BufTy).Contents (Elt F) → (⟨S50000x128, .f32⟩ : BufTy).Contents (Elt F)),
    StableHlo.unary main_v252 main_v260 ((extractStridedSlice S50000x128 ![0, 256] · slices_S50000x384_S50000x128_0_256) : (⟨S50000x384, .f32⟩ : BufTy).Contents (Elt F) → (⟨S50000x128, .f32⟩ : BufTy).Contents (Elt F)),
    StableHlo.unary main_v257 main_v261 ((extractStridedSlice S50000x128 ![0, 0] · slices_S50000x384_S50000x128_0_0) : (⟨S50000x384, .f32⟩ : BufTy).Contents (Elt F) → (⟨S50000x128, .f32⟩ : BufTy).Contents (Elt F)),
    StableHlo.unary main_v257 main_v262 ((extractStridedSlice S50000x128 ![0, 128] · slices_S50000x384_S50000x128_0_128) : (⟨S50000x384, .f32⟩ : BufTy).Contents (Elt F) → (⟨S50000x128, .f32⟩ : BufTy).Contents (Elt F)),
    StableHlo.unary main_v257 main_v263 ((extractStridedSlice S50000x128 ![0, 256] · slices_S50000x384_S50000x128_0_256) : (⟨S50000x384, .f32⟩ : BufTy).Contents (Elt F) → (⟨S50000x128, .f32⟩ : BufTy).Contents (Elt F)),
    StableHlo.binary main_v258 main_v261 main_v264 (addf : (⟨S50000x128, .f32⟩ : BufTy).Contents (Elt F) → (⟨S50000x128, .f32⟩ : BufTy).Contents (Elt F) → (⟨S50000x128, .f32⟩ : BufTy).Contents (Elt F)),
    StableHlo.unary main_v264 main_v265 (Host.negf : (⟨S50000x128, .f32⟩ : BufTy).Contents (Elt F) → (⟨S50000x128, .f32⟩ : BufTy).Contents (Elt F)),
    StableHlo.unary main_v265 main_v266 (Host.exp : (⟨S50000x128, .f32⟩ : BufTy).Contents (Elt F) → (⟨S50000x128, .f32⟩ : BufTy).Contents (Elt F)),
    StableHlo.nullary main_cst_37 (constant S_ .f32 0x3F800000#32),
    StableHlo.unary main_cst_37 main_v267 (broadcastInDim S50000x128 ![] bcast_S_S50000x128 : (⟨S_, .f32⟩ : BufTy).Contents (Elt F) → (⟨S50000x128, .f32⟩ : BufTy).Contents (Elt F)),
    StableHlo.binary main_v267 main_v266 main_v268 (addf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3F800000#32),
    StableHlo.unary main_cst_38 main_v269 (broadcastInDim S50000x128 ![] bcast_S_S50000x128 : (⟨S_, .f32⟩ : BufTy).Contents (Elt F) → (⟨S50000x128, .f32⟩ : BufTy).Contents (Elt F)),
    StableHlo.binary main_v269 main_v268 main_v270 (Host.divf : (⟨S50000x128, .f32⟩ : BufTy).Contents (Elt F) → (⟨S50000x128, .f32⟩ : BufTy).Contents (Elt F) → (⟨S50000x128, .f32⟩ : BufTy).Contents (Elt F)),
    StableHlo.binary main_v259 main_v262 main_v271 (addf : (⟨S50000x128, .f32⟩ : BufTy).Contents (Elt F) → (⟨S50000x128, .f32⟩ : BufTy).Contents (Elt F) → (⟨S50000x128, .f32⟩ : BufTy).Contents (Elt F)),
    StableHlo.unary main_v271 main_v272 (Host.negf : (⟨S50000x128, .f32⟩ : BufTy).Contents (Elt F) → (⟨S50000x128, .f32⟩ : BufTy).Contents (Elt F)),
    StableHlo.unary main_v272 main_v273 (Host.exp : (⟨S50000x128, .f32⟩ : BufTy).Contents (Elt F) → (⟨S50000x128, .f32⟩ : BufTy).Contents (Elt F)),
    StableHlo.nullary main_cst_39 (constant S_ .f32 0x3F800000#32),
    StableHlo.unary main_cst_39 main_v274 (broadcastInDim S50000x128 ![] bcast_S_S50000x128 : (⟨S_, .f32⟩ : BufTy).Contents (Elt F) → (⟨S50000x128, .f32⟩ : BufTy).Contents (Elt F)),
    StableHlo.binary main_v274 main_v273 main_v275 (addf : (⟨S50000x128, .f32⟩ : BufTy).Contents (Elt F) → (⟨S50000x128, .f32⟩ : BufTy).Contents (Elt F) → (⟨S50000x128, .f32⟩ : BufTy).Contents (Elt F)),
    StableHlo.nullary main_cst_40 (constant S_ .f32 0x3F800000#32),
    StableHlo.unary main_cst_40 main_v276 (broadcastInDim S50000x128 ![] bcast_S_S50000x128 : (⟨S_, .f32⟩ : BufTy).Contents (Elt F) → (⟨S50000x128, .f32⟩ : BufTy).Contents (Elt F)),
    StableHlo.binary main_v276 main_v275 main_v277 (Host.divf : (⟨S50000x128, .f32⟩ : BufTy).Contents (Elt F) → (⟨S50000x128, .f32⟩ : BufTy).Contents (Elt F) → (⟨S50000x128, .f32⟩ : BufTy).Contents (Elt F)),
    StableHlo.binary main_v270 main_v263 main_v278 (mulf : (⟨S50000x128, .f32⟩ : BufTy).Contents (Elt F) → (⟨S50000x128, .f32⟩ : BufTy).Contents (Elt F) → (⟨S50000x128, .f32⟩ : BufTy).Contents (Elt F)),
    StableHlo.binary main_v260 main_v278 main_v279 (addf : (⟨S50000x128, .f32⟩ : BufTy).Contents (Elt F) → (⟨S50000x128, .f32⟩ : BufTy).Contents (Elt F) → (⟨S50000x128, .f32⟩ : BufTy).Contents (Elt F)),
    StableHlo.unary main_v279 main_v280 (Host.tanh : (⟨S50000x128, .f32⟩ : BufTy).Contents (Elt F) → (⟨S50000x128, .f32⟩ : BufTy).Contents (Elt F)),
    StableHlo.nullary main_cst_41 (constant S_ .f32 0x3F800000#32),
    StableHlo.unary main_cst_41 main_v281 (broadcastInDim S50000x128 ![] bcast_S_S50000x128 : (⟨S_, .f32⟩ : BufTy).Contents (Elt F) → (⟨S50000x128, .f32⟩ : BufTy).Contents (Elt F)),
    StableHlo.binary main_v281 main_v277 main_v282 (subf : (⟨S50000x128, .f32⟩ : BufTy).Contents (Elt F) → (⟨S50000x128, .f32⟩ : BufTy).Contents (Elt F) → (⟨S50000x128, .f32⟩ : BufTy).Contents (Elt F)),
    StableHlo.binary main_v282 main_v280 main_v283 (mulf : (⟨S50000x128, .f32⟩ : BufTy).Contents (Elt F) → (⟨S50000x128, .f32⟩ : BufTy).Contents (Elt F) → (⟨S50000x128, .f32⟩ : BufTy).Contents (Elt F)),
    StableHlo.binary main_v277 main_v233 main_v284 (mulf : (⟨S50000x128, .f32⟩ : BufTy).Contents (Elt F) → (⟨S50000x128, .f32⟩ : BufTy).Contents (Elt F) → (⟨S50000x128, .f32⟩ : BufTy).Contents (Elt F)),
    StableHlo.binary main_v283 main_v284 main_v285 (addf : (⟨S50000x128, .f32⟩ : BufTy).Contents (Elt F) → (⟨S50000x128, .f32⟩ : BufTy).Contents (Elt F) → (⟨S50000x128, .f32⟩ : BufTy).Contents (Elt F)) ]
/-- Each touches TensorCore buffers only. -/
theorem opsL4_sub : (opsL4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- Each determines every buffer it writes. -/
theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The decoder: the mean of the six states, times the transposed decoder weight, its batch normalisation, the rectifier, the output row and the reshape to a vector. 55 operations. -/
abbrev opsD : List (HloOp τ sig (Elt F)) :=
  [ StableHlo.nullary main_cst_42 (constant S_ .f32 0x40C00000#32),
    StableHlo.unary main_cst_42 main_v286 (broadcastInDim S50000x128 ![] bcast_S_S50000x128 : (⟨S_, .f32⟩ : BufTy).Contents (Elt F) → (⟨S50000x128, .f32⟩ : BufTy).Contents (Elt F)),
    StableHlo.binary main_v247 main_v286 main_v287 (Host.divf : (⟨S50000x128, .f32⟩ : BufTy).Contents (Elt F) → (⟨S50000x128, .f32⟩ : BufTy).Contents (Elt F) → (⟨S50000x128, .f32⟩ : BufTy).Contents (Elt F)),
    StableHlo.unary main_arg10 main_v288 ((transpose S128x64 [1, 0] · transposes_S64x128_S128x64_1_0) : (⟨S64x128, .f32⟩ : BufTy).Contents (Elt F) → (⟨S128x64, .f32⟩ : BufTy).Contents (Elt F)),
    StableHlo.binary main_v287 main_v288 main_v289 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_cst_43 (constant S_ .f32 0x00000000#32),
    StableHlo.binary main_v289 main_cst_43 main_v290 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_44 (constant S_ .f32 0x47435000#32),
    StableHlo.unary main_cst_44 main_v291 (broadcastInDim S64 ![] bcast_S_S64 : (⟨S_, .f32⟩ : BufTy).Contents (Elt F) → (⟨S64, .f32⟩ : BufTy).Contents (Elt F)),
    StableHlo.binary main_v290 main_v291 main_v292 (Host.divf : (⟨S64, .f32⟩ : BufTy).Contents (Elt F) → (⟨S64, .f32⟩ : BufTy).Contents (Elt F) → (⟨S64, .f32⟩ : BufTy).Contents (Elt F)),
    StableHlo.nullary main_c_45 (constantI S_ 32 0#32),
    StableHlo.TRef.nullary (.of main_call2_cst : StableHlo.TRef sig ⟨S_, .f32⟩) (constant S_ .f32 0x00000000#32),
    StableHlo.TRef.binary (.of main_v289 : StableHlo.TRef sig ⟨S50000x64, .f32⟩) (.of main_call2_cst : StableHlo.TRef sig ⟨S_, .f32⟩) (.of main_call2_v0 : StableHlo.TRef sig ⟨S64, .f32⟩) (fun x v => Host.reduceAdd x v reducesTo_S50000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S50000x64, .f32⟩) (broadcastInDim S50000x64 ![0, 1] bcast_S1x64_S50000x64_0_1),
    StableHlo.TRef.binary (.of main_v289 : StableHlo.TRef sig ⟨S50000x64, .f32⟩) (.of main_call2_v4 : StableHlo.TRef sig ⟨S50000x64, .f32⟩) (.of main_call2_v5 : StableHlo.TRef sig ⟨S50000x64, .f32⟩) subf,
    StableHlo.TRef.binary (.of main_call2_v5 : StableHlo.TRef sig ⟨S50000x64, .f32⟩) (.of main_call2_v5 : StableHlo.TRef sig ⟨S50000x64, .f32⟩) (.of main_call2_v6 : StableHlo.TRef sig ⟨S50000x64, .f32⟩) mulf,
    StableHlo.TRef.unary (.of main_c_45 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x64, .f32⟩) (.of main_call2_cst_2 : StableHlo.TRef sig ⟨S_, .f32⟩) (.of main_call2_v9 : StableHlo.TRef sig ⟨S64, .f32⟩) (fun x v => Host.reduceAdd x v reducesTo_S50000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v293 : StableHlo.TRef sig ⟨S64, .f32⟩) (fun p a b => select (broadcastInDim S64 ![] bcast_S_S64 p) a b),
    StableHlo.unary main_v292 main_v294 (broadcastInDim S1x64 ![1] bcast_S64_S1x64_1 : (⟨S64, .f32⟩ : BufTy).Contents (Elt F) → (⟨S1x64, .f32⟩ : BufTy).Contents (Elt F)),
    StableHlo.unary main_v294 main_v295 (broadcastInDim S50000x64 ![0, 1] bcast_S1x64_S50000x64_0_1 : (⟨S1x64, .f32⟩ : BufTy).Contents (Elt F) → (⟨S50000x64, .f32⟩ : BufTy).Contents (Elt F)),
    StableHlo.binary main_v289 main_v295 main_v296 (subf : (⟨S50000x64, .f32⟩ : BufTy).Contents (Elt F) → (⟨S50000x64, .f32⟩ : BufTy).Contents (Elt F) → (⟨S50000x64, .f32⟩ : BufTy).Contents (Elt F)),
    StableHlo.nullary main_cst_46 (constant S_ .f32 0x3727C5AC#32),
    StableHlo.unary main_cst_46 main_v297 (broadcastInDim S64 ![] bcast_S_S64 : (⟨S_, .f32⟩ : BufTy).Contents (Elt F) → (⟨S64, .f32⟩ : BufTy).Contents (Elt F)),
    StableHlo.binary main_v293 main_v297 main_v298 (addf : (⟨S64, .f32⟩ : BufTy).Contents (Elt F) → (⟨S64, .f32⟩ : BufTy).Contents (Elt F) → (⟨S64, .f32⟩ : BufTy).Contents (Elt F)),
    StableHlo.unary main_v298 main_v299 (Host.rsqrt : (⟨S64, .f32⟩ : BufTy).Contents (Elt F) → (⟨S64, .f32⟩ : BufTy).Contents (Elt F)),
    StableHlo.unary main_v299 main_v300 (broadcastInDim S1x64 ![1] bcast_S64_S1x64_1 : (⟨S64, .f32⟩ : BufTy).Contents (Elt F) → (⟨S1x64, .f32⟩ : BufTy).Contents (Elt F)),
    StableHlo.unary main_v300 main_v301 (broadcastInDim S50000x64 ![0, 1] bcast_S1x64_S50000x64_0_1 : (⟨S1x64, .f32⟩ : BufTy).Contents (Elt F) → (⟨S50000x64, .f32⟩ : BufTy).Contents (Elt F)),
    StableHlo.binary main_v296 main_v301 main_v302 (mulf : (⟨S50000x64, .f32⟩ : BufTy).Contents (Elt F) → (⟨S50000x64, .f32⟩ : BufTy).Contents (Elt F) → (⟨S50000x64, .f32⟩ : BufTy).Contents (Elt F)),
    StableHlo.unary main_arg11 main_v303 (broadcastInDim S1x64 ![1] bcast_S64_S1x64_1 : (⟨S64, .f32⟩ : BufTy).Contents (Elt F) → (⟨S1x64, .f32⟩ : BufTy).Contents (Elt F)),
    StableHlo.unary main_v303 main_v304 (broadcastInDim S50000x64 ![0, 1] bcast_S1x64_S50000x64_0_1 : (⟨S1x64, .f32⟩ : BufTy).Contents (Elt F) → (⟨S50000x64, .f32⟩ : BufTy).Contents (Elt F)),
    StableHlo.binary main_v302 main_v304 main_v305 (mulf : (⟨S50000x64, .f32⟩ : BufTy).Contents (Elt F) → (⟨S50000x64, .f32⟩ : BufTy).Contents (Elt F) → (⟨S50000x64, .f32⟩ : BufTy).Contents (Elt F)),
    StableHlo.unary main_arg12 main_v306 (broadcastInDim S1x64 ![1] bcast_S64_S1x64_1 : (⟨S64, .f32⟩ : BufTy).Contents (Elt F) → (⟨S1x64, .f32⟩ : BufTy).Contents (Elt F)),
    StableHlo.unary main_v306 main_v307 (broadcastInDim S50000x64 ![0, 1] bcast_S1x64_S50000x64_0_1 : (⟨S1x64, .f32⟩ : BufTy).Contents (Elt F) → (⟨S50000x64, .f32⟩ : BufTy).Contents (Elt F)),
    StableHlo.binary main_v305 main_v307 main_v308 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x64, .f32⟩) (broadcastInDim S50000x64 ![] bcast_S_S50000x64),
    StableHlo.TRef.binary (.of main_v308 : StableHlo.TRef sig ⟨S50000x64, .f32⟩) (.of main_call3_v0 : StableHlo.TRef sig ⟨S50000x64, .f32⟩) (.of main_v309 : StableHlo.TRef sig ⟨S50000x64, .f32⟩) maximumf,
    StableHlo.unary main_arg13 main_v310 ((transpose S64x1 [1, 0] · transposes_S1x64_S64x1_1_0) : (⟨S1x64, .f32⟩ : BufTy).Contents (Elt F) → (⟨S64x1, .f32⟩ : BufTy).Contents (Elt F)),
    StableHlo.binary main_v309 main_v310 main_v311 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.reshape main_v311 main_v312 rfl shapeCasts_S50000x1_S50000 ]
/-- Each touches TensorCore buffers only. -/
theorem opsD_sub : (opsD : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., reshape_bufs_sub ..⟩
/-- Each determines every buffer it writes. -/
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's 408 operations, in order. -/
abbrev ops : List (HloOp τ sig (Elt F)) :=
  opsE ++ (opsL0 ++ (opsL1 ++ (opsL2 ++ (opsL3 ++ (opsL4 ++ opsD)))))

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsE_sub op h, List.forall_iff_forall_mem.mp opsL0_sub op h, List.forall_iff_forall_mem.mp opsL1_sub op h, List.forall_iff_forall_mem.mp opsL2_sub op h, List.forall_iff_forall_mem.mp opsL3_sub op h, List.forall_iff_forall_mem.mp opsL4_sub op h, List.forall_iff_forall_mem.mp opsD_sub op h]

theorem ops_fresh : ∀ op ∈ (ops : List (HloOp τ sig (Elt F))), op.fresh = ∅ := fun op h => by
  simp only [ops, List.mem_append] at h
  rcases h with h | h | h | h | h | h | h
  exacts [List.forall_iff_forall_mem.mp opsE_fresh op h, List.forall_iff_forall_mem.mp opsL0_fresh op h, List.forall_iff_forall_mem.mp opsL1_fresh op h, List.forall_iff_forall_mem.mp opsL2_fresh op h, List.forall_iff_forall_mem.mp opsL3_fresh op h, List.forall_iff_forall_mem.mp opsL4_fresh op h, List.forall_iff_forall_mem.mp opsD_fresh op h]

end Cert.ReferenceIdeal.RefRun

end
-- ==== Proof.RefWin.lean ====
/-
  The same operations cut where the printed program cuts @main: one list per window `main_partK`, a called
  function's operations in its call's place, and each window equal to the straight line of its list.
-/
import proofs.«141514_j89154931130446_1_alg».proof.Proof.Gen.ReferenceIdeal
import Idealize.ShloMosaic.Lib.StableHlo.Run
import Idealize.ShloMosaic.Lib.Pipeline.Regions

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of @main (`main_part0`): 83 operations. -/
abbrev win0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.unary main_arg3 main_v4 ((transpose S3x128 [1, 0] · transposes_S128x3_S3x128_1_0) : (⟨S128x3, .f32⟩ : BufTy).Contents (Elt F) → (⟨S3x128, .f32⟩ : BufTy).Contents (Elt F)),
    StableHlo.binary main_arg0 main_v4 main_v5 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    StableHlo.nullary main_cst (constant S_ .f32 0x00000000#32),
    StableHlo.binary main_v5 main_cst main_v6 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v7 (broadcastInDim S128 ![] bcast_S_S128 : (⟨S_, .f32⟩ : BufTy).Contents (Elt F) → (⟨S128, .f32⟩ : BufTy).Contents (Elt F)),
    StableHlo.binary main_v6 main_v7 main_v8 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v5 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_v5 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v9 : StableHlo.TRef sig ⟨S128, .f32⟩) (fun p a b => select (broadcastInDim S128 ![] bcast_S_S128 p) a b),
    StableHlo.unary main_v8 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v11 main_v12 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v13 (broadcastInDim S128 ![] bcast_S_S128 : (⟨S_, .f32⟩ : BufTy).Contents (Elt F) → (⟨S128, .f32⟩ : BufTy).Contents (Elt F)),
    StableHlo.binary main_v9 main_v13 main_v14 (addf : (⟨S128, .f32⟩ : BufTy).Contents (Elt F) → (⟨S128, .f32⟩ : BufTy).Contents (Elt F) → (⟨S128, .f32⟩ : BufTy).Contents (Elt F)),
    StableHlo.unary main_v14 main_v15 (Host.rsqrt : (⟨S128, .f32⟩ : BufTy).Contents (Elt F) → (⟨S128, .f32⟩ : BufTy).Contents (Elt F)),
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v17 main_v18 (mulf : (⟨S50000x128, .f32⟩ : BufTy).Contents (Elt F) → (⟨S50000x128, .f32⟩ : BufTy).Contents (Elt F) → (⟨S50000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (mulf : (⟨S50000x128, .f32⟩ : BufTy).Contents (Elt F) → (⟨S50000x128, .f32⟩ : BufTy).Contents (Elt F) → (⟨S50000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v24 : StableHlo.TRef sig ⟨S50000x128, .f32⟩) (.of main_call1_v0 : StableHlo.TRef sig ⟨S50000x128, .f32⟩) (.of main_v25 : StableHlo.TRef sig ⟨S50000x128, .f32⟩) maximumf,
    StableHlo.unary main_arg2 main_v26 (broadcastInDim S640000x1 ![0] bcast_S640000_S640000x1_0 : (⟨S640000, .f32⟩ : BufTy).Contents (Elt F) → (⟨S640000x1, .f32⟩ : BufTy).Contents (Elt F)),
    StableHlo.nullary main_c_2 (constantI S_ 32 0#32),
    StableHlo.unary main_c_2 main_v27 (broadcastInDim S640000 ![] bcast_S_S640000 : (⟨S_, .i32⟩ : BufTy).Contents (Elt F) → (⟨S640000, .i32⟩ : BufTy).Contents (Elt F)),
    StableHlo.binary main_v1 main_v27 main_v28 (cmpi .slt : (⟨S640000, .i32⟩ : BufTy).Contents (Elt F) → (⟨S640000, .i32⟩ : BufTy).Contents (Elt F) → (⟨S640000, .i1⟩ : BufTy).Contents (Elt F)),
    StableHlo.nullary main_c_3 (constantI S_ 32 50000#32),
    StableHlo.unary main_c_3 main_v29 (broadcastInDim S640000 ![] bcast_S_S640000 : (⟨S_, .i32⟩ : BufTy).Contents (Elt F) → (⟨S640000, .i32⟩ : BufTy).Contents (Elt F)),
    StableHlo.binary main_v1 main_v29 main_v30 (addi : (⟨S640000, .i32⟩ : BufTy).Contents (Elt F) → (⟨S640000, .i32⟩ : BufTy).Contents (Elt F) → (⟨S640000, .i32⟩ : BufTy).Contents (Elt F)),
    StableHlo.ternary main_v28 main_v30 main_v1 main_v31 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v31 main_v32 (broadcastInDim S640000x1 ![0] bcast_S640000_S640000x1_0 : (⟨S640000, .i32⟩ : BufTy).Contents (Elt F) → (⟨S640000x1, .i32⟩ : BufTy).Contents (Elt F)),
    StableHlo.binary main_v25 main_v32 main_v33 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v26 main_v34 (broadcastInDim S640000x128 ![0, 1] bcast_S640000x1_S640000x128_0_1 : (⟨S640000x1, .f32⟩ : BufTy).Contents (Elt F) → (⟨S640000x128, .f32⟩ : BufTy).Contents (Elt F)),
    StableHlo.binary main_v34 main_v33 main_v35 (mulf : (⟨S640000x128, .f32⟩ : BufTy).Contents (Elt F) → (⟨S640000x128, .f32⟩ : BufTy).Contents (Elt F) → (⟨S640000x128, .f32⟩ : BufTy).Contents (Elt F)),
    StableHlo.nullary main_cst_4 (constant S_ .f32 0x00000000#32),
    StableHlo.unary main_cst_4 main_v36 (broadcastInDim S50000x128 ![] bcast_S_S50000x128 : (⟨S_, .f32⟩ : BufTy).Contents (Elt F) → (⟨S50000x128, .f32⟩ : BufTy).Contents (Elt F)),
    StableHlo.unary main_v3 main_v37 (broadcastInDim S640000x1 ![0] bcast_S640000_S640000x1_0 : (⟨S640000, .i32⟩ : BufTy).Contents (Elt F) → (⟨S640000x1, .i32⟩ : BufTy).Contents (Elt F)),
    StableHlo.ternary main_v36 main_v37 main_v35 main_v38 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v25 main_v38 main_v39 (addf : (⟨S50000x128, .f32⟩ : BufTy).Contents (Elt F) → (⟨S50000x128, .f32⟩ : BufTy).Contents (Elt F) → (⟨S50000x128, .f32⟩ : BufTy).Contents (Elt F)),
    StableHlo.unary main_arg6 main_v40 ((transpose S128x384 [1, 0] · transposes_S384x128_S128x384_1_0) : (⟨S384x128, .f32⟩ : BufTy).Contents (Elt F) → (⟨S128x384, .f32⟩ : BufTy).Contents (Elt F)),
    StableHlo.binary main_v38 main_v40 main_v41 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v42 (broadcastInDim S1x384 ![1] bcast_S384_S1x384_1 : (⟨S384, .f32⟩ : BufTy).Contents (Elt F) → (⟨S1x384, .f32⟩ : BufTy).Contents (Elt F)),
    StableHlo.unary main_v42 main_v43 (broadcastInDim S50000x384 ![0, 1] bcast_S1x384_S50000x384_0_1 : (⟨S1x384, .f32⟩ : BufTy).Contents (Elt F) → (⟨S50000x384, .f32⟩ : BufTy).Contents (Elt F)),
    StableHlo.binary main_v41 main_v43 main_v44 (addf : (⟨S50000x384, .f32⟩ : BufTy).Contents (Elt F) → (⟨S50000x384, .f32⟩ : BufTy).Contents (Elt F) → (⟨S50000x384, .f32⟩ : BufTy).Contents (Elt F)),
    StableHlo.unary main_arg7 main_v45 ((transpose S128x384 [1, 0] · transposes_S384x128_S128x384_1_0) : (⟨S384x128, .f32⟩ : BufTy).Contents (Elt F) → (⟨S128x384, .f32⟩ : BufTy).Contents (Elt F)),
    StableHlo.binary main_v25 main_v45 main_v46 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v47 (broadcastInDim S1x384 ![1] bcast_S384_S1x384_1 : (⟨S384, .f32⟩ : BufTy).Contents (Elt F) → (⟨S1x384, .f32⟩ : BufTy).Contents (Elt F)),
    StableHlo.unary main_v47 main_v48 (broadcastInDim S50000x384 ![0, 1] bcast_S1x384_S50000x384_0_1 : (⟨S1x384, .f32⟩ : BufTy).Contents (Elt F) → (⟨S50000x384, .f32⟩ : BufTy).Contents (Elt F)),
    StableHlo.binary main_v46 main_v48 main_v49 (addf : (⟨S50000x384, .f32⟩ : BufTy).Contents (Elt F) → (⟨S50000x384, .f32⟩ : BufTy).Contents (Elt F) → (⟨S50000x384, .f32⟩ : BufTy).Contents (Elt F)),
    StableHlo.unary main_v44 main_v50 ((extractStridedSlice S50000x128 ![0, 0] · slices_S50000x384_S50000x128_0_0) : (⟨S50000x384, .f32⟩ : BufTy).Contents (Elt F) → (⟨S50000x128, .f32⟩ : BufTy).Contents (Elt F)),
    StableHlo.unary main_v44 main_v51 ((extractStridedSlice S50000x128 ![0, 128] · slices_S50000x384_S50000x128_0_128) : (⟨S50000x384, .f32⟩ : BufTy).Contents (Elt F) → (⟨S50000x128, .f32⟩ : BufTy).Contents (Elt F)),
    StableHlo.unary main_v44 main_v52 ((extractStridedSlice S50000x128 ![0, 256] · slices_S50000x384_S50000x128_0_256) : (⟨S50000x384, .f32⟩ : BufTy).Contents (Elt F) → (⟨S50000x128, .f32⟩ : BufTy).Contents (Elt F)) ]

/-- Window 1 of @main (`main_part1`): 60 operations. -/
abbrev win1 : List (HloOp τ sig (Elt F)) :=
  [ StableHlo.unary main_v49 main_v53 ((extractStridedSlice S50000x128 ![0, 0] · slices_S50000x384_S50000x128_0_0) : (⟨S50000x384, .f32⟩ : BufTy).Contents (Elt F) → (⟨S50000x128, .f32⟩ : BufTy).Contents (Elt F)),
    StableHlo.unary main_v49 main_v54 ((extractStridedSlice S50000x128 ![0, 128] · slices_S50000x384_S50000x128_0_128) : (⟨S50000x384, .f32⟩ : BufTy).Contents (Elt F) → (⟨S50000x128, .f32⟩ : BufTy).Contents (Elt F)),
    StableHlo.unary main_v49 main_v55 ((extractStridedSlice S50000x128 ![0, 256] · slices_S50000x384_S50000x128_0_256) : (⟨S50000x384, .f32⟩ : BufTy).Contents (Elt F) → (⟨S50000x128, .f32⟩ : BufTy).Contents (Elt F)),
    StableHlo.binary main_v50 main_v53 main_v56 (addf : (⟨S50000x128, .f32⟩ : BufTy).Contents (Elt F) → (⟨S50000x128, .f32⟩ : BufTy).Contents (Elt F) → (⟨S50000x128, .f32⟩ : BufTy).Contents (Elt F)),
    StableHlo.unary main_v56 main_v57 (Host.negf : (⟨S50000x128, .f32⟩ : BufTy).Contents (Elt F) → (⟨S50000x128, .f32⟩ : BufTy).Contents (Elt F)),
    StableHlo.unary main_v57 main_v58 (Host.exp : (⟨S50000x128, .f32⟩ : BufTy).Contents (Elt F) → (⟨S50000x128, .f32⟩ : BufTy).Contents (Elt F)),
    StableHlo.nullary main_cst_5 (constant S_ .f32 0x3F800000#32),
    StableHlo.unary main_cst_5 main_v59 (broadcastInDim S50000x128 ![] bcast_S_S50000x128 : (⟨S_, .f32⟩ : BufTy).Contents (Elt F) → (⟨S50000x128, .f32⟩ : BufTy).Contents (Elt F)),
    StableHlo.binary main_v59 main_v58 main_v60 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3F800000#32),
    StableHlo.unary main_cst_6 main_v61 (broadcastInDim S50000x128 ![] bcast_S_S50000x128 : (⟨S_, .f32⟩ : BufTy).Contents (Elt F) → (⟨S50000x128, .f32⟩ : BufTy).Contents (Elt F)),
    StableHlo.binary main_v61 main_v60 main_v62 (Host.divf : (⟨S50000x128, .f32⟩ : BufTy).Contents (Elt F) → (⟨S50000x128, .f32⟩ : BufTy).Contents (Elt F) → (⟨S50000x128, .f32⟩ : BufTy).Contents (Elt F)),
    StableHlo.binary main_v51 main_v54 main_v63 (addf : (⟨S50000x128, .f32⟩ : BufTy).Contents (Elt F) → (⟨S50000x128, .f32⟩ : BufTy).Contents (Elt F) → (⟨S50000x128, .f32⟩ : BufTy).Contents (Elt F)),
    StableHlo.unary main_v63 main_v64 (Host.negf : (⟨S50000x128, .f32⟩ : BufTy).Contents (Elt F) → (⟨S50000x128, .f32⟩ : BufTy).Contents (Elt F)),
    StableHlo.unary main_v64 main_v65 (Host.exp : (⟨S50000x128, .f32⟩ : BufTy).Contents (Elt F) → (⟨S50000x128, .f32⟩ : BufTy).Contents (Elt F)),
    StableHlo.nullary main_cst_7 (constant S_ .f32 0x3F800000#32),
    StableHlo.unary main_cst_7 main_v66 (broadcastInDim S50000x128 ![] bcast_S_S50000x128 : (⟨S_, .f32⟩ : BufTy).Contents (Elt F) → (⟨S50000x128, .f32⟩ : BufTy).Contents (Elt F)),
    StableHlo.binary main_v66 main_v65 main_v67 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3F800000#32),
    StableHlo.unary main_cst_8 main_v68 (broadcastInDim S50000x128 ![] bcast_S_S50000x128 : (⟨S_, .f32⟩ : BufTy).Contents (Elt F) → (⟨S50000x128, .f32⟩ : BufTy).Contents (Elt F)),
    StableHlo.binary main_v68 main_v67 main_v69 (Host.divf : (⟨S50000x128, .f32⟩ : BufTy).Contents (Elt F) → (⟨S50000x128, .f32⟩ : BufTy).Contents (Elt F) → (⟨S50000x128, .f32⟩ : BufTy).Contents (Elt F)),
    StableHlo.binary main_v62 main_v55 main_v70 (mulf : (⟨S50000x128, .f32⟩ : BufTy).Contents (Elt F) → (⟨S50000x128, .f32⟩ : BufTy).Contents (Elt F) → (⟨S50000x128, .f32⟩ : BufTy).Contents (Elt F)),
    StableHlo.binary main_v52 main_v70 main_v71 (addf : (⟨S50000x128, .f32⟩ : BufTy).Contents (Elt F) → (⟨S50000x128, .f32⟩ : BufTy).Contents (Elt F) → (⟨S50000x128, .f32⟩ : BufTy).Contents (Elt F)),
    StableHlo.unary main_v71 main_v72 (Host.tanh : (⟨S50000x128, .f32⟩ : BufTy).Contents (Elt F) → (⟨S50000x128, .f32⟩ : BufTy).Contents (Elt F)),
    StableHlo.nullary main_cst_9 (constant S_ .f32 0x3F800000#32),
    StableHlo.unary main_cst_9 main_v73 (broadcastInDim S50000x128 ![] bcast_S_S50000x128 : (⟨S_, .f32⟩ : BufTy).Contents (Elt F) → (⟨S50000x128, .f32⟩ : BufTy).Contents (Elt F)),
    StableHlo.binary main_v73 main_v69 main_v74 (subf : (⟨S50000x128, .f32⟩ : BufTy).Contents (Elt F) → (⟨S50000x128, .f32⟩ : BufTy).Contents (Elt F) → (⟨S50000x128, .f32⟩ : BufTy).Contents (Elt F)),
    StableHlo.binary main_v74 main_v72 main_v75 (mulf : (⟨S50000x128, .f32⟩ : BufTy).Contents (Elt F) → (⟨S50000x128, .f32⟩ : BufTy).Contents (Elt F) → (⟨S50000x128, .f32⟩ : BufTy).Contents (Elt F)),
    StableHlo.binary main_v69 main_v25 main_v76 (mulf : (⟨S50000x128, .f32⟩ : BufTy).Contents (Elt F) → (⟨S50000x128, .f32⟩ : BufTy).Contents (Elt F) → (⟨S50000x128, .f32⟩ : BufTy).Contents (Elt F)),
    StableHlo.binary main_v75 main_v76 main_v77 (addf : (⟨S50000x128, .f32⟩ : BufTy).Contents (Elt F) → (⟨S50000x128, .f32⟩ : BufTy).Contents (Elt F) → (⟨S50000x128, .f32⟩ : BufTy).Contents (Elt F)),
    StableHlo.unary main_arg2 main_v78 (broadcastInDim S640000x1 ![0] bcast_S640000_S640000x1_0 : (⟨S640000, .f32⟩ : BufTy).Contents (Elt F) → (⟨S640000x1, .f32⟩ : BufTy).Contents (Elt F)),
    StableHlo.nullary main_c_10 (constantI S_ 32 0#32),
    StableHlo.unary main_c_10 main_v79 (broadcastInDim S640000 ![] bcast_S_S640000 : (⟨S_, .i32⟩ : BufTy).Contents (Elt F) → (⟨S640000, .i32⟩ : BufTy).Contents (Elt F)),
    StableHlo.binary main_v1 main_v79 main_v80 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 50000#32),
    StableHlo.unary main_c_11 main_v81 (broadcastInDim S640000 ![] bcast_S_S640000 : (⟨S_, .i32⟩ : BufTy).Contents (Elt F) → (⟨S640000, .i32⟩ : BufTy).Contents (Elt F)),
    StableHlo.binary main_v1 main_v81 main_v82 (addi : (⟨S640000, .i32⟩ : BufTy).Contents (Elt F) → (⟨S640000, .i32⟩ : BufTy).Contents (Elt F) → (⟨S640000, .i32⟩ : BufTy).Contents (Elt F)),
    StableHlo.ternary main_v80 main_v82 main_v1 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v83 main_v84 (broadcastInDim S640000x1 ![0] bcast_S640000_S640000x1_0 : (⟨S640000, .i32⟩ : BufTy).Contents (Elt F) → (⟨S640000x1, .i32⟩ : BufTy).Contents (Elt F)),
    StableHlo.binary main_v77 main_v84 main_v85 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v78 main_v86 (broadcastInDim S640000x128 ![0, 1] bcast_S640000x1_S640000x128_0_1 : (⟨S640000x1, .f32⟩ : BufTy).Contents (Elt F) → (⟨S640000x128, .f32⟩ : BufTy).Contents (Elt F)),
    StableHlo.binary main_v86 main_v85 main_v87 (mulf : (⟨S640000x128, .f32⟩ : BufTy).Contents (Elt F) → (⟨S640000x128, .f32⟩ : BufTy).Contents (Elt F) → (⟨S640000x128, .f32⟩ : BufTy).Contents (Elt F)),
    StableHlo.nullary main_cst_12 (constant S_ .f32 0x00000000#32),
    StableHlo.unary main_cst_12 main_v88 (broadcastInDim S50000x128 ![] bcast_S_S50000x128 : (⟨S_, .f32⟩ : BufTy).Contents (Elt F) → (⟨S50000x128, .f32⟩ : BufTy).Contents (Elt F)),
    StableHlo.unary main_v3 main_v89 (broadcastInDim S640000x1 ![0] bcast_S640000_S640000x1_0 : (⟨S640000, .i32⟩ : BufTy).Contents (Elt F) → (⟨S640000x1, .i32⟩ : BufTy).Contents (Elt F)),
    StableHlo.ternary main_v88 main_v89 main_v87 main_v90 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v39 main_v90 main_v91 (addf : (⟨S50000x128, .f32⟩ : BufTy).Contents (Elt F) → (⟨S50000x128, .f32⟩ : BufTy).Contents (Elt F) → (⟨S50000x128, .f32⟩ : BufTy).Contents (Elt F)),
    StableHlo.unary main_arg6 main_v92 ((transpose S128x384 [1, 0] · transposes_S384x128_S128x384_1_0) : (⟨S384x128, .f32⟩ : BufTy).Contents (Elt F) → (⟨S128x384, .f32⟩ : BufTy).Contents (Elt F)),
    StableHlo.binary main_v90 main_v92 main_v93 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v94 (broadcastInDim S1x384 ![1] bcast_S384_S1x384_1 : (⟨S384, .f32⟩ : BufTy).Contents (Elt F) → (⟨S1x384, .f32⟩ : BufTy).Contents (Elt F)),
    StableHlo.unary main_v94 main_v95 (broadcastInDim S50000x384 ![0, 1] bcast_S1x384_S50000x384_0_1 : (⟨S1x384, .f32⟩ : BufTy).Contents (Elt F) → (⟨S50000x384, .f32⟩ : BufTy).Contents (Elt F)),
    StableHlo.binary main_v93 main_v95 main_v96 (addf : (⟨S50000x384, .f32⟩ : BufTy).Contents (Elt F) → (⟨S50000x384, .f32⟩ : BufTy).Contents (Elt F) → (⟨S50000x384, .f32⟩ : BufTy).Contents (Elt F)),
    StableHlo.unary main_arg7 main_v97 ((transpose S128x384 [1, 0] · transposes_S384x128_S128x384_1_0) : (⟨S384x128, .f32⟩ : BufTy).Contents (Elt F) → (⟨S128x384, .f32⟩ : BufTy).Contents (Elt F)),
    StableHlo.binary main_v77 main_v97 main_v98 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v99 (broadcastInDim S1x384 ![1] bcast_S384_S1x384_1 : (⟨S384, .f32⟩ : BufTy).Contents (Elt F) → (⟨S1x384, .f32⟩ : BufTy).Contents (Elt F)),
    StableHlo.unary main_v99 main_v100 (broadcastInDim S50000x384 ![0, 1] bcast_S1x384_S50000x384_0_1 : (⟨S1x384, .f32⟩ : BufTy).Contents (Elt F) → (⟨S50000x384, .f32⟩ : BufTy).Contents (Elt F)),
    StableHlo.binary main_v98 main_v100 main_v101 (addf : (⟨S50000x384, .f32⟩ : BufTy).Contents (Elt F) → (⟨S50000x384, .f32⟩ : BufTy).Contents (Elt F) → (⟨S50000x384, .f32⟩ : BufTy).Contents (Elt F)),
    StableHlo.unary main_v96 main_v102 ((extractStridedSlice S50000x128 ![0, 0] · slices_S50000x384_S50000x128_0_0) : (⟨S50000x384, .f32⟩ : BufTy).Contents (Elt F) → (⟨S50000x128, .f32⟩ : BufTy).Contents (Elt F)),
    StableHlo.unary main_v96 main_v103 ((extractStridedSlice S50000x128 ![0, 128] · slices_S50000x384_S50000x128_0_128) : (⟨S50000x384, .f32⟩ : BufTy).Contents (Elt F) → (⟨S50000x128, .f32⟩ : BufTy).Contents (Elt F)),
    StableHlo.unary main_v96 main_v104 ((extractStridedSlice S50000x128 ![0, 256] · slices_S50000x384_S50000x128_0_256) : (⟨S50000x384, .f32⟩ : BufTy).Contents (Elt F) → (⟨S50000x128, .f32⟩ : BufTy).Contents (Elt F)) ]

/-- Window 2 of @main (`main_part2`): 60 operations. -/
abbrev win2 : List (HloOp τ sig (Elt F)) :=
  [ StableHlo.unary main_v101 main_v105 ((extractStridedSlice S50000x128 ![0, 0] · slices_S50000x384_S50000x128_0_0) : (⟨S50000x384, .f32⟩ : BufTy).Contents (Elt F) → (⟨S50000x128, .f32⟩ : BufTy).Contents (Elt F)),
    StableHlo.unary main_v101 main_v106 ((extractStridedSlice S50000x128 ![0, 128] · slices_S50000x384_S50000x128_0_128) : (⟨S50000x384, .f32⟩ : BufTy).Contents (Elt F) → (⟨S50000x128, .f32⟩ : BufTy).Contents (Elt F)),
    StableHlo.unary main_v101 main_v107 ((extractStridedSlice S50000x128 ![0, 256] · slices_S50000x384_S50000x128_0_256) : (⟨S50000x384, .f32⟩ : BufTy).Contents (Elt F) → (⟨S50000x128, .f32⟩ : BufTy).Contents (Elt F)),
    StableHlo.binary main_v102 main_v105 main_v108 (addf : (⟨S50000x128, .f32⟩ : BufTy).Contents (Elt F) → (⟨S50000x128, .f32⟩ : BufTy).Contents (Elt F) → (⟨S50000x128, .f32⟩ : BufTy).Contents (Elt F)),
    StableHlo.unary main_v108 main_v109 (Host.negf : (⟨S50000x128, .f32⟩ : BufTy).Contents (Elt F) → (⟨S50000x128, .f32⟩ : BufTy).Contents (Elt F)),
    StableHlo.unary main_v109 main_v110 (Host.exp : (⟨S50000x128, .f32⟩ : BufTy).Contents (Elt F) → (⟨S50000x128, .f32⟩ : BufTy).Contents (Elt F)),
    StableHlo.nullary main_cst_13 (constant S_ .f32 0x3F800000#32),
    StableHlo.unary main_cst_13 main_v111 (broadcastInDim S50000x128 ![] bcast_S_S50000x128 : (⟨S_, .f32⟩ : BufTy).Contents (Elt F) → (⟨S50000x128, .f32⟩ : BufTy).Contents (Elt F)),
    StableHlo.binary main_v111 main_v110 main_v112 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3F800000#32),
    StableHlo.unary main_cst_14 main_v113 (broadcastInDim S50000x128 ![] bcast_S_S50000x128 : (⟨S_, .f32⟩ : BufTy).Contents (Elt F) → (⟨S50000x128, .f32⟩ : BufTy).Contents (Elt F)),
    StableHlo.binary main_v113 main_v112 main_v114 (Host.divf : (⟨S50000x128, .f32⟩ : BufTy).Contents (Elt F) → (⟨S50000x128, .f32⟩ : BufTy).Contents (Elt F) → (⟨S50000x128, .f32⟩ : BufTy).Contents (Elt F)),
    StableHlo.binary main_v103 main_v106 main_v115 (addf : (⟨S50000x128, .f32⟩ : BufTy).Contents (Elt F) → (⟨S50000x128, .f32⟩ : BufTy).Contents (Elt F) → (⟨S50000x128, .f32⟩ : BufTy).Contents (Elt F)),
    StableHlo.unary main_v115 main_v116 (Host.negf : (⟨S50000x128, .f32⟩ : BufTy).Contents (Elt F) → (⟨S50000x128, .f32⟩ : BufTy).Contents (Elt F)),
    StableHlo.unary main_v116 main_v117 (Host.exp : (⟨S50000x128, .f32⟩ : BufTy).Contents (Elt F) → (⟨S50000x128, .f32⟩ : BufTy).Contents (Elt F)),
    StableHlo.nullary main_cst_15 (constant S_ .f32 0x3F800000#32),
    StableHlo.unary main_cst_15 main_v118 (broadcastInDim S50000x128 ![] bcast_S_S50000x128 : (⟨S_, .f32⟩ : BufTy).Contents (Elt F) → (⟨S50000x128, .f32⟩ : BufTy).Contents (Elt F)),
    StableHlo.binary main_v118 main_v117 main_v119 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3F800000#32),
    StableHlo.unary main_cst_16 main_v120 (broadcastInDim S50000x128 ![] bcast_S_S50000x128 : (⟨S_, .f32⟩ : BufTy).Contents (Elt F) → (⟨S50000x128, .f32⟩ : BufTy).Contents (Elt F)),
    StableHlo.binary main_v120 main_v119 main_v121 (Host.divf : (⟨S50000x128, .f32⟩ : BufTy).Contents (Elt F) → (⟨S50000x128, .f32⟩ : BufTy).Contents (Elt F) → (⟨S50000x128, .f32⟩ : BufTy).Contents (Elt F)),
    StableHlo.binary main_v114 main_v107 main_v122 (mulf : (⟨S50000x128, .f32⟩ : BufTy).Contents (Elt F) → (⟨S50000x128, .f32⟩ : BufTy).Contents (Elt F) → (⟨S50000x128, .f32⟩ : BufTy).Contents (Elt F)),
    StableHlo.binary main_v104 main_v122 main_v123 (addf : (⟨S50000x128, .f32⟩ : BufTy).Contents (Elt F) → (⟨S50000x128, .f32⟩ : BufTy).Contents (Elt F) → (⟨S50000x128, .f32⟩ : BufTy).Contents (Elt F)),
    StableHlo.unary main_v123 main_v124 (Host.tanh : (⟨S50000x128, .f32⟩ : BufTy).Contents (Elt F) → (⟨S50000x128, .f32⟩ : BufTy).Contents (Elt F)),
    StableHlo.nullary main_cst_17 (constant S_ .f32 0x3F800000#32),
    StableHlo.unary main_cst_17 main_v125 (broadcastInDim S50000x128 ![] bcast_S_S50000x128 : (⟨S_, .f32⟩ : BufTy).Contents (Elt F) → (⟨S50000x128, .f32⟩ : BufTy).Contents (Elt F)),
    StableHlo.binary main_v125 main_v121 main_v126 (subf : (⟨S50000x128, .f32⟩ : BufTy).Contents (Elt F) → (⟨S50000x128, .f32⟩ : BufTy).Contents (Elt F) → (⟨S50000x128, .f32⟩ : BufTy).Contents (Elt F)),
    StableHlo.binary main_v126 main_v124 main_v127 (mulf : (⟨S50000x128, .f32⟩ : BufTy).Contents (Elt F) → (⟨S50000x128, .f32⟩ : BufTy).Contents (Elt F) → (⟨S50000x128, .f32⟩ : BufTy).Contents (Elt F)),
    StableHlo.binary main_v121 main_v77 main_v128 (mulf : (⟨S50000x128, .f32⟩ : BufTy).Contents (Elt F) → (⟨S50000x128, .f32⟩ : BufTy).Contents (Elt F) → (⟨S50000x128, .f32⟩ : BufTy).Contents (Elt F)),
    StableHlo.binary main_v127 main_v128 main_v129 (addf : (⟨S50000x128, .f32⟩ : BufTy).Contents (Elt F) → (⟨S50000x128, .f32⟩ : BufTy).Contents (Elt F) → (⟨S50000x128, .f32⟩ : BufTy).Contents (Elt F)),
    StableHlo.unary main_arg2 main_v130 (broadcastInDim S640000x1 ![0] bcast_S640000_S640000x1_0 : (⟨S640000, .f32⟩ : BufTy).Contents (Elt F) → (⟨S640000x1, .f32⟩ : BufTy).Contents (Elt F)),
    StableHlo.nullary main_c_18 (constantI S_ 32 0#32),
    StableHlo.unary main_c_18 main_v131 (broadcastInDim S640000 ![] bcast_S_S640000 : (⟨S_, .i32⟩ : BufTy).Contents (Elt F) → (⟨S640000, .i32⟩ : BufTy).Contents (Elt F)),
    StableHlo.binary main_v1 main_v131 main_v132 (cmpi .slt : (⟨S640000, .i32⟩ : BufTy).Contents (Elt F) → (⟨S640000, .i32⟩ : BufTy).Contents (Elt F) → (⟨S640000, .i1⟩ : BufTy).Contents (Elt F)),
    StableHlo.nullary main_c_19 (constantI S_ 32 50000#32),
    StableHlo.unary main_c_19 main_v133 (broadcastInDim S640000 ![] bcast_S_S640000 : (⟨S_, .i32⟩ : BufTy).Contents (Elt F) → (⟨S640000, .i32⟩ : BufTy).Contents (Elt F)),
    StableHlo.binary main_v1 main_v133 main_v134 (addi : (⟨S640000, .i32⟩ : BufTy).Contents (Elt F) → (⟨S640000, .i32⟩ : BufTy).Contents (Elt F) → (⟨S640000, .i32⟩ : BufTy).Contents (Elt F)),
    StableHlo.ternary main_v132 main_v134 main_v1 main_v135 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v135 main_v136 (broadcastInDim S640000x1 ![0] bcast_S640000_S640000x1_0 : (⟨S640000, .i32⟩ : BufTy).Contents (Elt F) → (⟨S640000x1, .i32⟩ : BufTy).Contents (Elt F)),
    StableHlo.binary main_v129 main_v136 main_v137 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v130 main_v138 (broadcastInDim S640000x128 ![0, 1] bcast_S640000x1_S640000x128_0_1 : (⟨S640000x1, .f32⟩ : BufTy).Contents (Elt F) → (⟨S640000x128, .f32⟩ : BufTy).Contents (Elt F)),
    StableHlo.binary main_v138 main_v137 main_v139 (mulf : (⟨S640000x128, .f32⟩ : BufTy).Contents (Elt F) → (⟨S640000x128, .f32⟩ : BufTy).Contents (Elt F) → (⟨S640000x128, .f32⟩ : BufTy).Contents (Elt F)),
    StableHlo.nullary main_cst_20 (constant S_ .f32 0x00000000#32),
    StableHlo.unary main_cst_20 main_v140 (broadcastInDim S50000x128 ![] bcast_S_S50000x128 : (⟨S_, .f32⟩ : BufTy).Contents (Elt F) → (⟨S50000x128, .f32⟩ : BufTy).Contents (Elt F)),
    StableHlo.unary main_v3 main_v141 (broadcastInDim S640000x1 ![0] bcast_S640000_S640000x1_0 : (⟨S640000, .i32⟩ : BufTy).Contents (Elt F) → (⟨S640000x1, .i32⟩ : BufTy).Contents (Elt F)),
    StableHlo.ternary main_v140 main_v141 main_v139 main_v142 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v91 main_v142 main_v143 (addf : (⟨S50000x128, .f32⟩ : BufTy).Contents (Elt F) → (⟨S50000x128, .f32⟩ : BufTy).Contents (Elt F) → (⟨S50000x128, .f32⟩ : BufTy).Contents (Elt F)),
    StableHlo.unary main_arg6 main_v144 ((transpose S128x384 [1, 0] · transposes_S384x128_S128x384_1_0) : (⟨S384x128, .f32⟩ : BufTy).Contents (Elt F) → (⟨S128x384, .f32⟩ : BufTy).Contents (Elt F)),
    StableHlo.binary main_v142 main_v144 main_v145 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v146 (broadcastInDim S1x384 ![1] bcast_S384_S1x384_1 : (⟨S384, .f32⟩ : BufTy).Contents (Elt F) → (⟨S1x384, .f32⟩ : BufTy).Contents (Elt F)),
    StableHlo.unary main_v146 main_v147 (broadcastInDim S50000x384 ![0, 1] bcast_S1x384_S50000x384_0_1 : (⟨S1x384, .f32⟩ : BufTy).Contents (Elt F) → (⟨S50000x384, .f32⟩ : BufTy).Contents (Elt F)),
    StableHlo.binary main_v145 main_v147 main_v148 (addf : (⟨S50000x384, .f32⟩ : BufTy).Contents (Elt F) → (⟨S50000x384, .f32⟩ : BufTy).Contents (Elt F) → (⟨S50000x384, .f32⟩ : BufTy).Contents (Elt F)),
    StableHlo.unary main_arg7 main_v149 ((transpose S128x384 [1, 0] · transposes_S384x128_S128x384_1_0) : (⟨S384x128, .f32⟩ : BufTy).Contents (Elt F) → (⟨S128x384, .f32⟩ : BufTy).Contents (Elt F)),
    StableHlo.binary main_v129 main_v149 main_v150 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v151 (broadcastInDim S1x384 ![1] bcast_S384_S1x384_1 : (⟨S384, .f32⟩ : BufTy).Contents (Elt F) → (⟨S1x384, .f32⟩ : BufTy).Contents (Elt F)),
    StableHlo.unary main_v151 main_v152 (broadcastInDim S50000x384 ![0, 1] bcast_S1x384_S50000x384_0_1 : (⟨S1x384, .f32⟩ : BufTy).Contents (Elt F) → (⟨S50000x384, .f32⟩ : BufTy).Contents (Elt F)),
    StableHlo.binary main_v150 main_v152 main_v153 (addf : (⟨S50000x384, .f32⟩ : BufTy).Contents (Elt F) → (⟨S50000x384, .f32⟩ : BufTy).Contents (Elt F) → (⟨S50000x384, .f32⟩ : BufTy).Contents (Elt F)),
    StableHlo.unary main_v148 main_v154 ((extractStridedSlice S50000x128 ![0, 0] · slices_S50000x384_S50000x128_0_0) : (⟨S50000x384, .f32⟩ : BufTy).Contents (Elt F) → (⟨S50000x128, .f32⟩ : BufTy).Contents (Elt F)),
    StableHlo.unary main_v148 main_v155 ((extractStridedSlice S50000x128 ![0, 128] · slices_S50000x384_S50000x128_0_128) : (⟨S50000x384, .f32⟩ : BufTy).Contents (Elt F) → (⟨S50000x128, .f32⟩ : BufTy).Contents (Elt F)),
    StableHlo.unary main_v148 main_v156 ((extractStridedSlice S50000x128 ![0, 256] · slices_S50000x384_S50000x128_0_256) : (⟨S50000x384, .f32⟩ : BufTy).Contents (Elt F) → (⟨S50000x128, .f32⟩ : BufTy).Contents (Elt F)) ]

/-- Window 3 of @main (`main_part3`): 60 operations. -/
abbrev win3 : List (HloOp τ sig (Elt F)) :=
  [ StableHlo.unary main_v153 main_v157 ((extractStridedSlice S50000x128 ![0, 0] · slices_S50000x384_S50000x128_0_0) : (⟨S50000x384, .f32⟩ : BufTy).Contents (Elt F) → (⟨S50000x128, .f32⟩ : BufTy).Contents (Elt F)),
    StableHlo.unary main_v153 main_v158 ((extractStridedSlice S50000x128 ![0, 128] · slices_S50000x384_S50000x128_0_128) : (⟨S50000x384, .f32⟩ : BufTy).Contents (Elt F) → (⟨S50000x128, .f32⟩ : BufTy).Contents (Elt F)),
    StableHlo.unary main_v153 main_v159 ((extractStridedSlice S50000x128 ![0, 256] · slices_S50000x384_S50000x128_0_256) : (⟨S50000x384, .f32⟩ : BufTy).Contents (Elt F) → (⟨S50000x128, .f32⟩ : BufTy).Contents (Elt F)),
    StableHlo.binary main_v154 main_v157 main_v160 (addf : (⟨S50000x128, .f32⟩ : BufTy).Contents (Elt F) → (⟨S50000x128, .f32⟩ : BufTy).Contents (Elt F) → (⟨S50000x128, .f32⟩ : BufTy).Contents (Elt F)),
    StableHlo.unary main_v160 main_v161 (Host.negf : (⟨S50000x128, .f32⟩ : BufTy).Contents (Elt F) → (⟨S50000x128, .f32⟩ : BufTy).Contents (Elt F)),
    StableHlo.unary main_v161 main_v162 (Host.exp : (⟨S50000x128, .f32⟩ : BufTy).Contents (Elt F) → (⟨S50000x128, .f32⟩ : BufTy).Contents (Elt F)),
    StableHlo.nullary main_cst_21 (constant S_ .f32 0x3F800000#32),
    StableHlo.unary main_cst_21 main_v163 (broadcastInDim S50000x128 ![] bcast_S_S50000x128 : (⟨S_, .f32⟩ : BufTy).Contents (Elt F) → (⟨S50000x128, .f32⟩ : BufTy).Contents (Elt F)),
    StableHlo.binary main_v163 main_v162 main_v164 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3F800000#32),
    StableHlo.unary main_cst_22 main_v165 (broadcastInDim S50000x128 ![] bcast_S_S50000x128 : (⟨S_, .f32⟩ : BufTy).Contents (Elt F) → (⟨S50000x128, .f32⟩ : BufTy).Contents (Elt F)),
    StableHlo.binary main_v165 main_v164 main_v166 (Host.divf : (⟨S50000x128, .f32⟩ : BufTy).Contents (Elt F) → (⟨S50000x128, .f32⟩ : BufTy).Contents (Elt F) → (⟨S50000x128, .f32⟩ : BufTy).Contents (Elt F)),
    StableHlo.binary main_v155 main_v158 main_v167 (addf : (⟨S50000x128, .f32⟩ : BufTy).Contents (Elt F) → (⟨S50000x128, .f32⟩ : BufTy).Contents (Elt F) → (⟨S50000x128, .f32⟩ : BufTy).Contents (Elt F)),
    StableHlo.unary main_v167 main_v168 (Host.negf : (⟨S50000x128, .f32⟩ : BufTy).Contents (Elt F) → (⟨S50000x128, .f32⟩ : BufTy).Contents (Elt F)),
    StableHlo.unary main_v168 main_v169 (Host.exp : (⟨S50000x128, .f32⟩ : BufTy).Contents (Elt F) → (⟨S50000x128, .f32⟩ : BufTy).Contents (Elt F)),
    StableHlo.nullary main_cst_23 (constant S_ .f32 0x3F800000#32),
    StableHlo.unary main_cst_23 main_v170 (broadcastInDim S50000x128 ![] bcast_S_S50000x128 : (⟨S_, .f32⟩ : BufTy).Contents (Elt F) → (⟨S50000x128, .f32⟩ : BufTy).Contents (Elt F)),
    StableHlo.binary main_v170 main_v169 main_v171 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3F800000#32),
    StableHlo.unary main_cst_24 main_v172 (broadcastInDim S50000x128 ![] bcast_S_S50000x128 : (⟨S_, .f32⟩ : BufTy).Contents (Elt F) → (⟨S50000x128, .f32⟩ : BufTy).Contents (Elt F)),
    StableHlo.binary main_v172 main_v171 main_v173 (Host.divf : (⟨S50000x128, .f32⟩ : BufTy).Contents (Elt F) → (⟨S50000x128, .f32⟩ : BufTy).Contents (Elt F) → (⟨S50000x128, .f32⟩ : BufTy).Contents (Elt F)),
    StableHlo.binary main_v166 main_v159 main_v174 (mulf : (⟨S50000x128, .f32⟩ : BufTy).Contents (Elt F) → (⟨S50000x128, .f32⟩ : BufTy).Contents (Elt F) → (⟨S50000x128, .f32⟩ : BufTy).Contents (Elt F)),
    StableHlo.binary main_v156 main_v174 main_v175 (addf : (⟨S50000x128, .f32⟩ : BufTy).Contents (Elt F) → (⟨S50000x128, .f32⟩ : BufTy).Contents (Elt F) → (⟨S50000x128, .f32⟩ : BufTy).Contents (Elt F)),
    StableHlo.unary main_v175 main_v176 (Host.tanh : (⟨S50000x128, .f32⟩ : BufTy).Contents (Elt F) → (⟨S50000x128, .f32⟩ : BufTy).Contents (Elt F)),
    StableHlo.nullary main_cst_25 (constant S_ .f32 0x3F800000#32),
    StableHlo.unary main_cst_25 main_v177 (broadcastInDim S50000x128 ![] bcast_S_S50000x128 : (⟨S_, .f32⟩ : BufTy).Contents (Elt F) → (⟨S50000x128, .f32⟩ : BufTy).Contents (Elt F)),
    StableHlo.binary main_v177 main_v173 main_v178 (subf : (⟨S50000x128, .f32⟩ : BufTy).Contents (Elt F) → (⟨S50000x128, .f32⟩ : BufTy).Contents (Elt F) → (⟨S50000x128, .f32⟩ : BufTy).Contents (Elt F)),
    StableHlo.binary main_v178 main_v176 main_v179 (mulf : (⟨S50000x128, .f32⟩ : BufTy).Contents (Elt F) → (⟨S50000x128, .f32⟩ : BufTy).Contents (Elt F) → (⟨S50000x128, .f32⟩ : BufTy).Contents (Elt F)),
    StableHlo.binary main_v173 main_v129 main_v180 (mulf : (⟨S50000x128, .f32⟩ : BufTy).Contents (Elt F) → (⟨S50000x128, .f32⟩ : BufTy).Contents (Elt F) → (⟨S50000x128, .f32⟩ : BufTy).Contents (Elt F)),
    StableHlo.binary main_v179 main_v180 main_v181 (addf : (⟨S50000x128, .f32⟩ : BufTy).Contents (Elt F) → (⟨S50000x128, .f32⟩ : BufTy).Contents (Elt F) → (⟨S50000x128, .f32⟩ : BufTy).Contents (Elt F)),
    StableHlo.unary main_arg2 main_v182 (broadcastInDim S640000x1 ![0] bcast_S640000_S640000x1_0 : (⟨S640000, .f32⟩ : BufTy).Contents (Elt F) → (⟨S640000x1, .f32⟩ : BufTy).Contents (Elt F)),
    StableHlo.nullary main_c_26 (constantI S_ 32 0#32),
    StableHlo.unary main_c_26 main_v183 (broadcastInDim S640000 ![] bcast_S_S640000 : (⟨S_, .i32⟩ : BufTy).Contents (Elt F) → (⟨S640000, .i32⟩ : BufTy).Contents (Elt F)),
    StableHlo.binary main_v1 main_v183 main_v184 (cmpi .slt : (⟨S640000, .i32⟩ : BufTy).Contents (Elt F) → (⟨S640000, .i32⟩ : BufTy).Contents (Elt F) → (⟨S640000, .i1⟩ : BufTy).Contents (Elt F)),
    StableHlo.nullary main_c_27 (constantI S_ 32 50000#32),
    StableHlo.unary main_c_27 main_v185 (broadcastInDim S640000 ![] bcast_S_S640000 : (⟨S_, .i32⟩ : BufTy).Contents (Elt F) → (⟨S640000, .i32⟩ : BufTy).Contents (Elt F)),
    StableHlo.binary main_v1 main_v185 main_v186 (addi : (⟨S640000, .i32⟩ : BufTy).Contents (Elt F) → (⟨S640000, .i32⟩ : BufTy).Contents (Elt F) → (⟨S640000, .i32⟩ : BufTy).Contents (Elt F)),
    StableHlo.ternary main_v184 main_v186 main_v1 main_v187 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v187 main_v188 (broadcastInDim S640000x1 ![0] bcast_S640000_S640000x1_0 : (⟨S640000, .i32⟩ : BufTy).Contents (Elt F) → (⟨S640000x1, .i32⟩ : BufTy).Contents (Elt F)),
    StableHlo.binary main_v181 main_v188 main_v189 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v182 main_v190 (broadcastInDim S640000x128 ![0, 1] bcast_S640000x1_S640000x128_0_1 : (⟨S640000x1, .f32⟩ : BufTy).Contents (Elt F) → (⟨S640000x128, .f32⟩ : BufTy).Contents (Elt F)),
    StableHlo.binary main_v190 main_v189 main_v191 (mulf : (⟨S640000x128, .f32⟩ : BufTy).Contents (Elt F) → (⟨S640000x128, .f32⟩ : BufTy).Contents (Elt F) → (⟨S640000x128, .f32⟩ : BufTy).Contents (Elt F)),
    StableHlo.nullary main_cst_28 (constant S_ .f32 0x00000000#32),
    StableHlo.unary main_cst_28 main_v192 (broadcastInDim S50000x128 ![] bcast_S_S50000x128 : (⟨S_, .f32⟩ : BufTy).Contents (Elt F) → (⟨S50000x128, .f32⟩ : BufTy).Contents (Elt F)),
    StableHlo.unary main_v3 main_v193 (broadcastInDim S640000x1 ![0] bcast_S640000_S640000x1_0 : (⟨S640000, .i32⟩ : BufTy).Contents (Elt F) → (⟨S640000x1, .i32⟩ : BufTy).Contents (Elt F)),
    StableHlo.ternary main_v192 main_v193 main_v191 main_v194 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v143 main_v194 main_v195 (addf : (⟨S50000x128, .f32⟩ : BufTy).Contents (Elt F) → (⟨S50000x128, .f32⟩ : BufTy).Contents (Elt F) → (⟨S50000x128, .f32⟩ : BufTy).Contents (Elt F)),
    StableHlo.unary main_arg6 main_v196 ((transpose S128x384 [1, 0] · transposes_S384x128_S128x384_1_0) : (⟨S384x128, .f32⟩ : BufTy).Contents (Elt F) → (⟨S128x384, .f32⟩ : BufTy).Contents (Elt F)),
    StableHlo.binary main_v194 main_v196 main_v197 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v198 (broadcastInDim S1x384 ![1] bcast_S384_S1x384_1 : (⟨S384, .f32⟩ : BufTy).Contents (Elt F) → (⟨S1x384, .f32⟩ : BufTy).Contents (Elt F)),
    StableHlo.unary main_v198 main_v199 (broadcastInDim S50000x384 ![0, 1] bcast_S1x384_S50000x384_0_1 : (⟨S1x384, .f32⟩ : BufTy).Contents (Elt F) → (⟨S50000x384, .f32⟩ : BufTy).Contents (Elt F)),
    StableHlo.binary main_v197 main_v199 main_v200 (addf : (⟨S50000x384, .f32⟩ : BufTy).Contents (Elt F) → (⟨S50000x384, .f32⟩ : BufTy).Contents (Elt F) → (⟨S50000x384, .f32⟩ : BufTy).Contents (Elt F)),
    StableHlo.unary main_arg7 main_v201 ((transpose S128x384 [1, 0] · transposes_S384x128_S128x384_1_0) : (⟨S384x128, .f32⟩ : BufTy).Contents (Elt F) → (⟨S128x384, .f32⟩ : BufTy).Contents (Elt F)),
    StableHlo.binary main_v181 main_v201 main_v202 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v203 (broadcastInDim S1x384 ![1] bcast_S384_S1x384_1 : (⟨S384, .f32⟩ : BufTy).Contents (Elt F) → (⟨S1x384, .f32⟩ : BufTy).Contents (Elt F)),
    StableHlo.unary main_v203 main_v204 (broadcastInDim S50000x384 ![0, 1] bcast_S1x384_S50000x384_0_1 : (⟨S1x384, .f32⟩ : BufTy).Contents (Elt F) → (⟨S50000x384, .f32⟩ : BufTy).Contents (Elt F)),
    StableHlo.binary main_v202 main_v204 main_v205 (addf : (⟨S50000x384, .f32⟩ : BufTy).Contents (Elt F) → (⟨S50000x384, .f32⟩ : BufTy).Contents (Elt F) → (⟨S50000x384, .f32⟩ : BufTy).Contents (Elt F)),
    StableHlo.unary main_v200 main_v206 ((extractStridedSlice S50000x128 ![0, 0] · slices_S50000x384_S50000x128_0_0) : (⟨S50000x384, .f32⟩ : BufTy).Contents (Elt F) → (⟨S50000x128, .f32⟩ : BufTy).Contents (Elt F)),
    StableHlo.unary main_v200 main_v207 ((extractStridedSlice S50000x128 ![0, 128] · slices_S50000x384_S50000x128_0_128) : (⟨S50000x384, .f32⟩ : BufTy).Contents (Elt F) → (⟨S50000x128, .f32⟩ : BufTy).Contents (Elt F)),
    StableHlo.unary main_v200 main_v208 ((extractStridedSlice S50000x128 ![0, 256] · slices_S50000x384_S50000x128_0_256) : (⟨S50000x384, .f32⟩ : BufTy).Contents (Elt F) → (⟨S50000x128, .f32⟩ : BufTy).Contents (Elt F)) ]

/-- Window 4 of @main (`main_part4`): 60 operations. -/
abbrev win4 : List (HloOp τ sig (Elt F)) :=
  [ StableHlo.unary main_v205 main_v209 ((extractStridedSlice S50000x128 ![0, 0] · slices_S50000x384_S50000x128_0_0) : (⟨S50000x384, .f32⟩ : BufTy).Contents (Elt F) → (⟨S50000x128, .f32⟩ : BufTy).Contents (Elt F)),
    StableHlo.unary main_v205 main_v210 ((extractStridedSlice S50000x128 ![0, 128] · slices_S50000x384_S50000x128_0_128) : (⟨S50000x384, .f32⟩ : BufTy).Contents (Elt F) → (⟨S50000x128, .f32⟩ : BufTy).Contents (Elt F)),
    StableHlo.unary main_v205 main_v211 ((extractStridedSlice S50000x128 ![0, 256] · slices_S50000x384_S50000x128_0_256) : (⟨S50000x384, .f32⟩ : BufTy).Contents (Elt F) → (⟨S50000x128, .f32⟩ : BufTy).Contents (Elt F)),
    StableHlo.binary main_v206 main_v209 main_v212 (addf : (⟨S50000x128, .f32⟩ : BufTy).Contents (Elt F) → (⟨S50000x128, .f32⟩ : BufTy).Contents (Elt F) → (⟨S50000x128, .f32⟩ : BufTy).Contents (Elt F)),
    StableHlo.unary main_v212 main_v213 (Host.negf : (⟨S50000x128, .f32⟩ : BufTy).Contents (Elt F) → (⟨S50000x128, .f32⟩ : BufTy).Contents (Elt F)),
    StableHlo.unary main_v213 main_v214 (Host.exp : (⟨S50000x128, .f32⟩ : BufTy).Contents (Elt F) → (⟨S50000x128, .f32⟩ : BufTy).Contents (Elt F)),
    StableHlo.nullary main_cst_29 (constant S_ .f32 0x3F800000#32),
    StableHlo.unary main_cst_29 main_v215 (broadcastInDim S50000x128 ![] bcast_S_S50000x128 : (⟨S_, .f32⟩ : BufTy).Contents (Elt F) → (⟨S50000x128, .f32⟩ : BufTy).Contents (Elt F)),
    StableHlo.binary main_v215 main_v214 main_v216 (addf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3F800000#32),
    StableHlo.unary main_cst_30 main_v217 (broadcastInDim S50000x128 ![] bcast_S_S50000x128 : (⟨S_, .f32⟩ : BufTy).Contents (Elt F) → (⟨S50000x128, .f32⟩ : BufTy).Contents (Elt F)),
    StableHlo.binary main_v217 main_v216 main_v218 (Host.divf : (⟨S50000x128, .f32⟩ : BufTy).Contents (Elt F) → (⟨S50000x128, .f32⟩ : BufTy).Contents (Elt F) → (⟨S50000x128, .f32⟩ : BufTy).Contents (Elt F)),
    StableHlo.binary main_v207 main_v210 main_v219 (addf : (⟨S50000x128, .f32⟩ : BufTy).Contents (Elt F) → (⟨S50000x128, .f32⟩ : BufTy).Contents (Elt F) → (⟨S50000x128, .f32⟩ : BufTy).Contents (Elt F)),
    StableHlo.unary main_v219 main_v220 (Host.negf : (⟨S50000x128, .f32⟩ : BufTy).Contents (Elt F) → (⟨S50000x128, .f32⟩ : BufTy).Contents (Elt F)),
    StableHlo.unary main_v220 main_v221 (Host.exp : (⟨S50000x128, .f32⟩ : BufTy).Contents (Elt F) → (⟨S50000x128, .f32⟩ : BufTy).Contents (Elt F)),
    StableHlo.nullary main_cst_31 (constant S_ .f32 0x3F800000#32),
    StableHlo.unary main_cst_31 main_v222 (broadcastInDim S50000x128 ![] bcast_S_S50000x128 : (⟨S_, .f32⟩ : BufTy).Contents (Elt F) → (⟨S50000x128, .f32⟩ : BufTy).Contents (Elt F)),
    StableHlo.binary main_v222 main_v221 main_v223 (addf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3F800000#32),
    StableHlo.unary main_cst_32 main_v224 (broadcastInDim S50000x128 ![] bcast_S_S50000x128 : (⟨S_, .f32⟩ : BufTy).Contents (Elt F) → (⟨S50000x128, .f32⟩ : BufTy).Contents (Elt F)),
    StableHlo.binary main_v224 main_v223 main_v225 (Host.divf : (⟨S50000x128, .f32⟩ : BufTy).Contents (Elt F) → (⟨S50000x128, .f32⟩ : BufTy).Contents (Elt F) → (⟨S50000x128, .f32⟩ : BufTy).Contents (Elt F)),
    StableHlo.binary main_v218 main_v211 main_v226 (mulf : (⟨S50000x128, .f32⟩ : BufTy).Contents (Elt F) → (⟨S50000x128, .f32⟩ : BufTy).Contents (Elt F) → (⟨S50000x128, .f32⟩ : BufTy).Contents (Elt F)),
    StableHlo.binary main_v208 main_v226 main_v227 (addf : (⟨S50000x128, .f32⟩ : BufTy).Contents (Elt F) → (⟨S50000x128, .f32⟩ : BufTy).Contents (Elt F) → (⟨S50000x128, .f32⟩ : BufTy).Contents (Elt F)),
    StableHlo.unary main_v227 main_v228 (Host.tanh : (⟨S50000x128, .f32⟩ : BufTy).Contents (Elt F) → (⟨S50000x128, .f32⟩ : BufTy).Contents (Elt F)),
    StableHlo.nullary main_cst_33 (constant S_ .f32 0x3F800000#32),
    StableHlo.unary main_cst_33 main_v229 (broadcastInDim S50000x128 ![] bcast_S_S50000x128 : (⟨S_, .f32⟩ : BufTy).Contents (Elt F) → (⟨S50000x128, .f32⟩ : BufTy).Contents (Elt F)),
    StableHlo.binary main_v229 main_v225 main_v230 (subf : (⟨S50000x128, .f32⟩ : BufTy).Contents (Elt F) → (⟨S50000x128, .f32⟩ : BufTy).Contents (Elt F) → (⟨S50000x128, .f32⟩ : BufTy).Contents (Elt F)),
    StableHlo.binary main_v230 main_v228 main_v231 (mulf : (⟨S50000x128, .f32⟩ : BufTy).Contents (Elt F) → (⟨S50000x128, .f32⟩ : BufTy).Contents (Elt F) → (⟨S50000x128, .f32⟩ : BufTy).Contents (Elt F)),
    StableHlo.binary main_v225 main_v181 main_v232 (mulf : (⟨S50000x128, .f32⟩ : BufTy).Contents (Elt F) → (⟨S50000x128, .f32⟩ : BufTy).Contents (Elt F) → (⟨S50000x128, .f32⟩ : BufTy).Contents (Elt F)),
    StableHlo.binary main_v231 main_v232 main_v233 (addf : (⟨S50000x128, .f32⟩ : BufTy).Contents (Elt F) → (⟨S50000x128, .f32⟩ : BufTy).Contents (Elt F) → (⟨S50000x128, .f32⟩ : BufTy).Contents (Elt F)),
    StableHlo.unary main_arg2 main_v234 (broadcastInDim S640000x1 ![0] bcast_S640000_S640000x1_0 : (⟨S640000, .f32⟩ : BufTy).Contents (Elt F) → (⟨S640000x1, .f32⟩ : BufTy).Contents (Elt F)),
    StableHlo.nullary main_c_34 (constantI S_ 32 0#32),
    StableHlo.unary main_c_34 main_v235 (broadcastInDim S640000 ![] bcast_S_S640000 : (⟨S_, .i32⟩ : BufTy).Contents (Elt F) → (⟨S640000, .i32⟩ : BufTy).Contents (Elt F)),
    StableHlo.binary main_v1 main_v235 main_v236 (cmpi .slt : (⟨S640000, .i32⟩ : BufTy).Contents (Elt F) → (⟨S640000, .i32⟩ : BufTy).Contents (Elt F) → (⟨S640000, .i1⟩ : BufTy).Contents (Elt F)),
    StableHlo.nullary main_c_35 (constantI S_ 32 50000#32),
    StableHlo.unary main_c_35 main_v237 (broadcastInDim S640000 ![] bcast_S_S640000 : (⟨S_, .i32⟩ : BufTy).Contents (Elt F) → (⟨S640000, .i32⟩ : BufTy).Contents (Elt F)),
    StableHlo.binary main_v1 main_v237 main_v238 (addi : (⟨S640000, .i32⟩ : BufTy).Contents (Elt F) → (⟨S640000, .i32⟩ : BufTy).Contents (Elt F) → (⟨S640000, .i32⟩ : BufTy).Contents (Elt F)),
    StableHlo.ternary main_v236 main_v238 main_v1 main_v239 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v239 main_v240 (broadcastInDim S640000x1 ![0] bcast_S640000_S640000x1_0 : (⟨S640000, .i32⟩ : BufTy).Contents (Elt F) → (⟨S640000x1, .i32⟩ : BufTy).Contents (Elt F)),
    StableHlo.binary main_v233 main_v240 main_v241 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v234 main_v242 (broadcastInDim S640000x128 ![0, 1] bcast_S640000x1_S640000x128_0_1 : (⟨S640000x1, .f32⟩ : BufTy).Contents (Elt F) → (⟨S640000x128, .f32⟩ : BufTy).Contents (Elt F)),
    StableHlo.binary main_v242 main_v241 main_v243 (mulf : (⟨S640000x128, .f32⟩ : BufTy).Contents (Elt F) → (⟨S640000x128, .f32⟩ : BufTy).Contents (Elt F) → (⟨S640000x128, .f32⟩ : BufTy).Contents (Elt F)),
    StableHlo.nullary main_cst_36 (constant S_ .f32 0x00000000#32),
    StableHlo.unary main_cst_36 main_v244 (broadcastInDim S50000x128 ![] bcast_S_S50000x128 : (⟨S_, .f32⟩ : BufTy).Contents (Elt F) → (⟨S50000x128, .f32⟩ : BufTy).Contents (Elt F)),
    StableHlo.unary main_v3 main_v245 (broadcastInDim S640000x1 ![0] bcast_S640000_S640000x1_0 : (⟨S640000, .i32⟩ : BufTy).Contents (Elt F) → (⟨S640000x1, .i32⟩ : BufTy).Contents (Elt F)),
    StableHlo.ternary main_v244 main_v245 main_v243 main_v246 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v195 main_v246 main_v247 (addf : (⟨S50000x128, .f32⟩ : BufTy).Contents (Elt F) → (⟨S50000x128, .f32⟩ : BufTy).Contents (Elt F) → (⟨S50000x128, .f32⟩ : BufTy).Contents (Elt F)),
    StableHlo.unary main_arg6 main_v248 ((transpose S128x384 [1, 0] · transposes_S384x128_S128x384_1_0) : (⟨S384x128, .f32⟩ : BufTy).Contents (Elt F) → (⟨S128x384, .f32⟩ : BufTy).Contents (Elt F)),
    StableHlo.binary main_v246 main_v248 main_v249 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg8 main_v250 (broadcastInDim S1x384 ![1] bcast_S384_S1x384_1 : (⟨S384, .f32⟩ : BufTy).Contents (Elt F) → (⟨S1x384, .f32⟩ : BufTy).Contents (Elt F)),
    StableHlo.unary main_v250 main_v251 (broadcastInDim S50000x384 ![0, 1] bcast_S1x384_S50000x384_0_1 : (⟨S1x384, .f32⟩ : BufTy).Contents (Elt F) → (⟨S50000x384, .f32⟩ : BufTy).Contents (Elt F)),
    StableHlo.binary main_v249 main_v251 main_v252 (addf : (⟨S50000x384, .f32⟩ : BufTy).Contents (Elt F) → (⟨S50000x384, .f32⟩ : BufTy).Contents (Elt F) → (⟨S50000x384, .f32⟩ : BufTy).Contents (Elt F)),
    StableHlo.unary main_arg7 main_v253 ((transpose S128x384 [1, 0] · transposes_S384x128_S128x384_1_0) : (⟨S384x128, .f32⟩ : BufTy).Contents (Elt F) → (⟨S128x384, .f32⟩ : BufTy).Contents (Elt F)),
    StableHlo.binary main_v233 main_v253 main_v254 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    StableHlo.unary main_arg9 main_v255 (broadcastInDim S1x384 ![1] bcast_S384_S1x384_1 : (⟨S384, .f32⟩ : BufTy).Contents (Elt F) → (⟨S1x384, .f32⟩ : BufTy).Contents (Elt F)),
    StableHlo.unary main_v255 main_v256 (broadcastInDim S50000x384 ![0, 1] bcast_S1x384_S50000x384_0_1 : (⟨S1x384, .f32⟩ : BufTy).Contents (Elt F) → (⟨S50000x384, .f32⟩ : BufTy).Contents (Elt F)),
    StableHlo.binary main_v254 main_v256 main_v257 (addf : (⟨S50000x384, .f32⟩ : BufTy).Contents (Elt F) → (⟨S50000x384, .f32⟩ : BufTy).Contents (Elt F) → (⟨S50000x384, .f32⟩ : BufTy).Contents (Elt F)),
    StableHlo.unary main_v252 main_v258 ((extractStridedSlice S50000x128 ![0, 0] · slices_S50000x384_S50000x128_0_0) : (⟨S50000x384, .f32⟩ : BufTy).Contents (Elt F) → (⟨S50000x128, .f32⟩ : BufTy).Contents (Elt F)),
    StableHlo.unary main_v252 main_v259 ((extractStridedSlice S50000x128 ![0, 128] · slices_S50000x384_S50000x128_0_128) : (⟨S50000x384, .f32⟩ : BufTy).Contents (Elt F) → (⟨S50000x128, .f32⟩ : BufTy).Contents (Elt F)),
    StableHlo.unary main_v252 main_v260 ((extractStridedSlice S50000x128 ![0, 256] · slices_S50000x384_S50000x128_0_256) : (⟨S50000x384, .f32⟩ : BufTy).Contents (Elt F) → (⟨S50000x128, .f32⟩ : BufTy).Contents (Elt F)) ]

/-- Window 5 of @main (`main_part5`): 83 operations. -/
abbrev win5 : List (HloOp τ sig (Elt F)) :=
  [ StableHlo.unary main_v257 main_v261 ((extractStridedSlice S50000x128 ![0, 0] · slices_S50000x384_S50000x128_0_0) : (⟨S50000x384, .f32⟩ : BufTy).Contents (Elt F) → (⟨S50000x128, .f32⟩ : BufTy).Contents (Elt F)),
    StableHlo.unary main_v257 main_v262 ((extractStridedSlice S50000x128 ![0, 128] · slices_S50000x384_S50000x128_0_128) : (⟨S50000x384, .f32⟩ : BufTy).Contents (Elt F) → (⟨S50000x128, .f32⟩ : BufTy).Contents (Elt F)),
    StableHlo.unary main_v257 main_v263 ((extractStridedSlice S50000x128 ![0, 256] · slices_S50000x384_S50000x128_0_256) : (⟨S50000x384, .f32⟩ : BufTy).Contents (Elt F) → (⟨S50000x128, .f32⟩ : BufTy).Contents (Elt F)),
    StableHlo.binary main_v258 main_v261 main_v264 (addf : (⟨S50000x128, .f32⟩ : BufTy).Contents (Elt F) → (⟨S50000x128, .f32⟩ : BufTy).Contents (Elt F) → (⟨S50000x128, .f32⟩ : BufTy).Contents (Elt F)),
    StableHlo.unary main_v264 main_v265 (Host.negf : (⟨S50000x128, .f32⟩ : BufTy).Contents (Elt F) → (⟨S50000x128, .f32⟩ : BufTy).Contents (Elt F)),
    StableHlo.unary main_v265 main_v266 (Host.exp : (⟨S50000x128, .f32⟩ : BufTy).Contents (Elt F) → (⟨S50000x128, .f32⟩ : BufTy).Contents (Elt F)),
    StableHlo.nullary main_cst_37 (constant S_ .f32 0x3F800000#32),
    StableHlo.unary main_cst_37 main_v267 (broadcastInDim S50000x128 ![] bcast_S_S50000x128 : (⟨S_, .f32⟩ : BufTy).Contents (Elt F) → (⟨S50000x128, .f32⟩ : BufTy).Contents (Elt F)),
    StableHlo.binary main_v267 main_v266 main_v268 (addf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3F800000#32),
    StableHlo.unary main_cst_38 main_v269 (broadcastInDim S50000x128 ![] bcast_S_S50000x128 : (⟨S_, .f32⟩ : BufTy).Contents (Elt F) → (⟨S50000x128, .f32⟩ : BufTy).Contents (Elt F)),
    StableHlo.binary main_v269 main_v268 main_v270 (Host.divf : (⟨S50000x128, .f32⟩ : BufTy).Contents (Elt F) → (⟨S50000x128, .f32⟩ : BufTy).Contents (Elt F) → (⟨S50000x128, .f32⟩ : BufTy).Contents (Elt F)),
    StableHlo.binary main_v259 main_v262 main_v271 (addf : (⟨S50000x128, .f32⟩ : BufTy).Contents (Elt F) → (⟨S50000x128, .f32⟩ : BufTy).Contents (Elt F) → (⟨S50000x128, .f32⟩ : BufTy).Contents (Elt F)),
    StableHlo.unary main_v271 main_v272 (Host.negf : (⟨S50000x128, .f32⟩ : BufTy).Contents (Elt F) → (⟨S50000x128, .f32⟩ : BufTy).Contents (Elt F)),
    StableHlo.unary main_v272 main_v273 (Host.exp : (⟨S50000x128, .f32⟩ : BufTy).Contents (Elt F) → (⟨S50000x128, .f32⟩ : BufTy).Contents (Elt F)),
    StableHlo.nullary main_cst_39 (constant S_ .f32 0x3F800000#32),
    StableHlo.unary main_cst_39 main_v274 (broadcastInDim S50000x128 ![] bcast_S_S50000x128 : (⟨S_, .f32⟩ : BufTy).Contents (Elt F) → (⟨S50000x128, .f32⟩ : BufTy).Contents (Elt F)),
    StableHlo.binary main_v274 main_v273 main_v275 (addf : (⟨S50000x128, .f32⟩ : BufTy).Contents (Elt F) → (⟨S50000x128, .f32⟩ : BufTy).Contents (Elt F) → (⟨S50000x128, .f32⟩ : BufTy).Contents (Elt F)),
    StableHlo.nullary main_cst_40 (constant S_ .f32 0x3F800000#32),
    StableHlo.unary main_cst_40 main_v276 (broadcastInDim S50000x128 ![] bcast_S_S50000x128 : (⟨S_, .f32⟩ : BufTy).Contents (Elt F) → (⟨S50000x128, .f32⟩ : BufTy).Contents (Elt F)),
    StableHlo.binary main_v276 main_v275 main_v277 (Host.divf : (⟨S50000x128, .f32⟩ : BufTy).Contents (Elt F) → (⟨S50000x128, .f32⟩ : BufTy).Contents (Elt F) → (⟨S50000x128, .f32⟩ : BufTy).Contents (Elt F)),
    StableHlo.binary main_v270 main_v263 main_v278 (mulf : (⟨S50000x128, .f32⟩ : BufTy).Contents (Elt F) → (⟨S50000x128, .f32⟩ : BufTy).Contents (Elt F) → (⟨S50000x128, .f32⟩ : BufTy).Contents (Elt F)),
    StableHlo.binary main_v260 main_v278 main_v279 (addf : (⟨S50000x128, .f32⟩ : BufTy).Contents (Elt F) → (⟨S50000x128, .f32⟩ : BufTy).Contents (Elt F) → (⟨S50000x128, .f32⟩ : BufTy).Contents (Elt F)),
    StableHlo.unary main_v279 main_v280 (Host.tanh : (⟨S50000x128, .f32⟩ : BufTy).Contents (Elt F) → (⟨S50000x128, .f32⟩ : BufTy).Contents (Elt F)),
    StableHlo.nullary main_cst_41 (constant S_ .f32 0x3F800000#32),
    StableHlo.unary main_cst_41 main_v281 (broadcastInDim S50000x128 ![] bcast_S_S50000x128 : (⟨S_, .f32⟩ : BufTy).Contents (Elt F) → (⟨S50000x128, .f32⟩ : BufTy).Contents (Elt F)),
    StableHlo.binary main_v281 main_v277 main_v282 (subf : (⟨S50000x128, .f32⟩ : BufTy).Contents (Elt F) → (⟨S50000x128, .f32⟩ : BufTy).Contents (Elt F) → (⟨S50000x128, .f32⟩ : BufTy).Contents (Elt F)),
    StableHlo.binary main_v282 main_v280 main_v283 (mulf : (⟨S50000x128, .f32⟩ : BufTy).Contents (Elt F) → (⟨S50000x128, .f32⟩ : BufTy).Contents (Elt F) → (⟨S50000x128, .f32⟩ : BufTy).Contents (Elt F)),
    StableHlo.binary main_v277 main_v233 main_v284 (mulf : (⟨S50000x128, .f32⟩ : BufTy).Contents (Elt F) → (⟨S50000x128, .f32⟩ : BufTy).Contents (Elt F) → (⟨S50000x128, .f32⟩ : BufTy).Contents (Elt F)),
    StableHlo.binary main_v283 main_v284 main_v285 (addf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x40C00000#32),
    StableHlo.unary main_cst_42 main_v286 (broadcastInDim S50000x128 ![] bcast_S_S50000x128 : (⟨S_, .f32⟩ : BufTy).Contents (Elt F) → (⟨S50000x128, .f32⟩ : BufTy).Contents (Elt F)),
    StableHlo.binary main_v247 main_v286 main_v287 (Host.divf : (⟨S50000x128, .f32⟩ : BufTy).Contents (Elt F) → (⟨S50000x128, .f32⟩ : BufTy).Contents (Elt F) → (⟨S50000x128, .f32⟩ : BufTy).Contents (Elt F)),
    StableHlo.unary main_arg10 main_v288 ((transpose S128x64 [1, 0] · transposes_S64x128_S128x64_1_0) : (⟨S64x128, .f32⟩ : BufTy).Contents (Elt F) → (⟨S128x64, .f32⟩ : BufTy).Contents (Elt F)),
    StableHlo.binary main_v287 main_v288 main_v289 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_cst_43 (constant S_ .f32 0x00000000#32),
    StableHlo.binary main_v289 main_cst_43 main_v290 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_44 (constant S_ .f32 0x47435000#32),
    StableHlo.unary main_cst_44 main_v291 (broadcastInDim S64 ![] bcast_S_S64 : (⟨S_, .f32⟩ : BufTy).Contents (Elt F) → (⟨S64, .f32⟩ : BufTy).Contents (Elt F)),
    StableHlo.binary main_v290 main_v291 main_v292 (Host.divf : (⟨S64, .f32⟩ : BufTy).Contents (Elt F) → (⟨S64, .f32⟩ : BufTy).Contents (Elt F) → (⟨S64, .f32⟩ : BufTy).Contents (Elt F)),
    StableHlo.nullary main_c_45 (constantI S_ 32 0#32),
    StableHlo.TRef.nullary (.of main_call2_cst : StableHlo.TRef sig ⟨S_, .f32⟩) (constant S_ .f32 0x00000000#32),
    StableHlo.TRef.binary (.of main_v289 : StableHlo.TRef sig ⟨S50000x64, .f32⟩) (.of main_call2_cst : StableHlo.TRef sig ⟨S_, .f32⟩) (.of main_call2_v0 : StableHlo.TRef sig ⟨S64, .f32⟩) (fun x v => Host.reduceAdd x v reducesTo_S50000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S50000x64, .f32⟩) (broadcastInDim S50000x64 ![0, 1] bcast_S1x64_S50000x64_0_1),
    StableHlo.TRef.binary (.of main_v289 : StableHlo.TRef sig ⟨S50000x64, .f32⟩) (.of main_call2_v4 : StableHlo.TRef sig ⟨S50000x64, .f32⟩) (.of main_call2_v5 : StableHlo.TRef sig ⟨S50000x64, .f32⟩) subf,
    StableHlo.TRef.binary (.of main_call2_v5 : StableHlo.TRef sig ⟨S50000x64, .f32⟩) (.of main_call2_v5 : StableHlo.TRef sig ⟨S50000x64, .f32⟩) (.of main_call2_v6 : StableHlo.TRef sig ⟨S50000x64, .f32⟩) mulf,
    StableHlo.TRef.unary (.of main_c_45 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x64, .f32⟩) (.of main_call2_cst_2 : StableHlo.TRef sig ⟨S_, .f32⟩) (.of main_call2_v9 : StableHlo.TRef sig ⟨S64, .f32⟩) (fun x v => Host.reduceAdd x v reducesTo_S50000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v293 : StableHlo.TRef sig ⟨S64, .f32⟩) (fun p a b => select (broadcastInDim S64 ![] bcast_S_S64 p) a b),
    StableHlo.unary main_v292 main_v294 (broadcastInDim S1x64 ![1] bcast_S64_S1x64_1 : (⟨S64, .f32⟩ : BufTy).Contents (Elt F) → (⟨S1x64, .f32⟩ : BufTy).Contents (Elt F)),
    StableHlo.unary main_v294 main_v295 (broadcastInDim S50000x64 ![0, 1] bcast_S1x64_S50000x64_0_1 : (⟨S1x64, .f32⟩ : BufTy).Contents (Elt F) → (⟨S50000x64, .f32⟩ : BufTy).Contents (Elt F)),
    StableHlo.binary main_v289 main_v295 main_v296 (subf : (⟨S50000x64, .f32⟩ : BufTy).Contents (Elt F) → (⟨S50000x64, .f32⟩ : BufTy).Contents (Elt F) → (⟨S50000x64, .f32⟩ : BufTy).Contents (Elt F)),
    StableHlo.nullary main_cst_46 (constant S_ .f32 0x3727C5AC#32),
    StableHlo.unary main_cst_46 main_v297 (broadcastInDim S64 ![] bcast_S_S64 : (⟨S_, .f32⟩ : BufTy).Contents (Elt F) → (⟨S64, .f32⟩ : BufTy).Contents (Elt F)),
    StableHlo.binary main_v293 main_v297 main_v298 (addf : (⟨S64, .f32⟩ : BufTy).Contents (Elt F) → (⟨S64, .f32⟩ : BufTy).Contents (Elt F) → (⟨S64, .f32⟩ : BufTy).Contents (Elt F)),
    StableHlo.unary main_v298 main_v299 (Host.rsqrt : (⟨S64, .f32⟩ : BufTy).Contents (Elt F) → (⟨S64, .f32⟩ : BufTy).Contents (Elt F)),
    StableHlo.unary main_v299 main_v300 (broadcastInDim S1x64 ![1] bcast_S64_S1x64_1 : (⟨S64, .f32⟩ : BufTy).Contents (Elt F) → (⟨S1x64, .f32⟩ : BufTy).Contents (Elt F)),
    StableHlo.unary main_v300 main_v301 (broadcastInDim S50000x64 ![0, 1] bcast_S1x64_S50000x64_0_1 : (⟨S1x64, .f32⟩ : BufTy).Contents (Elt F) → (⟨S50000x64, .f32⟩ : BufTy).Contents (Elt F)),
    StableHlo.binary main_v296 main_v301 main_v302 (mulf : (⟨S50000x64, .f32⟩ : BufTy).Contents (Elt F) → (⟨S50000x64, .f32⟩ : BufTy).Contents (Elt F) → (⟨S50000x64, .f32⟩ : BufTy).Contents (Elt F)),
    StableHlo.unary main_arg11 main_v303 (broadcastInDim S1x64 ![1] bcast_S64_S1x64_1 : (⟨S64, .f32⟩ : BufTy).Contents (Elt F) → (⟨S1x64, .f32⟩ : BufTy).Contents (Elt F)),
    StableHlo.unary main_v303 main_v304 (broadcastInDim S50000x64 ![0, 1] bcast_S1x64_S50000x64_0_1 : (⟨S1x64, .f32⟩ : BufTy).Contents (Elt F) → (⟨S50000x64, .f32⟩ : BufTy).Contents (Elt F)),
    StableHlo.binary main_v302 main_v304 main_v305 (mulf : (⟨S50000x64, .f32⟩ : BufTy).Contents (Elt F) → (⟨S50000x64, .f32⟩ : BufTy).Contents (Elt F) → (⟨S50000x64, .f32⟩ : BufTy).Contents (Elt F)),
    StableHlo.unary main_arg12 main_v306 (broadcastInDim S1x64 ![1] bcast_S64_S1x64_1 : (⟨S64, .f32⟩ : BufTy).Contents (Elt F) → (⟨S1x64, .f32⟩ : BufTy).Contents (Elt F)),
    StableHlo.unary main_v306 main_v307 (broadcastInDim S50000x64 ![0, 1] bcast_S1x64_S50000x64_0_1 : (⟨S1x64, .f32⟩ : BufTy).Contents (Elt F) → (⟨S50000x64, .f32⟩ : BufTy).Contents (Elt F)),
    StableHlo.binary main_v305 main_v307 main_v308 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x64, .f32⟩) (broadcastInDim S50000x64 ![] bcast_S_S50000x64),
    StableHlo.TRef.binary (.of main_v308 : StableHlo.TRef sig ⟨S50000x64, .f32⟩) (.of main_call3_v0 : StableHlo.TRef sig ⟨S50000x64, .f32⟩) (.of main_v309 : StableHlo.TRef sig ⟨S50000x64, .f32⟩) maximumf,
    StableHlo.unary main_arg13 main_v310 ((transpose S64x1 [1, 0] · transposes_S1x64_S64x1_1_0) : (⟨S1x64, .f32⟩ : BufTy).Contents (Elt F) → (⟨S64x1, .f32⟩ : BufTy).Contents (Elt F)) ]

/-- Window 6 of @main (`main_part6`): 2 operations. -/
abbrev win6 : List (HloOp τ sig (Elt F)) :=
  [ StableHlo.binary main_v309 main_v310 main_v311 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.reshape main_v311 main_v312 rfl shapeCasts_S50000x1_S50000 ]

/-! Each window of @main is the straight line of its list: both sides are one chain of `hlo` steps once the called
    functions' bodies are unfolded at their calls and the buffer records at their fields, so the equation holds by
    computation; it is left to the kernel's check, which peels the printed window against the list step by step. -/

theorem main_part0_eq (c : Dev nD) : main_part0 (F := F) c = seq win0 := by chain_rfl
theorem main_part1_eq (c : Dev nD) : main_part1 (F := F) c = seq win1 := by chain_rfl
theorem main_part2_eq (c : Dev nD) : main_part2 (F := F) c = seq win2 := by chain_rfl
theorem main_part3_eq (c : Dev nD) : main_part3 (F := F) c = seq win3 := by chain_rfl
theorem main_part4_eq (c : Dev nD) : main_part4 (F := F) c = seq win4 := by chain_rfl
theorem main_part5_eq (c : Dev nD) : main_part5 (F := F) c = seq win5 := by chain_rfl
theorem main_part6_eq (c : Dev nD) : main_part6 (F := F) c = seq win6 := by chain_rfl

/-- @main is its windows one after the other, so the straight line of the windows' lists joined. -/
theorem main_eq_windows (c : Dev nD) :
    main (F := F) c = seq (win0 ++ (win1 ++ (win2 ++ (win3 ++ (win4 ++ (win5 ++ win6)))))) := by
  simp only [seq_append, ← main_part0_eq c, ← main_part1_eq c, ← main_part2_eq c, ← main_part3_eq c,
    ← main_part4_eq c, ← main_part5_eq c, ← main_part6_eq c]
  rfl

end Cert.ReferenceIdeal.RefRun

end
-- ==== Proof.RefRun.lean ====
/-
  The reference program's run read back. @main is the straight line of `ops`, the seven lists of RefOps.lean joined
  (the encoder, the five message-passing layers, the decoder): @main is its printed windows one after the other, each
  the straight line of its own list (RefWin.lean), and the windows' lists joined are the seven lists joined - the same
  operations in the same order, cut at other places. Hence (`run_main`) from any memory with zero counters every weakly
  fair execution of @main terminates, with each TensorCore buffer at the fold of the operations over its launch
  contents. The fold of two lists joined is the fold of the second after the fold of the first (`after_append`), so
  the final contents are read one list at a time: the encoder's, then each layer's from the contents before it,
  then the decoder's.
-/
import proofs.«141514_j89154931130446_1_alg».proof.Proof.RefOps
import proofs.«141514_j89154931130446_1_alg».proof.Proof.RefWin

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The windows' lists joined are the seven lists joined: on both sides the same operations in the same order,
    element by element, only the cuts differ (the windows cut every sixty statements of @main, the seven lists where
    the encoder, a layer or the decoder ends). -/
theorem windows_eq_ops :
    (win0 ++ (win1 ++ (win2 ++ (win3 ++ (win4 ++ (win5 ++ win6))))) : List (HloOp τ sig (Elt F))) = ops := by
  chain_rfl

/-- @main is the straight line of its operations. -/
theorem main_eq (c : Dev nD) : main (F := F) c = seq ops := by
  rw [main_eq_windows c, windows_eq_ops]

/-- The fold of two lists joined: the second list's fold from the first list's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefKeep.lean ====
/-
  Which buffers each of the reference's seven lists of operations writes, and that every other buffer keeps its
  contents through the list: an operation's fold changes only the buffer it writes, so a buffer outside the list of
  written ones is read after the list as before it. This is what carries the arguments, the two rows of the edge
  list and the earlier layers' results across the layers.
-/
import proofs.«141514_j89154931130446_1_alg».proof.Proof.RefOps

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]
/-- One operation writes its result buffer only, and that buffer is in the list: the builder's `writes` is the singleton
    of its result, and membership in the literal list is decided. -/
local macro "w1" : term =>
  `(by simp only [nullary_writes, unary_writes, binary_writes, ternary_writes, quaternary_writes, reshape_writes,
        Finset.singleton_subset_iff, List.mem_toFinset]
       exact List.mem_map_of_mem (by decide))

/-- The buffers that the encoder's operations write, in order. -/
abbrev opsE_W : List (Ref sig .tc) :=
  [main_v0, main_v1, main_v2, main_v3, main_v4, main_v5, main_cst, main_v6, main_cst_0, main_v7, main_v8, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v9, main_v10, main_v11, main_v12, main_cst_1, main_v13, main_v14, main_v15, main_v16, main_v17, main_v18, main_v19, main_v20, main_v21, main_v22, main_v23, main_v24, main_call1_cst, main_call1_v0, main_v25]
theorem opsE_writes : (opsE : List (HloOp τ sig (Elt F))).Forall fun op =>
    op.writes ⊆ (opsE_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that the encoder's operations do not write keeps its contents through them. -/
theorem opsE_keep (X : Valuation τ sig (Elt F)) (r : Ref sig .tc) (h : r ∉ opsE_W) :
    after opsE X (Proc.devRef .tc r) = X (Proc.devRef .tc r) :=
  after_of_writes_sub opsE X opsE_writes h

/-- The buffers that layer 0's operations write, in order. -/
abbrev opsL0_W : List (Ref sig .tc) :=
  [main_v26, main_c_2, main_v27, main_v28, main_c_3, main_v29, main_v30, main_v31, main_v32, main_v33, main_v34, main_v35, main_cst_4, main_v36, main_v37, main_v38, main_v39, main_v40, main_v41, main_v42, main_v43, main_v44, main_v45, main_v46, main_v47, main_v48, main_v49, main_v50, main_v51, main_v52, main_v53, main_v54, main_v55, main_v56, main_v57, main_v58, main_cst_5, main_v59, main_v60, main_cst_6, main_v61, main_v62, main_v63, main_v64, main_v65, main_cst_7, main_v66, main_v67, main_cst_8, main_v68, main_v69, main_v70, main_v71, main_v72, main_cst_9, main_v73, main_v74, main_v75, main_v76, main_v77]
theorem opsL0_writes : (opsL0 : List (HloOp τ sig (Elt F))).Forall fun op =>
    op.writes ⊆ (opsL0_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 0's operations do not write keeps its contents through them. -/
theorem opsL0_keep (X : Valuation τ sig (Elt F)) (r : Ref sig .tc) (h : r ∉ opsL0_W) :
    after opsL0 X (Proc.devRef .tc r) = X (Proc.devRef .tc r) :=
  after_of_writes_sub opsL0 X opsL0_writes h

/-- The buffers that layer 1's operations write, in order. -/
abbrev opsL1_W : List (Ref sig .tc) :=
  [main_v78, main_c_10, main_v79, main_v80, main_c_11, main_v81, main_v82, main_v83, main_v84, main_v85, main_v86, main_v87, main_cst_12, main_v88, main_v89, main_v90, main_v91, main_v92, main_v93, main_v94, main_v95, main_v96, main_v97, main_v98, main_v99, main_v100, main_v101, main_v102, main_v103, main_v104, main_v105, main_v106, main_v107, main_v108, main_v109, main_v110, main_cst_13, main_v111, main_v112, main_cst_14, main_v113, main_v114, main_v115, main_v116, main_v117, main_cst_15, main_v118, main_v119, main_cst_16, main_v120, main_v121, main_v122, main_v123, main_v124, main_cst_17, main_v125, main_v126, main_v127, main_v128, main_v129]
theorem opsL1_writes : (opsL1 : List (HloOp τ sig (Elt F))).Forall fun op =>
    op.writes ⊆ (opsL1_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 1's operations do not write keeps its contents through them. -/
theorem opsL1_keep (X : Valuation τ sig (Elt F)) (r : Ref sig .tc) (h : r ∉ opsL1_W) :
    after opsL1 X (Proc.devRef .tc r) = X (Proc.devRef .tc r) :=
  after_of_writes_sub opsL1 X opsL1_writes h

/-- The buffers that layer 2's operations write, in order. -/
abbrev opsL2_W : List (Ref sig .tc) :=
  [main_v130, main_c_18, main_v131, main_v132, main_c_19, main_v133, main_v134, main_v135, main_v136, main_v137, main_v138, main_v139, main_cst_20, main_v140, main_v141, main_v142, main_v143, main_v144, main_v145, main_v146, main_v147, main_v148, main_v149, main_v150, main_v151, main_v152, main_v153, main_v154, main_v155, main_v156, main_v157, main_v158, main_v159, main_v160, main_v161, main_v162, main_cst_21, main_v163, main_v164, main_cst_22, main_v165, main_v166, main_v167, main_v168, main_v169, main_cst_23, main_v170, main_v171, main_cst_24, main_v172, main_v173, main_v174, main_v175, main_v176, main_cst_25, main_v177, main_v178, main_v179, main_v180, main_v181]
theorem opsL2_writes : (opsL2 : List (HloOp τ sig (Elt F))).Forall fun op =>
    op.writes ⊆ (opsL2_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 2's operations do not write keeps its contents through them. -/
theorem opsL2_keep (X : Valuation τ sig (Elt F)) (r : Ref sig .tc) (h : r ∉ opsL2_W) :
    after opsL2 X (Proc.devRef .tc r) = X (Proc.devRef .tc r) :=
  after_of_writes_sub opsL2 X opsL2_writes h

/-- The buffers that layer 3's operations write, in order. -/
abbrev opsL3_W : List (Ref sig .tc) :=
  [main_v182, main_c_26, main_v183, main_v184, main_c_27, main_v185, main_v186, main_v187, main_v188, main_v189, main_v190, main_v191, main_cst_28, main_v192, main_v193, main_v194, main_v195, main_v196, main_v197, main_v198, main_v199, main_v200, main_v201, main_v202, main_v203, main_v204, main_v205, main_v206, main_v207, main_v208, main_v209, main_v210, main_v211, main_v212, main_v213, main_v214, main_cst_29, main_v215, main_v216, main_cst_30, main_v217, main_v218, main_v219, main_v220, main_v221, main_cst_31, main_v222, main_v223, main_cst_32, main_v224, main_v225, main_v226, main_v227, main_v228, main_cst_33, main_v229, main_v230, main_v231, main_v232, main_v233]
theorem opsL3_writes : (opsL3 : List (HloOp τ sig (Elt F))).Forall fun op =>
    op.writes ⊆ (opsL3_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 3's operations do not write keeps its contents through them. -/
theorem opsL3_keep (X : Valuation τ sig (Elt F)) (r : Ref sig .tc) (h : r ∉ opsL3_W) :
    after opsL3 X (Proc.devRef .tc r) = X (Proc.devRef .tc r) :=
  after_of_writes_sub opsL3 X opsL3_writes h

/-- The buffers that layer 4's operations write, in order. -/
abbrev opsL4_W : List (Ref sig .tc) :=
  [main_v234, main_c_34, main_v235, main_v236, main_c_35, main_v237, main_v238, main_v239, main_v240, main_v241, main_v242, main_v243, main_cst_36, main_v244, main_v245, main_v246, main_v247, main_v248, main_v249, main_v250, main_v251, main_v252, main_v253, main_v254, main_v255, main_v256, main_v257, main_v258, main_v259, main_v260, main_v261, main_v262, main_v263, main_v264, main_v265, main_v266, main_cst_37, main_v267, main_v268, main_cst_38, main_v269, main_v270, main_v271, main_v272, main_v273, main_cst_39, main_v274, main_v275, main_cst_40, main_v276, main_v277, main_v278, main_v279, main_v280, main_cst_41, main_v281, main_v282, main_v283, main_v284, main_v285]
theorem opsL4_writes : (opsL4 : List (HloOp τ sig (Elt F))).Forall fun op =>
    op.writes ⊆ (opsL4_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 4's operations do not write keeps its contents through them. -/
theorem opsL4_keep (X : Valuation τ sig (Elt F)) (r : Ref sig .tc) (h : r ∉ opsL4_W) :
    after opsL4 X (Proc.devRef .tc r) = X (Proc.devRef .tc r) :=
  after_of_writes_sub opsL4 X opsL4_writes h

/-- The buffers that the decoder's operations write, in order. -/
abbrev opsD_W : List (Ref sig .tc) :=
  [main_cst_42, main_v286, main_v287, main_v288, main_v289, main_cst_43, main_v290, main_cst_44, main_v291, main_v292, main_c_45, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v293, main_v294, main_v295, main_v296, main_cst_46, main_v297, main_v298, main_v299, main_v300, main_v301, main_v302, main_v303, main_v304, main_v305, main_v306, main_v307, main_v308, main_call3_cst, main_call3_v0, main_v309, main_v310, main_v311, main_v312]
theorem opsD_writes : (opsD : List (HloOp τ sig (Elt F))).Forall fun op =>
    op.writes ⊆ (opsD_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that the decoder's operations do not write keeps its contents through them. -/
theorem opsD_keep (X : Valuation τ sig (Elt F)) (r : Ref sig .tc) (h : r ∉ opsD_W) :
    after opsD X (Proc.devRef .tc r) = X (Proc.devRef .tc r) :=
  after_of_writes_sub opsD X opsD_writes h

end Cert.ReferenceIdeal.Chain

end
-- ==== Proof.RefValE.lean ====
/-
  The encoder of the reference read off its operations, from any contents X of the buffers: the two rows of the
  edge list are `Spec.idxS` and `Spec.idxD` of the edge argument, and the hidden state before the first layer is the
  batch normalisation with rectifier `Spec.bnR` of the linear map `Spec.encPre`, at that array's column means and
  variances. Each is the composition of the operations that produce the buffer, read back through the fold; the
  functions of `Spec` are those compositions, so the two sides agree by unfolding.
-/
import proofs.«141514_j89154931130446_1_alg».proof.Proof.RefOps
import proofs.«141514_j89154931130446_1_alg».proof.Proof.Spec

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The source row of the edge list. -/
theorem opsE_v1 (X : Valuation τ sig (Elt Ideal)) :
    after opsE X (Proc.devRef .tc main_v1) = Spec.idxS (F := Ideal) (X (Proc.devRef .tc main_arg1)) := by
  simp only [opsE]
  after_results_simp
  rfl

set_option maxHeartbeats 4000000 in
/-- The destination row of the edge list. -/
theorem opsE_v3 (X : Valuation τ sig (Elt Ideal)) :
    after opsE X (Proc.devRef .tc main_v3) = Spec.idxD (F := Ideal) (X (Proc.devRef .tc main_arg1)) := by
  simp only [opsE]
  after_results_simp
  rfl

set_option maxHeartbeats 4000000 in
/-- The hidden state before the first layer. -/
theorem opsE_v25 (X : Valuation τ sig (Elt Ideal)) :
    after opsE X (Proc.devRef .tc main_v25)
      = Spec.bnR (F := Ideal) (Spec.encPre (F := Ideal) (X (Proc.devRef .tc main_arg0)) (X (Proc.devRef .tc main_arg3)))
          (Spec.mean128 (F := Ideal) (Spec.encPre (F := Ideal) (X (Proc.devRef .tc main_arg0)) (X (Proc.devRef .tc main_arg3))))
          (Spec.var128 (F := Ideal) (Spec.encPre (F := Ideal) (X (Proc.devRef .tc main_arg0)) (X (Proc.devRef .tc main_arg3))))
          (X (Proc.devRef .tc main_arg4)) (X (Proc.devRef .tc main_arg5)) := by
  simp only [opsE]
  after_results_simp
  rfl

end Cert.ReferenceIdeal.Chain

end
-- ==== Proof.RefValL0.lean ====
/-
  Layer 0 of the reference read off its operations, from any contents X of the buffers: the aggregate is
  `Spec.agg` of the edge weights, the two rows of the edge list and the hidden state before the layer; the running
  sum gains the aggregate; the new hidden state is the gated recurrent cell `Spec.gruR` of the aggregate, the old
  state and the four weight arrays. Each is the composition of the operations that produce the buffer, read back
  through the fold; the functions of `Spec` are those compositions, so the two sides agree by unfolding.
-/
import proofs.«141514_j89154931130446_1_alg».proof.Proof.RefOps
import proofs.«141514_j89154931130446_1_alg».proof.Proof.Spec

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The aggregate of layer 0. -/
theorem opsL0_agg (X : Valuation τ sig (Elt Ideal)) :
    after opsL0 X (Proc.devRef .tc main_v38) = (Spec.agg (F := Ideal) (X (Proc.devRef .tc main_arg2)) (X (Proc.devRef .tc main_v1)) (X (Proc.devRef .tc main_v3)) (X (Proc.devRef .tc main_v25))) := by
  simp only [opsL0]
  after_results_simp
  rfl

set_option maxHeartbeats 4000000 in
/-- The running sum after layer 0: the sum before it plus the layer's aggregate. -/
theorem opsL0_sum (X : Valuation τ sig (Elt Ideal)) :
    after opsL0 X (Proc.devRef .tc main_v39)
      = Spec.hsAdd (F := Ideal) (X (Proc.devRef .tc main_v25)) (Spec.agg (F := Ideal) (X (Proc.devRef .tc main_arg2)) (X (Proc.devRef .tc main_v1)) (X (Proc.devRef .tc main_v3)) (X (Proc.devRef .tc main_v25))) := by
  simp only [opsL0]
  after_results_simp
  rfl

set_option maxHeartbeats 4000000 in
/-- The hidden state after layer 0: the cell applied to the aggregate and the state before. -/
theorem opsL0_state (X : Valuation τ sig (Elt Ideal)) :
    after opsL0 X (Proc.devRef .tc main_v77)
      = Spec.gruR (F := Ideal) (Spec.agg (F := Ideal) (X (Proc.devRef .tc main_arg2)) (X (Proc.devRef .tc main_v1)) (X (Proc.devRef .tc main_v3)) (X (Proc.devRef .tc main_v25))) (X (Proc.devRef .tc main_v25))
          (X (Proc.devRef .tc main_arg6)) (X (Proc.devRef .tc main_arg7)) (X (Proc.devRef .tc main_arg8)) (X (Proc.devRef .tc main_arg9)) := by
  simp only [opsL0]
  after_results_simp
  rfl

end Cert.ReferenceIdeal.Chain

end
-- ==== Proof.RefValL1.lean ====
/-
  Layer 1 of the reference read off its operations, from any contents X of the buffers: the aggregate is
  `Spec.agg` of the edge weights, the two rows of the edge list and the hidden state before the layer; the running
  sum gains the aggregate; the new hidden state is the gated recurrent cell `Spec.gruR` of the aggregate, the old
  state and the four weight arrays. Each is the composition of the operations that produce the buffer, read back
  through the fold; the functions of `Spec` are those compositions, so the two sides agree by unfolding.
-/
import proofs.«141514_j89154931130446_1_alg».proof.Proof.RefOps
import proofs.«141514_j89154931130446_1_alg».proof.Proof.Spec

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The aggregate of layer 1. -/
theorem opsL1_agg (X : Valuation τ sig (Elt Ideal)) :
    after opsL1 X (Proc.devRef .tc main_v90) = (Spec.agg (F := Ideal) (X (Proc.devRef .tc main_arg2)) (X (Proc.devRef .tc main_v1)) (X (Proc.devRef .tc main_v3)) (X (Proc.devRef .tc main_v77))) := by
  simp only [opsL1]
  after_results_simp
  rfl

set_option maxHeartbeats 4000000 in
/-- The running sum after layer 1: the sum before it plus the layer's aggregate. -/
theorem opsL1_sum (X : Valuation τ sig (Elt Ideal)) :
    after opsL1 X (Proc.devRef .tc main_v91)
      = Spec.hsAdd (F := Ideal) (X (Proc.devRef .tc main_v39)) (Spec.agg (F := Ideal) (X (Proc.devRef .tc main_arg2)) (X (Proc.devRef .tc main_v1)) (X (Proc.devRef .tc main_v3)) (X (Proc.devRef .tc main_v77))) := by
  simp only [opsL1]
  after_results_simp
  rfl

set_option maxHeartbeats 4000000 in
/-- The hidden state after layer 1: the cell applied to the aggregate and the state before. -/
theorem opsL1_state (X : Valuation τ sig (Elt Ideal)) :
    after opsL1 X (Proc.devRef .tc main_v129)
      = Spec.gruR (F := Ideal) (Spec.agg (F := Ideal) (X (Proc.devRef .tc main_arg2)) (X (Proc.devRef .tc main_v1)) (X (Proc.devRef .tc main_v3)) (X (Proc.devRef .tc main_v77))) (X (Proc.devRef .tc main_v77))
          (X (Proc.devRef .tc main_arg6)) (X (Proc.devRef .tc main_arg7)) (X (Proc.devRef .tc main_arg8)) (X (Proc.devRef .tc main_arg9)) := by
  simp only [opsL1]
  after_results_simp
  rfl

end Cert.ReferenceIdeal.Chain

end
-- ==== Proof.RefValL2.lean ====
/-
  Layer 2 of the reference read off its operations, from any contents X of the buffers: the aggregate is
  `Spec.agg` of the edge weights, the two rows of the edge list and the hidden state before the layer; the running
  sum gains the aggregate; the new hidden state is the gated recurrent cell `Spec.gruR` of the aggregate, the old
  state and the four weight arrays. Each is the composition of the operations that produce the buffer, read back
  through the fold; the functions of `Spec` are those compositions, so the two sides agree by unfolding.
-/
import proofs.«141514_j89154931130446_1_alg».proof.Proof.RefOps
import proofs.«141514_j89154931130446_1_alg».proof.Proof.Spec

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The aggregate of layer 2. -/
theorem opsL2_agg (X : Valuation τ sig (Elt Ideal)) :
    after opsL2 X (Proc.devRef .tc main_v142) = (Spec.agg (F := Ideal) (X (Proc.devRef .tc main_arg2)) (X (Proc.devRef .tc main_v1)) (X (Proc.devRef .tc main_v3)) (X (Proc.devRef .tc main_v129))) := by
  simp only [opsL2]
  after_results_simp
  rfl

set_option maxHeartbeats 4000000 in
/-- The running sum after layer 2: the sum before it plus the layer's aggregate. -/
theorem opsL2_sum (X : Valuation τ sig (Elt Ideal)) :
    after opsL2 X (Proc.devRef .tc main_v143)
      = Spec.hsAdd (F := Ideal) (X (Proc.devRef .tc main_v91)) (Spec.agg (F := Ideal) (X (Proc.devRef .tc main_arg2)) (X (Proc.devRef .tc main_v1)) (X (Proc.devRef .tc main_v3)) (X (Proc.devRef .tc main_v129))) := by
  simp only [opsL2]
  after_results_simp
  rfl

set_option maxHeartbeats 4000000 in
/-- The hidden state after layer 2: the cell applied to the aggregate and the state before. -/
theorem opsL2_state (X : Valuation τ sig (Elt Ideal)) :
    after opsL2 X (Proc.devRef .tc main_v181)
      = Spec.gruR (F := Ideal) (Spec.agg (F := Ideal) (X (Proc.devRef .tc main_arg2)) (X (Proc.devRef .tc main_v1)) (X (Proc.devRef .tc main_v3)) (X (Proc.devRef .tc main_v129))) (X (Proc.devRef .tc main_v129))
          (X (Proc.devRef .tc main_arg6)) (X (Proc.devRef .tc main_arg7)) (X (Proc.devRef .tc main_arg8)) (X (Proc.devRef .tc main_arg9)) := by
  simp only [opsL2]
  after_results_simp
  rfl

end Cert.ReferenceIdeal.Chain

end
-- ==== Proof.RefValL3.lean ====
/-
  Layer 3 of the reference read off its operations, from any contents X of the buffers: the aggregate is
  `Spec.agg` of the edge weights, the two rows of the edge list and the hidden state before the layer; the running
  sum gains the aggregate; the new hidden state is the gated recurrent cell `Spec.gruR` of the aggregate, the old
  state and the four weight arrays. Each is the composition of the operations that produce the buffer, read back
  through the fold; the functions of `Spec` are those compositions, so the two sides agree by unfolding.
-/
import proofs.«141514_j89154931130446_1_alg».proof.Proof.RefOps
import proofs.«141514_j89154931130446_1_alg».proof.Proof.Spec

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The aggregate of layer 3. -/
theorem opsL3_agg (X : Valuation τ sig (Elt Ideal)) :
    after opsL3 X (Proc.devRef .tc main_v194) = (Spec.agg (F := Ideal) (X (Proc.devRef .tc main_arg2)) (X (Proc.devRef .tc main_v1)) (X (Proc.devRef .tc main_v3)) (X (Proc.devRef .tc main_v181))) := by
  simp only [opsL3]
  after_results_simp
  rfl

set_option maxHeartbeats 4000000 in
/-- The running sum after layer 3: the sum before it plus the layer's aggregate. -/
theorem opsL3_sum (X : Valuation τ sig (Elt Ideal)) :
    after opsL3 X (Proc.devRef .tc main_v195)
      = Spec.hsAdd (F := Ideal) (X (Proc.devRef .tc main_v143)) (Spec.agg (F := Ideal) (X (Proc.devRef .tc main_arg2)) (X (Proc.devRef .tc main_v1)) (X (Proc.devRef .tc main_v3)) (X (Proc.devRef .tc main_v181))) := by
  simp only [opsL3]
  after_results_simp
  rfl

set_option maxHeartbeats 4000000 in
/-- The hidden state after layer 3: the cell applied to the aggregate and the state before. -/
theorem opsL3_state (X : Valuation τ sig (Elt Ideal)) :
    after opsL3 X (Proc.devRef .tc main_v233)
      = Spec.gruR (F := Ideal) (Spec.agg (F := Ideal) (X (Proc.devRef .tc main_arg2)) (X (Proc.devRef .tc main_v1)) (X (Proc.devRef .tc main_v3)) (X (Proc.devRef .tc main_v181))) (X (Proc.devRef .tc main_v181))
          (X (Proc.devRef .tc main_arg6)) (X (Proc.devRef .tc main_arg7)) (X (Proc.devRef .tc main_arg8)) (X (Proc.devRef .tc main_arg9)) := by
  simp only [opsL3]
  after_results_simp
  rfl

end Cert.ReferenceIdeal.Chain

end
-- ==== Proof.RefValL4.lean ====
/-
  Layer 4 of the reference read off its operations, from any contents X of the buffers: the aggregate is
  `Spec.agg` of the edge weights, the two rows of the edge list and the hidden state before the layer; the running
  sum gains the aggregate; the new hidden state is the gated recurrent cell `Spec.gruR` of the aggregate, the old
  state and the four weight arrays. Each is the composition of the operations that produce the buffer, read back
  through the fold; the functions of `Spec` are those compositions, so the two sides agree by unfolding.
-/
import proofs.«141514_j89154931130446_1_alg».proof.Proof.RefOps
import proofs.«141514_j89154931130446_1_alg».proof.Proof.Spec

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The aggregate of layer 4. -/
theorem opsL4_agg (X : Valuation τ sig (Elt Ideal)) :
    after opsL4 X (Proc.devRef .tc main_v246) = (Spec.agg (F := Ideal) (X (Proc.devRef .tc main_arg2)) (X (Proc.devRef .tc main_v1)) (X (Proc.devRef .tc main_v3)) (X (Proc.devRef .tc main_v233))) := by
  simp only [opsL4]
  after_results_simp
  rfl

set_option maxHeartbeats 4000000 in
/-- The running sum after layer 4: the sum before it plus the layer's aggregate. -/
theorem opsL4_sum (X : Valuation τ sig (Elt Ideal)) :
    after opsL4 X (Proc.devRef .tc main_v247)
      = Spec.hsAdd (F := Ideal) (X (Proc.devRef .tc main_v195)) (Spec.agg (F := Ideal) (X (Proc.devRef .tc main_arg2)) (X (Proc.devRef .tc main_v1)) (X (Proc.devRef .tc main_v3)) (X (Proc.devRef .tc main_v233))) := by
  simp only [opsL4]
  after_results_simp
  rfl

set_option maxHeartbeats 4000000 in
/-- The hidden state after layer 4: the cell applied to the aggregate and the state before. -/
theorem opsL4_state (X : Valuation τ sig (Elt Ideal)) :
    after opsL4 X (Proc.devRef .tc main_v285)
      = Spec.gruR (F := Ideal) (Spec.agg (F := Ideal) (X (Proc.devRef .tc main_arg2)) (X (Proc.devRef .tc main_v1)) (X (Proc.devRef .tc main_v3)) (X (Proc.devRef .tc main_v233))) (X (Proc.devRef .tc main_v233))
          (X (Proc.devRef .tc main_arg6)) (X (Proc.devRef .tc main_arg7)) (X (Proc.devRef .tc main_arg8)) (X (Proc.devRef .tc main_arg9)) := by
  simp only [opsL4]
  after_results_simp
  rfl

end Cert.ReferenceIdeal.Chain

end
-- ==== Proof.RefValD.lean ====
/-
  The decoder of the reference read off its operations, from any contents X of the buffers: the result is
  `Net.dec` with the reference's batch normalisation `Spec.bnR64`, of the running sum after the last layer and the
  four decoder arguments. It is the composition of the operations that produce the result buffer, read back
  through the fold; `Net.dec` and the functions of `Spec` are that composition, so the two sides agree by unfolding.
-/
import proofs.«141514_j89154931130446_1_alg».proof.Proof.RefOps
import proofs.«141514_j89154931130446_1_alg».proof.Proof.Spec
import proofs.«141514_j89154931130446_1_alg».proof.Proof.Net

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo
set_option maxHeartbeats 4000000 in
/-- The reference's result from the contents before the decoder. -/
theorem opsD_v312 (X : Valuation τ sig (Elt Ideal)) :
    after opsD X (Proc.devRef .tc main_v312)
      = Net.dec (Spec.bnR64 (F := Ideal)) (X (Proc.devRef .tc main_v247))
          (X (Proc.devRef .tc main_arg10)) (X (Proc.devRef .tc main_arg11)) (X (Proc.devRef .tc main_arg12)) (X (Proc.devRef .tc main_arg13)) := by
  simp only [opsD]
  after_results_simp
  rfl

end Cert.ReferenceIdeal.Chain

end
-- ==== Proof.RefChain.lean ====
/-
  The reference's value. Its operations are seven lists run in turn (the encoder, five layers, the decoder), and each
  list's results were read off as functions of the contents before it (the encoder's hidden state and edge rows, a
  layer's aggregate, running sum and new hidden state, the decoder's result); every buffer a later list reads and no
  list in between writes keeps its contents. Chaining these from the launch contents `V`: before layer k the hidden
  state buffer holds `Net.pSeq … k` and the running-sum buffer `Net.hsSeq … k`, for the cell `GR`, the aggregation
  `aggF` and the first state `h0R` at the arguments' contents; after the fifth layer the decoder reads `Net.hsSeq … 5`.
  So the result buffer holds `Net.dec` of it (`ref_value`), and the fourteen argument buffers are unchanged
  (`ref_arg0` … `ref_arg13`).
-/
import proofs.«141514_j89154931130446_1_alg».proof.Proof.RefRun
import proofs.«141514_j89154931130446_1_alg».proof.Proof.RefKeep
import proofs.«141514_j89154931130446_1_alg».proof.Proof.RefValE
import proofs.«141514_j89154931130446_1_alg».proof.Proof.RefValL0
import proofs.«141514_j89154931130446_1_alg».proof.Proof.RefValL1
import proofs.«141514_j89154931130446_1_alg».proof.Proof.RefValL2
import proofs.«141514_j89154931130446_1_alg».proof.Proof.RefValL3
import proofs.«141514_j89154931130446_1_alg».proof.Proof.RefValL4
import proofs.«141514_j89154931130446_1_alg».proof.Proof.RefValD
import proofs.«141514_j89154931130446_1_alg».proof.Proof.Net

set_option maxRecDepth 16384

noncomputable section

namespace Cert.ReferenceIdeal.Chain

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]
/-! ## The lists in turn, and a buffer none of them writes -/

/-- The fold of all the operations is the seven lists' folds in turn. -/
theorem after_ops (V : Valuation τ sig (Elt F)) :
    after ops V
      = after opsD (after opsL4 (after opsL3 (after opsL2 (after opsL1 (after opsL0 (after opsE V)))))) := by
  show after (opsE ++ (opsL0 ++ (opsL1 ++ (opsL2 ++ (opsL3 ++ (opsL4 ++ opsD)))))) V = _
  rw [RefRun.after_append, RefRun.after_append, RefRun.after_append, RefRun.after_append, RefRun.after_append,
    RefRun.after_append]

/-- A buffer that none of the seven lists writes holds at the end what it held at the launch. -/
theorem ops_keep (V : Valuation τ sig (Elt F)) (r : Ref sig .tc) (hE : r ∉ opsE_W) (h0 : r ∉ opsL0_W)
    (h1 : r ∉ opsL1_W) (h2 : r ∉ opsL2_W) (h3 : r ∉ opsL3_W) (h4 : r ∉ opsL4_W) (hD : r ∉ opsD_W) :
    after ops V (Proc.devRef .tc r) = V (Proc.devRef .tc r) :=
  (congrFun (after_ops V) _).trans <| (opsD_keep _ r hD).trans <| (opsL4_keep _ r h4).trans <|
    (opsL3_keep _ r h3).trans <| (opsL2_keep _ r h2).trans <| (opsL1_keep _ r h1).trans <|
    (opsL0_keep _ r h0).trans (opsE_keep V r hE)

theorem ref_arg0 (V : Valuation τ sig (Elt F)) :
    after ops V (Proc.devRef .tc main_arg0) = V (Proc.devRef .tc main_arg0) :=
  ops_keep V main_arg0 (by decide) (by decide) (by decide) (by decide) (by decide) (by decide) (by decide)
theorem ref_arg1 (V : Valuation τ sig (Elt F)) :
    after ops V (Proc.devRef .tc main_arg1) = V (Proc.devRef .tc main_arg1) :=
  ops_keep V main_arg1 (by decide) (by decide) (by decide) (by decide) (by decide) (by decide) (by decide)
theorem ref_arg2 (V : Valuation τ sig (Elt F)) :
    after ops V (Proc.devRef .tc main_arg2) = V (Proc.devRef .tc main_arg2) :=
  ops_keep V main_arg2 (by decide) (by decide) (by decide) (by decide) (by decide) (by decide) (by decide)
theorem ref_arg3 (V : Valuation τ sig (Elt F)) :
    after ops V (Proc.devRef .tc main_arg3) = V (Proc.devRef .tc main_arg3) :=
  ops_keep V main_arg3 (by decide) (by decide) (by decide) (by decide) (by decide) (by decide) (by decide)
theorem ref_arg4 (V : Valuation τ sig (Elt F)) :
    after ops V (Proc.devRef .tc main_arg4) = V (Proc.devRef .tc main_arg4) :=
  ops_keep V main_arg4 (by decide) (by decide) (by decide) (by decide) (by decide) (by decide) (by decide)
theorem ref_arg5 (V : Valuation τ sig (Elt F)) :
    after ops V (Proc.devRef .tc main_arg5) = V (Proc.devRef .tc main_arg5) :=
  ops_keep V main_arg5 (by decide) (by decide) (by decide) (by decide) (by decide) (by decide) (by decide)
theorem ref_arg6 (V : Valuation τ sig (Elt F)) :
    after ops V (Proc.devRef .tc main_arg6) = V (Proc.devRef .tc main_arg6) :=
  ops_keep V main_arg6 (by decide) (by decide) (by decide) (by decide) (by decide) (by decide) (by decide)
theorem ref_arg7 (V : Valuation τ sig (Elt F)) :
    after ops V (Proc.devRef .tc main_arg7) = V (Proc.devRef .tc main_arg7) :=
  ops_keep V main_arg7 (by decide) (by decide) (by decide) (by decide) (by decide) (by decide) (by decide)
theorem ref_arg8 (V : Valuation τ sig (Elt F)) :
    after ops V (Proc.devRef .tc main_arg8) = V (Proc.devRef .tc main_arg8) :=
  ops_keep V main_arg8 (by decide) (by decide) (by decide) (by decide) (by decide) (by decide) (by decide)
theorem ref_arg9 (V : Valuation τ sig (Elt F)) :
    after ops V (Proc.devRef .tc main_arg9) = V (Proc.devRef .tc main_arg9) :=
  ops_keep V main_arg9 (by decide) (by decide) (by decide) (by decide) (by decide) (by decide) (by decide)
theorem ref_arg10 (V : Valuation τ sig (Elt F)) :
    after ops V (Proc.devRef .tc main_arg10) = V (Proc.devRef .tc main_arg10) :=
  ops_keep V main_arg10 (by decide) (by decide) (by decide) (by decide) (by decide) (by decide) (by decide)
theorem ref_arg11 (V : Valuation τ sig (Elt F)) :
    after ops V (Proc.devRef .tc main_arg11) = V (Proc.devRef .tc main_arg11) :=
  ops_keep V main_arg11 (by decide) (by decide) (by decide) (by decide) (by decide) (by decide) (by decide)
theorem ref_arg12 (V : Valuation τ sig (Elt F)) :
    after ops V (Proc.devRef .tc main_arg12) = V (Proc.devRef .tc main_arg12) :=
  ops_keep V main_arg12 (by decide) (by decide) (by decide) (by decide) (by decide) (by decide) (by decide)
theorem ref_arg13 (V : Valuation τ sig (Elt F)) :
    after ops V (Proc.devRef .tc main_arg13) = V (Proc.devRef .tc main_arg13) :=
  ops_keep V main_arg13 (by decide) (by decide) (by decide) (by decide) (by decide) (by decide) (by decide)

/-! ## The network's pieces as functions of the argument arrays -/

/-- The hidden state before the first layer: the encoder's linear map of the node features, batch-normalised at its own
    column means and variances with the given scale and shift, rectified. -/
def h0R (a0 : (⟨S50000x3, .f32⟩ : BufTy).Contents (Elt Ideal)) (a3 : (⟨S128x3, .f32⟩ : BufTy).Contents (Elt Ideal))
    (a4 a5 : (⟨S128, .f32⟩ : BufTy).Contents (Elt Ideal)) : Net.Arr :=
  Spec.bnR (F := Ideal) (Spec.encPre (F := Ideal) a0 a3) (Spec.mean128 (F := Ideal) (Spec.encPre (F := Ideal) a0 a3))
    (Spec.var128 (F := Ideal) (Spec.encPre (F := Ideal) a0 a3)) a4 a5

/-- The aggregation of a hidden state over the edges: edge list `a1`, edge weights `a2`. -/
def aggF (a1 : (⟨S2x640000, .i32⟩ : BufTy).Contents (Elt Ideal)) (a2 : (⟨S640000, .f32⟩ : BufTy).Contents (Elt Ideal))
    (p : Net.Arr) : Net.Arr :=
  Spec.agg (F := Ideal) a2 (Spec.idxS (F := Ideal) a1) (Spec.idxD (F := Ideal) a1) p

/-- The reference's gated recurrent cell with weights `a6`, `a7` and biases `a8`, `a9`, of an aggregate and a state. -/
def GR (a6 a7 : (⟨S384x128, .f32⟩ : BufTy).Contents (Elt Ideal)) (a8 a9 : (⟨S384, .f32⟩ : BufTy).Contents (Elt Ideal))
    (a p : Net.Arr) : Net.Arr :=
  Spec.gruR (F := Ideal) a p a6 a7 a8 a9

/-- The cell at the contents `V` of the argument buffers. -/
abbrev cellAt (V : Valuation τ sig (Elt Ideal)) : Net.Arr → Net.Arr → Net.Arr :=
  GR (V (Proc.devRef .tc main_arg6)) (V (Proc.devRef .tc main_arg7)) (V (Proc.devRef .tc main_arg8)) (V (Proc.devRef .tc main_arg9))
/-- The aggregation at the contents `V` of the argument buffers. -/
abbrev aggAt (V : Valuation τ sig (Elt Ideal)) : Net.Arr → Net.Arr :=
  aggF (V (Proc.devRef .tc main_arg1)) (V (Proc.devRef .tc main_arg2))
/-- The first hidden state at the contents `V` of the argument buffers. -/
abbrev h0At (V : Valuation τ sig (Elt Ideal)) : Net.Arr :=
  h0R (V (Proc.devRef .tc main_arg0)) (V (Proc.devRef .tc main_arg3)) (V (Proc.devRef .tc main_arg4)) (V (Proc.devRef .tc main_arg5))

/-! ## What stays live across the layers -/

/-- Contents `X` hold the start's live values of the launch contents `V`: the edge weights, the cell's two weight
    arrays and two biases and the decoder's four arguments as in `V`, and the two rows of `V`'s edge list. -/
structure Live (V X : Valuation τ sig (Elt Ideal)) : Prop where
  arg2 : (X (Proc.devRef .tc main_arg2)) = (V (Proc.devRef .tc main_arg2))
  arg6 : (X (Proc.devRef .tc main_arg6)) = (V (Proc.devRef .tc main_arg6))
  arg7 : (X (Proc.devRef .tc main_arg7)) = (V (Proc.devRef .tc main_arg7))
  arg8 : (X (Proc.devRef .tc main_arg8)) = (V (Proc.devRef .tc main_arg8))
  arg9 : (X (Proc.devRef .tc main_arg9)) = (V (Proc.devRef .tc main_arg9))
  arg10 : (X (Proc.devRef .tc main_arg10)) = (V (Proc.devRef .tc main_arg10))
  arg11 : (X (Proc.devRef .tc main_arg11)) = (V (Proc.devRef .tc main_arg11))
  arg12 : (X (Proc.devRef .tc main_arg12)) = (V (Proc.devRef .tc main_arg12))
  arg13 : (X (Proc.devRef .tc main_arg13)) = (V (Proc.devRef .tc main_arg13))
  v1 : (X (Proc.devRef .tc main_v1)) = Spec.idxS (F := Ideal) (V (Proc.devRef .tc main_arg1))
  v3 : (X (Proc.devRef .tc main_v3)) = Spec.idxD (F := Ideal) (V (Proc.devRef .tc main_arg1))

/-- After the encoder the live values are in place. -/
theorem live_E (V : Valuation τ sig (Elt Ideal)) : Live V (after opsE V) where
  arg2 := opsE_keep V main_arg2 (by decide)
  arg6 := opsE_keep V main_arg6 (by decide)
  arg7 := opsE_keep V main_arg7 (by decide)
  arg8 := opsE_keep V main_arg8 (by decide)
  arg9 := opsE_keep V main_arg9 (by decide)
  arg10 := opsE_keep V main_arg10 (by decide)
  arg11 := opsE_keep V main_arg11 (by decide)
  arg12 := opsE_keep V main_arg12 (by decide)
  arg13 := opsE_keep V main_arg13 (by decide)
  v1 := opsE_v1 V
  v3 := opsE_v3 V

/-- Layer 0, from contents `X` that hold the start's live values and the first hidden state `p` (which is also the
    running sum so far): the live values stay, the new hidden state is the cell of the aggregate and `p`, and the running
    sum is `p` plus the aggregate. -/
theorem step0 {V X : Valuation τ sig (Elt Ideal)} (L : Live V X) (p : Net.Arr)
    (hp : (X (Proc.devRef .tc main_v25)) = p) :
    Live V (after opsL0 X)
      ∧ after opsL0 X (Proc.devRef .tc main_v77) = cellAt V (aggAt V p) p
      ∧ after opsL0 X (Proc.devRef .tc main_v39) = Spec.hsAdd (F := Ideal) p (aggAt V p) := by
  refine ⟨?_, ?_, ?_⟩
  · exact {
    arg2 := (opsL0_keep X main_arg2 (by decide)).trans L.arg2
    arg6 := (opsL0_keep X main_arg6 (by decide)).trans L.arg6
    arg7 := (opsL0_keep X main_arg7 (by decide)).trans L.arg7
    arg8 := (opsL0_keep X main_arg8 (by decide)).trans L.arg8
    arg9 := (opsL0_keep X main_arg9 (by decide)).trans L.arg9
    arg10 := (opsL0_keep X main_arg10 (by decide)).trans L.arg10
    arg11 := (opsL0_keep X main_arg11 (by decide)).trans L.arg11
    arg12 := (opsL0_keep X main_arg12 (by decide)).trans L.arg12
    arg13 := (opsL0_keep X main_arg13 (by decide)).trans L.arg13
    v1 := (opsL0_keep X main_v1 (by decide)).trans L.v1
    v3 := (opsL0_keep X main_v3 (by decide)).trans L.v3 }
  · unfold cellAt aggAt GR aggF
    rw [opsL0_state X, L.arg2, L.v1, L.v3, hp, L.arg6, L.arg7, L.arg8, L.arg9]
  · unfold aggAt aggF
    rw [opsL0_sum X, L.arg2, L.v1, L.v3, hp]

/-- Layer 1, from contents `X` that hold the start's live values, the hidden state `p` and the running sum `hs`: the
    live values stay, the new hidden state is the cell of the aggregate and `p`, and the running sum gains the aggregate. -/
theorem step1 {V X : Valuation τ sig (Elt Ideal)} (L : Live V X) (p hs : Net.Arr)
    (hp : (X (Proc.devRef .tc main_v77)) = p) (hh : (X (Proc.devRef .tc main_v39)) = hs) :
    Live V (after opsL1 X)
      ∧ after opsL1 X (Proc.devRef .tc main_v129) = cellAt V (aggAt V p) p
      ∧ after opsL1 X (Proc.devRef .tc main_v91) = Spec.hsAdd (F := Ideal) hs (aggAt V p) := by
  refine ⟨?_, ?_, ?_⟩
  · exact {
    arg2 := (opsL1_keep X main_arg2 (by decide)).trans L.arg2
    arg6 := (opsL1_keep X main_arg6 (by decide)).trans L.arg6
    arg7 := (opsL1_keep X main_arg7 (by decide)).trans L.arg7
    arg8 := (opsL1_keep X main_arg8 (by decide)).trans L.arg8
    arg9 := (opsL1_keep X main_arg9 (by decide)).trans L.arg9
    arg10 := (opsL1_keep X main_arg10 (by decide)).trans L.arg10
    arg11 := (opsL1_keep X main_arg11 (by decide)).trans L.arg11
    arg12 := (opsL1_keep X main_arg12 (by decide)).trans L.arg12
    arg13 := (opsL1_keep X main_arg13 (by decide)).trans L.arg13
    v1 := (opsL1_keep X main_v1 (by decide)).trans L.v1
    v3 := (opsL1_keep X main_v3 (by decide)).trans L.v3 }
  · unfold cellAt aggAt GR aggF
    rw [opsL1_state X, L.arg2, L.v1, L.v3, hp, L.arg6, L.arg7, L.arg8, L.arg9]
  · unfold aggAt aggF
    rw [opsL1_sum X, L.arg2, L.v1, L.v3, hp, hh]

/-- Layer 2, from contents `X` that hold the start's live values, the hidden state `p` and the running sum `hs`: the
    live values stay, the new hidden state is the cell of the aggregate and `p`, and the running sum gains the aggregate. -/
theorem step2 {V X : Valuation τ sig (Elt Ideal)} (L : Live V X) (p hs : Net.Arr)
    (hp : (X (Proc.devRef .tc main_v129)) = p) (hh : (X (Proc.devRef .tc main_v91)) = hs) :
    Live V (after opsL2 X)
      ∧ after opsL2 X (Proc.devRef .tc main_v181) = cellAt V (aggAt V p) p
      ∧ after opsL2 X (Proc.devRef .tc main_v143) = Spec.hsAdd (F := Ideal) hs (aggAt V p) := by
  refine ⟨?_, ?_, ?_⟩
  · exact {
    arg2 := (opsL2_keep X main_arg2 (by decide)).trans L.arg2
    arg6 := (opsL2_keep X main_arg6 (by decide)).trans L.arg6
    arg7 := (opsL2_keep X main_arg7 (by decide)).trans L.arg7
    arg8 := (opsL2_keep X main_arg8 (by decide)).trans L.arg8
    arg9 := (opsL2_keep X main_arg9 (by decide)).trans L.arg9
    arg10 := (opsL2_keep X main_arg10 (by decide)).trans L.arg10
    arg11 := (opsL2_keep X main_arg11 (by decide)).trans L.arg11
    arg12 := (opsL2_keep X main_arg12 (by decide)).trans L.arg12
    arg13 := (opsL2_keep X main_arg13 (by decide)).trans L.arg13
    v1 := (opsL2_keep X main_v1 (by decide)).trans L.v1
    v3 := (opsL2_keep X main_v3 (by decide)).trans L.v3 }
  · unfold cellAt aggAt GR aggF
    rw [opsL2_state X, L.arg2, L.v1, L.v3, hp, L.arg6, L.arg7, L.arg8, L.arg9]
  · unfold aggAt aggF
    rw [opsL2_sum X, L.arg2, L.v1, L.v3, hp, hh]

/-- Layer 3, from contents `X` that hold the start's live values, the hidden state `p` and the running sum `hs`: the
    live values stay, the new hidden state is the cell of the aggregate and `p`, and the running sum gains the aggregate. -/
theorem step3 {V X : Valuation τ sig (Elt Ideal)} (L : Live V X) (p hs : Net.Arr)
    (hp : (X (Proc.devRef .tc main_v181)) = p) (hh : (X (Proc.devRef .tc main_v143)) = hs) :
    Live V (after opsL3 X)
      ∧ after opsL3 X (Proc.devRef .tc main_v233) = cellAt V (aggAt V p) p
      ∧ after opsL3 X (Proc.devRef .tc main_v195) = Spec.hsAdd (F := Ideal) hs (aggAt V p) := by
  refine ⟨?_, ?_, ?_⟩
  · exact {
    arg2 := (opsL3_keep X main_arg2 (by decide)).trans L.arg2
    arg6 := (opsL3_keep X main_arg6 (by decide)).trans L.arg6
    arg7 := (opsL3_keep X main_arg7 (by decide)).trans L.arg7
    arg8 := (opsL3_keep X main_arg8 (by decide)).trans L.arg8
    arg9 := (opsL3_keep X main_arg9 (by decide)).trans L.arg9
    arg10 := (opsL3_keep X main_arg10 (by decide)).trans L.arg10
    arg11 := (opsL3_keep X main_arg11 (by decide)).trans L.arg11
    arg12 := (opsL3_keep X main_arg12 (by decide)).trans L.arg12
    arg13 := (opsL3_keep X main_arg13 (by decide)).trans L.arg13
    v1 := (opsL3_keep X main_v1 (by decide)).trans L.v1
    v3 := (opsL3_keep X main_v3 (by decide)).trans L.v3 }
  · unfold cellAt aggAt GR aggF
    rw [opsL3_state X, L.arg2, L.v1, L.v3, hp, L.arg6, L.arg7, L.arg8, L.arg9]
  · unfold aggAt aggF
    rw [opsL3_sum X, L.arg2, L.v1, L.v3, hp, hh]

/-- Layer 4, from contents `X` that hold the start's live values, the hidden state `p` and the running sum `hs`: the
    live values stay, the new hidden state is the cell of the aggregate and `p`, and the running sum gains the aggregate. -/
theorem step4 {V X : Valuation τ sig (Elt Ideal)} (L : Live V X) (p hs : Net.Arr)
    (hp : (X (Proc.devRef .tc main_v233)) = p) (hh : (X (Proc.devRef .tc main_v195)) = hs) :
    Live V (after opsL4 X)
      ∧ after opsL4 X (Proc.devRef .tc main_v285) = cellAt V (aggAt V p) p
      ∧ after opsL4 X (Proc.devRef .tc main_v247) = Spec.hsAdd (F := Ideal) hs (aggAt V p) := by
  refine ⟨?_, ?_, ?_⟩
  · exact {
    arg2 := (opsL4_keep X main_arg2 (by decide)).trans L.arg2
    arg6 := (opsL4_keep X main_arg6 (by decide)).trans L.arg6
    arg7 := (opsL4_keep X main_arg7 (by decide)).trans L.arg7
    arg8 := (opsL4_keep X main_arg8 (by decide)).trans L.arg8
    arg9 := (opsL4_keep X main_arg9 (by decide)).trans L.arg9
    arg10 := (opsL4_keep X main_arg10 (by decide)).trans L.arg10
    arg11 := (opsL4_keep X main_arg11 (by decide)).trans L.arg11
    arg12 := (opsL4_keep X main_arg12 (by decide)).trans L.arg12
    arg13 := (opsL4_keep X main_arg13 (by decide)).trans L.arg13
    v1 := (opsL4_keep X main_v1 (by decide)).trans L.v1
    v3 := (opsL4_keep X main_v3 (by decide)).trans L.v3 }
  · unfold cellAt aggAt GR aggF
    rw [opsL4_state X, L.arg2, L.v1, L.v3, hp, L.arg6, L.arg7, L.arg8, L.arg9]
  · unfold aggAt aggF
    rw [opsL4_sum X, L.arg2, L.v1, L.v3, hp, hh]

/-- The decoder, from contents `X` that hold the start's live values and the running sum `hs`. -/
theorem stepD {V X : Valuation τ sig (Elt Ideal)} (L : Live V X) (hs : Net.Arr)
    (hh : (X (Proc.devRef .tc main_v247)) = hs) :
    after opsD X (Proc.devRef .tc main_v312)
      = Net.dec (Spec.bnR64 (F := Ideal)) hs (V (Proc.devRef .tc main_arg10)) (V (Proc.devRef .tc main_arg11))
          (V (Proc.devRef .tc main_arg12)) (V (Proc.devRef .tc main_arg13)) := by
  rw [opsD_v312 X, hh, L.arg10, L.arg11, L.arg12, L.arg13]

/-! ## The result -/

/-- The reference's result from the launch contents `V`: the decoder of the running sum after five layers of the
    recursion `Net.pSeq` / `Net.hsSeq`, whose cell, aggregation and first state are the reference's at `V`'s arguments. -/
theorem ref_value (V : Valuation τ sig (Elt Ideal)) :
    after ops V (Proc.devRef .tc main_v312)
      = Net.dec (Spec.bnR64 (F := Ideal))
          (Net.hsSeq
            (GR (V (Proc.devRef .tc main_arg6)) (V (Proc.devRef .tc main_arg7)) (V (Proc.devRef .tc main_arg8)) (V (Proc.devRef .tc main_arg9)))
            (aggF (V (Proc.devRef .tc main_arg1)) (V (Proc.devRef .tc main_arg2)))
            (h0R (V (Proc.devRef .tc main_arg0)) (V (Proc.devRef .tc main_arg3)) (V (Proc.devRef .tc main_arg4)) (V (Proc.devRef .tc main_arg5))) 5)
          (V (Proc.devRef .tc main_arg10)) (V (Proc.devRef .tc main_arg11)) (V (Proc.devRef .tc main_arg12)) (V (Proc.devRef .tc main_arg13)) := by
  have L1 := live_E V
  have p1 : after opsE V (Proc.devRef .tc main_v25) = Net.pSeq (cellAt V) (aggAt V) (h0At V) 0 := opsE_v25 V
  obtain ⟨L2, s2, h2⟩ := step0 L1 _ p1
  have s2' : after opsL0 (after opsE V) (Proc.devRef .tc main_v77) = Net.pSeq (cellAt V) (aggAt V) (h0At V) 1 := s2
  have h2' : after opsL0 (after opsE V) (Proc.devRef .tc main_v39) = Net.hsSeq (cellAt V) (aggAt V) (h0At V) 1 := h2
  obtain ⟨L3, s3, h3⟩ := step1 L2 _ _ s2' h2'
  have s3' : after opsL1 (after opsL0 (after opsE V)) (Proc.devRef .tc main_v129) = Net.pSeq (cellAt V) (aggAt V) (h0At V) 2 := s3
  have h3' : after opsL1 (after opsL0 (after opsE V)) (Proc.devRef .tc main_v91) = Net.hsSeq (cellAt V) (aggAt V) (h0At V) 2 := h3
  obtain ⟨L4, s4, h4⟩ := step2 L3 _ _ s3' h3'
  have s4' : after opsL2 (after opsL1 (after opsL0 (after opsE V))) (Proc.devRef .tc main_v181)
      = Net.pSeq (cellAt V) (aggAt V) (h0At V) 3 := s4
  have h4' : after opsL2 (after opsL1 (after opsL0 (after opsE V))) (Proc.devRef .tc main_v143)
      = Net.hsSeq (cellAt V) (aggAt V) (h0At V) 3 := h4
  obtain ⟨L5, s5, h5⟩ := step3 L4 _ _ s4' h4'
  have s5' : after opsL3 (after opsL2 (after opsL1 (after opsL0 (after opsE V)))) (Proc.devRef .tc main_v233)
      = Net.pSeq (cellAt V) (aggAt V) (h0At V) 4 := s5
  have h5' : after opsL3 (after opsL2 (after opsL1 (after opsL0 (after opsE V)))) (Proc.devRef .tc main_v195)
      = Net.hsSeq (cellAt V) (aggAt V) (h0At V) 4 := h5
  obtain ⟨L6, _, h6⟩ := step4 L5 _ _ s5' h5'
  have h6' : after opsL4 (after opsL3 (after opsL2 (after opsL1 (after opsL0 (after opsE V)))))
      (Proc.devRef .tc main_v247) = Net.hsSeq (cellAt V) (aggAt V) (h0At V) 5 := h6
  exact (congrFun (after_ops V) _).trans (stepD L6 _ h6')

end Cert.ReferenceIdeal.Chain

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.LibRealFold.lean ====
/-
  Extended reals that are real numbers, and folds of `max` over a nonempty finite set — a general module: it depends
  on Mathlib only.
  An extended real "is real" when it is the image of a real number. Products, sums and finite sums of such are such
  (`isReal_mul`, `isReal_add`, `isReal_sum`), and so is the fold of `max` from the bottom element over a nonempty
  finite family of them (`fold_max_isReal`).
  A monotone map commutes with the fold of `max` from the bottom element over a nonempty finite family
  (`fold_max_map`): the largest image is the image of the largest.
-/
import Mathlib.Data.EReal.Inv
import Mathlib.Data.Finset.Fold
import Mathlib.Algebra.BigOperators.Group.Finset.Basic

namespace Cert.RealFold

open scoped BigOperators

/-- The product of two real numbers, read in the extended reals, is a real number. -/
theorem isReal_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- The sum of two real numbers, read in the extended reals, is a real number. -/
theorem isReal_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, read in the extended reals, is a real number. -/
theorem isReal_sum {ι : Type*} (s : Finset ι) (f : ι → EReal) (hf : ∀ j ∈ s, ∃ r : ℝ, f j = (r : EReal)) :
    ∃ r : ℝ, ∑ j ∈ s, f j = (r : EReal) :=
  Finset.sum_induction f (fun z => ∃ r : ℝ, z = (r : EReal)) (fun _ _ => isReal_add) ⟨0, EReal.coe_zero.symm⟩ hf

/-- A monotone map commutes with the fold of `max` from the bottom element over a nonempty finite family: the
    largest of the images is the image of the largest. (Over the empty family the two sides are `⊥` and the image of
    `⊥`, which need not agree.) -/
theorem fold_max_map {ι : Type*} {g : EReal → EReal} (hg : Monotone g) (f : ι → EReal) {s : Finset ι}
    (hs : s.Nonempty) : s.fold max ⊥ (fun j => g (f j)) = g (s.fold max ⊥ f) := by
  induction hs using Finset.Nonempty.cons_induction with
  | singleton a => rw [Finset.fold_singleton, Finset.fold_singleton, max_bot_right, max_bot_right]
  | cons a s ha hs ih => rw [Finset.fold_cons, Finset.fold_cons, ih, hg.map_max]

/-- The fold of `max` from the bottom element over a nonempty finite family of real numbers is a real number. -/
theorem fold_max_isReal {ι : Type*} (f : ι → EReal) {s : Finset ι} (hs : s.Nonempty)
    (hf : ∀ j ∈ s, ∃ r : ℝ, f j = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, max_bot_right, hr]⟩
  | cons a s ha hs ih =>
    obtain ⟨r, hr⟩ := hf a (Finset.mem_cons_self a s)
    obtain ⟨q, hq⟩ := ih fun j hj => hf j (Finset.mem_cons.mpr (Or.inr hj))
    refine ⟨max r q, ?_⟩
    rw [Finset.fold_cons, hr, hq]
    exact (EReal.coe_strictMono.monotone.map_max).symm

end Cert.RealFold
-- ==== Proof.LibRealOps.lean ====
/-
  Real-valuedness carried through the operations of a host program read over the extended reals.

  The extended reals are not a ring: x * (y + z) = x * y + x * z and (x - y) + y = x can fail at the two infinities.
  Two spellings of one formula (a batch normalisation written h * s + (b - mu * s) with s = g * r, and written
  ((h - mu) * r) * g + b) therefore agree only where every number involved is a REAL number. This module gives, for
  each operation a host program is built from, the closure fact "if every entry of the operands is a real number then
  every entry of the result is": sums, differences, products, maxima, negation, exponential, hyperbolic tangent,
  a selection between two arrays, a quotient by nowhere-zero reals, a reciprocal square root of positive reals;
  the re-indexings (broadcast, transpose, slice, reshape, gather), whose every result entry IS an operand entry;
  the constants 0, 1, 6, 50000 and 1e-5 as the real numbers their f32 words denote; the logistic function spelt
  1 / (1 + exp (-x)); contractions, sums along axes and accumulating scatters, which are finite sums of products or
  of entries; and the nonnegative versions (a square, a sum of nonnegatives, a nonnegative over a positive).
  Last, the scalar identity between the two spellings of batch normalisation, over the reals.

  Everything is stated at f32 and is general in the shapes.
-/
import Idealize.ShloMosaic.PureOps.Ideal.Laws
import Idealize.ShloMosaic.Lib.ValueIdx
import proofs.«141514_j89154931130446_1_alg».proof.Proof.LibRealFold

noncomputable section

namespace Cert.RealOps

open Idealize.ShloMosaic
open scoped BigOperators

/-- Every entry of an array of extended reals is a real number. -/
def AllReal {S : Shape} (v : S.Idx → EReal) : Prop := ∀ i, ∃ r : ℝ, v i = (r : EReal)

/-! ## Scalars -/

/-- The difference of two real numbers, read in the extended reals, is a real number. -/
theorem isReal_sub {a b : EReal} (ha : ∃ r : ℝ, a = (r : EReal)) (hb : ∃ r : ℝ, b = (r : EReal)) :
    ∃ r : ℝ, a - b = (r : EReal) := by
  obtain ⟨r, rfl⟩ := ha
  obtain ⟨q, rfl⟩ := hb
  exact ⟨r - q, (EReal.coe_sub r q).symm⟩

/-- The larger of two real numbers, read in the extended reals, is a real number. -/
theorem isReal_max {a b : EReal} (ha : ∃ r : ℝ, a = (r : EReal)) (hb : ∃ r : ℝ, b = (r : EReal)) :
    ∃ r : ℝ, max a b = (r : EReal) := by
  obtain ⟨r, rfl⟩ := ha
  obtain ⟨q, rfl⟩ := hb
  exact ⟨max r q, (EReal.coe_strictMono.monotone.map_max).symm⟩

/-- The quotient of a real number by a nonzero real number, read in the extended reals, is their real quotient. -/
theorem div_coe_coe (r : ℝ) {q : ℝ} (hq : q ≠ 0) : Ideal.div (r : EReal) (q : EReal) = ((r / q : ℝ) : EReal) := by
  rw [Ideal.div_coe hq, ← EReal.coe_mul, mul_one_div]

/-- The two spellings of a batch normalisation agree over the reals: with s = g * r,
    h * s + (b - mu * s) = ((h - mu) * r) * g + b. -/
theorem bn_scalar (h mu r g b : ℝ) :
    (h : EReal) * ((g : EReal) * (r : EReal)) + ((b : EReal) - (mu : EReal) * ((g : EReal) * (r : EReal)))
      = (((h : EReal) - (mu : EReal)) * (r : EReal)) * (g : EReal) + (b : EReal) := by
  rw [← EReal.coe_mul, ← EReal.coe_mul, ← EReal.coe_mul, ← EReal.coe_sub, ← EReal.coe_add, ← EReal.coe_sub,
    ← EReal.coe_mul, ← EReal.coe_mul, ← EReal.coe_add]
  exact congrArg _ (by ring)

/-! ## Elementwise operations -/

section Elementwise
variable {S : Shape}

/-- An entrywise sum of real numbers is real. -/
theorem allReal_addf {a b : FVec Ideal S .f32} (ha : AllReal a) (hb : AllReal b) : AllReal (addf a b) :=
  fun i => Cert.RealFold.isReal_add (ha i) (hb i)

/-- An entrywise difference of real numbers is real. -/
theorem allReal_subf {a b : FVec Ideal S .f32} (ha : AllReal a) (hb : AllReal b) : AllReal (subf a b) :=
  fun i => isReal_sub (ha i) (hb i)

/-- An entrywise product of real numbers is real. -/
theorem allReal_mulf {a b : FVec Ideal S .f32} (ha : AllReal a) (hb : AllReal b) : AllReal (mulf a b) :=
  fun i => Cert.RealFold.isReal_mul (ha i) (hb i)

/-- An entrywise maximum of real numbers is real. -/
theorem allReal_maximumf {a b : FVec Ideal S .f32} (ha : AllReal a) (hb : AllReal b) : AllReal (maximumf a b) :=
  fun i => isReal_max (ha i) (hb i)

/-- The entrywise negation of real numbers is real. -/
theorem allReal_negf {a : FVec Ideal S .f32} (ha : AllReal a) : AllReal (Host.negf a) := fun i => by
  obtain ⟨r, hr⟩ := ha i
  exact ⟨-r, by show -(a i) = _; rw [hr, EReal.coe_neg]⟩

/-- The entrywise exponential of real numbers is real. -/
theorem allReal_exp {a : FVec Ideal S .f32} (ha : AllReal a) : AllReal (Host.exp a) := fun i => by
  obtain ⟨r, hr⟩ := ha i
  exact ⟨Real.exp r, by show Ideal.exp (a i) = _; rw [hr, Ideal.exp_coe]⟩

/-- The entrywise exponential of real numbers is a positive real. -/
theorem pos_exp {a : FVec Ideal S .f32} (ha : AllReal a) : ∀ i, ∃ r : ℝ, 0 < r ∧ Host.exp a i = (r : EReal) :=
  fun i => by
    obtain ⟨r, hr⟩ := ha i
    exact ⟨Real.exp r, Real.exp_pos r, by show Ideal.exp (a i) = _; rw [hr, Ideal.exp_coe]⟩

/-- The entrywise hyperbolic tangent of real numbers is real. -/
theorem allReal_tanh {a : FVec Ideal S .f32} (ha : AllReal a) : AllReal (Host.tanh a) := fun i => by
  obtain ⟨r, hr⟩ := ha i
  exact ⟨Real.tanh r, by show Ideal.tanh (a i) = _; rw [hr, Ideal.tanh_coe]⟩

/-- A selection, entry by entry, between two arrays of real numbers is real, whatever the predicate. -/
theorem allReal_select (p : IVec S 1) {a b : S.Idx → EReal} (ha : AllReal a) (hb : AllReal b) :
    AllReal (select p a b) := fun i => by
  show ∃ r : ℝ, (if p i = 1 then a i else b i) = (r : EReal)
  split
  · exact ha i
  · exact hb i

/-- Where the predicate's entry is 1, the selection is the first array's entry. -/
theorem select_of_one (p : IVec S 1) (a b : S.Idx → EReal) (i : S.Idx) (hp : p i = 1) : select p a b i = a i :=
  if_pos hp

/-- An entrywise quotient of real numbers by nonzero real numbers is real. -/
theorem allReal_divf {a b : FVec Ideal S .f32} (ha : AllReal a) (hb : ∀ i, ∃ r : ℝ, r ≠ 0 ∧ b i = (r : EReal)) :
    AllReal (Host.divf a b) := fun i => by
  obtain ⟨r, hr⟩ := ha i
  obtain ⟨q, hq, hbq⟩ := hb i
  exact ⟨r / q, by show Ideal.div (a i) (b i) = _; rw [hr, hbq, div_coe_coe r hq]⟩

/-- The entrywise reciprocal square root of positive real numbers is real. -/
theorem allReal_rsqrt {a : FVec Ideal S .f32} (ha : ∀ i, ∃ r : ℝ, 0 < r ∧ a i = (r : EReal)) :
    AllReal (Host.rsqrt a) := fun i => by
  obtain ⟨r, hr, har⟩ := ha i
  exact ⟨(Real.sqrt r)⁻¹, by
    show Ideal.rsqrt (a i) = _
    rw [har, Ideal.rsqrt_coe, if_neg (not_lt.mpr hr.le), if_neg hr.ne']⟩

/-- The entrywise reciprocal square root of positive real numbers is a positive real. -/
theorem pos_rsqrt {a : FVec Ideal S .f32} (ha : ∀ i, ∃ r : ℝ, 0 < r ∧ a i = (r : EReal)) :
    ∀ i, ∃ r : ℝ, 0 < r ∧ Host.rsqrt a i = (r : EReal) := fun i => by
  obtain ⟨r, hr, har⟩ := ha i
  exact ⟨(Real.sqrt r)⁻¹, inv_pos.mpr (Real.sqrt_pos.mpr hr), by
    show Ideal.rsqrt (a i) = _
    rw [har, Ideal.rsqrt_coe, if_neg (not_lt.mpr hr.le), if_neg hr.ne']⟩

/-- A nonnegative real plus a positive real, entry by entry, is a positive real. -/
theorem pos_addf_of_nonneg_of_pos {a b : FVec Ideal S .f32} (ha : ∀ i, ∃ r : ℝ, 0 ≤ r ∧ a i = (r : EReal))
    (hb : ∀ i, ∃ r : ℝ, 0 < r ∧ b i = (r : EReal)) : ∀ i, ∃ r : ℝ, 0 < r ∧ addf a b i = (r : EReal) := fun i => by
  obtain ⟨r, hr, har⟩ := ha i
  obtain ⟨q, hq, hbq⟩ := hb i
  exact ⟨r + q, add_pos_of_nonneg_of_pos hr hq, by show a i + b i = _; rw [har, hbq, EReal.coe_add]⟩

/-- Positive reals are reals: the weakening used between the lemmas above. -/
theorem allReal_of_pos {a : S.Idx → EReal} (ha : ∀ i, ∃ r : ℝ, 0 < r ∧ a i = (r : EReal)) : AllReal a :=
  fun i => let ⟨r, _, h⟩ := ha i; ⟨r, h⟩

/-- Nonnegative reals are reals. -/
theorem allReal_of_nonneg {a : S.Idx → EReal} (ha : ∀ i, ∃ r : ℝ, 0 ≤ r ∧ a i = (r : EReal)) : AllReal a :=
  fun i => let ⟨r, _, h⟩ := ha i; ⟨r, h⟩

/-- Positive reals are nonzero reals. -/
theorem ne_zero_of_pos {a : S.Idx → EReal} (ha : ∀ i, ∃ r : ℝ, 0 < r ∧ a i = (r : EReal)) :
    ∀ i, ∃ r : ℝ, r ≠ 0 ∧ a i = (r : EReal) :=
  fun i => let ⟨r, hr, h⟩ := ha i; ⟨r, hr.ne', h⟩

end Elementwise

/-! ## Re-indexings: every entry of the result IS an entry of the operand -/

section Reindex
variable {S T : Shape}

/-- A broadcast along the axes a dimension map names repeats operand entries. -/
theorem allReal_broadcastInDim (dims : Fin S.rank → Fin T.rank) (h : S.BroadcastsInDim T dims) {a : S.Idx → EReal}
    (ha : AllReal a) : AllReal (broadcastInDim T dims h a) :=
  fun _ => ha _

/-- A broadcast of positive real numbers is a broadcast of positive real numbers. -/
theorem pos_broadcastInDim (dims : Fin S.rank → Fin T.rank) (h : S.BroadcastsInDim T dims) {a : S.Idx → EReal}
    (ha : ∀ i, ∃ r : ℝ, 0 < r ∧ a i = (r : EReal)) : ∀ j, ∃ r : ℝ, 0 < r ∧ broadcastInDim T dims h a j = (r : EReal) :=
  fun _ => ha _

/-- A broadcast of nonnegative real numbers is a broadcast of nonnegative real numbers. -/
theorem nonneg_broadcastInDim (dims : Fin S.rank → Fin T.rank) (h : S.BroadcastsInDim T dims) {a : S.Idx → EReal}
    (ha : ∀ i, ∃ r : ℝ, 0 ≤ r ∧ a i = (r : EReal)) : ∀ j, ∃ r : ℝ, 0 ≤ r ∧ broadcastInDim T dims h a j = (r : EReal) :=
  fun _ => ha _

/-- A transposition permutes operand entries. -/
theorem allReal_transpose (perm : List (Fin S.rank)) (h : S.Transposes perm T) {a : S.Idx → EReal} (ha : AllReal a) :
    AllReal (transpose T perm a h) :=
  fun _ => ha _

/-- A slice keeps a block of operand entries. -/
theorem allReal_slice (offs : Fin S.rank → Nat) (h : S.Slices offs T) {a : S.Idx → EReal} (ha : AllReal a) :
    AllReal (extractStridedSlice T offs a h) :=
  fun _ => ha _

/-- A reshape keeps the operand entries in row-major order. -/
theorem allReal_shapeCast (h : S.ShapeCasts T) {a : S.Idx → EReal} (ha : AllReal a) : AllReal (shapeCast T a h) :=
  fun _ => ha _

/-- A gather reads operand entries, whatever its dimension numbers and indices. -/
theorem allReal_gather {SI : Shape} {w : Nat} (G : GatherDims S SI T) {x : S.Idx → EReal} (i : IVec SI w)
    (hx : AllReal x) : AllReal (Host.gather G x i) :=
  fun _ => hx _

end Reindex

/-! ## Constants -/

section Constants
variable (S : Shape)

/-- The f32 word 0x00000000 is the real number 0. -/
theorem const_zero (i : S.Idx) : constant (F := Ideal) S .f32 0x00000000#32 i = ((0 : ℝ) : EReal) := by
  show Ideal.ofBits .f32 0x00000000#32 = _
  simp [Ideal.ofBits, Ideal.ieee]

/-- The f32 word 0x3F800000 is the real number 1. -/
theorem const_one (i : S.Idx) : constant (F := Ideal) S .f32 0x3F800000#32 i = ((1 : ℝ) : EReal) := by
  show Ideal.ofBits .f32 0x3F800000#32 = _
  simp [Ideal.ofBits, Ideal.ieee, -EReal.coe_mul]; norm_num

/-- The f32 word 0x47435000 is the real number 50000. -/
theorem const_50000 (i : S.Idx) : constant (F := Ideal) S .f32 0x47435000#32 i = ((50000 : ℝ) : EReal) := by
  show Ideal.ofBits .f32 0x47435000#32 = _
  simp [Ideal.ofBits, Ideal.ieee, -EReal.coe_mul]; norm_num

/-- The f32 word 0x40C00000 is the real number 6. -/
theorem const_six (i : S.Idx) : constant (F := Ideal) S .f32 0x40C00000#32 i = ((6 : ℝ) : EReal) := by
  show Ideal.ofBits .f32 0x40C00000#32 = _
  simp [Ideal.ofBits, Ideal.ieee, -EReal.coe_mul]; norm_num

/-- The f32 word 0x3727C5AC (the f32 nearest 1e-5) is a positive real number. -/
theorem const_eps : ∃ q : ℝ, 0 < q ∧ ∀ i : S.Idx, constant (F := Ideal) S .f32 0x3727C5AC#32 i = (q : EReal) := by
  refine ⟨(10995116 : ℝ) * (2 : ℝ) ^ (-40 : ℤ), by positivity, fun i => ?_⟩
  show Ideal.ofBits .f32 0x3727C5AC#32 = _
  simp [Ideal.ofBits, Ideal.ieee, -EReal.coe_mul]

end Constants

/-! ## The logistic function, spelt 1 / (1 + exp (-x)) -/

section Sigmoid
variable {S S0 : Shape}

/-- The constant 1 broadcast to a shape: every entry is the real number 1. -/
theorem bcast_one_apply (dims : Fin S0.rank → Fin S.rank) (h : S0.BroadcastsInDim S dims) (i : S.Idx) :
    broadcastInDim S dims h (constant (F := Ideal) S0 .f32 0x3F800000#32) i = ((1 : ℝ) : EReal) :=
  const_one S0 _

/-- 1 + exp (-x) is a positive real wherever x is real. -/
theorem pos_one_add_exp_neg (dims : Fin S0.rank → Fin S.rank) (h : S0.BroadcastsInDim S dims) {x : FVec Ideal S .f32}
    (hx : AllReal x) :
    ∀ i, ∃ r : ℝ, 0 < r ∧ addf (broadcastInDim S dims h (constant (F := Ideal) S0 .f32 0x3F800000#32))
      (Host.exp (Host.negf x)) i = (r : EReal) := fun i => by
  obtain ⟨q, hq, he⟩ := pos_exp (allReal_negf hx) i
  refine ⟨1 + q, by positivity, ?_⟩
  show broadcastInDim S dims h (constant (F := Ideal) S0 .f32 0x3F800000#32) i + Host.exp (Host.negf x) i = _
  rw [bcast_one_apply, he, EReal.coe_add]

/-- The logistic function as a host program spells it, 1 / (1 + exp (-x)) with each 1 a broadcast constant, is real
    wherever x is real: the denominator is a positive real. -/
theorem allReal_sigmoid (dims : Fin S0.rank → Fin S.rank) (h : S0.BroadcastsInDim S dims) {x : FVec Ideal S .f32}
    (hx : AllReal x) :
    AllReal (Host.divf (broadcastInDim S dims h (constant (F := Ideal) S0 .f32 0x3F800000#32))
      (addf (broadcastInDim S dims h (constant (F := Ideal) S0 .f32 0x3F800000#32)) (Host.exp (Host.negf x)))) :=
  allReal_divf (fun i => ⟨1, bcast_one_apply dims h i⟩) (ne_zero_of_pos (pos_one_add_exp_neg dims h hx))

end Sigmoid

/-! ## Sums: contractions, sums along axes, accumulating scatters -/

section Sums

/-- A finite sum of nonnegative real numbers, read in the extended reals, is a nonnegative real number. -/
theorem nonnegReal_sum {ι : Type*} (s : Finset ι) (f : ι → EReal) (hf : ∀ j ∈ s, ∃ r : ℝ, 0 ≤ r ∧ f j = (r : EReal)) :
    ∃ r : ℝ, 0 ≤ r ∧ ∑ j ∈ s, f j = (r : EReal) :=
  Finset.sum_induction f (fun z => ∃ r : ℝ, 0 ≤ r ∧ z = (r : EReal))
    (fun _ _ ⟨r, hr, ha⟩ ⟨q, hq, hb⟩ => ⟨r + q, add_nonneg hr hq, by rw [ha, hb, EReal.coe_add]⟩)
    ⟨0, le_rfl, EReal.coe_zero.symm⟩ hf

/-- A contraction of two arrays of real numbers is real: each entry is zero plus a finite sum of products. -/
theorem allReal_dotGeneral {sl sr so : Shape} (D : DotDims sl sr so) {l : FVec Ideal sl .f32} {r : FVec Ideal sr .f32}
    (hl : AllReal l) (hr : AllReal r) : AllReal (Host.dotGeneral D none l r) := fun j => by
  show ∃ q : ℝ, FloatOps.dotGeneral D none .single l r j = (q : EReal)
  rw [Ideal.dotGeneral_apply]
  exact Cert.RealFold.isReal_sum _ _ fun k _ => Cert.RealFold.isReal_mul (hl _) (hr _)

/-- A sum along axes of an array of real numbers, from a real initial value, is real: each entry is the initial value
    plus a finite sum of entries. -/
theorem allReal_reduceAdd {s t u : Shape} {axes : List (Fin s.rank)} {x : FVec Ideal s .f32} {v : FVec Ideal u .f32}
    (red : s.ReducesTo axes t) (h : 0 < u.numel) (hx : AllReal x) (hv : AllReal v) :
    AllReal (Host.reduceAdd x v red h) := fun j => by
  show ∃ q : ℝ, Ideal.hostReduceAdd red x (v (Shape.Idx.first h)) j = (q : EReal)
  exact Cert.RealFold.isReal_add (hv _) (Cert.RealFold.isReal_sum _ _ fun i _ => hx i)

/-- An accumulating scatter of real updates into an array of real numbers is real: each entry is the operand's entry
    plus a finite sum of update entries. -/
theorem allReal_scatterAdd {s si su : Shape} {w : Nat} (D : ScatterDims s si su) {x : FVec Ideal s .f32} (i : IVec si w)
    {u : FVec Ideal su .f32} (hx : AllReal x) (hu : AllReal u) : AllReal (Host.scatterAdd D x i u) := fun k => by
  show ∃ q : ℝ, Ideal.hostScatterAdd D x i u k = (q : EReal)
  exact Cert.RealFold.isReal_add (hx k) (Cert.RealFold.isReal_sum _ _ fun j _ => hu j)

/-- The entrywise square of real numbers is a nonnegative real. -/
theorem nonneg_sq {S : Shape} {d : FVec Ideal S .f32} (hd : AllReal d) :
    ∀ i, ∃ r : ℝ, 0 ≤ r ∧ mulf d d i = (r : EReal) := fun i => by
  obtain ⟨q, hq⟩ := hd i
  exact ⟨q * q, mul_self_nonneg q, by show d i * d i = _; rw [hq, EReal.coe_mul]⟩

/-- A sum along axes of nonnegative real numbers, from a nonnegative real initial value (zero, say), is a nonnegative
    real. -/
theorem nonneg_reduceAdd {s t u : Shape} {axes : List (Fin s.rank)} {x : FVec Ideal s .f32} {v : FVec Ideal u .f32}
    (red : s.ReducesTo axes t) (h : 0 < u.numel) (hx : ∀ i, ∃ r : ℝ, 0 ≤ r ∧ x i = (r : EReal))
    (hv : ∀ i, ∃ r : ℝ, 0 ≤ r ∧ v i = (r : EReal)) :
    ∀ j, ∃ r : ℝ, 0 ≤ r ∧ Host.reduceAdd x v red h j = (r : EReal) := fun j => by
  show ∃ q : ℝ, 0 ≤ q ∧ Ideal.hostReduceAdd red x (v (Shape.Idx.first h)) j = (q : EReal)
  obtain ⟨r, hr, hvr⟩ := hv (Shape.Idx.first h)
  obtain ⟨q, hq, hs⟩ := nonnegReal_sum (Finset.univ.filter fun i => red.drop i = j) x fun i _ => hx i
  exact ⟨r + q, add_nonneg hr hq, by unfold Ideal.hostReduceAdd; rw [hvr, hs, EReal.coe_add]⟩

/-- A nonnegative real over a positive real, entry by entry, is a nonnegative real. -/
theorem nonneg_divf_pos {S : Shape} {a b : FVec Ideal S .f32} (ha : ∀ i, ∃ r : ℝ, 0 ≤ r ∧ a i = (r : EReal))
    (hb : ∀ i, ∃ r : ℝ, 0 < r ∧ b i = (r : EReal)) : ∀ i, ∃ r : ℝ, 0 ≤ r ∧ Host.divf a b i = (r : EReal) := fun i => by
  obtain ⟨r, hr, har⟩ := ha i
  obtain ⟨q, hq, hbq⟩ := hb i
  exact ⟨r / q, div_nonneg hr hq.le, by show Ideal.div (a i) (b i) = _; rw [har, hbq, div_coe_coe r hq.ne']⟩

end Sums

/-! ## A comparison and a conversion at known values -/

section Compare
variable {S : Shape}

/-- The entrywise test "a > b" answers 1 where b's entry is below a's. -/
theorem cmpf_ogt_of_lt {a b : FVec Ideal S .f32} (i : S.Idx) (h : b i < a i) : cmpf .ogt a b i = 1 := by
  show Ideal.cmp .ogt (a i) (b i) = 1
  simp [Ideal.cmp, h]

/-- The signed integer 0, converted to a float, is the real number 0. -/
theorem sitofp_zero (i : S.Idx) : sitofp (F := Ideal) .f32 (constantI S 32 0#32) i = ((0 : ℝ) : EReal) := by
  show (((0#32 : BitVec 32).toInt : ℝ) : EReal) = _
  simp

end Compare

end Cert.RealOps

end
-- ==== Proof.PreReal.lean ====
/-
  From the certificate's precondition to "every float input entry is a real number".

  The precondition tests each of the thirteen float arguments entry by entry: |x| is compared with the f32 word of +∞,
  the one-bit answers of one argument are reduced by "and" from the constant 1 over all axes, and the thirteen one-bit
  results are chained by "and"; the claim is that the final bit is 1. A conjunction of bits is 1 only if both are, so
  every one of the thirteen reductions is 1; a reduction by "and" over all axes that is 1 met a 1 at every entry; and
  an entry x with |x| < +∞ over the extended reals is neither infinity, that is, a real number.
-/
import proofs.«141514_j89154931130446_1_alg».proof.Pre_finite_inputs
import Idealize.ShloMosaic.Lib.ReduceAll
import Idealize.ShloMosaic.Lib.ValueIdx
import proofs.«141514_j89154931130446_1_alg».proof.Proof.LibFiniteTest
import proofs.«141514_j89154931130446_1_alg».proof.Proof.LibRealOps

noncomputable section

namespace Cert.PreReal

open Idealize.ShloMosaic Cert.RealOps

/-- A shape of rank 0 has one index. -/
instance subsingleton_idx0 : Subsingleton (⟨0, ![]⟩ : Shape).Idx := ⟨fun a b => funext fun d => d.elim0⟩

/-- One argument's test: if the reduction by "and", over all axes, of the entrywise comparison |a| < +∞ is 1, then
    every entry of a is a real number. General in the shapes (of the array, of the broadcast constant, of the
    reduction's initial value and of its one-index result). -/
theorem real_of_all {S U V T : Shape} [Subsingleton T.Idx] {axes : List (Fin S.rank)} {dims : Fin U.rank → Fin S.rank}
    (a : FVec Ideal S .f32) (hb : U.BroadcastsInDim S dims) (hr : S.ReducesTo axes T) (hv : 0 < V.numel) (j : T.Idx)
    (e : Host.reduce IntOp.andi
          (cmpf .olt (Host.absf a) (broadcastInDim S dims hb (constant (F := Ideal) U .f32 0x7F800000#32)))
          (constantI V 1 1#1) hr hv j = 1#1) :
    AllReal a := by
  intro i
  have h := Host.reduce_andi_all _ _ hr hv j e i
  exact Cert.LibFiniteTest.real_of_test (a i) h

/-- A conjunction of two one-bit arrays that is 1 at an index has both conjuncts 1 there. -/
theorem both_of_andi {s : Shape} {x y : IVec s 1} {j : s.Idx} (h : Idealize.ShloMosaic.andi x y j = 1#1) :
    x j = 1#1 ∧ y j = 1#1 :=
  IntOp.andi_eq_one.1 h

open Cert.Pre_finite_inputs in
/-- The precondition gives: every entry of every float argument is a real number. -/
theorem real_of_pre [Cert.Pre_finite_inputs.Facts]
    (a0 : FVec Ideal S50000x3 .f32) (a1 : IVec S2x640000 32) (a2 : FVec Ideal S640000 .f32)
    (a3 : FVec Ideal S128x3 .f32) (a4 a5 : FVec Ideal S128 .f32) (a6 a7 : FVec Ideal S384x128 .f32)
    (a8 a9 : FVec Ideal S384 .f32) (a10 : FVec Ideal S64x128 .f32) (a11 a12 : FVec Ideal S64 .f32)
    (a13 : FVec Ideal S1x64 .f32)
    (h : Cert.Pre_finite_inputs.fn (F := Ideal) a0 a1 a2 a3 a4 a5 a6 a7 a8 a9 a10 a11 a12 a13 = fun _ => 1#1) :
    AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12 ∧ AllReal a13 := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e13⟩ := both_of_andi h0
  obtain ⟨h0, e12⟩ := both_of_andi h0
  obtain ⟨h0, e11⟩ := both_of_andi h0
  obtain ⟨h0, e10⟩ := both_of_andi h0
  obtain ⟨h0, e9⟩ := both_of_andi h0
  obtain ⟨h0, e8⟩ := both_of_andi h0
  obtain ⟨h0, e7⟩ := both_of_andi h0
  obtain ⟨h0, e6⟩ := both_of_andi h0
  obtain ⟨h0, e5⟩ := both_of_andi h0
  obtain ⟨h0, e4⟩ := both_of_andi h0
  obtain ⟨h0, e3⟩ := both_of_andi h0
  obtain ⟨e0, e2⟩ := both_of_andi h0
  exact ⟨real_of_all a0 _ _ _ _ e0, real_of_all a2 _ _ _ _ e2, real_of_all a3 _ _ _ _ e3, real_of_all a4 _ _ _ _ e4,
    real_of_all a5 _ _ _ _ e5, real_of_all a6 _ _ _ _ e6, real_of_all a7 _ _ _ _ e7, real_of_all a8 _ _ _ _ e8,
    real_of_all a9 _ _ _ _ e9, real_of_all a10 _ _ _ _ e10, real_of_all a11 _ _ _ _ e11, real_of_all a12 _ _ _ _ e12,
    real_of_all a13 _ _ _ _ e13⟩

end Cert.PreReal

end
-- ==== Proof.LibBatchNorm.lean ====
/-
  Two spellings of a batch normalisation agree where every number involved is real — a general module: it depends only
  on the closure lemmas for real-valued arrays.

  A batch normalisation of an array h (rows × columns) by per-column vectors mu (mean), R (reciprocal standard deviation),
  g (scale) and b (shift), each broadcast over the rows through a one-row array, is written either

      h * (g * R) + (b - mu * (g * R))        (the scale folded into one per-column factor)
  or
      ((h - mu) * R) * g + b                  (centre, scale, scale, shift).

  Over the extended reals the two are different functions (distributivity fails at the infinities), but at every entry
  where h, mu, R, g and b are real numbers they are the same real number (bn_affine_eq), and that number is real
  (allReal_bn_affine). Both stay true under any further entrywise operation applied to the two sides alike, such as
  the maximum with a broadcast zero (a rectifier).
-/
import proofs.«141514_j89154931130446_1_alg».proof.Proof.LibRealOps

noncomputable section

namespace Cert.BatchNorm

open Idealize.ShloMosaic Cert.RealOps

variable {SV SR SB : Shape}
  (d1 : Fin SV.rank → Fin SR.rank) (h1 : SV.BroadcastsInDim SR d1)
  (d2 : Fin SR.rank → Fin SB.rank) (h2 : SR.BroadcastsInDim SB d2)

/-- A vector broadcast to an array through an intermediate shape reads, at each entry of the array, one entry of the
    vector, the same one whatever the vector. -/
theorem bcast2_apply (i : SB.Idx) :
    ∃ q : SV.Idx, ∀ X : SV.Idx → EReal, broadcastInDim SB d2 h2 (broadcastInDim SR d1 h1 X) i = X q :=
  ⟨_, fun _ => rfl⟩

/-- The two spellings of a batch normalisation agree where the array and the four vectors are real. -/
theorem bn_affine_eq {h : FVec Ideal SB .f32} {mu R g b : FVec Ideal SV .f32} (hh : AllReal h) (hmu : AllReal mu)
    (hR : AllReal R) (hg : AllReal g) (hb : AllReal b) :
    addf (mulf h (broadcastInDim SB d2 h2 (broadcastInDim SR d1 h1 (mulf g R))))
        (broadcastInDim SB d2 h2 (broadcastInDim SR d1 h1 (subf b (mulf mu (mulf g R)))))
      = addf (mulf (mulf (subf h (broadcastInDim SB d2 h2 (broadcastInDim SR d1 h1 mu)))
            (broadcastInDim SB d2 h2 (broadcastInDim SR d1 h1 R)))
          (broadcastInDim SB d2 h2 (broadcastInDim SR d1 h1 g)))
        (broadcastInDim SB d2 h2 (broadcastInDim SR d1 h1 b)) := by
  funext i
  obtain ⟨q, hq⟩ := bcast2_apply d1 h1 d2 h2 i
  obtain ⟨rh, hrh⟩ := hh i
  obtain ⟨rm, hrm⟩ := hmu q
  obtain ⟨rr, hrr⟩ := hR q
  obtain ⟨rg, hrg⟩ := hg q
  obtain ⟨rb, hrb⟩ := hb q
  have e1 : broadcastInDim SB d2 h2 (broadcastInDim SR d1 h1 (mulf g R)) i = g q * R q := hq _
  have e2 : broadcastInDim SB d2 h2 (broadcastInDim SR d1 h1 (subf b (mulf mu (mulf g R)))) i
      = b q - mu q * (g q * R q) := hq _
  have e3 : broadcastInDim SB d2 h2 (broadcastInDim SR d1 h1 mu) i = mu q := hq _
  have e4 : broadcastInDim SB d2 h2 (broadcastInDim SR d1 h1 R) i = R q := hq _
  have e5 : broadcastInDim SB d2 h2 (broadcastInDim SR d1 h1 g) i = g q := hq _
  have e6 : broadcastInDim SB d2 h2 (broadcastInDim SR d1 h1 b) i = b q := hq _
  show h i * broadcastInDim SB d2 h2 (broadcastInDim SR d1 h1 (mulf g R)) i
        + broadcastInDim SB d2 h2 (broadcastInDim SR d1 h1 (subf b (mulf mu (mulf g R)))) i
      = (h i - broadcastInDim SB d2 h2 (broadcastInDim SR d1 h1 mu) i)
            * broadcastInDim SB d2 h2 (broadcastInDim SR d1 h1 R) i
          * broadcastInDim SB d2 h2 (broadcastInDim SR d1 h1 g) i
        + broadcastInDim SB d2 h2 (broadcastInDim SR d1 h1 b) i
  rw [e1, e2, e3, e4, e5, e6, hrh, hrm, hrr, hrg, hrb]
  exact bn_scalar rh rm rr rg rb

/-- A batch normalisation, in the centre-scale-scale-shift spelling, of real data by real vectors is real. -/
theorem allReal_bn_affine {h : FVec Ideal SB .f32} {mu R g b : FVec Ideal SV .f32} (hh : AllReal h) (hmu : AllReal mu)
    (hR : AllReal R) (hg : AllReal g) (hb : AllReal b) :
    AllReal (addf (mulf (mulf (subf h (broadcastInDim SB d2 h2 (broadcastInDim SR d1 h1 mu)))
            (broadcastInDim SB d2 h2 (broadcastInDim SR d1 h1 R)))
          (broadcastInDim SB d2 h2 (broadcastInDim SR d1 h1 g)))
        (broadcastInDim SB d2 h2 (broadcastInDim SR d1 h1 b))) :=
  allReal_addf
    (allReal_mulf
      (allReal_mulf (allReal_subf hh (allReal_broadcastInDim _ _ (allReal_broadcastInDim _ _ hmu)))
        (allReal_broadcastInDim _ _ (allReal_broadcastInDim _ _ hR)))
      (allReal_broadcastInDim _ _ (allReal_broadcastInDim _ _ hg)))
    (allReal_broadcastInDim _ _ (allReal_broadcastInDim _ _ hb))

end Cert.BatchNorm

end
-- ==== Proof.VarReal.lean ====
/-
  The variance along the rows as the reference program computes it, as one term, and its nonnegativity.

  The reference takes the variance of an N × C array h (N = 50000 rows) with "delta degrees of freedom" an integer
  argument that is 0 here: with m = (sum over the rows of h) / N, broadcast back over the rows, and d = h - m, it forms

      where (N - 0 > 0,  (sum over the rows of d * d) / (N - 0),  NaN).

  varOf h (C = 128) and varOf64 h (C = 64) are that computation, operation by operation in the program's order and
  spelling, the outlined selection included. The count N - 0 is the real number 50000 (count_apply), which is positive,
  so the selection takes its first branch; there the value is a sum of squares of real numbers over a positive real. So
  wherever every entry of h is a real number, every entry of the variance is a nonnegative real number
  (varOf_nonneg, varOf64_nonneg).
-/
import proofs.«141514_j89154931130446_1_alg».proof.ReferenceIdeal
import proofs.«141514_j89154931130446_1_alg».proof.Proof.LibRealOps

noncomputable section

namespace Cert.VarReal

open Idealize.ShloMosaic
open Cert.ReferenceIdeal Cert.ReferenceIdeal.Facts₀
open Cert.RealOps

variable [Facts₀]

/-- The count the variance divides by, N - 0 with the 0 an integer converted to a float, is the real number 50000. -/
theorem count_apply (i : S_.Idx) :
    subf (constant (F := Ideal) S_ .f32 0x47435000#32) (sitofp .f32 (constantI S_ 32 0#32)) i = ((50000 : ℝ) : EReal) := by
  show constant (F := Ideal) S_ .f32 0x47435000#32 i - sitofp (F := Ideal) .f32 (constantI S_ 32 0#32) i = _
  rw [const_50000, sitofp_zero, ← EReal.coe_sub, sub_zero]

/-- 0 < 50000, read in the extended reals. -/
theorem count_pos : ((0 : ℝ) : EReal) < ((50000 : ℝ) : EReal) := EReal.coe_lt_coe_iff.mpr (by norm_num)

/-- The variance along the rows of a 50000 × 128 array, as the reference computes it. -/
def varOf (h : FVec Ideal S50000x128 .f32) : FVec Ideal S128 .f32 :=
  select
    (broadcastInDim S128 ![] bcast_S_S128 (cmpf .ogt (subf (constant (F := Ideal) S_ .f32 0x47435000#32) (sitofp .f32 (constantI S_ 32 0#32))) (constant (F := Ideal) S_ .f32 0x00000000#32)))
    (Host.divf
      (Host.reduceAdd
        (mulf
          (subf h (broadcastInDim S50000x128 ![0, 1] bcast_S1x128_S50000x128_0_1
            (Host.divf (broadcastInDim S1x128 ![1] bcast_S128_S1x128_1 (Host.reduceAdd h (constant (F := Ideal) S_ .f32 0x00000000#32) reducesTo_S50000x128_S128_d0 h_S_))
              (broadcastInDim S1x128 ![] bcast_S_S1x128 (constant (F := Ideal) S_ .f32 0x47435000#32)))))
          (subf h (broadcastInDim S50000x128 ![0, 1] bcast_S1x128_S50000x128_0_1
            (Host.divf (broadcastInDim S1x128 ![1] bcast_S128_S1x128_1 (Host.reduceAdd h (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128 (subf (constant (F := Ideal) S_ .f32 0x47435000#32) (sitofp .f32 (constantI S_ 32 0#32)))))
    (broadcastInDim S128 ![] bcast_S_S128 (id (constant (F := Ideal) S_ .f32 0x7FC00000#32)))

/-- Where every entry of h is a real number, every entry of its variance is a nonnegative real number. -/
theorem varOf_nonneg {h : FVec Ideal S50000x128 .f32} (hh : AllReal h) :
    ∀ j, ∃ r : ℝ, 0 ≤ r ∧ varOf h j = (r : EReal) :=
  fun j => by
  have hd : AllReal (subf h (broadcastInDim S50000x128 ![0, 1] bcast_S1x128_S50000x128_0_1
      (Host.divf (broadcastInDim S1x128 ![1] bcast_S128_S1x128_1
          (Host.reduceAdd h (constant (F := Ideal) S_ .f32 0x00000000#32) reducesTo_S50000x128_S128_d0 h_S_))
        (broadcastInDim S1x128 ![] bcast_S_S1x128 (constant (F := Ideal) S_ .f32 0x47435000#32))))) :=
    allReal_subf hh (allReal_broadcastInDim _ _ (allReal_divf
      (allReal_broadcastInDim _ _ (allReal_reduceAdd _ _ hh fun i => ⟨0, const_zero S_ i⟩))
      (ne_zero_of_pos (pos_broadcastInDim _ _ fun i => ⟨50000, by norm_num, const_50000 S_ i⟩))))
  obtain ⟨r, hr, he⟩ := nonneg_divf_pos
    (nonneg_reduceAdd reducesTo_S50000x128_S128_d0 h_S_ (nonneg_sq hd) fun i => ⟨0, le_rfl, const_zero S_ i⟩)
    (pos_broadcastInDim ![] bcast_S_S128 fun i => ⟨50000, by norm_num, count_apply i⟩) j
  exact ⟨r, hr, (select_of_one _ _ _ j (cmpf_ogt_of_lt _ (by rw [count_apply, const_zero]; exact count_pos))).trans he⟩

/-- The variance along the rows of a 50000 × 64 array, as the reference computes it. -/
def varOf64 (h : FVec Ideal S50000x64 .f32) : FVec Ideal S64 .f32 :=
  select
    (broadcastInDim S64 ![] bcast_S_S64 (cmpf .ogt (subf (constant (F := Ideal) S_ .f32 0x47435000#32) (sitofp .f32 (constantI S_ 32 0#32))) (constant (F := Ideal) S_ .f32 0x00000000#32)))
    (Host.divf
      (Host.reduceAdd
        (mulf
          (subf h (broadcastInDim S50000x64 ![0, 1] bcast_S1x64_S50000x64_0_1
            (Host.divf (broadcastInDim S1x64 ![1] bcast_S64_S1x64_1 (Host.reduceAdd h (constant (F := Ideal) S_ .f32 0x00000000#32) reducesTo_S50000x64_S64_d0 h_S_))
              (broadcastInDim S1x64 ![] bcast_S_S1x64 (constant (F := Ideal) S_ .f32 0x47435000#32)))))
          (subf h (broadcastInDim S50000x64 ![0, 1] bcast_S1x64_S50000x64_0_1
            (Host.divf (broadcastInDim S1x64 ![1] bcast_S64_S1x64_1 (Host.reduceAdd h (constant (F := Ideal) S_ .f32 0x00000000#32) reducesTo_S50000x64_S64_d0 h_S_))
              (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64 (subf (constant (F := Ideal) S_ .f32 0x47435000#32) (sitofp .f32 (constantI S_ 32 0#32)))))
    (broadcastInDim S64 ![] bcast_S_S64 (id (constant (F := Ideal) S_ .f32 0x7FC00000#32)))

/-- Where every entry of h is a real number, every entry of its variance is a nonnegative real number. -/
theorem varOf64_nonneg {h : FVec Ideal S50000x64 .f32} (hh : AllReal h) :
    ∀ j, ∃ r : ℝ, 0 ≤ r ∧ varOf64 h j = (r : EReal) :=
  fun j => by
  have hd : AllReal (subf h (broadcastInDim S50000x64 ![0, 1] bcast_S1x64_S50000x64_0_1
      (Host.divf (broadcastInDim S1x64 ![1] bcast_S64_S1x64_1
          (Host.reduceAdd h (constant (F := Ideal) S_ .f32 0x00000000#32) reducesTo_S50000x64_S64_d0 h_S_))
        (broadcastInDim S1x64 ![] bcast_S_S1x64 (constant (F := Ideal) S_ .f32 0x47435000#32))))) :=
    allReal_subf hh (allReal_broadcastInDim _ _ (allReal_divf
      (allReal_broadcastInDim _ _ (allReal_reduceAdd _ _ hh fun i => ⟨0, const_zero S_ i⟩))
      (ne_zero_of_pos (pos_broadcastInDim _ _ fun i => ⟨50000, by norm_num, const_50000 S_ i⟩))))
  obtain ⟨r, hr, he⟩ := nonneg_divf_pos
    (nonneg_reduceAdd reducesTo_S50000x64_S64_d0 h_S_ (nonneg_sq hd) fun i => ⟨0, le_rfl, const_zero S_ i⟩)
    (pos_broadcastInDim ![] bcast_S_S64 fun i => ⟨50000, by norm_num, count_apply i⟩) j
  exact ⟨r, hr, (select_of_one _ _ _ j (cmpf_ogt_of_lt _ (by rw [count_apply, const_zero]; exact count_pos))).trans he⟩

end Cert.VarReal

end
-- ==== Proof.StageReal.lean ====
/-
  The stages of the network on real data: the two spellings of batch normalisation agree, and every shared stage keeps
  real arrays real.

  The variance stage is the variance term whose nonnegativity is known (var128_eq, var64_eq: the same composition of
  operations). On a real array h the column means are real, the column variances are nonnegative reals, variance plus
  1e-5 is a positive real and its reciprocal square root is real; with real scale and shift every number entering the
  batch normalisation is then real, so the kernel program's spelling and the reference's coincide (bn128_eq, bn64_eq)
  and their common value is real (allReal_bnR, allReal_bnR64). The encoder's and the decoder's linear maps, the
  neighbourhood aggregation, the running sum and the division by six are finite sums, products and a quotient by a
  nonzero real of real numbers: real (allReal_encPre, allReal_decPre, allReal_agg, allReal_hsAdd, allReal_zdiv); so is
  the GRU cell on whole arrays (allReal_gruR), whose gates divide by 1 + exp of a real, a positive real.
  The batch normalisation facts are also stated for any real mean vector and any nonnegative real variance vector
  (bn128_eq_of, allReal_bnR_of, and their 64-column forms).
-/
import proofs.«141514_j89154931130446_1_alg».proof.Proof.Spec
import proofs.«141514_j89154931130446_1_alg».proof.Proof.LibRealOps
import proofs.«141514_j89154931130446_1_alg».proof.Proof.LibBatchNorm
import proofs.«141514_j89154931130446_1_alg».proof.Proof.VarReal

noncomputable section

namespace Cert.StageReal

open Idealize.ShloMosaic
open Cert.ReferenceIdeal Cert.ReferenceIdeal.Facts₀
open Cert.RealOps

/-! ## The variance stage is the variance term -/

/-- The 128-column variance stage is, operation for operation, the variance term of known nonnegativity. -/
theorem var128_eq (h : (⟨S50000x128, .f32⟩ : BufTy).Contents (Elt Ideal)) : Spec.var128 (F := Ideal) h = Cert.VarReal.varOf h := rfl

/-- The 64-column variance stage likewise. -/
theorem var64_eq (h : (⟨S50000x64, .f32⟩ : BufTy).Contents (Elt Ideal)) : Spec.var64 (F := Ideal) h = Cert.VarReal.varOf64 h := rfl

/-! ## The encoder's batch normalisation (128 columns) -/

/-- The column means of a real 50000 × 128 array are real: a finite sum of reals over the real number 50000. -/
theorem allReal_mean128 {h : (⟨S50000x128, .f32⟩ : BufTy).Contents (Elt Ideal)} (hh : AllReal h) : AllReal (Spec.mean128 (F := Ideal) h) :=
  allReal_divf (allReal_reduceAdd _ _ hh fun i => ⟨0, const_zero S_ i⟩)
    (ne_zero_of_pos (pos_broadcastInDim _ _ fun i => ⟨50000, by norm_num, const_50000 S_ i⟩))

/-- The column variances of a real 50000 × 128 array are nonnegative reals. -/
theorem nonneg_var128 {h : (⟨S50000x128, .f32⟩ : BufTy).Contents (Elt Ideal)} (hh : AllReal h) :
    ∀ j, ∃ r : ℝ, 0 ≤ r ∧ Spec.var128 (F := Ideal) h j = (r : EReal) := by
  rw [var128_eq]
  exact Cert.VarReal.varOf_nonneg hh

/-- A nonnegative real vector plus the constant 1e-5, the argument of the reciprocal square root, is a positive real. -/
theorem pos_add_eps128 {v : (⟨S128, .f32⟩ : BufTy).Contents (Elt Ideal)} (hv : ∀ j, ∃ r : ℝ, 0 ≤ r ∧ v j = (r : EReal)) :
    ∀ j, ∃ r : ℝ, 0 < r ∧ addf (F := Ideal) (φ := .f32) v
      (broadcastInDim S128 ![] bcast_S_S128 (constant (F := Ideal) S_ .f32 0x3727C5AC#32)) j = (r : EReal) := by
  obtain ⟨q, hq, hqe⟩ := const_eps S_
  exact pos_addf_of_nonneg_of_pos hv (pos_broadcastInDim _ _ fun i => ⟨q, hq, hqe i⟩)

/-- With a real array, a real mean vector, a nonnegative real variance vector and real scale and shift, the kernel program's
    spelling of batch normalisation with rectifier, max(h·s + (β − μ·s), 0) with s = γ·rsqrt(v + ε), and the reference's,
    max(((h − μ)·rsqrt(v + ε))·γ + β, 0), are the same array: entry by entry every number is real, where the two affine
    forms agree, and the rectifier is applied to both alike. -/
theorem bn128_eq_of {h : (⟨S50000x128, .f32⟩ : BufTy).Contents (Elt Ideal)} {mu v g b : (⟨S128, .f32⟩ : BufTy).Contents (Elt Ideal)} (hh : AllReal h) (hmu : AllReal mu)
    (hv : ∀ j, ∃ r : ℝ, 0 ≤ r ∧ v j = (r : EReal)) (hg : AllReal g) (hb : AllReal b) :
    Spec.bnK (F := Ideal) h mu v g b = Spec.bnR (F := Ideal) h mu v g b :=
  congrArg
    (fun A => maximumf (F := Ideal) (φ := .f32) A
      (broadcastInDim S50000x128 ![] bcast_S_S50000x128 (constant (F := Ideal) S_ .f32 0x00000000#32)))
    (Cert.BatchNorm.bn_affine_eq _ _ _ _ hh hmu (allReal_rsqrt (pos_add_eps128 hv)) hg hb)

/-- Under the same hypotheses the reference's batch normalisation with rectifier is real. -/
theorem allReal_bnR_of {h : (⟨S50000x128, .f32⟩ : BufTy).Contents (Elt Ideal)} {mu v g b : (⟨S128, .f32⟩ : BufTy).Contents (Elt Ideal)} (hh : AllReal h) (hmu : AllReal mu)
    (hv : ∀ j, ∃ r : ℝ, 0 ≤ r ∧ v j = (r : EReal)) (hg : AllReal g) (hb : AllReal b) :
    AllReal (Spec.bnR (F := Ideal) h mu v g b) :=
  allReal_maximumf
    (Cert.BatchNorm.allReal_bn_affine _ _ _ _ hh hmu (allReal_rsqrt (pos_add_eps128 hv)) hg hb)
    (allReal_broadcastInDim _ _ fun i => ⟨0, const_zero S_ i⟩)

/-- On real data, normalised by its own column means and variances, with real scale and shift, the two spellings of batch
    normalisation with rectifier are the same array. -/
theorem bn128_eq {h : (⟨S50000x128, .f32⟩ : BufTy).Contents (Elt Ideal)} {g b : (⟨S128, .f32⟩ : BufTy).Contents (Elt Ideal)} (hh : AllReal h) (hg : AllReal g) (hb : AllReal b) :
    Spec.bnK (F := Ideal) h (Spec.mean128 (F := Ideal) h) (Spec.var128 (F := Ideal) h) g b
      = Spec.bnR (F := Ideal) h (Spec.mean128 (F := Ideal) h) (Spec.var128 (F := Ideal) h) g b :=
  bn128_eq_of hh (allReal_mean128 hh) (nonneg_var128 hh) hg hb

/-- On real data, normalised by its own column means and variances, with real scale and shift, the reference's batch
    normalisation with rectifier is real. -/
theorem allReal_bnR {h : (⟨S50000x128, .f32⟩ : BufTy).Contents (Elt Ideal)} {g b : (⟨S128, .f32⟩ : BufTy).Contents (Elt Ideal)} (hh : AllReal h) (hg : AllReal g) (hb : AllReal b) :
    AllReal (Spec.bnR (F := Ideal) h (Spec.mean128 (F := Ideal) h) (Spec.var128 (F := Ideal) h) g b) :=
  allReal_bnR_of hh (allReal_mean128 hh) (nonneg_var128 hh) hg hb

/-! ## The decoder's batch normalisation (64 columns) -/

/-- The column means of a real 50000 × 64 array are real: a finite sum of reals over the real number 50000. -/
theorem allReal_mean64 {h : (⟨S50000x64, .f32⟩ : BufTy).Contents (Elt Ideal)} (hh : AllReal h) : AllReal (Spec.mean64 (F := Ideal) h) :=
  allReal_divf (allReal_reduceAdd _ _ hh fun i => ⟨0, const_zero S_ i⟩)
    (ne_zero_of_pos (pos_broadcastInDim _ _ fun i => ⟨50000, by norm_num, const_50000 S_ i⟩))

/-- The column variances of a real 50000 × 64 array are nonnegative reals. -/
theorem nonneg_var64 {h : (⟨S50000x64, .f32⟩ : BufTy).Contents (Elt Ideal)} (hh : AllReal h) :
    ∀ j, ∃ r : ℝ, 0 ≤ r ∧ Spec.var64 (F := Ideal) h j = (r : EReal) := by
  rw [var64_eq]
  exact Cert.VarReal.varOf64_nonneg hh

/-- A nonnegative real vector plus the constant 1e-5, the argument of the reciprocal square root, is a positive real. -/
theorem pos_add_eps64 {v : (⟨S64, .f32⟩ : BufTy).Contents (Elt Ideal)} (hv : ∀ j, ∃ r : ℝ, 0 ≤ r ∧ v j = (r : EReal)) :
    ∀ j, ∃ r : ℝ, 0 < r ∧ addf (F := Ideal) (φ := .f32) v
      (broadcastInDim S64 ![] bcast_S_S64 (constant (F := Ideal) S_ .f32 0x3727C5AC#32)) j = (r : EReal) := by
  obtain ⟨q, hq, hqe⟩ := const_eps S_
  exact pos_addf_of_nonneg_of_pos hv (pos_broadcastInDim _ _ fun i => ⟨q, hq, hqe i⟩)

/-- With a real array, a real mean vector, a nonnegative real variance vector and real scale and shift, the kernel program's
    spelling of batch normalisation with rectifier, max(h·s + (β − μ·s), 0) with s = γ·rsqrt(v + ε), and the reference's,
    max(((h − μ)·rsqrt(v + ε))·γ + β, 0), are the same array: entry by entry every number is real, where the two affine
    forms agree, and the rectifier is applied to both alike. -/
theorem bn64_eq_of {h : (⟨S50000x64, .f32⟩ : BufTy).Contents (Elt Ideal)} {mu v g b : (⟨S64, .f32⟩ : BufTy).Contents (Elt Ideal)} (hh : AllReal h) (hmu : AllReal mu)
    (hv : ∀ j, ∃ r : ℝ, 0 ≤ r ∧ v j = (r : EReal)) (hg : AllReal g) (hb : AllReal b) :
    Spec.bnK64 (F := Ideal) h mu v g b = Spec.bnR64 (F := Ideal) h mu v g b :=
  congrArg
    (fun A => maximumf (F := Ideal) (φ := .f32) A
      (broadcastInDim S50000x64 ![] bcast_S_S50000x64 (constant (F := Ideal) S_ .f32 0x00000000#32)))
    (Cert.BatchNorm.bn_affine_eq _ _ _ _ hh hmu (allReal_rsqrt (pos_add_eps64 hv)) hg hb)

/-- Under the same hypotheses the reference's batch normalisation with rectifier is real. -/
theorem allReal_bnR64_of {h : (⟨S50000x64, .f32⟩ : BufTy).Contents (Elt Ideal)} {mu v g b : (⟨S64, .f32⟩ : BufTy).Contents (Elt Ideal)} (hh : AllReal h) (hmu : AllReal mu)
    (hv : ∀ j, ∃ r : ℝ, 0 ≤ r ∧ v j = (r : EReal)) (hg : AllReal g) (hb : AllReal b) :
    AllReal (Spec.bnR64 (F := Ideal) h mu v g b) :=
  allReal_maximumf
    (Cert.BatchNorm.allReal_bn_affine _ _ _ _ hh hmu (allReal_rsqrt (pos_add_eps64 hv)) hg hb)
    (allReal_broadcastInDim _ _ fun i => ⟨0, const_zero S_ i⟩)

/-- On real data, normalised by its own column means and variances, with real scale and shift, the two spellings of batch
    normalisation with rectifier are the same array. -/
theorem bn64_eq {h : (⟨S50000x64, .f32⟩ : BufTy).Contents (Elt Ideal)} {g b : (⟨S64, .f32⟩ : BufTy).Contents (Elt Ideal)} (hh : AllReal h) (hg : AllReal g) (hb : AllReal b) :
    Spec.bnK64 (F := Ideal) h (Spec.mean64 (F := Ideal) h) (Spec.var64 (F := Ideal) h) g b
      = Spec.bnR64 (F := Ideal) h (Spec.mean64 (F := Ideal) h) (Spec.var64 (F := Ideal) h) g b :=
  bn64_eq_of hh (allReal_mean64 hh) (nonneg_var64 hh) hg hb

/-- On real data, normalised by its own column means and variances, with real scale and shift, the reference's batch
    normalisation with rectifier is real. -/
theorem allReal_bnR64 {h : (⟨S50000x64, .f32⟩ : BufTy).Contents (Elt Ideal)} {g b : (⟨S64, .f32⟩ : BufTy).Contents (Elt Ideal)} (hh : AllReal h) (hg : AllReal g) (hb : AllReal b) :
    AllReal (Spec.bnR64 (F := Ideal) h (Spec.mean64 (F := Ideal) h) (Spec.var64 (F := Ideal) h) g b) :=
  allReal_bnR64_of hh (allReal_mean64 hh) (nonneg_var64 hh) hg hb

/-! ## The shared stages keep real arrays real -/

/-- The encoder's linear map of real data by a real matrix is real. -/
theorem allReal_encPre {x : (⟨S50000x3, .f32⟩ : BufTy).Contents (Elt Ideal)} {W : (⟨S128x3, .f32⟩ : BufTy).Contents (Elt Ideal)} (hx : AllReal x) (hW : AllReal W) :
    AllReal (Spec.encPre (F := Ideal) x W) :=
  allReal_dotGeneral _ hx (allReal_transpose _ _ hW)

/-- The neighbourhood aggregation of a real array with real edge weights is real, whatever the edge lists: gathered
    rows times broadcast weights, summed into a zero array. -/
theorem allReal_agg {nrm : (⟨S640000, .f32⟩ : BufTy).Contents (Elt Ideal)} (s d : (⟨S640000, .i32⟩ : BufTy).Contents (Elt Ideal)) {prev : (⟨S50000x128, .f32⟩ : BufTy).Contents (Elt Ideal)} (hn : AllReal nrm)
    (hp : AllReal prev) : AllReal (Spec.agg (F := Ideal) nrm s d prev) :=
  allReal_scatterAdd _ _ (allReal_broadcastInDim _ _ fun i => ⟨0, const_zero S_ i⟩)
    (allReal_mulf (allReal_broadcastInDim _ _ (allReal_broadcastInDim _ _ hn)) (allReal_gather _ _ hp))

/-- The running sum of two real arrays is real. -/
theorem allReal_hsAdd {hs a : (⟨S50000x128, .f32⟩ : BufTy).Contents (Elt Ideal)} (hhs : AllReal hs) (ha : AllReal a) :
    AllReal (Spec.hsAdd (F := Ideal) hs a) :=
  allReal_addf hhs ha

/-- A real array divided by six is real. -/
theorem allReal_zdiv {hs : (⟨S50000x128, .f32⟩ : BufTy).Contents (Elt Ideal)} (hhs : AllReal hs) : AllReal (Spec.zdiv (F := Ideal) hs) :=
  allReal_divf hhs (ne_zero_of_pos (pos_broadcastInDim _ _ fun i => ⟨6, by norm_num, const_six S_ i⟩))

/-- The decoder's first linear map of real data by a real matrix is real. -/
theorem allReal_decPre {z : (⟨S50000x128, .f32⟩ : BufTy).Contents (Elt Ideal)} {W : (⟨S64x128, .f32⟩ : BufTy).Contents (Elt Ideal)} (hz : AllReal z) (hW : AllReal W) :
    AllReal (Spec.decPre (F := Ideal) z W) :=
  allReal_dotGeneral _ hz (allReal_transpose _ _ hW)

/-- The GRU cell as the reference's host operations compute it keeps real arrays real: two affine maps of real arrays by
    real matrices and real biases, their column thirds, two gates 1 / (1 + exp (-x)), a hyperbolic tangent, and sums and
    products of these. -/
theorem allReal_gruR {a p : (⟨S50000x128, .f32⟩ : BufTy).Contents (Elt Ideal)} {Wih Whh : (⟨S384x128, .f32⟩ : BufTy).Contents (Elt Ideal)} {bih bhh : (⟨S384, .f32⟩ : BufTy).Contents (Elt Ideal)} (ha : AllReal a)
    (hp : AllReal p) (hWih : AllReal Wih) (hWhh : AllReal Whh) (hbih : AllReal bih) (hbhh : AllReal bhh) :
    AllReal (Spec.gruR (F := Ideal) a p Wih Whh bih bhh) := by
  have hgi := allReal_addf
    (allReal_dotGeneral dot_S50000x128_S128x384_S50000x384_1_0_0_1_n_n ha
      (allReal_transpose _ transposes_S384x128_S128x384_1_0 hWih))
    (allReal_broadcastInDim _ bcast_S1x384_S50000x384_0_1 (allReal_broadcastInDim _ bcast_S384_S1x384_1 hbih))
  have hgh := allReal_addf
    (allReal_dotGeneral dot_S50000x128_S128x384_S50000x384_1_0_0_1_n_n hp
      (allReal_transpose _ transposes_S384x128_S128x384_1_0 hWhh))
    (allReal_broadcastInDim _ bcast_S1x384_S50000x384_0_1 (allReal_broadcastInDim _ bcast_S384_S1x384_1 hbhh))
  have hz := allReal_sigmoid _ bcast_S_S50000x128
    (allReal_addf (allReal_slice _ slices_S50000x384_S50000x128_0_128 hgi)
      (allReal_slice _ slices_S50000x384_S50000x128_0_128 hgh))
  have hr := allReal_sigmoid _ bcast_S_S50000x128
    (allReal_addf (allReal_slice _ slices_S50000x384_S50000x128_0_0 hgi)
      (allReal_slice _ slices_S50000x384_S50000x128_0_0 hgh))
  have hn := allReal_tanh
    (allReal_addf (allReal_slice _ slices_S50000x384_S50000x128_0_256 hgi)
      (allReal_mulf hr (allReal_slice _ slices_S50000x384_S50000x128_0_256 hgh)))
  have hone := allReal_broadcastInDim _ bcast_S_S50000x128 (a := constant (F := Ideal) S_ .f32 0x3F800000#32)
    fun i => ⟨1, const_one S_ i⟩
  exact allReal_addf (allReal_mulf (allReal_subf hone hz) hn) (allReal_mulf hz hp)

end Cert.StageReal

end
-- ==== Proof.GruWhole.lean ====
/-
  The GRU cell on whole arrays: the launched kernel's row-by-row formula and the reference's host operations are
  one function, and it keeps real arrays real.

  The kernel program hands its cell the weight matrices transposed and the biases as rows; read at an entry, the
  transposed matrix at (k, c) is the matrix at (c, k) and the row at (0, c) is the vector at c. So applying the
  scalar formula of the cell to every row of the arrays gives, entry by entry, what the reference's host operations
  give. Every operation of the cell (finite sums of products, sums, differences, products, the logistic function
  spelt 1 / (1 + exp (-x)), the hyperbolic tangent) takes real numbers to real numbers, so the cell of real arrays
  is a real array.
-/
import proofs.«141514_j89154931130446_1_alg».proof.Proof.GruCell
import proofs.«141514_j89154931130446_1_alg».proof.Proof.Spec
import proofs.«141514_j89154931130446_1_alg».proof.Proof.CellWhole
import proofs.«141514_j89154931130446_1_alg».proof.Proof.LibRealOps

noncomputable section

namespace Cert.Gru

open Idealize.ShloMosaic Idealize.ShloMosaic.ValueIdx Cert.RealOps

/-! ## The two layouts the kernel program hands its cell, read at an entry -/

/-- A weight matrix transposed (and narrowed, the identity on the extended reals) reads, at (k, c), the matrix at
    (c, k). -/
theorem wT_apply (W : (⟨Cert.KernelIdeal.S384x128, .f32⟩ : BufTy).Contents (Elt Ideal)) (k : Fin 128) (c : Fin 384) :
    Spec.wT (F := Ideal) W (ix2 k c) = W (ix2 c k) := by
  unfold Spec.wT
  exact transpose_ix2_apply W _ k c

/-- A bias vector recast as one row reads, at (0, c), the vector at c. -/
theorem bRow_apply (b : (⟨Cert.KernelIdeal.S384, .f32⟩ : BufTy).Contents (Elt Ideal)) (c : Fin 384) :
    Spec.bRow (F := Ideal) b (ix2 (0 : Fin 1) c) = b (ix1 c) := by
  unfold Spec.bRow
  exact shapeCast_apply b _ (ix2 (0 : Fin 1) c) (ix1 c) (by
    rw [Shape.rowMajor_val_two, Shape.rowMajor_val_one]; show c.val = 0 * 384 + c.val; omega)

section Reference

open Cert.ReferenceIdeal Cert.ReferenceIdeal.Facts₀

/-! ## The reference's cell, in its two spellings -/

/-- The reference's cell written with each operation's type spelt out is the same composition. -/
theorem gruR_spec (a p : (⟨S50000x128, .f32⟩ : BufTy).Contents (Elt Ideal))
    (Wih Whh : (⟨S384x128, .f32⟩ : BufTy).Contents (Elt Ideal)) (bih bhh : (⟨S384, .f32⟩ : BufTy).Contents (Elt Ideal)) :
    Spec.gruR (F := Ideal) a p Wih Whh bih bhh = Cert.Gru.gruR a p Wih Whh bih bhh := rfl

/-! ## The kernel's row-by-row formula is the reference's cell -/

/-- The scalar formula of the cell applied to every row, over the transposed weights and the bias rows, is the
    reference's cell on the whole arrays. -/
theorem whole_eq_gruR (a p : (⟨S50000x128, .f32⟩ : BufTy).Contents (Elt Ideal))
    (Wih Whh : (⟨S384x128, .f32⟩ : BufTy).Contents (Elt Ideal)) (bih bhh : (⟨S384, .f32⟩ : BufTy).Contents (Elt Ideal)) :
    Cert.KernelIdeal.Reg.whole Cert.Gru.cellAt a p (Spec.wT (F := Ideal) Wih) (Spec.wT (F := Ideal) Whh)
        (Spec.bRow (F := Ideal) bih) (Spec.bRow (F := Ideal) bhh)
      = Spec.gruR (F := Ideal) a p Wih Whh bih bhh := by
  funext i
  obtain ⟨r, q, rfl⟩ : ∃ (r : Fin 50000) (q : Fin 128), i = ix2 r q := ⟨i 0, i 1, eq_ix2 i⟩
  rw [Cert.KernelIdeal.Reg.whole_apply, gruR_spec, gruR_apply]
  rw [show (fun (k : Fin 128) (c : Fin 384) => Spec.wT (F := Ideal) Wih (ix2 k c)) = fun k c => Wih (ix2 c k) from
      funext fun k => funext fun c => wT_apply Wih k c,
    show (fun (k : Fin 128) (c : Fin 384) => Spec.wT (F := Ideal) Whh (ix2 k c)) = fun k c => Whh (ix2 c k) from
      funext fun k => funext fun c => wT_apply Whh k c,
    show (fun (c : Fin 384) => Spec.bRow (F := Ideal) bih (ix2 (0 : Fin 1) c)) = fun c => bih (ix1 c) from
      funext fun c => bRow_apply bih c,
    show (fun (c : Fin 384) => Spec.bRow (F := Ideal) bhh (ix2 (0 : Fin 1) c)) = fun c => bhh (ix1 c) from
      funext fun c => bRow_apply bhh c]

/-! ## The cell keeps real arrays real -/

/-- The reference's cell of real arrays, weights and biases is a real array. -/
theorem allReal_gruR (a p : (⟨S50000x128, .f32⟩ : BufTy).Contents (Elt Ideal))
    (Wih Whh : (⟨S384x128, .f32⟩ : BufTy).Contents (Elt Ideal)) (bih bhh : (⟨S384, .f32⟩ : BufTy).Contents (Elt Ideal))
    (ha : AllReal (S := S50000x128) a) (hp : AllReal (S := S50000x128) p) (hWih : AllReal (S := S384x128) Wih)
    (hWhh : AllReal (S := S384x128) Whh) (hbih : AllReal (S := S384) bih) (hbhh : AllReal (S := S384) bhh) :
    AllReal (S := S50000x128) (Spec.gruR (F := Ideal) a p Wih Whh bih bhh) := by
  rw [gruR_spec]
  unfold Cert.Gru.gruR
  have hgi := allReal_addf (allReal_dotGeneral dot_S50000x128_S128x384_S50000x384_1_0_0_1_n_n ha
      (allReal_transpose [1, 0] transposes_S384x128_S128x384_1_0 hWih))
    (allReal_broadcastInDim ![0, 1] bcast_S1x384_S50000x384_0_1 (allReal_broadcastInDim ![1] bcast_S384_S1x384_1 hbih))
  have hgh := allReal_addf (allReal_dotGeneral dot_S50000x128_S128x384_S50000x384_1_0_0_1_n_n hp
      (allReal_transpose [1, 0] transposes_S384x128_S128x384_1_0 hWhh))
    (allReal_broadcastInDim ![0, 1] bcast_S1x384_S50000x384_0_1 (allReal_broadcastInDim ![1] bcast_S384_S1x384_1 hbhh))
  have hr := allReal_sigmoid (S0 := S_) ![] bcast_S_S50000x128
    (allReal_addf (allReal_slice ![0, 0] slices_S50000x384_S50000x128_0_0 hgi)
      (allReal_slice ![0, 0] slices_S50000x384_S50000x128_0_0 hgh))
  have hz := allReal_sigmoid (S0 := S_) ![] bcast_S_S50000x128
    (allReal_addf (allReal_slice ![0, 128] slices_S50000x384_S50000x128_0_128 hgi)
      (allReal_slice ![0, 128] slices_S50000x384_S50000x128_0_128 hgh))
  have hone : AllReal (S := S50000x128)
      (broadcastInDim S50000x128 ![] bcast_S_S50000x128 (constant (F := Ideal) S_ .f32 0x3F800000#32)) :=
    fun i => ⟨1, bcast_one_apply (S0 := S_) ![] bcast_S_S50000x128 i⟩
  have hn1 := allReal_slice ![0, 256] slices_S50000x384_S50000x128_0_256 hgi
  have hn2 := allReal_slice ![0, 256] slices_S50000x384_S50000x128_0_256 hgh
  have hn := allReal_tanh (allReal_addf hn1 (allReal_mulf hr hn2))
  have hfin := allReal_addf (allReal_mulf (allReal_subf hone hz) hn) (allReal_mulf hz hp)
  exact hfin

end Reference

end Cert.Gru

end
-- ==== Proof.Main.lean ====
/-
  The two programs compute one function of the arguments, where every float argument is a real number.
  Both results are the decoder applied to hs₅ of the five-layer recursion p₀ = hs₀ = h0, aₖ = agg(pₖ), pₖ₊₁ = G(aₖ, pₖ),
  hsₖ₊₁ = hsₖ + aₖ. They differ in three places, and agree at each:
  • h0: the encoder's batch normalisation, h·s + (β − μ·s) with s = γ·r against ((h − μ)·r)·γ + β — equal because h, μ,
    r = rsqrt(v + ε), γ, β are real numbers (the variance v is a nonnegative real, so v + ε > 0), where multiplication
    distributes over the sum;
  • G: the launched GRU cell on whole arrays against the reference's host operations — one formula entry by entry,
    with no condition;
  • the decoder's batch normalisation — as the encoder's, its input being real because every layer keeps arrays real
    (sums and products of reals, 1/(1 + e^{−x}) and tanh of a real are real).
-/
import proofs.«141514_j89154931130446_1_alg».proof.Proof.Spec
import proofs.«141514_j89154931130446_1_alg».proof.Proof.Net
import proofs.«141514_j89154931130446_1_alg».proof.Proof.CellWhole
import proofs.«141514_j89154931130446_1_alg».proof.Proof.StageReal
import proofs.«141514_j89154931130446_1_alg».proof.Proof.GruWhole

noncomputable section

open Idealize.ShloMosaic

namespace Cert.Forms

open Cert.ReferenceIdeal Cert.RealOps

variable (a0 : (⟨S50000x3, .f32⟩ : BufTy).Contents (Elt Ideal)) (a1 : (⟨S2x640000, .i32⟩ : BufTy).Contents (Elt Ideal)) (a2 : (⟨S640000, .f32⟩ : BufTy).Contents (Elt Ideal))
  (a3 : (⟨S128x3, .f32⟩ : BufTy).Contents (Elt Ideal)) (a4 a5 : (⟨S128, .f32⟩ : BufTy).Contents (Elt Ideal)) (a6 a7 : (⟨S384x128, .f32⟩ : BufTy).Contents (Elt Ideal))
  (a8 a9 : (⟨S384, .f32⟩ : BufTy).Contents (Elt Ideal)) (a10 : (⟨S64x128, .f32⟩ : BufTy).Contents (Elt Ideal)) (a11 a12 : (⟨S64, .f32⟩ : BufTy).Contents (Elt Ideal)) (a13 : (⟨S1x64, .f32⟩ : BufTy).Contents (Elt Ideal))

/-- The encoder's output, the kernel program's spelling. -/
def h0K : Net.Arr :=
  Spec.bnK (F := Ideal) (Spec.encPre (F := Ideal) a0 a3) (Spec.mean128 (F := Ideal) (Spec.encPre (F := Ideal) a0 a3))
    (Spec.var128 (F := Ideal) (Spec.encPre (F := Ideal) a0 a3)) a4 a5
/-- The encoder's output, the reference's spelling. -/
def h0R : Net.Arr :=
  Spec.bnR (F := Ideal) (Spec.encPre (F := Ideal) a0 a3) (Spec.mean128 (F := Ideal) (Spec.encPre (F := Ideal) a0 a3))
    (Spec.var128 (F := Ideal) (Spec.encPre (F := Ideal) a0 a3)) a4 a5
/-- The aggregate of a hidden state over the graph's edges. -/
def aggF (p : Net.Arr) : Net.Arr := Spec.agg (F := Ideal) a2 (Spec.idxS (F := Ideal) a1) (Spec.idxD (F := Ideal) a1) p
/-- The launched GRU cell on whole arrays. -/
def GK (x p : Net.Arr) : Net.Arr :=
  Cert.KernelIdeal.Reg.whole Cert.Gru.cellAt x p (Spec.wT (F := Ideal) a6) (Spec.wT (F := Ideal) a7) (Spec.bRow (F := Ideal) a8) (Spec.bRow (F := Ideal) a9)
/-- The reference's GRU cell on whole arrays. -/
def GR (x p : Net.Arr) : Net.Arr := Spec.gruR (F := Ideal) x p a6 a7 a8 a9

/-- THE TWO RESULTS ARE EQUAL where the float arguments are real. -/
theorem results_eq (h0 : AllReal a0) (h2 : AllReal a2) (h3 : AllReal a3) (h4 : AllReal a4) (h5 : AllReal a5)
    (h6 : AllReal a6) (h7 : AllReal a7) (h8 : AllReal a8) (h9 : AllReal a9) (h10 : AllReal a10) (h11 : AllReal a11)
    (h12 : AllReal a12) :
    Net.dec (Spec.bnK64 (F := Ideal)) (Net.hsSeq (GK a6 a7 a8 a9) (aggF a1 a2) (h0K a0 a3 a4 a5) 5) a10 a11 a12 a13
      = Net.dec (Spec.bnR64 (F := Ideal)) (Net.hsSeq (GR a6 a7 a8 a9) (aggF a1 a2) (h0R a0 a3 a4 a5) 5) a10 a11 a12 a13 := by
  have hpre : AllReal (Spec.encPre (F := Ideal) a0 a3) := Cert.StageReal.allReal_encPre h0 h3
  have hh : h0K a0 a3 a4 a5 = h0R a0 a3 a4 a5 := Cert.StageReal.bn128_eq hpre h4 h5
  have hP0 : AllReal (h0R a0 a3 a4 a5) := Cert.StageReal.allReal_bnR hpre h4 h5
  obtain ⟨-, e2, -, q2⟩ := Net.seq_eq (fun x : Net.Arr => AllReal x) (GK a6 a7 a8 a9) (GR a6 a7 a8 a9) (aggF a1 a2)
    (h0K a0 a3 a4 a5) (h0R a0 a3 a4 a5) hh (hh ▸ hP0)
    (fun p hp => Cert.StageReal.allReal_agg _ _ h2 hp)
    (fun x p _ _ => Cert.Gru.whole_eq_gruR x p a6 a7 a8 a9)
    (fun x p hx hp => Cert.StageReal.allReal_gruR hx hp h6 h7 h8 h9)
    (fun x y hx hy => Cert.StageReal.allReal_hsAdd hx hy) 5
  rw [e2]
  unfold Net.dec
  have hy : AllReal (Spec.decPre (F := Ideal) (Spec.zdiv (F := Ideal) (Net.hsSeq (GR a6 a7 a8 a9) (aggF a1 a2) (h0R a0 a3 a4 a5) 5)) a10) :=
    Cert.StageReal.allReal_decPre (Cert.StageReal.allReal_zdiv q2) h10
  exact congrArg (fun y => Spec.outp (F := Ideal) y a13) (Cert.StageReal.bn64_eq hy h11 h12)

end Cert.Forms

end
-- ==== Proof.lean ====
/-
  The proof of `Cert.Claim`: the three frames, the (empty) idealization ledger, and the equality of the two idealized
  programs' results over the extended reals.
  • The word-level kernel program and its idealization run, fault-free, with their arguments unchanged: the generated
    frame certificates (five launched regions among stretches of host operations).
  • The reference is one straight line of host operations; its run leaves every buffer at the fold of the operations
    over the launch memory, and no operation writes an argument.
  • The idealized kernel program's result buffer ends at the decoder of hs₅, where p₀ = hs₀ = the encoder's output,
    aₖ = the edge aggregate of pₖ, pₖ₊₁ = the launched GRU cell of (aₖ, pₖ), hsₖ₊₁ = hsₖ + aₖ; the reference's ends at the
    same recursion with its own spellings of the encoder's and decoder's batch normalisation and of the cell. The cell
    agrees entry by entry with no condition; the two batch normalisations agree because every number they meet is
    real — the precondition makes every float argument entry real, and every stage keeps arrays real.
-/
import proofs.«141514_j89154931130446_1_alg».proof.Defs
import proofs.«141514_j89154931130446_1_alg».proof.Proof.Gen.Kernel
import proofs.«141514_j89154931130446_1_alg».proof.Proof.Gen.Kernel.Skeleton
import proofs.«141514_j89154931130446_1_alg».proof.Proof.Gen.Kernel.Launch
import proofs.«141514_j89154931130446_1_alg».proof.Proof.Gen.Kernel.Points
import proofs.«141514_j89154931130446_1_alg».proof.Proof.Gen.Kernel.Frame
import proofs.«141514_j89154931130446_1_alg».proof.Proof.Gen.KernelIdeal
import proofs.«141514_j89154931130446_1_alg».proof.Proof.Gen.KernelIdeal.Skeleton
import proofs.«141514_j89154931130446_1_alg».proof.Proof.Gen.KernelIdeal.Launch
import proofs.«141514_j89154931130446_1_alg».proof.Proof.Gen.KernelIdeal.Points
import proofs.«141514_j89154931130446_1_alg».proof.Proof.Gen.KernelIdeal.Frame
import proofs.«141514_j89154931130446_1_alg».proof.Proof.Gen.ReferenceIdeal
import proofs.«141514_j89154931130446_1_alg».proof.Proof.Gen.Pre_finite_inputs
import proofs.«141514_j89154931130446_1_alg».proof.Proof.KernelRun
import proofs.«141514_j89154931130446_1_alg».proof.Proof.KChain
import proofs.«141514_j89154931130446_1_alg».proof.Proof.GruPay
import proofs.«141514_j89154931130446_1_alg».proof.Proof.RefRun
import proofs.«141514_j89154931130446_1_alg».proof.Proof.RefChain
import proofs.«141514_j89154931130446_1_alg».proof.Proof.PreReal
import proofs.«141514_j89154931130446_1_alg».proof.Proof.Main
import Idealize.ShloMosaic.Adequacy
import Idealize.ShloMosaic.Init

set_option maxRecDepth 16384

noncomputable section

namespace Cert.Proof

open Idealize.ShloMosaic Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ

/-- The reference's run, keeping only that no operation writes an argument. -/
theorem frame_ri : Cert.frame_ReferenceIdeal := fun m ρ _ =>
  (θ_run Cert.ReferenceIdeal.defs _ _).mono (fun r h c => ⟨(h c Cert.ReferenceIdeal.main_arg0).trans (Cert.ReferenceIdeal.Chain.ref_arg0 (F := Ideal) (StableHlo.launchContents m c)),
      (h c Cert.ReferenceIdeal.main_arg1).trans (Cert.ReferenceIdeal.Chain.ref_arg1 (F := Ideal) (StableHlo.launchContents m c)),
      (h c Cert.ReferenceIdeal.main_arg2).trans (Cert.ReferenceIdeal.Chain.ref_arg2 (F := Ideal) (StableHlo.launchContents m c)),
      (h c Cert.ReferenceIdeal.main_arg3).trans (Cert.ReferenceIdeal.Chain.ref_arg3 (F := Ideal) (StableHlo.launchContents m c)),
      (h c Cert.ReferenceIdeal.main_arg4).trans (Cert.ReferenceIdeal.Chain.ref_arg4 (F := Ideal) (StableHlo.launchContents m c)),
      (h c Cert.ReferenceIdeal.main_arg5).trans (Cert.ReferenceIdeal.Chain.ref_arg5 (F := Ideal) (StableHlo.launchContents m c)),
      (h c Cert.ReferenceIdeal.main_arg6).trans (Cert.ReferenceIdeal.Chain.ref_arg6 (F := Ideal) (StableHlo.launchContents m c)),
      (h c Cert.ReferenceIdeal.main_arg7).trans (Cert.ReferenceIdeal.Chain.ref_arg7 (F := Ideal) (StableHlo.launchContents m c)),
      (h c Cert.ReferenceIdeal.main_arg8).trans (Cert.ReferenceIdeal.Chain.ref_arg8 (F := Ideal) (StableHlo.launchContents m c)),
      (h c Cert.ReferenceIdeal.main_arg9).trans (Cert.ReferenceIdeal.Chain.ref_arg9 (F := Ideal) (StableHlo.launchContents m c)),
      (h c Cert.ReferenceIdeal.main_arg10).trans (Cert.ReferenceIdeal.Chain.ref_arg10 (F := Ideal) (StableHlo.launchContents m c)),
      (h c Cert.ReferenceIdeal.main_arg11).trans (Cert.ReferenceIdeal.Chain.ref_arg11 (F := Ideal) (StableHlo.launchContents m c)),
      (h c Cert.ReferenceIdeal.main_arg12).trans (Cert.ReferenceIdeal.Chain.ref_arg12 (F := Ideal) (StableHlo.launchContents m c)),
      (h c Cert.ReferenceIdeal.main_arg13).trans (Cert.ReferenceIdeal.Chain.ref_arg13 (F := Ideal) (StableHlo.launchContents m c))⟩)
    (Cert.ReferenceIdeal.RefRun.run_main (F := Ideal) m ρ)

/-- The ideal pass rewrote nothing. -/
theorem preserves : Cert.preserves_Kernel_KernelIdeal := trivial

/-! ## The two results -/

/-- From memories that agree on the arguments and satisfy the precondition, the reference's result buffer and the
    idealized kernel program's end at one array. -/
theorem values_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1)
    (g0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (g1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (g2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (g3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (g4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (g5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (g6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6)))
    (g7 : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7)))
    (g8 : m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8)))
    (g9 : m' ((c.tc : Thread Cert.ReferenceIdeal.nD Cert.ReferenceIdeal.τ).loc Cert.ReferenceIdeal.main_arg9) = (m ((c.tc : Thread Cert.KernelIdeal.nD Cert.KernelIdeal.τ).loc Cert.KernelIdeal.main_arg9)))
    (g10 : m' ((c.tc : Thread Cert.ReferenceIdeal.nD Cert.ReferenceIdeal.τ).loc Cert.ReferenceIdeal.main_arg10) = (m ((c.tc : Thread Cert.KernelIdeal.nD Cert.KernelIdeal.τ).loc Cert.KernelIdeal.main_arg10)))
    (g11 : m' ((c.tc : Thread Cert.ReferenceIdeal.nD Cert.ReferenceIdeal.τ).loc Cert.ReferenceIdeal.main_arg11) = (m ((c.tc : Thread Cert.KernelIdeal.nD Cert.KernelIdeal.τ).loc Cert.KernelIdeal.main_arg11)))
    (g12 : m' ((c.tc : Thread Cert.ReferenceIdeal.nD Cert.ReferenceIdeal.τ).loc Cert.ReferenceIdeal.main_arg12) = (m ((c.tc : Thread Cert.KernelIdeal.nD Cert.KernelIdeal.τ).loc Cert.KernelIdeal.main_arg12)))
    (g13 : m' ((c.tc : Thread Cert.ReferenceIdeal.nD Cert.ReferenceIdeal.τ).loc Cert.ReferenceIdeal.main_arg13) = (m ((c.tc : Thread Cert.KernelIdeal.nD Cert.KernelIdeal.τ).loc Cert.KernelIdeal.main_arg13))) :
    StableHlo.after (Cert.ReferenceIdeal.RefRun.ops (F := Ideal)) (StableHlo.launchContents m' c) (Proc.devRef .tc Cert.ReferenceIdeal.main_v312)
      = Cert.KernelIdeal.Gen.W19 m ρ c (Proc.devRef .tc Cert.KernelIdeal.main_v127) := by
  obtain ⟨r0, r2, r3, r4, r5, r6, r7, r8, r9, r10, r11, r12, -⟩ := Cert.PreReal.real_of_pre _ _ _ _ _ _ _ _ _ _ _ _ _ _ hpre
  have e0 : (StableHlo.launchContents m' c (Proc.devRef .tc Cert.ReferenceIdeal.main_arg0)) = (m ((c.tc : Thread Cert.KernelIdeal.nD Cert.KernelIdeal.τ).loc Cert.KernelIdeal.main_arg0)) := g0
  have e1 : (StableHlo.launchContents m' c (Proc.devRef .tc Cert.ReferenceIdeal.main_arg1)) = (m ((c.tc : Thread Cert.KernelIdeal.nD Cert.KernelIdeal.τ).loc Cert.KernelIdeal.main_arg1)) := g1
  have e2 : (StableHlo.launchContents m' c (Proc.devRef .tc Cert.ReferenceIdeal.main_arg2)) = (m ((c.tc : Thread Cert.KernelIdeal.nD Cert.KernelIdeal.τ).loc Cert.KernelIdeal.main_arg2)) := g2
  have e3 : (StableHlo.launchContents m' c (Proc.devRef .tc Cert.ReferenceIdeal.main_arg3)) = (m ((c.tc : Thread Cert.KernelIdeal.nD Cert.KernelIdeal.τ).loc Cert.KernelIdeal.main_arg3)) := g3
  have e4 : (StableHlo.launchContents m' c (Proc.devRef .tc Cert.ReferenceIdeal.main_arg4)) = (m ((c.tc : Thread Cert.KernelIdeal.nD Cert.KernelIdeal.τ).loc Cert.KernelIdeal.main_arg4)) := g4
  have e5 : (StableHlo.launchContents m' c (Proc.devRef .tc Cert.ReferenceIdeal.main_arg5)) = (m ((c.tc : Thread Cert.KernelIdeal.nD Cert.KernelIdeal.τ).loc Cert.KernelIdeal.main_arg5)) := g5
  have e6 : (StableHlo.launchContents m' c (Proc.devRef .tc Cert.ReferenceIdeal.main_arg6)) = (m ((c.tc : Thread Cert.KernelIdeal.nD Cert.KernelIdeal.τ).loc Cert.KernelIdeal.main_arg6)) := g6
  have e7 : (StableHlo.launchContents m' c (Proc.devRef .tc Cert.ReferenceIdeal.main_arg7)) = (m ((c.tc : Thread Cert.KernelIdeal.nD Cert.KernelIdeal.τ).loc Cert.KernelIdeal.main_arg7)) := g7
  have e8 : (StableHlo.launchContents m' c (Proc.devRef .tc Cert.ReferenceIdeal.main_arg8)) = (m ((c.tc : Thread Cert.KernelIdeal.nD Cert.KernelIdeal.τ).loc Cert.KernelIdeal.main_arg8)) := g8
  have e9 : (StableHlo.launchContents m' c (Proc.devRef .tc Cert.ReferenceIdeal.main_arg9)) = (m ((c.tc : Thread Cert.KernelIdeal.nD Cert.KernelIdeal.τ).loc Cert.KernelIdeal.main_arg9)) := g9
  have e10 : (StableHlo.launchContents m' c (Proc.devRef .tc Cert.ReferenceIdeal.main_arg10)) = (m ((c.tc : Thread Cert.KernelIdeal.nD Cert.KernelIdeal.τ).loc Cert.KernelIdeal.main_arg10)) := g10
  have e11 : (StableHlo.launchContents m' c (Proc.devRef .tc Cert.ReferenceIdeal.main_arg11)) = (m ((c.tc : Thread Cert.KernelIdeal.nD Cert.KernelIdeal.τ).loc Cert.KernelIdeal.main_arg11)) := g11
  have e12 : (StableHlo.launchContents m' c (Proc.devRef .tc Cert.ReferenceIdeal.main_arg12)) = (m ((c.tc : Thread Cert.KernelIdeal.nD Cert.KernelIdeal.τ).loc Cert.KernelIdeal.main_arg12)) := g12
  have e13 : (StableHlo.launchContents m' c (Proc.devRef .tc Cert.ReferenceIdeal.main_arg13)) = (m ((c.tc : Thread Cert.KernelIdeal.nD Cert.KernelIdeal.τ).loc Cert.KernelIdeal.main_arg13)) := g13
  refine (Cert.ReferenceIdeal.Chain.ref_value (StableHlo.launchContents m' c)).trans ?_
  rw [e0, e1, e2, e3, e4, e5, e6, e7, e8, e9, e10, e11, e12, e13]
  refine Eq.trans ?_ (Cert.KernelIdeal.Chain.kernel_value m ρ c Cert.Gru.cellAt Cert.Gru.pay0_apply Cert.Gru.pay1_apply Cert.Gru.pay2_apply Cert.Gru.pay3_apply).symm
  exact (Cert.Forms.results_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) r0 r2 r3 r4 r5 r6 r7 r8 r9 r10 r11 r12).symm

/-- The two idealized programs, from memories agreeing on the arguments, both run and end with equal results and
    unchanged arguments. -/
theorem algebraic : Cert.algebraic_KernelIdeal_ReferenceIdeal := by
  intro m ρ m' ρ' hpre hagree
  refine ⟨fun c => Cert.KernelIdeal.Gen.W19 m ρ c (Proc.devRef .tc Cert.KernelIdeal.main_v127), ?_, ?_⟩
  · exact (θ_run Cert.KernelIdeal.defs _ _).mono (fun r h c => ⟨h c _ (Cert.KernelIdeal.Gen.mem_uc Cert.KernelIdeal.main_v127 (by decide)),
      (h c _ (Cert.KernelIdeal.Gen.mem_uc Cert.KernelIdeal.main_arg0 (by decide))).trans (Cert.KernelIdeal.Gen.W19_main_arg0 m ρ c),
      (h c _ (Cert.KernelIdeal.Gen.mem_uc Cert.KernelIdeal.main_arg1 (by decide))).trans (Cert.KernelIdeal.Gen.W19_main_arg1 m ρ c),
      (h c _ (Cert.KernelIdeal.Gen.mem_uc Cert.KernelIdeal.main_arg2 (by decide))).trans (Cert.KernelIdeal.Gen.W19_main_arg2 m ρ c),
      (h c _ (Cert.KernelIdeal.Gen.mem_uc Cert.KernelIdeal.main_arg3 (by decide))).trans (Cert.KernelIdeal.Gen.W19_main_arg3 m ρ c),
      (h c _ (Cert.KernelIdeal.Gen.mem_uc Cert.KernelIdeal.main_arg4 (by decide))).trans (Cert.KernelIdeal.Gen.W19_main_arg4 m ρ c),
      (h c _ (Cert.KernelIdeal.Gen.mem_uc Cert.KernelIdeal.main_arg5 (by decide))).trans (Cert.KernelIdeal.Gen.W19_main_arg5 m ρ c),
      (h c _ (Cert.KernelIdeal.Gen.mem_uc Cert.KernelIdeal.main_arg6 (by decide))).trans (Cert.KernelIdeal.Gen.W19_main_arg6 m ρ c),
      (h c _ (Cert.KernelIdeal.Gen.mem_uc Cert.KernelIdeal.main_arg7 (by decide))).trans (Cert.KernelIdeal.Gen.W19_main_arg7 m ρ c),
      (h c _ (Cert.KernelIdeal.Gen.mem_uc Cert.KernelIdeal.main_arg8 (by decide))).trans (Cert.KernelIdeal.Gen.W19_main_arg8 m ρ c),
      (h c _ (Cert.KernelIdeal.Gen.mem_uc Cert.KernelIdeal.main_arg9 (by decide))).trans (Cert.KernelIdeal.Gen.W19_main_arg9 m ρ c),
      (h c _ (Cert.KernelIdeal.Gen.mem_uc Cert.KernelIdeal.main_arg10 (by decide))).trans (Cert.KernelIdeal.Gen.W19_main_arg10 m ρ c),
      (h c _ (Cert.KernelIdeal.Gen.mem_uc Cert.KernelIdeal.main_arg11 (by decide))).trans (Cert.KernelIdeal.Gen.W19_main_arg11 m ρ c),
      (h c _ (Cert.KernelIdeal.Gen.mem_uc Cert.KernelIdeal.main_arg12 (by decide))).trans (Cert.KernelIdeal.Gen.W19_main_arg12 m ρ c),
      (h c _ (Cert.KernelIdeal.Gen.mem_uc Cert.KernelIdeal.main_arg13 (by decide))).trans (Cert.KernelIdeal.Gen.W19_main_arg13 m ρ c)⟩)
      (Cert.KernelIdeal.Run.run_all m ρ)
  · refine (θ_run Cert.ReferenceIdeal.defs _ _).mono (fun r h c => ⟨(h c Cert.ReferenceIdeal.main_v312).trans ?_,
      (h c Cert.ReferenceIdeal.main_arg0).trans (Cert.ReferenceIdeal.Chain.ref_arg0 (F := Ideal) (StableHlo.launchContents m' c)),
      (h c Cert.ReferenceIdeal.main_arg1).trans (Cert.ReferenceIdeal.Chain.ref_arg1 (F := Ideal) (StableHlo.launchContents m' c)),
      (h c Cert.ReferenceIdeal.main_arg2).trans (Cert.ReferenceIdeal.Chain.ref_arg2 (F := Ideal) (StableHlo.launchContents m' c)),
      (h c Cert.ReferenceIdeal.main_arg3).trans (Cert.ReferenceIdeal.Chain.ref_arg3 (F := Ideal) (StableHlo.launchContents m' c)),
      (h c Cert.ReferenceIdeal.main_arg4).trans (Cert.ReferenceIdeal.Chain.ref_arg4 (F := Ideal) (StableHlo.launchContents m' c)),
      (h c Cert.ReferenceIdeal.main_arg5).trans (Cert.ReferenceIdeal.Chain.ref_arg5 (F := Ideal) (StableHlo.launchContents m' c)),
      (h c Cert.ReferenceIdeal.main_arg6).trans (Cert.ReferenceIdeal.Chain.ref_arg6 (F := Ideal) (StableHlo.launchContents m' c)),
      (h c Cert.ReferenceIdeal.main_arg7).trans (Cert.ReferenceIdeal.Chain.ref_arg7 (F := Ideal) (StableHlo.launchContents m' c)),
      (h c Cert.ReferenceIdeal.main_arg8).trans (Cert.ReferenceIdeal.Chain.ref_arg8 (F := Ideal) (StableHlo.launchContents m' c)),
      (h c Cert.ReferenceIdeal.main_arg9).trans (Cert.ReferenceIdeal.Chain.ref_arg9 (F := Ideal) (StableHlo.launchContents m' c)),
      (h c Cert.ReferenceIdeal.main_arg10).trans (Cert.ReferenceIdeal.Chain.ref_arg10 (F := Ideal) (StableHlo.launchContents m' c)),
      (h c Cert.ReferenceIdeal.main_arg11).trans (Cert.ReferenceIdeal.Chain.ref_arg11 (F := Ideal) (StableHlo.launchContents m' c)),
      (h c Cert.ReferenceIdeal.main_arg12).trans (Cert.ReferenceIdeal.Chain.ref_arg12 (F := Ideal) (StableHlo.launchContents m' c)),
      (h c Cert.ReferenceIdeal.main_arg13).trans (Cert.ReferenceIdeal.Chain.ref_arg13 (F := Ideal) (StableHlo.launchContents m' c))⟩)
      (Cert.ReferenceIdeal.RefRun.run_main (F := Ideal) m' ρ')
    obtain ⟨g0, g1, g2, g3, g4, g5, g6, g7, g8, g9, g10, g11, g12, g13⟩ := hagree c
    exact values_agree m ρ m' c (hpre c) g0 g1 g2 g3 g4 g5 g6 g7 g8 g9 g10 g11 g12 g13

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
